-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S5x512x512 : Shape := ⟨3, ![5, 512, 512]⟩
abbrev S6x512 : Shape := ⟨2, ![6, 512]⟩
abbrev S3072x64 : Shape := ⟨2, ![3072, 64]⟩
abbrev S64 : Shape := ⟨1, ![64]⟩
abbrev S160000 : Shape := ⟨1, ![160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S5x512x512 : S_.BroadcastsInDim S5x512x512 (![] : Fin 0 → Fin S5x512x512.rank)
  reducesTo_S5x512x512_S_d0_1_2 : S5x512x512.ReducesTo [0, 1, 2] S_
  bcast_S_S6x512 : S_.BroadcastsInDim S6x512 (![] : Fin 0 → Fin S6x512.rank)
  reducesTo_S6x512_S_d0_1 : S6x512.ReducesTo [0, 1] S_
  bcast_S_S3072x64 : S_.BroadcastsInDim S3072x64 (![] : Fin 0 → Fin S3072x64.rank)
  reducesTo_S3072x64_S_d0_1 : S3072x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S6x512 .f32) (main_arg8 : FVec F S3072x64 .f32) (main_arg9 : FVec F S64 .f32) (main_v33 : IVec S_ 1) : IVec S_ 1 :=
  let main_v34 : FVec F S6x512 .f32 := Host.absf main_arg7
  let main_cst_12 : FVec F S_ .f32 := constant S_ .f32 0x7F800000#32
  let main_v35 : FVec F S6x512 .f32 := broadcastInDim S6x512 ![] bcast_S_S6x512 main_cst_12
  let main_v36 : IVec S6x512 1 := cmpf .olt main_v34 main_v35
  let main_c_13 : IVec S_ 1 := constantI S_ 1 1#1
  let main_v37 : IVec S_ 1 := (fun x v => Host.reduce IntOp.andi x v reducesTo_S6x512_S_d0_1 h_S_) main_v36 main_c_13
  let main_v38 : IVec S_ 1 := andi main_v33 main_v37
  let main_v39 : FVec F S3072x64 .f32 := Host.absf main_arg8
  let main_cst_14 : FVec F S_ .f32 := constant S_ .f32 0x7F800000#32
  let main_v40 : FVec F S3072x64 .f32 := broadcastInDim S3072x64 ![] bcast_S_S3072x64 main_cst_14
  let main_v41 : IVec S3072x64 1 := cmpf .olt main_v39 main_v40
  let main_c_15 : IVec S_ 1 := constantI S_ 1 1#1
  let main_v42 : IVec S_ 1 := (fun x v => Host.reduce IntOp.andi x v reducesTo_S3072x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S6x512 .f32) (main_arg5 : FVec F S6x512 .f32) (main_arg6 : FVec F S6x512 .f32) (main_arg7 : FVec F S6x512 .f32) (main_arg8 : FVec F S3072x64 .f32) (main_arg9 : FVec F S64 .f32) (main_v13 : IVec S_ 1) (main_v16 : IVec S6x512 1) : IVec S_ 1 :=
  let main_c_5 : IVec S_ 1 := constantI S_ 1 1#1
  let main_v17 : IVec S_ 1 := (fun x v => Host.reduce IntOp.andi x v reducesTo_S6x512_S_d0_1 h_S_) main_v16 main_c_5
  let main_v18 : IVec S_ 1 := andi main_v13 main_v17
  let main_v19 : FVec F S6x512 .f32 := Host.absf main_arg4
  let main_cst_6 : FVec F S_ .f32 := constant S_ .f32 0x7F800000#32
  let main_v20 : FVec F S6x512 .f32 := broadcastInDim S6x512 ![] bcast_S_S6x512 main_cst_6
  let main_v21 : IVec S6x512 1 := cmpf .olt main_v19 main_v20
  let main_c_7 : IVec S_ 1 := constantI S_ 1 1#1
  let main_v22 : IVec S_ 1 := (fun x v => Host.reduce IntOp.andi x v reducesTo_S6x512_S_d0_1 h_S_) main_v21 main_c_7
  let main_v23 : IVec S_ 1 := andi main_v18 main_v22
  let main_v24 : FVec F S6x512 .f32 := Host.absf main_arg5
  let main_cst_8 : FVec F S_ .f32 := constant S_ .f32 0x7F800000#32
  let main_v25 : FVec F S6x512 .f32 := broadcastInDim S6x512 ![] bcast_S_S6x512 main_cst_8
  let main_v26 : IVec S6x512 1 := cmpf .olt main_v24 main_v25
  let main_c_9 : IVec S_ 1 := constantI S_ 1 1#1
  let main_v27 : IVec S_ 1 := (fun x v => Host.reduce IntOp.andi x v reducesTo_S6x512_S_d0_1 h_S_) main_v26 main_c_9
  let main_v28 : IVec S_ 1 := andi main_v23 main_v27
  let main_v29 : FVec F S6x512 .f32 := Host.absf main_arg6
  let main_cst_10 : FVec F S_ .f32 := constant S_ .f32 0x7F800000#32
  let main_v30 : FVec F S6x512 .f32 := broadcastInDim S6x512 ![] bcast_S_S6x512 main_cst_10
  let main_v31 : IVec S6x512 1 := cmpf .olt main_v29 main_v30
  let main_c_11 : IVec S_ 1 := constantI S_ 1 1#1
  let main_v32 : IVec S_ 1 := (fun x v => Host.reduce IntOp.andi x v reducesTo_S6x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x512 .f32) (main_arg1 : FVec F S512x512 .f32) (main_arg2 : FVec F S5x512x512 .f32) (main_arg3 : FVec F S6x512 .f32) (main_arg4 : FVec F S6x512 .f32) (main_arg5 : FVec F S6x512 .f32) (main_arg6 : FVec F S6x512 .f32) (main_arg7 : FVec F S6x512 .f32) (main_arg8 : FVec F S3072x64 .f32) (main_arg9 : FVec F S64 .f32) (main_arg10 : IVec S160000 32) (main_arg11 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S5x512x512 .f32 := Host.absf main_arg2
  let main_cst_2 : FVec F S_ .f32 := constant S_ .f32 0x7F800000#32
  let main_v10 : FVec F S5x512x512 .f32 := broadcastInDim S5x512x512 ![] bcast_S_S5x512x512 main_cst_2
  let main_v11 : IVec S5x512x512 1 := cmpf .olt main_v9 main_v10
  let main_c_3 : IVec S_ 1 := constantI S_ 1 1#1
  let main_v12 : IVec S_ 1 := (fun x v => Host.reduce IntOp.andi x v reducesTo_S5x512x512_S_d0_1_2 h_S_) main_v11 main_c_3
  let main_v13 : IVec S_ 1 := andi main_v8 main_v12
  let main_v14 : FVec F S6x512 .f32 := Host.absf main_arg3
  let main_cst_4 : FVec F S_ .f32 := constant S_ .f32 0x7F800000#32
  let main_v15 : FVec F S6x512 .f32 := broadcastInDim S6x512 ![] bcast_S_S6x512 main_cst_4
  let main_v16 : IVec S6x512 1 := cmpf .olt main_v14 main_v15
  fn_part1 (F := F) main_arg4 main_arg5 main_arg6 main_arg7 main_arg8 main_arg9 main_v13 main_v16
-- ==== Kernel.lean ====
abbrev S10000x512 : Shape := ⟨2, ![10000, 512]⟩
abbrev S512x512 : Shape := ⟨2, ![512, 512]⟩
abbrev S5x512x512 : Shape := ⟨3, ![5, 512, 512]⟩
abbrev S6x512 : Shape := ⟨2, ![6, 512]⟩
abbrev S3072x64 : Shape := ⟨2, ![3072, 64]⟩
abbrev S64 : Shape := ⟨1, ![64]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S2000x512 : Shape := ⟨2, ![2000, 512]⟩
abbrev S2000x1 : Shape := ⟨2, ![2000, 1]⟩
abbrev S160000x512 : Shape := ⟨2, ![160000, 512]⟩
abbrev S1x512 : Shape := ⟨2, ![1, 512]⟩
abbrev S512 : Shape := ⟨1, ![512]⟩
abbrev S1x512x512 : Shape := ⟨3, ![1, 512, 512]⟩
abbrev S10000x3072 : Shape := ⟨2, ![10000, 3072]⟩
abbrev S1x64 : Shape := ⟨2, ![1, 64]⟩
abbrev S10000x64 : Shape := ⟨2, ![10000, 64]⟩
abbrev S200x3072 : Shape := ⟨2, ![200, 3072]⟩
abbrev S200x64 : Shape := ⟨2, ![200, 64]⟩

abbrev nBuf : Space → Nat
  | .hbm => 255
  | .vmem => 108
  | .smem => 0
  | _ => 0

abbrev hbmTy0_0 (i : Nat) : BufTy := match i % 128 with
  | 0 => ⟨S10000x512, .f32⟩
  | 1 => ⟨S512x512, .f32⟩
  | 2 => ⟨S5x512x512, .f32⟩
  | 3 => ⟨S6x512, .f32⟩
  | 4 => ⟨S6x512, .f32⟩
  | 5 => ⟨S6x512, .f32⟩
  | 6 => ⟨S6x512, .f32⟩
  | 7 => ⟨S6x512, .f32⟩
  | 8 => ⟨S3072x64, .f32⟩
  | 9 => ⟨S64, .f32⟩
  | 10 => ⟨S160000, .i32⟩
  | 11 => ⟨S160000, .i32⟩
  | 12 => ⟨S_, .f32⟩
  | 13 => ⟨S160000, .f32⟩
  | 14 => ⟨S_, .f32⟩
  | 15 => ⟨S10000, .f32⟩
  | 16 => ⟨S160000x1, .i32⟩
  | 17 => ⟨S10000, .f32⟩
  | 18 => ⟨S_, .f32⟩
  | 19 => ⟨S10000, .f32⟩
  | 20 => ⟨S160000x1, .i32⟩
  | 21 => ⟨S10000, .f32⟩
  | 22 => ⟨S_, .f32⟩
  | 23 => ⟨S_, .f32⟩
  | 24 => ⟨S10000, .f32⟩
  | 25 => ⟨S10000, .f32⟩
  | 26 => ⟨S_, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .f32⟩
  | 34 => ⟨S10000, .f32⟩
  | 35 => ⟨S10000, .f32⟩
  | 36 => ⟨S10000x1, .f32⟩
  | 37 => ⟨S10000x1, .f32⟩
  | 38 => ⟨S10000x512, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x512, .f32⟩
  | 48 => ⟨S_, .f32⟩
  | 49 => ⟨S10000x512, .f32⟩
  | 50 => ⟨S160000x1, .i32⟩
  | 51 => ⟨S10000x512, .f32⟩
  | 52 => ⟨S1x512, .f32⟩
  | 53 => ⟨S512, .f32⟩
  | 54 => ⟨S1x512, .f32⟩
  | 55 => ⟨S512, .f32⟩
  | 56 => ⟨S_, .f32⟩
  | 57 => ⟨S512, .f32⟩
  | 58 => ⟨S512, .f32⟩
  | 59 => ⟨S512, .f32⟩
  | 60 => ⟨S512, .f32⟩
  | 61 => ⟨S1x512, .f32⟩
  | 62 => ⟨S512, .f32⟩
  | 63 => ⟨S1x512, .f32⟩
  | 64 => ⟨S512, .f32⟩
  | 65 => ⟨S1x512, .f32⟩
  | 66 => ⟨S512, .f32⟩
  | 67 => ⟨S1x512, .f32⟩
  | 68 => ⟨S1x512, .f32⟩
  | 69 => ⟨S1x512, .f32⟩
  | 70 => ⟨S1x512, .f32⟩
  | 71 => ⟨S10000x512, .f32⟩
  | 72 => ⟨S1x512x512, .f32⟩
  | 73 => ⟨S512x512, .f32⟩
  | 74 => ⟨S10000x512, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x512, .f32⟩
  | 84 => ⟨S_, .f32⟩
  | 85 => ⟨S10000x512, .f32⟩
  | 86 => ⟨S160000x1, .i32⟩
  | 87 => ⟨S10000x512, .f32⟩
  | 88 => ⟨S1x512, .f32⟩
  | 89 => ⟨S512, .f32⟩
  | 90 => ⟨S1x512, .f32⟩
  | 91 => ⟨S512, .f32⟩
  | 92 => ⟨S_, .f32⟩
  | 93 => ⟨S512, .f32⟩
  | 94 => ⟨S512, .f32⟩
  | 95 => ⟨S512, .f32⟩
  | 96 => ⟨S512, .f32⟩
  | 97 => ⟨S1x512, .f32⟩
  | 98 => ⟨S512, .f32⟩
  | 99 => ⟨S1x512, .f32⟩
  | 100 => ⟨S512, .f32⟩
  | 101 => ⟨S1x512, .f32⟩
  | 102 => ⟨S512, .f32⟩
  | 103 => ⟨S1x512, .f32⟩
  | 104 => ⟨S1x512, .f32⟩
  | 105 => ⟨S1x512, .f32⟩
  | 106 => ⟨S1x512, .f32⟩
  | 107 => ⟨S10000x512, .f32⟩
  | 108 => ⟨S1x512x512, .f32⟩
  | 109 => ⟨S512x512, .f32⟩
  | 110 => ⟨S10000x512, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x512, .f32⟩
  | 120 => ⟨S_, .f32⟩
  | 121 => ⟨S10000x512, .f32⟩
  | 122 => ⟨S160000x1, .i32⟩
  | 123 => ⟨S10000x512, .f32⟩
  | 124 => ⟨S1x512, .f32⟩
  | 125 => ⟨S512, .f32⟩
  | 126 => ⟨S1x512, .f32⟩
  | 127 => ⟨S512, .f32⟩
  | _ => ⟨S10000x512, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S512, .f32⟩
  | 5 => ⟨S1x512, .f32⟩
  | 6 => ⟨S512, .f32⟩
  | 7 => ⟨S1x512, .f32⟩
  | 8 => ⟨S512, .f32⟩
  | 9 => ⟨S1x512, .f32⟩
  | 10 => ⟨S512, .f32⟩
  | 11 => ⟨S1x512, .f32⟩
  | 12 => ⟨S1x512, .f32⟩
  | 13 => ⟨S1x512, .f32⟩
  | 14 => ⟨S1x512, .f32⟩
  | 15 => ⟨S10000x512, .f32⟩
  | 16 => ⟨S1x512x512, .f32⟩
  | 17 => ⟨S512x512, .f32⟩
  | 18 => ⟨S10000x512, .f32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x512, .f32⟩
  | 28 => ⟨S_, .f32⟩
  | 29 => ⟨S10000x512, .f32⟩
  | 30 => ⟨S160000x1, .i32⟩
  | 31 => ⟨S10000x512, .f32⟩
  | 32 => ⟨S1x512, .f32⟩
  | 33 => ⟨S512, .f32⟩
  | 34 => ⟨S1x512, .f32⟩
  | 35 => ⟨S512, .f32⟩
  | 36 => ⟨S_, .f32⟩
  | 37 => ⟨S512, .f32⟩
  | 38 => ⟨S512, .f32⟩
  | 39 => ⟨S512, .f32⟩
  | 40 => ⟨S512, .f32⟩
  | 41 => ⟨S1x512, .f32⟩
  | 42 => ⟨S512, .f32⟩
  | 43 => ⟨S1x512, .f32⟩
  | 44 => ⟨S512, .f32⟩
  | 45 => ⟨S1x512, .f32⟩
  | 46 => ⟨S512, .f32⟩
  | 47 => ⟨S1x512, .f32⟩
  | 48 => ⟨S1x512, .f32⟩
  | 49 => ⟨S1x512, .f32⟩
  | 50 => ⟨S1x512, .f32⟩
  | 51 => ⟨S10000x512, .f32⟩
  | 52 => ⟨S1x512x512, .f32⟩
  | 53 => ⟨S512x512, .f32⟩
  | 54 => ⟨S10000x512, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x512, .f32⟩
  | 64 => ⟨S_, .f32⟩
  | 65 => ⟨S10000x512, .f32⟩
  | 66 => ⟨S160000x1, .i32⟩
  | 67 => ⟨S10000x512, .f32⟩
  | 68 => ⟨S1x512, .f32⟩
  | 69 => ⟨S512, .f32⟩
  | 70 => ⟨S1x512, .f32⟩
  | 71 => ⟨S512, .f32⟩
  | 72 => ⟨S_, .f32⟩
  | 73 => ⟨S512, .f32⟩
  | 74 => ⟨S512, .f32⟩
  | 75 => ⟨S512, .f32⟩
  | 76 => ⟨S512, .f32⟩
  | 77 => ⟨S1x512, .f32⟩
  | 78 => ⟨S512, .f32⟩
  | 79 => ⟨S1x512, .f32⟩
  | 80 => ⟨S512, .f32⟩
  | 81 => ⟨S1x512, .f32⟩
  | 82 => ⟨S512, .f32⟩
  | 83 => ⟨S1x512, .f32⟩
  | 84 => ⟨S1x512, .f32⟩
  | 85 => ⟨S1x512, .f32⟩
  | 86 => ⟨S1x512, .f32⟩
  | 87 => ⟨S10000x512, .f32⟩
  | 88 => ⟨S1x512x512, .f32⟩
  | 89 => ⟨S512x512, .f32⟩
  | 90 => ⟨S10000x512, .f32⟩
  | 91 => ⟨S_, .i32⟩
  | 92 => ⟨S160000, .i32⟩
  | 93 => ⟨S160000, .i1⟩
  | 94 => ⟨S_, .i32⟩
  | 95 => ⟨S160000, .i32⟩
  | 96 => ⟨S160000, .i32⟩
  | 97 => ⟨S160000, .i32⟩
  | 98 => ⟨S160000x1, .i32⟩
  | 99 => ⟨S160000x512, .f32⟩
  | 100 => ⟨S_, .f32⟩
  | 101 => ⟨S10000x512, .f32⟩
  | 102 => ⟨S160000x1, .i32⟩
  | 103 => ⟨S10000x512, .f32⟩
  | 104 => ⟨S1x512, .f32⟩
  | 105 => ⟨S512, .f32⟩
  | 106 => ⟨S1x512, .f32⟩
  | 107 => ⟨S512, .f32⟩
  | 108 => ⟨S_, .f32⟩
  | 109 => ⟨S512, .f32⟩
  | 110 => ⟨S512, .f32⟩
  | 111 => ⟨S512, .f32⟩
  | 112 => ⟨S512, .f32⟩
  | 113 => ⟨S1x512, .f32⟩
  | 114 => ⟨S512, .f32⟩
  | 115 => ⟨S1x512, .f32⟩
  | 116 => ⟨S512, .f32⟩
  | 117 => ⟨S1x512, .f32⟩
  | 118 => ⟨S512, .f32⟩
  | 119 => ⟨S1x512, .f32⟩
  | 120 => ⟨S1x512, .f32⟩
  | 121 => ⟨S1x512, .f32⟩
  | 122 => ⟨S1x512, .f32⟩
  | 123 => ⟨S10000x512, .f32⟩
  | 124 => ⟨S10000x3072, .f32⟩
  | 125 => ⟨S1x64, .f32⟩
  | 126 => ⟨S10000x64, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x1, .f32⟩
  | .local _ .vmem, ⟨10, _⟩ => ⟨S2000x1, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x1, .f32⟩
  | .local _ .vmem, ⟨20, _⟩ => ⟨S2000x1, .f32⟩
  | .local _ .vmem, ⟨21, _⟩ => ⟨S512x512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S2000x1, .f32⟩
  | .local _ .vmem, ⟨27, _⟩ => ⟨S2000x1, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S2000x512, .f32⟩
  | .local _ .vmem, ⟨33, _⟩ => ⟨S2000x512, .f32⟩
  | .local _ .vmem, ⟨34, _⟩ => ⟨S2000x512, .f32⟩
  | .local _ .vmem, ⟨35, _⟩ => ⟨S2000x512, .f32⟩
  | .local _ .vmem, ⟨36, _⟩ => ⟨S2000x1, .f32⟩
  | .local _ .vmem, ⟨37, _⟩ => ⟨S2000x1, .f32⟩
  | .local _ .vmem, ⟨38, _⟩ => ⟨S512x512, .f32⟩
  | .local _ .vmem, ⟨39, _⟩ => ⟨S2000x512, .f32⟩
  | .local _ .vmem, ⟨40, _⟩ => ⟨S2000x512, .f32⟩
  | .local _ .vmem, ⟨41, _⟩ => ⟨S2000x512, .f32⟩
  | .local _ .vmem, ⟨42, _⟩ => ⟨S2000x512, .f32⟩
  | .local _ .vmem, ⟨43, _⟩ => ⟨S2000x1, .f32⟩
  | .local _ .vmem, ⟨44, _⟩ => ⟨S2000x1, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S2000x512, .f32⟩
  | .local _ .vmem, ⟨50, _⟩ => ⟨S2000x512, .f32⟩
  | .local _ .vmem, ⟨51, _⟩ => ⟨S2000x512, .f32⟩
  | .local _ .vmem, ⟨52, _⟩ => ⟨S2000x512, .f32⟩
  | .local _ .vmem, ⟨53, _⟩ => ⟨S2000x1, .f32⟩
  | .local _ .vmem, ⟨54, _⟩ => ⟨S2000x1, .f32⟩
  | .local _ .vmem, ⟨55, _⟩ => ⟨S512x512, .f32⟩
  | .local _ .vmem, ⟨56, _⟩ => ⟨S2000x512, .f32⟩
  | .local _ .vmem, ⟨57, _⟩ => ⟨S2000x512, .f32⟩
  | .local _ .vmem, ⟨58, _⟩ => ⟨S2000x512, .f32⟩
  | .local _ .vmem, ⟨59, _⟩ => ⟨S2000x512, .f32⟩
  | .local _ .vmem, ⟨60, _⟩ => ⟨S2000x1, .f32⟩
  | .local _ .vmem, ⟨61, _⟩ => ⟨S2000x1, .f32⟩
  | .local _ .vmem, ⟨62, _⟩ => ⟨S1x512, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S2000x512, .f32⟩
  | .local _ .vmem, ⟨67, _⟩ => ⟨S2000x512, .f32⟩
  | .local _ .vmem, ⟨68, _⟩ => ⟨S2000x512, .f32⟩
  | .local _ .vmem, ⟨69, _⟩ => ⟨S2000x512, .f32⟩
  | .local _ .vmem, ⟨70, _⟩ => ⟨S2000x1, .f32⟩
  | .local _ .vmem, ⟨71, _⟩ => ⟨S2000x1, .f32⟩
  | .local _ .vmem, ⟨72, _⟩ => ⟨S512x512, .f32⟩
  | .local _ .vmem, ⟨73, _⟩ => ⟨S2000x512, .f32⟩
  | .local _ .vmem, ⟨74, _⟩ => ⟨S2000x512, .f32⟩
  | .local _ .vmem, ⟨75, _⟩ => ⟨S2000x512, .f32⟩
  | .local _ .vmem, ⟨76, _⟩ => ⟨S2000x512, .f32⟩
  | .local _ .vmem, ⟨77, _⟩ => ⟨S2000x1, .f32⟩
  | .local _ .vmem, ⟨78, _⟩ => ⟨S2000x1, .f32⟩
  | .local _ .vmem, ⟨79, _⟩ => ⟨S1x512, .f32⟩
  | .local _ .vmem, ⟨80, _⟩ => ⟨S1x512, .f32⟩
  | .local _ .vmem, ⟨81, _⟩ => ⟨S1x512, .f32⟩
  | .local _ .vmem, ⟨82, _⟩ => ⟨S1x512, .f32⟩
  | .local _ .vmem, ⟨83, _⟩ => ⟨S2000x512, .f32⟩
  | .local _ .vmem, ⟨84, _⟩ => ⟨S2000x512, .f32⟩
  | .local _ .vmem, ⟨85, _⟩ => ⟨S2000x512, .f32⟩
  | .local _ .vmem, ⟨86, _⟩ => ⟨S2000x512, .f32⟩
  | .local _ .vmem, ⟨87, _⟩ => ⟨S2000x1, .f32⟩
  | .local _ .vmem, ⟨88, _⟩ => ⟨S2000x1, .f32⟩
  | .local _ .vmem, ⟨89, _⟩ => ⟨S512x512, .f32⟩
  | .local _ .vmem, ⟨90, _⟩ => ⟨S2000x512, .f32⟩
  | .local _ .vmem, ⟨91, _⟩ => ⟨S2000x512, .f32⟩
  | .local _ .vmem, ⟨92, _⟩ => ⟨S2000x512, .f32⟩
  | .local _ .vmem, ⟨93, _⟩ => ⟨S2000x512, .f32⟩
  | .local _ .vmem, ⟨94, _⟩ => ⟨S2000x1, .f32⟩
  | .local _ .vmem, ⟨95, _⟩ => ⟨S2000x1, .f32⟩
  | .local _ .vmem, ⟨96, _⟩ => ⟨S1x512, .f32⟩
  | .local _ .vmem, ⟨97, _⟩ => ⟨S1x512, .f32⟩
  | .local _ .vmem, ⟨98, _⟩ => ⟨S1x512, .f32⟩
  | .local _ .vmem, ⟨99, _⟩ => ⟨S1x512, .f32⟩
  | .local _ .vmem, ⟨100, _⟩ => ⟨S2000x512, .f32⟩
  | .local _ .vmem, ⟨101, _⟩ => ⟨S2000x512, .f32⟩
  | .local _ .vmem, ⟨102, _⟩ => ⟨S200x3072, .f32⟩
  | .local _ .vmem, ⟨103, _⟩ => ⟨S200x3072, .f32⟩
  | .local _ .vmem, ⟨104, _⟩ => ⟨S3072x64, .f32⟩
  | .local _ .vmem, ⟨105, _⟩ => ⟨S1x64, .f32⟩
  | .local _ .vmem, ⟨106, _⟩ => ⟨S200x64, .f32⟩
  | .local _ .vmem, ⟨107, _⟩ => ⟨S200x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_17 : Ref sig .tc := ⟨.hbm, 147, rfl⟩
abbrev main_v112 : Ref sig .tc := ⟨.hbm, 148, rfl⟩
abbrev main_v113 : Ref sig .tc := ⟨.hbm, 149, rfl⟩
abbrev main_c_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_19 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_20 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_c_21 : Ref sig .tc := ⟨.hbm, 183, rfl⟩
abbrev main_v144 : Ref sig .tc := ⟨.hbm, 184, rfl⟩
abbrev main_v145 : Ref sig .tc := ⟨.hbm, 185, rfl⟩
abbrev main_c_22 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_23 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_24 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_c_25 : Ref sig .tc := ⟨.hbm, 219, rfl⟩
abbrev main_v176 : Ref sig .tc := ⟨.hbm, 220, rfl⟩
abbrev main_v177 : Ref sig .tc := ⟨.hbm, 221, rfl⟩
abbrev main_c_26 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_27 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_28 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg6_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg6_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg3_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg1_1 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg6_0 : Ref sig .tc := ⟨.vmem, 83, rfl⟩
abbrev cc9_stg6_1 : Ref sig .tc := ⟨.vmem, 84, rfl⟩
abbrev cc10_stg0_0 : Ref sig .tc := ⟨.vmem, 85, rfl⟩
abbrev cc10_stg0_1 : Ref sig .tc := ⟨.vmem, 86, rfl⟩
abbrev cc10_stg1_0 : Ref sig .tc := ⟨.vmem, 87, rfl⟩
abbrev cc10_stg1_1 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg3_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg1_1 : Ref sig .tc := ⟨.vmem, 95, rfl⟩
abbrev cc11_stg2_0 : Ref sig .tc := ⟨.vmem, 96, rfl⟩
abbrev cc11_stg3_0 : Ref sig .tc := ⟨.vmem, 97, rfl⟩
abbrev cc11_stg4_0 : Ref sig .tc := ⟨.vmem, 98, rfl⟩
abbrev cc11_stg5_0 : Ref sig .tc := ⟨.vmem, 99, rfl⟩
abbrev cc11_stg6_0 : Ref sig .tc := ⟨.vmem, 100, rfl⟩
abbrev cc11_stg6_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg2_0 : Ref sig .tc := ⟨.vmem, 105, rfl⟩
abbrev cc12_stg3_0 : Ref sig .tc := ⟨.vmem, 106, rfl⟩
abbrev cc12_stg3_1 : Ref sig .tc := ⟨.vmem, 107, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem6_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem6_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem3_1 : DmaSem sig := 74
abbrev cc9_sem0_0 : DmaSem sig := 75
abbrev cc9_sem0_1 : DmaSem sig := 76
abbrev cc9_sem1_0 : DmaSem sig := 77
abbrev cc9_sem1_1 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem6_0 : DmaSem sig := 83
abbrev cc9_sem6_1 : DmaSem sig := 84
abbrev cc10_sem0_0 : DmaSem sig := 85
abbrev cc10_sem0_1 : DmaSem sig := 86
abbrev cc10_sem1_0 : DmaSem sig := 87
abbrev cc10_sem1_1 : DmaSem sig := 88
abbrev cc10_sem2_0 : DmaSem sig := 89
abbrev cc10_sem3_0 : DmaSem sig := 90
abbrev cc10_sem3_1 : DmaSem sig := 91
abbrev cc11_sem0_0 : DmaSem sig := 92
abbrev cc11_sem0_1 : DmaSem sig := 93
abbrev cc11_sem1_0 : DmaSem sig := 94
abbrev cc11_sem1_1 : DmaSem sig := 95
abbrev cc11_sem2_0 : DmaSem sig := 96
abbrev cc11_sem3_0 : DmaSem sig := 97
abbrev cc11_sem4_0 : DmaSem sig := 98
abbrev cc11_sem5_0 : DmaSem sig := 99
abbrev cc11_sem6_0 : DmaSem sig := 100
abbrev cc11_sem6_1 : DmaSem sig := 101
abbrev cc12_sem0_0 : DmaSem sig := 102
abbrev cc12_sem0_1 : DmaSem sig := 103
abbrev cc12_sem1_0 : DmaSem sig := 104
abbrev cc12_sem2_0 : DmaSem sig := 105
abbrev cc12_sem3_0 : DmaSem sig := 106
abbrev cc12_sem3_1 : DmaSem sig := 107

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S512x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x512 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x512 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x512 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S2000x512 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S200x3072 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S3072x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S200x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S_S10000x512 : S_.BroadcastsInDim S10000x512 (![] : Fin 0 → Fin S10000x512.rank)
  slices_S6x512_S1x512_0_0 : S6x512.Slices ![0, 0] S1x512
  shapeCasts_S1x512_S512 : S1x512.ShapeCasts S512
  bcast_S_S512 : S_.BroadcastsInDim S512 (![] : Fin 0 → Fin S512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S5x512x512_S1x512x512_0_0_0 : S5x512x512.Slices ![0, 0, 0] S1x512x512
  shapeCasts_S1x512x512_S512x512 : S1x512x512.ShapeCasts S512x512
  shapeCasts_S512x512_S512x512 : S512x512.ShapeCasts S512x512
  slices_S6x512_S1x512_1_0 : S6x512.Slices ![1, 0] S1x512
  slices_S5x512x512_S1x512x512_1_0_0 : S5x512x512.Slices ![1, 0, 0] S1x512x512
  slices_S6x512_S1x512_2_0 : S6x512.Slices ![2, 0] S1x512
  slices_S5x512x512_S1x512x512_2_0_0 : S5x512x512.Slices ![2, 0, 0] S1x512x512
  slices_S6x512_S1x512_3_0 : S6x512.Slices ![3, 0] S1x512
  slices_S5x512x512_S1x512x512_3_0_0 : S5x512x512.Slices ![3, 0, 0] S1x512x512
  slices_S6x512_S1x512_4_0 : S6x512.Slices ![4, 0] S1x512
  slices_S5x512x512_S1x512x512_4_0_0 : S5x512x512.Slices ![4, 0, 0] S1x512x512
  slices_S6x512_S1x512_5_0 : S6x512.Slices ![5, 0] S1x512
  concatenates_S10000x512_S10000x512_S10000x512_S10000x512_S10000x512_S10000x512_S10000x3072_d1 : Shape.Concatenates [S10000x512, S10000x512, S10000x512, S10000x512, S10000x512, S10000x512] S10000x3072 1
  shapeCasts_S64_S1x64 : S64.ShapeCasts S1x64
  inb_S200x3072_S200x3072_0_0 : ∀ a, (![0, 0] : Fin 2 → Nat) a + S200x3072.size a ≤ S200x3072.size a
  h_S200x3072 : 0 < S200x3072.numel
  shapeCasts_S200x3072_S200x3072 : S200x3072.ShapeCasts S200x3072
  inb_S3072x64_S3072x64_0_0 : ∀ a, (![0, 0] : Fin 2 → Nat) a + S3072x64.size a ≤ S3072x64.size a
  h_S3072x64 : 0 < S3072x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  scatter_S10000_S160000x1_S160000_n_0_0_1_wf : ScatterDims.WF S10000 S160000x1 S160000 [] [0] [0] 1
  dot_S2000x512_S512x512_S2000x512_1_0_0_1_n_n_wf : DotDims.WF S2000x512 S512x512 S2000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S200x3072_S3072x64_S200x64_1_0_0_1_n_n_wf : DotDims.WF S200x3072 S3072x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S10000x1.size a
  hwx0_1 : ∀ i : grid0.Coords, EltTy.bits .f32 = 32 ∨ (Rect.block (s := S10000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S10000x512.size a
  hwx0_3 : ∀ i : grid0.Coords, EltTy.bits .f32 = 32 ∨ (Rect.block (s := S10000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x512.size a ≤ S10000x512.size a
  hwx1_6 : ∀ i : grid1.Coords, EltTy.bits .f32 = 32 ∨ (Rect.block (s := S10000x512) S2000x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .f32 = 32 ∨ (Rect.block (s := S10000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S10000x1.size a
  hwx2_1 : ∀ i : grid2.Coords, EltTy.bits .f32 = 32 ∨ (Rect.block (s := S10000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S10000x512.size a
  hwx2_3 : ∀ i : grid2.Coords, EltTy.bits .f32 = 32 ∨ (Rect.block (s := S10000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S10000x512.size a
  hwx3_0 : ∀ i : grid3.Coords, EltTy.bits .f32 = 32 ∨ (Rect.block (s := S10000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S10000x1.size a
  hwx3_1 : ∀ i : grid3.Coords, EltTy.bits .f32 = 32 ∨ (Rect.block (s := S10000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x512.size a ≤ S10000x512.size a
  hwx3_6 : ∀ i : grid3.Coords, EltTy.bits .f32 = 32 ∨ (Rect.block (s := S10000x512) S2000x512.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S10000x512.size a
  hwx4_0 : ∀ i : grid4.Coords, EltTy.bits .f32 = 32 ∨ (Rect.block (s := S10000x512) S2000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S10000x1.size a
  hwx4_1 : ∀ i : grid4.Coords, EltTy.bits .f32 = 32 ∨ (Rect.block (s := S10000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x512.size a ≤ S10000x512.size a
  hwx4_3 : ∀ i : grid4.Coords, EltTy.bits .f32 = 32 ∨ (Rect.block (s := S10000x512) S2000x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S10000x512.size a
  hwx5_0 : ∀ i : grid5.Coords, EltTy.bits .f32 = 32 ∨ (Rect.block (s := S10000x512) S2000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S10000x1.size a
  hwx5_1 : ∀ i : grid5.Coords, EltTy.bits .f32 = 32 ∨ (Rect.block (s := S10000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x512.size a ≤ S1x512.size a
  hwx5_5 : ∀ i : grid5.Coords, EltTy.bits .f32 = 32 ∨ (Rect.block (s := S1x512) S1x512.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x512.size a ≤ S10000x512.size a
  hwx5_6 : ∀ i : grid5.Coords, EltTy.bits .f32 = 32 ∨ (Rect.block (s := S10000x512) S2000x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S10000x512.size a
  hwx6_0 : ∀ i : grid6.Coords, EltTy.bits .f32 = 32 ∨ (Rect.block (s := S10000x512) S2000x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S10000x1.size a
  hwx6_1 : ∀ i : grid6.Coords, EltTy.bits .f32 = 32 ∨ (Rect.block (s := S10000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S512x512.size a
  hwx6_2 : ∀ i : grid6.Coords, EltTy.bits .f32 = 32 ∨ (Rect.block (s := S512x512) S512x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x512.size a ≤ S10000x512.size a
  hwx6_3 : ∀ i : grid6.Coords, EltTy.bits .f32 = 32 ∨ (Rect.block (s := S10000x512) S2000x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S10000x512.size a
  hwx7_0 : ∀ i : grid7.Coords, EltTy.bits .f32 = 32 ∨ (Rect.block (s := S10000x512) S2000x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S10000x1.size a
  hwx7_1 : ∀ i : grid7.Coords, EltTy.bits .f32 = 32 ∨ (Rect.block (s := S10000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x512.size a ≤ S1x512.size a
  hwx7_5 : ∀ i : grid7.Coords, EltTy.bits .f32 = 32 ∨ (Rect.block (s := S1x512) S1x512.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x512.size a ≤ S10000x512.size a
  hwx7_6 : ∀ i : grid7.Coords, EltTy.bits .f32 = 32 ∨ (Rect.block (s := S10000x512) S2000x512.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x512.size a ≤ S10000x512.size a
  hwx8_0 : ∀ i : grid8.Coords, EltTy.bits .f32 = 32 ∨ (Rect.block (s := S10000x512) S2000x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S10000x1.size a
  hwx8_1 : ∀ i : grid8.Coords, EltTy.bits .f32 = 32 ∨ (Rect.block (s := S10000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S512x512.size a
  hwx8_2 : ∀ i : grid8.Coords, EltTy.bits .f32 = 32 ∨ (Rect.block (s := S512x512) S512x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x512.size a ≤ S10000x512.size a
  hwx8_3 : ∀ i : grid8.Coords, EltTy.bits .f32 = 32 ∨ (Rect.block (s := S10000x512) S2000x512.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x512.size a ≤ S10000x512.size a
  hwx9_0 : ∀ i : grid9.Coords, EltTy.bits .f32 = 32 ∨ (Rect.block (s := S10000x512) S2000x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S10000x1.size a
  hwx9_1 : ∀ i : grid9.Coords, EltTy.bits .f32 = 32 ∨ (Rect.block (s := S10000x1) S2000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x512.size a ≤ S1x512.size a
  hwx9_3 : ∀ i : grid9.Coords, EltTy.bits .f32 = 32 ∨ (Rect.block (s := S1x512) S1x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x512.size a ≤ S1x512.size a
  hwx9_4 : ∀ i : grid9.Coords, EltTy.bits .f32 = 32 ∨ (Rect.block (s := S1x512) S1x512.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x512.size a ≤ S1x512.size a
  hwx9_5 : ∀ i : grid9.Coords, EltTy.bits .f32 = 32 ∨ (Rect.block (s := S1x512) S1x512.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x512.size a ≤ S10000x512.size a
  hwx9_6 : ∀ i : grid9.Coords, EltTy.bits .f32 = 32 ∨ (Rect.block (s := S10000x512) S2000x512.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x512.size a ≤ S10000x512.size a
  hwx10_0 : ∀ i : grid10.Coords, EltTy.bits .f32 = 32 ∨ (Rect.block (s := S10000x512) S2000x512.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S10000x1.size a
  hwx10_1 : ∀ i : grid10.Coords, EltTy.bits .f32 = 32 ∨ (Rect.block (s := S10000x1) S2000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x512.size a ≤ S512x512.size a
  hwx10_2 : ∀ i : grid10.Coords, EltTy.bits .f32 = 32 ∨ (Rect.block (s := S512x512) S512x512.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x512.size a ≤ S10000x512.size a
  hwx10_3 : ∀ i : grid10.Coords, EltTy.bits .f32 = 32 ∨ (Rect.block (s := S10000x512) S2000x512.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x512.size a ≤ S10000x512.size a
  hwx11_0 : ∀ i : grid11.Coords, EltTy.bits .f32 = 32 ∨ (Rect.block (s := S10000x512) S2000x512.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x1.size a ≤ S10000x1.size a
  hwx11_1 : ∀ i : grid11.Coords, EltTy.bits .f32 = 32 ∨ (Rect.block (s := S10000x1) S2000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x512.size a ≤ S1x512.size a
  hwx11_3 : ∀ i : grid11.Coords, EltTy.bits .f32 = 32 ∨ (Rect.block (s := S1x512) S1x512.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x512.size a ≤ S1x512.size a
  hwx11_4 : ∀ i : grid11.Coords, EltTy.bits .f32 = 32 ∨ (Rect.block (s := S1x512) S1x512.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x512.size a ≤ S1x512.size a
  hwx11_5 : ∀ i : grid11.Coords, EltTy.bits .f32 = 32 ∨ (Rect.block (s := S1x512) S1x512.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x512.size a ≤ S10000x512.size a
  hwx11_6 : ∀ i : grid11.Coords, EltTy.bits .f32 = 32 ∨ (Rect.block (s := S10000x512) S2000x512.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S200x3072.size a ≤ S10000x3072.size a
  hwx12_0 : ∀ i : grid12.Coords, EltTy.bits .f32 = 32 ∨ (Rect.block (s := S10000x3072) S200x3072.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S3072x64.size a ≤ S3072x64.size a
  hwx12_1 : ∀ i : grid12.Coords, EltTy.bits .f32 = 32 ∨ (Rect.block (s := S3072x64) S3072x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S200x64.size a ≤ S10000x64.size a
  hwx12_3 : ∀ i : grid12.Coords, EltTy.bits .f32 = 32 ∨ (Rect.block (s := S10000x64) S200x64.size (cc12_transform_3 i) (hinb12_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S200x3072_S3072x64_S200x64_1_0_0_1_n_n : DotDims S200x3072 S3072x64 S200x64 where
  lhsContracting := [1]
  rhsContracting := [0]
  lhsNonContracting := [0]
  rhsNonContracting := [1]
  lhsBatch := []
  rhsBatch := []
  wf := dot_S200x3072_S3072x64_S200x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S2000x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v76) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S2000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v89) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S1x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v108) S2000x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v108) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v110) S512x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v111) S2000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v121) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v137) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v138) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v139) S1x512.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v140) S2000x512.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v140) S2000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v142) S512x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S2000x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v153) S2000x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v14) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v168) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v169) S1x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v170) S1x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v171) S1x512.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v172) S2000x512.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v172) S2000x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v13) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v174) S512x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v175) S2000x512.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v185) S2000x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v14) S2000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v200) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v201) S1x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v202) S1x512.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v203) S1x512.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v204) S2000x512.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v205) S200x3072.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg8) S3072x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v206) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v207) S200x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S5x512x512 : Shape := ⟨3, ![5, 512, 512]⟩
abbrev S6x512 : Shape := ⟨2, ![6, 512]⟩
abbrev S3072x64 : Shape := ⟨2, ![3072, 64]⟩
abbrev S64 : Shape := ⟨1, ![64]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x512 : Shape := ⟨2, ![160000, 512]⟩
abbrev S1x512 : Shape := ⟨2, ![1, 512]⟩
abbrev S512 : Shape := ⟨1, ![512]⟩
abbrev S1x512x512 : Shape := ⟨3, ![1, 512, 512]⟩
abbrev S10000x3072 : Shape := ⟨2, ![10000, 3072]⟩
abbrev S10000x64 : Shape := ⟨2, ![10000, 64]⟩
abbrev S1x64 : Shape := ⟨2, ![1, 64]⟩

abbrev nBuf : Space → Nat
  | .hbm => 351
  | .vmem => 0
  | .smem => 0
  | _ => 0

abbrev hbmTy0_0 (i : Nat) : BufTy := match i % 128 with
  | 0 => ⟨S10000x512, .f32⟩
  | 1 => ⟨S512x512, .f32⟩
  | 2 => ⟨S5x512x512, .f32⟩
  | 3 => ⟨S6x512, .f32⟩
  | 4 => ⟨S6x512, .f32⟩
  | 5 => ⟨S6x512, .f32⟩
  | 6 => ⟨S6x512, .f32⟩
  | 7 => ⟨S6x512, .f32⟩
  | 8 => ⟨S3072x64, .f32⟩
  | 9 => ⟨S64, .f32⟩
  | 10 => ⟨S160000, .i32⟩
  | 11 => ⟨S160000, .i32⟩
  | 12 => ⟨S_, .f32⟩
  | 13 => ⟨S160000, .f32⟩
  | 14 => ⟨S_, .f32⟩
  | 15 => ⟨S10000, .f32⟩
  | 16 => ⟨S160000x1, .i32⟩
  | 17 => ⟨S10000, .f32⟩
  | 18 => ⟨S_, .f32⟩
  | 19 => ⟨S10000, .f32⟩
  | 20 => ⟨S160000x1, .i32⟩
  | 21 => ⟨S10000, .f32⟩
  | 22 => ⟨S_, .f32⟩
  | 23 => ⟨S_, .f32⟩
  | 24 => ⟨S10000, .f32⟩
  | 25 => ⟨S10000, .f32⟩
  | 26 => ⟨S_, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .f32⟩
  | 34 => ⟨S10000, .f32⟩
  | 35 => ⟨S10000, .f32⟩
  | 36 => ⟨S10000x1, .f32⟩
  | 37 => ⟨S10000x512, .f32⟩
  | 38 => ⟨S10000x512, .f32⟩
  | 39 => ⟨S10000x512, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x512, .f32⟩
  | 49 => ⟨S_, .f32⟩
  | 50 => ⟨S10000x512, .f32⟩
  | 51 => ⟨S160000x1, .i32⟩
  | 52 => ⟨S10000x512, .f32⟩
  | 53 => ⟨S10000x1, .f32⟩
  | 54 => ⟨S10000x512, .f32⟩
  | 55 => ⟨S10000x512, .f32⟩
  | 56 => ⟨S1x512, .f32⟩
  | 57 => ⟨S512, .f32⟩
  | 58 => ⟨S1x512, .f32⟩
  | 59 => ⟨S10000x512, .f32⟩
  | 60 => ⟨S10000x512, .f32⟩
  | 61 => ⟨S1x512, .f32⟩
  | 62 => ⟨S512, .f32⟩
  | 63 => ⟨S1x512, .f32⟩
  | 64 => ⟨S512, .f32⟩
  | 65 => ⟨S_, .f32⟩
  | 66 => ⟨S512, .f32⟩
  | 67 => ⟨S512, .f32⟩
  | 68 => ⟨S512, .f32⟩
  | 69 => ⟨S512, .f32⟩
  | 70 => ⟨S1x512, .f32⟩
  | 71 => ⟨S512, .f32⟩
  | 72 => ⟨S1x512, .f32⟩
  | 73 => ⟨S10000x512, .f32⟩
  | 74 => ⟨S10000x512, .f32⟩
  | 75 => ⟨S1x512, .f32⟩
  | 76 => ⟨S10000x512, .f32⟩
  | 77 => ⟨S10000x512, .f32⟩
  | 78 => ⟨S1x512, .f32⟩
  | 79 => ⟨S512, .f32⟩
  | 80 => ⟨S1x512, .f32⟩
  | 81 => ⟨S10000x512, .f32⟩
  | 82 => ⟨S10000x512, .f32⟩
  | 83 => ⟨S_, .f32⟩
  | 84 => ⟨S10000x512, .f32⟩
  | 85 => ⟨S10000x512, .f32⟩
  | 86 => ⟨S1x512x512, .f32⟩
  | 87 => ⟨S512x512, .f32⟩
  | 88 => ⟨S10000x1, .f32⟩
  | 89 => ⟨S10000x512, .f32⟩
  | 90 => ⟨S10000x512, .f32⟩
  | 91 => ⟨S10000x512, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x512, .f32⟩
  | 101 => ⟨S_, .f32⟩
  | 102 => ⟨S10000x512, .f32⟩
  | 103 => ⟨S160000x1, .i32⟩
  | 104 => ⟨S10000x512, .f32⟩
  | 105 => ⟨S10000x1, .f32⟩
  | 106 => ⟨S10000x512, .f32⟩
  | 107 => ⟨S10000x512, .f32⟩
  | 108 => ⟨S1x512, .f32⟩
  | 109 => ⟨S512, .f32⟩
  | 110 => ⟨S1x512, .f32⟩
  | 111 => ⟨S10000x512, .f32⟩
  | 112 => ⟨S10000x512, .f32⟩
  | 113 => ⟨S1x512, .f32⟩
  | 114 => ⟨S512, .f32⟩
  | 115 => ⟨S1x512, .f32⟩
  | 116 => ⟨S512, .f32⟩
  | 117 => ⟨S_, .f32⟩
  | 118 => ⟨S512, .f32⟩
  | 119 => ⟨S512, .f32⟩
  | 120 => ⟨S512, .f32⟩
  | 121 => ⟨S512, .f32⟩
  | 122 => ⟨S1x512, .f32⟩
  | 123 => ⟨S512, .f32⟩
  | 124 => ⟨S1x512, .f32⟩
  | 125 => ⟨S10000x512, .f32⟩
  | 126 => ⟨S10000x512, .f32⟩
  | 127 => ⟨S1x512, .f32⟩
  | _ => ⟨S10000x512, .f32⟩

abbrev hbmTy0_1 (i : Nat) : BufTy := match i % 128 with
  | 0 => ⟨S10000x512, .f32⟩
  | 1 => ⟨S10000x512, .f32⟩
  | 2 => ⟨S1x512, .f32⟩
  | 3 => ⟨S512, .f32⟩
  | 4 => ⟨S1x512, .f32⟩
  | 5 => ⟨S10000x512, .f32⟩
  | 6 => ⟨S10000x512, .f32⟩
  | 7 => ⟨S_, .f32⟩
  | 8 => ⟨S10000x512, .f32⟩
  | 9 => ⟨S10000x512, .f32⟩
  | 10 => ⟨S1x512x512, .f32⟩
  | 11 => ⟨S512x512, .f32⟩
  | 12 => ⟨S10000x1, .f32⟩
  | 13 => ⟨S10000x512, .f32⟩
  | 14 => ⟨S10000x512, .f32⟩
  | 15 => ⟨S10000x512, .f32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x512, .f32⟩
  | 25 => ⟨S_, .f32⟩
  | 26 => ⟨S10000x512, .f32⟩
  | 27 => ⟨S160000x1, .i32⟩
  | 28 => ⟨S10000x512, .f32⟩
  | 29 => ⟨S10000x1, .f32⟩
  | 30 => ⟨S10000x512, .f32⟩
  | 31 => ⟨S10000x512, .f32⟩
  | 32 => ⟨S1x512, .f32⟩
  | 33 => ⟨S512, .f32⟩
  | 34 => ⟨S1x512, .f32⟩
  | 35 => ⟨S10000x512, .f32⟩
  | 36 => ⟨S10000x512, .f32⟩
  | 37 => ⟨S1x512, .f32⟩
  | 38 => ⟨S512, .f32⟩
  | 39 => ⟨S1x512, .f32⟩
  | 40 => ⟨S512, .f32⟩
  | 41 => ⟨S_, .f32⟩
  | 42 => ⟨S512, .f32⟩
  | 43 => ⟨S512, .f32⟩
  | 44 => ⟨S512, .f32⟩
  | 45 => ⟨S512, .f32⟩
  | 46 => ⟨S1x512, .f32⟩
  | 47 => ⟨S512, .f32⟩
  | 48 => ⟨S1x512, .f32⟩
  | 49 => ⟨S10000x512, .f32⟩
  | 50 => ⟨S10000x512, .f32⟩
  | 51 => ⟨S1x512, .f32⟩
  | 52 => ⟨S10000x512, .f32⟩
  | 53 => ⟨S10000x512, .f32⟩
  | 54 => ⟨S1x512, .f32⟩
  | 55 => ⟨S512, .f32⟩
  | 56 => ⟨S1x512, .f32⟩
  | 57 => ⟨S10000x512, .f32⟩
  | 58 => ⟨S10000x512, .f32⟩
  | 59 => ⟨S_, .f32⟩
  | 60 => ⟨S10000x512, .f32⟩
  | 61 => ⟨S10000x512, .f32⟩
  | 62 => ⟨S1x512x512, .f32⟩
  | 63 => ⟨S512x512, .f32⟩
  | 64 => ⟨S10000x1, .f32⟩
  | 65 => ⟨S10000x512, .f32⟩
  | 66 => ⟨S10000x512, .f32⟩
  | 67 => ⟨S10000x512, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x512, .f32⟩
  | 77 => ⟨S_, .f32⟩
  | 78 => ⟨S10000x512, .f32⟩
  | 79 => ⟨S160000x1, .i32⟩
  | 80 => ⟨S10000x512, .f32⟩
  | 81 => ⟨S10000x1, .f32⟩
  | 82 => ⟨S10000x512, .f32⟩
  | 83 => ⟨S10000x512, .f32⟩
  | 84 => ⟨S1x512, .f32⟩
  | 85 => ⟨S512, .f32⟩
  | 86 => ⟨S1x512, .f32⟩
  | 87 => ⟨S10000x512, .f32⟩
  | 88 => ⟨S10000x512, .f32⟩
  | 89 => ⟨S1x512, .f32⟩
  | 90 => ⟨S512, .f32⟩
  | 91 => ⟨S1x512, .f32⟩
  | 92 => ⟨S512, .f32⟩
  | 93 => ⟨S_, .f32⟩
  | 94 => ⟨S512, .f32⟩
  | 95 => ⟨S512, .f32⟩
  | 96 => ⟨S512, .f32⟩
  | 97 => ⟨S512, .f32⟩
  | 98 => ⟨S1x512, .f32⟩
  | 99 => ⟨S512, .f32⟩
  | 100 => ⟨S1x512, .f32⟩
  | 101 => ⟨S10000x512, .f32⟩
  | 102 => ⟨S10000x512, .f32⟩
  | 103 => ⟨S1x512, .f32⟩
  | 104 => ⟨S10000x512, .f32⟩
  | 105 => ⟨S10000x512, .f32⟩
  | 106 => ⟨S1x512, .f32⟩
  | 107 => ⟨S512, .f32⟩
  | 108 => ⟨S1x512, .f32⟩
  | 109 => ⟨S10000x512, .f32⟩
  | 110 => ⟨S10000x512, .f32⟩
  | 111 => ⟨S_, .f32⟩
  | 112 => ⟨S10000x512, .f32⟩
  | 113 => ⟨S10000x512, .f32⟩
  | 114 => ⟨S1x512x512, .f32⟩
  | 115 => ⟨S512x512, .f32⟩
  | 116 => ⟨S10000x1, .f32⟩
  | 117 => ⟨S10000x512, .f32⟩
  | 118 => ⟨S10000x512, .f32⟩
  | 119 => ⟨S10000x512, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S10000x512, .f32⟩

abbrev hbmTy0_2 (i : Nat) : BufTy := match i % 128 with
  | 0 => ⟨S160000x512, .f32⟩
  | 1 => ⟨S_, .f32⟩
  | 2 => ⟨S10000x512, .f32⟩
  | 3 => ⟨S160000x1, .i32⟩
  | 4 => ⟨S10000x512, .f32⟩
  | 5 => ⟨S10000x1, .f32⟩
  | 6 => ⟨S10000x512, .f32⟩
  | 7 => ⟨S10000x512, .f32⟩
  | 8 => ⟨S1x512, .f32⟩
  | 9 => ⟨S512, .f32⟩
  | 10 => ⟨S1x512, .f32⟩
  | 11 => ⟨S10000x512, .f32⟩
  | 12 => ⟨S10000x512, .f32⟩
  | 13 => ⟨S1x512, .f32⟩
  | 14 => ⟨S512, .f32⟩
  | 15 => ⟨S1x512, .f32⟩
  | 16 => ⟨S512, .f32⟩
  | 17 => ⟨S_, .f32⟩
  | 18 => ⟨S512, .f32⟩
  | 19 => ⟨S512, .f32⟩
  | 20 => ⟨S512, .f32⟩
  | 21 => ⟨S512, .f32⟩
  | 22 => ⟨S1x512, .f32⟩
  | 23 => ⟨S512, .f32⟩
  | 24 => ⟨S1x512, .f32⟩
  | 25 => ⟨S10000x512, .f32⟩
  | 26 => ⟨S10000x512, .f32⟩
  | 27 => ⟨S1x512, .f32⟩
  | 28 => ⟨S10000x512, .f32⟩
  | 29 => ⟨S10000x512, .f32⟩
  | 30 => ⟨S1x512, .f32⟩
  | 31 => ⟨S512, .f32⟩
  | 32 => ⟨S1x512, .f32⟩
  | 33 => ⟨S10000x512, .f32⟩
  | 34 => ⟨S10000x512, .f32⟩
  | 35 => ⟨S_, .f32⟩
  | 36 => ⟨S10000x512, .f32⟩
  | 37 => ⟨S10000x512, .f32⟩
  | 38 => ⟨S1x512x512, .f32⟩
  | 39 => ⟨S512x512, .f32⟩
  | 40 => ⟨S10000x1, .f32⟩
  | 41 => ⟨S10000x512, .f32⟩
  | 42 => ⟨S10000x512, .f32⟩
  | 43 => ⟨S10000x512, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x512, .f32⟩
  | 53 => ⟨S_, .f32⟩
  | 54 => ⟨S10000x512, .f32⟩
  | 55 => ⟨S160000x1, .i32⟩
  | 56 => ⟨S10000x512, .f32⟩
  | 57 => ⟨S10000x1, .f32⟩
  | 58 => ⟨S10000x512, .f32⟩
  | 59 => ⟨S10000x512, .f32⟩
  | 60 => ⟨S1x512, .f32⟩
  | 61 => ⟨S512, .f32⟩
  | 62 => ⟨S1x512, .f32⟩
  | 63 => ⟨S10000x512, .f32⟩
  | 64 => ⟨S10000x512, .f32⟩
  | 65 => ⟨S1x512, .f32⟩
  | 66 => ⟨S512, .f32⟩
  | 67 => ⟨S1x512, .f32⟩
  | 68 => ⟨S512, .f32⟩
  | 69 => ⟨S_, .f32⟩
  | 70 => ⟨S512, .f32⟩
  | 71 => ⟨S512, .f32⟩
  | 72 => ⟨S512, .f32⟩
  | 73 => ⟨S512, .f32⟩
  | 74 => ⟨S1x512, .f32⟩
  | 75 => ⟨S512, .f32⟩
  | 76 => ⟨S1x512, .f32⟩
  | 77 => ⟨S10000x512, .f32⟩
  | 78 => ⟨S10000x512, .f32⟩
  | 79 => ⟨S1x512, .f32⟩
  | 80 => ⟨S10000x512, .f32⟩
  | 81 => ⟨S10000x512, .f32⟩
  | 82 => ⟨S1x512, .f32⟩
  | 83 => ⟨S512, .f32⟩
  | 84 => ⟨S1x512, .f32⟩
  | 85 => ⟨S10000x512, .f32⟩
  | 86 => ⟨S10000x512, .f32⟩
  | 87 => ⟨S_, .f32⟩
  | 88 => ⟨S10000x512, .f32⟩
  | 89 => ⟨S10000x512, .f32⟩
  | 90 => ⟨S10000x3072, .f32⟩
  | 91 => ⟨S10000x64, .f32⟩
  | 92 => ⟨S1x64, .f32⟩
  | 93 => ⟨S10000x64, .f32⟩
  | 94 => ⟨S10000x64, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_cst : Ref sig .tc := ⟨.hbm, 83, rfl⟩
abbrev main_call2_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_9 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_12 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call3_cst : Ref sig .tc := ⟨.hbm, 135, rfl⟩
abbrev main_call3_v0 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_13 : Ref sig .tc := ⟨.hbm, 144, rfl⟩
abbrev main_v109 : Ref sig .tc := ⟨.hbm, 145, rfl⟩
abbrev main_v110 : Ref sig .tc := ⟨.hbm, 146, rfl⟩
abbrev main_c_14 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_15 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_16 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_call4_cst : Ref sig .tc := ⟨.hbm, 187, rfl⟩
abbrev main_call4_v0 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_c_17 : Ref sig .tc := ⟨.hbm, 196, rfl⟩
abbrev main_v155 : Ref sig .tc := ⟨.hbm, 197, rfl⟩
abbrev main_v156 : Ref sig .tc := ⟨.hbm, 198, rfl⟩
abbrev main_c_18 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_19 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_20 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_call5_cst : Ref sig .tc := ⟨.hbm, 239, rfl⟩
abbrev main_call5_v0 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_c_21 : Ref sig .tc := ⟨.hbm, 248, rfl⟩
abbrev main_v201 : Ref sig .tc := ⟨.hbm, 249, rfl⟩
abbrev main_v202 : Ref sig .tc := ⟨.hbm, 250, rfl⟩
abbrev main_c_22 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_cst_23 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_24 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_call6_cst : Ref sig .tc := ⟨.hbm, 291, rfl⟩
abbrev main_call6_v0 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_c_25 : Ref sig .tc := ⟨.hbm, 300, rfl⟩
abbrev main_v247 : Ref sig .tc := ⟨.hbm, 301, rfl⟩
abbrev main_v248 : Ref sig .tc := ⟨.hbm, 302, rfl⟩
abbrev main_c_26 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_cst_27 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_cst_28 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_call7_cst : Ref sig .tc := ⟨.hbm, 343, rfl⟩
abbrev main_call7_v0 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  slices_S6x512_S1x512_0_0 : S6x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S512 : S_.BroadcastsInDim S512 (![] : Fin 0 → Fin S512.rank)
  slices_S5x512x512_S1x512x512_0_0_0 : S5x512x512.Slices ![0, 0, 0] S1x512x512
  shapeCasts_S1x512x512_S512x512 : S1x512x512.ShapeCasts S512x512
  slices_S6x512_S1x512_1_0 : S6x512.Slices ![1, 0] S1x512
  slices_S5x512x512_S1x512x512_1_0_0 : S5x512x512.Slices ![1, 0, 0] S1x512x512
  slices_S6x512_S1x512_2_0 : S6x512.Slices ![2, 0] S1x512
  slices_S5x512x512_S1x512x512_2_0_0 : S5x512x512.Slices ![2, 0, 0] S1x512x512
  slices_S6x512_S1x512_3_0 : S6x512.Slices ![3, 0] S1x512
  slices_S5x512x512_S1x512x512_3_0_0 : S5x512x512.Slices ![3, 0, 0] S1x512x512
  slices_S6x512_S1x512_4_0 : S6x512.Slices ![4, 0] S1x512
  slices_S5x512x512_S1x512x512_4_0_0 : S5x512x512.Slices ![4, 0, 0] S1x512x512
  slices_S6x512_S1x512_5_0 : S6x512.Slices ![5, 0] S1x512
  concatenates_S10000x512_S10000x512_S10000x512_S10000x512_S10000x512_S10000x512_S10000x3072_d1 : Shape.Concatenates [S10000x512, S10000x512, S10000x512, S10000x512, S10000x512, S10000x512] S10000x3072 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x3072_S3072x64_S10000x64_1_0_0_1_n_n_wf : DotDims.WF S10000x3072 S3072x64 S10000x64 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x3072_S3072x64_S10000x64_1_0_0_1_n_n : DotDims S10000x3072 S3072x64 S10000x64 where
  lhsContracting := [1]
  rhsContracting := [0]
  lhsNonContracting := [0]
  rhsNonContracting := [1]
  lhsBatch := []
  rhsBatch := []
  wf := dot_S10000x3072_S3072x64_S10000x64_1_0_0_1_n_n_wf

class Facts : Prop extends Facts₀ where

variable [Facts]
-- ==== Proof.KB.Reg0.lean ====
/-
  Region 0 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not the point fetched it
    (a point that does not fetch has the block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not the point fetched it
    (a point that does not fetch has the block index of the point before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether or not the point fetched it
    (a point that does not fetch has the block index of the point before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads every staging buffer whole and stores the output buffer whole. -/
abbrev r0_S2000x512 : Rect S2000x512 := Rect.unit (s := S2000x512) ![0, 0] S2000x512.size inb_S2000x512_S2000x512_0_0
abbrev r0_S2000x1 : Rect S2000x1 := Rect.unit (s := S2000x1) ![0, 0] S2000x1.size inb_S2000x1_S2000x1_0_0
abbrev r0_S512x512 : Rect S512x512 := Rect.unit (s := S512x512) ![0, 0] S512x512.size inb_S512x512_S512x512_0_0

/-- The output window's staging buffer after the body: its one whole-buffer store of the body's arithmetic
    applied to the input blocks. -/
def out0_3 (x0 : Vec F S2000x512 .f32) (x1 : Vec F S2000x1 .f32) (x2 : Vec F S512x512 .f32) : Vec F S2000x512 .f32 :=
  View.canon [⟨r0_S2000x512, k0_pay1 (View.ld x0 r0_S2000x512) (View.ld x1 r0_S2000x1) (View.ld x2 r0_S512x512)⟩]

/-- The one store covers the buffer. -/
theorem cover0_3 (p0 : Vec F S2000x512 .f32) (y : S2000x512.Idx) :
    ∃ pc ∈ ([⟨r0_S2000x512, p0⟩] : List (View.Piece (Elt F) S2000x512 .f32)), y ∈ pc.1.set :=
  View.cover_of_tiled [⟨r0_S2000x512, p0⟩] S2000x512.size (by rfl) y

set_option maxHeartbeats 1000000 in
/-- The kernel body, run on whole staging buffers: the inputs' buffers are read and left as they were, the output's
    buffer (whatever it held) ends at `out0_3` of the inputs. -/
theorem sound_kernel0 (c : Dev nD) (E : Set ℕ) (i : grid0.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the windows' arrays as the region finds them; after the body at point `t`
    every input's buffer still holds its block and the output's holds the body's result on the input blocks;
    nothing is owed and every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Reg1.lean ====
/-
  Region 1 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether or not the point fetched it
    (a point that does not fetch has the block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether or not the point fetched it
    (a point that does not fetch has the block index of the point before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every grid point, whether or not the point fetched it
    (a point that does not fetch has the block index of the point before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every grid point, whether or not the point fetched it
    (a point that does not fetch has the block index of the point before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every grid point, whether or not the point fetched it
    (a point that does not fetch has the block index of the point before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds the window's block at every grid point, whether or not the point fetched it
    (a point that does not fetch has the block index of the point before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The body reads every staging buffer whole and stores the output buffer whole. -/
abbrev r1_S2000x512 : Rect S2000x512 := Rect.unit (s := S2000x512) ![0, 0] S2000x512.size inb_S2000x512_S2000x512_0_0
abbrev r1_S2000x1 : Rect S2000x1 := Rect.unit (s := S2000x1) ![0, 0] S2000x1.size inb_S2000x1_S2000x1_0_0
abbrev r1_S1x512 : Rect S1x512 := Rect.unit (s := S1x512) ![0, 0] S1x512.size inb_S1x512_S1x512_0_0

/-- The output window's staging buffer after the body: its one whole-buffer store of the body's arithmetic
    applied to the input blocks. -/
def out1_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r1_S2000x512, k1_pay1 (View.ld x0 r1_S2000x512) (View.ld x1 r1_S2000x1) (View.ld x2 r1_S1x512) (View.ld x3 r1_S1x512) (View.ld x4 r1_S1x512) (View.ld x5 r1_S1x512)⟩]

/-- The one store covers the buffer. -/
theorem cover1_6 (p0 : Vec F S2000x512 .f32) (y : S2000x512.Idx) :
    ∃ pc ∈ ([⟨r1_S2000x512, p0⟩] : List (View.Piece (Elt F) S2000x512 .f32)), y ∈ pc.1.set :=
  View.cover_of_tiled [⟨r1_S2000x512, p0⟩] S2000x512.size (by rfl) y

set_option maxHeartbeats 1000000 in
/-- The kernel body, run on whole staging buffers: the inputs' buffers are read and left as they were, the output's
    buffer (whatever it held) ends at `out1_6` of the inputs. -/
theorem sound_kernel1 (c : Dev nD) (E : Set ℕ) (i : grid1.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_relu_kernel i arg1 harg1 arg2 harg2 arg3 harg3 arg4 harg4 arg5 harg5 arg6 harg6 arg7 harg7) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core `c`: the windows' arrays as the region finds them; after the body at point `t`
    every input's buffer still holds its block and the output's holds the body's result on the input blocks;
    nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Reg2.lean ====
/-
  Region 2 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether or not the point fetched it
    (a point that does not fetch has the block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether or not the point fetched it
    (a point that does not fetch has the block index of the point before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every grid point, whether or not the point fetched it
    (a point that does not fetch has the block index of the point before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body reads every staging buffer whole and stores the output buffer whole. -/
abbrev r2_S2000x512 : Rect S2000x512 := Rect.unit (s := S2000x512) ![0, 0] S2000x512.size inb_S2000x512_S2000x512_0_0
abbrev r2_S2000x1 : Rect S2000x1 := Rect.unit (s := S2000x1) ![0, 0] S2000x1.size inb_S2000x1_S2000x1_0_0
abbrev r2_S512x512 : Rect S512x512 := Rect.unit (s := S512x512) ![0, 0] S512x512.size inb_S512x512_S512x512_0_0

/-- The output window's staging buffer after the body: its one whole-buffer store of the body's arithmetic
    applied to the input blocks. -/
def out2_3 (x0 : Vec F S2000x512 .f32) (x1 : Vec F S2000x1 .f32) (x2 : Vec F S512x512 .f32) : Vec F S2000x512 .f32 :=
  View.canon [⟨r2_S2000x512, k2_pay1 (View.ld x0 r2_S2000x512) (View.ld x1 r2_S2000x1) (View.ld x2 r2_S512x512)⟩]

/-- The one store covers the buffer. -/
theorem cover2_3 (p0 : Vec F S2000x512 .f32) (y : S2000x512.Idx) :
    ∃ pc ∈ ([⟨r2_S2000x512, p0⟩] : List (View.Piece (Elt F) S2000x512 .f32)), y ∈ pc.1.set :=
  View.cover_of_tiled [⟨r2_S2000x512, p0⟩] S2000x512.size (by rfl) y

set_option maxHeartbeats 1000000 in
/-- The kernel body, run on whole staging buffers: the inputs' buffers are read and left as they were, the output's
    buffer (whatever it held) ends at `out2_3` of the inputs. -/
theorem sound_kernel2 (c : Dev nD) (E : Set ℕ) (i : grid2.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scaled_matmul_kernel i arg1 harg1 arg2 harg2 arg3 harg3 arg4 harg4) K := by
  simp only [cc2__scaled_matmul_kernel_eq_skeleton]; unfold cc2__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the windows' arrays as the region finds them; after the body at point `t`
    every input's buffer still holds its block and the output's holds the body's result on the input blocks;
    nothing is owed and every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KB.Reg3.lean ====
/-
  Region 3 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether or not the point fetched it
    (a point that does not fetch has the block index of the point before it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether or not the point fetched it
    (a point that does not fetch has the block index of the point before it). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every grid point, whether or not the point fetched it
    (a point that does not fetch has the block index of the point before it). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every grid point, whether or not the point fetched it
    (a point that does not fetch has the block index of the point before it). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every grid point, whether or not the point fetched it
    (a point that does not fetch has the block index of the point before it). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds the window's block at every grid point, whether or not the point fetched it
    (a point that does not fetch has the block index of the point before it). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! The body reads every staging buffer whole and stores the output buffer whole. -/
abbrev r3_S2000x512 : Rect S2000x512 := Rect.unit (s := S2000x512) ![0, 0] S2000x512.size inb_S2000x512_S2000x512_0_0
abbrev r3_S2000x1 : Rect S2000x1 := Rect.unit (s := S2000x1) ![0, 0] S2000x1.size inb_S2000x1_S2000x1_0_0
abbrev r3_S1x512 : Rect S1x512 := Rect.unit (s := S1x512) ![0, 0] S1x512.size inb_S1x512_S1x512_0_0

/-- The output window's staging buffer after the body: its one whole-buffer store of the body's arithmetic
    applied to the input blocks. -/
def out3_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r3_S2000x512, k3_pay1 (View.ld x0 r3_S2000x512) (View.ld x1 r3_S2000x1) (View.ld x2 r3_S1x512) (View.ld x3 r3_S1x512) (View.ld x4 r3_S1x512) (View.ld x5 r3_S1x512)⟩]

/-- The one store covers the buffer. -/
theorem cover3_6 (p0 : Vec F S2000x512 .f32) (y : S2000x512.Idx) :
    ∃ pc ∈ ([⟨r3_S2000x512, p0⟩] : List (View.Piece (Elt F) S2000x512 .f32)), y ∈ pc.1.set :=
  View.cover_of_tiled [⟨r3_S2000x512, p0⟩] S2000x512.size (by rfl) y

set_option maxHeartbeats 1000000 in
/-- The kernel body, run on whole staging buffers: the inputs' buffers are read and left as they were, the output's
    buffer (whatever it held) ends at `out3_6` of the inputs. -/
theorem sound_kernel3 (c : Dev nD) (E : Set ℕ) (i : grid3.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_relu_kernel i arg1 harg1 arg2 harg2 arg3 harg3 arg4 harg4 arg5 harg5 arg6 harg6 arg7 harg7) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The region's proof data on core `c`: the windows' arrays as the region finds them; after the body at point `t`
    every input's buffer still holds its block and the output's holds the body's result on the input blocks;
    nothing is owed and every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any grid point: the inputs' buffers hold their blocks, so the body's triple applies; the rest passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KB.Reg4.lean ====
/-
  Region 4 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether or not the point fetched it
    (a point that does not fetch has the block index of the point before it). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether or not the point fetched it
    (a point that does not fetch has the block index of the point before it). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every grid point, whether or not the point fetched it
    (a point that does not fetch has the block index of the point before it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The body reads every staging buffer whole and stores the output buffer whole. -/
abbrev r4_S2000x512 : Rect S2000x512 := Rect.unit (s := S2000x512) ![0, 0] S2000x512.size inb_S2000x512_S2000x512_0_0
abbrev r4_S2000x1 : Rect S2000x1 := Rect.unit (s := S2000x1) ![0, 0] S2000x1.size inb_S2000x1_S2000x1_0_0
abbrev r4_S512x512 : Rect S512x512 := Rect.unit (s := S512x512) ![0, 0] S512x512.size inb_S512x512_S512x512_0_0

/-- The output window's staging buffer after the body: its one whole-buffer store of the body's arithmetic
    applied to the input blocks. -/
def out4_3 (x0 : Vec F S2000x512 .f32) (x1 : Vec F S2000x1 .f32) (x2 : Vec F S512x512 .f32) : Vec F S2000x512 .f32 :=
  View.canon [⟨r4_S2000x512, k4_pay1 (View.ld x0 r4_S2000x512) (View.ld x1 r4_S2000x1) (View.ld x2 r4_S512x512)⟩]

/-- The one store covers the buffer. -/
theorem cover4_3 (p0 : Vec F S2000x512 .f32) (y : S2000x512.Idx) :
    ∃ pc ∈ ([⟨r4_S2000x512, p0⟩] : List (View.Piece (Elt F) S2000x512 .f32)), y ∈ pc.1.set :=
  View.cover_of_tiled [⟨r4_S2000x512, p0⟩] S2000x512.size (by rfl) y

set_option maxHeartbeats 1000000 in
/-- The kernel body, run on whole staging buffers: the inputs' buffers are read and left as they were, the output's
    buffer (whatever it held) ends at `out4_3` of the inputs. -/
theorem sound_kernel4 (c : Dev nD) (E : Set ℕ) (i : grid4.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__scaled_matmul_kernel i arg1 harg1 arg2 harg2 arg3 harg3 arg4 harg4) K := by
  simp only [cc4__scaled_matmul_kernel_eq_skeleton]; unfold cc4__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the windows' arrays as the region finds them; after the body at point `t`
    every input's buffer still holds its block and the output's holds the body's result on the input blocks;
    nothing is owed and every share is whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the inputs' buffers hold their blocks, so the body's triple applies; the rest passes
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Reg5.lean ====
/-
  Region 5 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether or not the point fetched it
    (a point that does not fetch has the block index of the point before it). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether or not the point fetched it
    (a point that does not fetch has the block index of the point before it). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every grid point, whether or not the point fetched it
    (a point that does not fetch has the block index of the point before it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every grid point, whether or not the point fetched it
    (a point that does not fetch has the block index of the point before it). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every grid point, whether or not the point fetched it
    (a point that does not fetch has the block index of the point before it). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds the window's block at every grid point, whether or not the point fetched it
    (a point that does not fetch has the block index of the point before it). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! The body reads every staging buffer whole and stores the output buffer whole. -/
abbrev r5_S2000x512 : Rect S2000x512 := Rect.unit (s := S2000x512) ![0, 0] S2000x512.size inb_S2000x512_S2000x512_0_0
abbrev r5_S2000x1 : Rect S2000x1 := Rect.unit (s := S2000x1) ![0, 0] S2000x1.size inb_S2000x1_S2000x1_0_0
abbrev r5_S1x512 : Rect S1x512 := Rect.unit (s := S1x512) ![0, 0] S1x512.size inb_S1x512_S1x512_0_0

/-- The output window's staging buffer after the body: its one whole-buffer store of the body's arithmetic
    applied to the input blocks. -/
def out5_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r5_S2000x512, k5_pay1 (View.ld x0 r5_S2000x512) (View.ld x1 r5_S2000x1) (View.ld x2 r5_S1x512) (View.ld x3 r5_S1x512) (View.ld x4 r5_S1x512) (View.ld x5 r5_S1x512)⟩]

/-- The one store covers the buffer. -/
theorem cover5_6 (p0 : Vec F S2000x512 .f32) (y : S2000x512.Idx) :
    ∃ pc ∈ ([⟨r5_S2000x512, p0⟩] : List (View.Piece (Elt F) S2000x512 .f32)), y ∈ pc.1.set :=
  View.cover_of_tiled [⟨r5_S2000x512, p0⟩] S2000x512.size (by rfl) y

set_option maxHeartbeats 1000000 in
/-- The kernel body, run on whole staging buffers: the inputs' buffers are read and left as they were, the output's
    buffer (whatever it held) ends at `out5_6` of the inputs. -/
theorem sound_kernel5 (c : Dev nD) (E : Set ℕ) (i : grid5.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The region's proof data on core `c`: the windows' arrays as the region finds them; after the body at point `t`
    every input's buffer still holds its block and the output's holds the body's result on the input blocks;
    nothing is owed and every share is whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any grid point: the inputs' buffers hold their blocks, so the body's triple applies; the rest passes
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KB.Reg6.lean ====
/-
  Region 6 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not the point fetched it
    (a point that does not fetch has the block index of the point before it). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not the point fetched it
    (a point that does not fetch has the block index of the point before it). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not the point fetched it
    (a point that does not fetch has the block index of the point before it). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! The body reads every staging buffer whole and stores the output buffer whole. -/
abbrev r6_S2000x512 : Rect S2000x512 := Rect.unit (s := S2000x512) ![0, 0] S2000x512.size inb_S2000x512_S2000x512_0_0
abbrev r6_S2000x1 : Rect S2000x1 := Rect.unit (s := S2000x1) ![0, 0] S2000x1.size inb_S2000x1_S2000x1_0_0
abbrev r6_S512x512 : Rect S512x512 := Rect.unit (s := S512x512) ![0, 0] S512x512.size inb_S512x512_S512x512_0_0

/-- The output window's staging buffer after the body: its one whole-buffer store of the body's arithmetic
    applied to the input blocks. -/
def out6_3 (x0 : Vec F S2000x512 .f32) (x1 : Vec F S2000x1 .f32) (x2 : Vec F S512x512 .f32) : Vec F S2000x512 .f32 :=
  View.canon [⟨r6_S2000x512, k6_pay1 (View.ld x0 r6_S2000x512) (View.ld x1 r6_S2000x1) (View.ld x2 r6_S512x512)⟩]

/-- The one store covers the buffer. -/
theorem cover6_3 (p0 : Vec F S2000x512 .f32) (y : S2000x512.Idx) :
    ∃ pc ∈ ([⟨r6_S2000x512, p0⟩] : List (View.Piece (Elt F) S2000x512 .f32)), y ∈ pc.1.set :=
  View.cover_of_tiled [⟨r6_S2000x512, p0⟩] S2000x512.size (by rfl) y

set_option maxHeartbeats 1000000 in
/-- The kernel body, run on whole staging buffers: the inputs' buffers are read and left as they were, the output's
    buffer (whatever it held) ends at `out6_3` of the inputs. -/
theorem sound_kernel6 (c : Dev nD) (E : Set ℕ) (i : grid6.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__scaled_matmul_kernel i arg1 harg1 arg2 harg2 arg3 harg3 arg4 harg4) K := by
  simp only [cc6__scaled_matmul_kernel_eq_skeleton]; unfold cc6__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The region's proof data on core `c`: the windows' arrays as the region finds them; after the body at point `t`
    every input's buffer still holds its block and the output's holds the body's result on the input blocks;
    nothing is owed and every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is handed at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' buffers hold their blocks, so the body's triple applies; the rest passes
    through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KB.Reg7.lean ====
/-
  Region 7 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every grid point, whether or not the point fetched it
    (a point that does not fetch has the block index of the point before it). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every grid point, whether or not the point fetched it
    (a point that does not fetch has the block index of the point before it). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every grid point, whether or not the point fetched it
    (a point that does not fetch has the block index of the point before it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every grid point, whether or not the point fetched it
    (a point that does not fetch has the block index of the point before it). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds the window's block at every grid point, whether or not the point fetched it
    (a point that does not fetch has the block index of the point before it). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds the window's block at every grid point, whether or not the point fetched it
    (a point that does not fetch has the block index of the point before it). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! The body reads every staging buffer whole and stores the output buffer whole. -/
abbrev r7_S2000x512 : Rect S2000x512 := Rect.unit (s := S2000x512) ![0, 0] S2000x512.size inb_S2000x512_S2000x512_0_0
abbrev r7_S2000x1 : Rect S2000x1 := Rect.unit (s := S2000x1) ![0, 0] S2000x1.size inb_S2000x1_S2000x1_0_0
abbrev r7_S1x512 : Rect S1x512 := Rect.unit (s := S1x512) ![0, 0] S1x512.size inb_S1x512_S1x512_0_0

/-- The output window's staging buffer after the body: its one whole-buffer store of the body's arithmetic
    applied to the input blocks. -/
def out7_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r7_S2000x512, k7_pay1 (View.ld x0 r7_S2000x512) (View.ld x1 r7_S2000x1) (View.ld x2 r7_S1x512) (View.ld x3 r7_S1x512) (View.ld x4 r7_S1x512) (View.ld x5 r7_S1x512)⟩]

/-- The one store covers the buffer. -/
theorem cover7_6 (p0 : Vec F S2000x512 .f32) (y : S2000x512.Idx) :
    ∃ pc ∈ ([⟨r7_S2000x512, p0⟩] : List (View.Piece (Elt F) S2000x512 .f32)), y ∈ pc.1.set :=
  View.cover_of_tiled [⟨r7_S2000x512, p0⟩] S2000x512.size (by rfl) y

set_option maxHeartbeats 1000000 in
/-- The kernel body, run on whole staging buffers: the inputs' buffers are read and left as they were, the output's
    buffer (whatever it held) ends at `out7_6` of the inputs. -/
theorem sound_kernel7 (c : Dev nD) (E : Set ℕ) (i : grid7.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__bn_relu_kernel i arg1 harg1 arg2 harg2 arg3 harg3 arg4 harg4 arg5 harg5 arg6 harg6 arg7 harg7) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The region's proof data on core `c`: the windows' arrays as the region finds them; after the body at point `t`
    every input's buffer still holds its block and the output's holds the body's result on the input blocks;
    nothing is owed and every share is whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is handed at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any grid point: the inputs' buffers hold their blocks, so the body's triple applies; the rest passes
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.KB.Reg8.lean ====
/-
  Region 8 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every grid point, whether or not the point fetched it
    (a point that does not fetch has the block index of the point before it). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every grid point, whether or not the point fetched it
    (a point that does not fetch has the block index of the point before it). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every grid point, whether or not the point fetched it
    (a point that does not fetch has the block index of the point before it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! The body reads every staging buffer whole and stores the output buffer whole. -/
abbrev r8_S2000x512 : Rect S2000x512 := Rect.unit (s := S2000x512) ![0, 0] S2000x512.size inb_S2000x512_S2000x512_0_0
abbrev r8_S2000x1 : Rect S2000x1 := Rect.unit (s := S2000x1) ![0, 0] S2000x1.size inb_S2000x1_S2000x1_0_0
abbrev r8_S512x512 : Rect S512x512 := Rect.unit (s := S512x512) ![0, 0] S512x512.size inb_S512x512_S512x512_0_0

/-- The output window's staging buffer after the body: its one whole-buffer store of the body's arithmetic
    applied to the input blocks. -/
def out8_3 (x0 : Vec F S2000x512 .f32) (x1 : Vec F S2000x1 .f32) (x2 : Vec F S512x512 .f32) : Vec F S2000x512 .f32 :=
  View.canon [⟨r8_S2000x512, k8_pay1 (View.ld x0 r8_S2000x512) (View.ld x1 r8_S2000x1) (View.ld x2 r8_S512x512)⟩]

/-- The one store covers the buffer. -/
theorem cover8_3 (p0 : Vec F S2000x512 .f32) (y : S2000x512.Idx) :
    ∃ pc ∈ ([⟨r8_S2000x512, p0⟩] : List (View.Piece (Elt F) S2000x512 .f32)), y ∈ pc.1.set :=
  View.cover_of_tiled [⟨r8_S2000x512, p0⟩] S2000x512.size (by rfl) y

set_option maxHeartbeats 1000000 in
/-- The kernel body, run on whole staging buffers: the inputs' buffers are read and left as they were, the output's
    buffer (whatever it held) ends at `out8_3` of the inputs. -/
theorem sound_kernel8 (c : Dev nD) (E : Set ℕ) (i : grid8.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__scaled_matmul_kernel i arg1 harg1 arg2 harg2 arg3 harg3 arg4 harg4) K := by
  simp only [cc8__scaled_matmul_kernel_eq_skeleton]; unfold cc8__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The region's proof data on core `c`: the windows' arrays as the region finds them; after the body at point `t`
    every input's buffer still holds its block and the output's holds the body's result on the input blocks;
    nothing is owed and every share is whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is handed at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any grid point: the inputs' buffers hold their blocks, so the body's triple applies; the rest passes
    through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation8 (c : Dev nD) : BodyObligation (dat8 (F := F) V c) (defs₀ (F := F)) Variants.none () Set.univ := fun t => by
  rw [bigSep_W8, bigSep_W8]
  exact sound_body8 V c t

end Cert.Kernel.Frm

end
-- ==== Proof.KB.Reg9.lean ====
/-
  Region 9 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every grid point, whether or not the point fetched it
    (a point that does not fetch has the block index of the point before it). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every grid point, whether or not the point fetched it
    (a point that does not fetch has the block index of the point before it). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every grid point, whether or not the point fetched it
    (a point that does not fetch has the block index of the point before it). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds the window's block at every grid point, whether or not the point fetched it
    (a point that does not fetch has the block index of the point before it). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds the window's block at every grid point, whether or not the point fetched it
    (a point that does not fetch has the block index of the point before it). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds the window's block at every grid point, whether or not the point fetched it
    (a point that does not fetch has the block index of the point before it). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! The body reads every staging buffer whole and stores the output buffer whole. -/
abbrev r9_S2000x512 : Rect S2000x512 := Rect.unit (s := S2000x512) ![0, 0] S2000x512.size inb_S2000x512_S2000x512_0_0
abbrev r9_S2000x1 : Rect S2000x1 := Rect.unit (s := S2000x1) ![0, 0] S2000x1.size inb_S2000x1_S2000x1_0_0
abbrev r9_S1x512 : Rect S1x512 := Rect.unit (s := S1x512) ![0, 0] S1x512.size inb_S1x512_S1x512_0_0

/-- The output window's staging buffer after the body: its one whole-buffer store of the body's arithmetic
    applied to the input blocks. -/
def out9_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r9_S2000x512, k9_pay1 (View.ld x0 r9_S2000x512) (View.ld x1 r9_S2000x1) (View.ld x2 r9_S1x512) (View.ld x3 r9_S1x512) (View.ld x4 r9_S1x512) (View.ld x5 r9_S1x512)⟩]

/-- The one store covers the buffer. -/
theorem cover9_6 (p0 : Vec F S2000x512 .f32) (y : S2000x512.Idx) :
    ∃ pc ∈ ([⟨r9_S2000x512, p0⟩] : List (View.Piece (Elt F) S2000x512 .f32)), y ∈ pc.1.set :=
  View.cover_of_tiled [⟨r9_S2000x512, p0⟩] S2000x512.size (by rfl) y

set_option maxHeartbeats 1000000 in
/-- The kernel body, run on whole staging buffers: the inputs' buffers are read and left as they were, the output's
    buffer (whatever it held) ends at `out9_6` of the inputs. -/
theorem sound_kernel9 (c : Dev nD) (E : Set ℕ) (i : grid9.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__bn_relu_kernel i arg1 harg1 arg2 harg2 arg3 harg3 arg4 harg4 arg5 harg5 arg6 harg6 arg7 harg7) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The region's proof data on core `c`: the windows' arrays as the region finds them; after the body at point `t`
    every input's buffer still holds its block and the output's holds the body's result on the input blocks;
    nothing is owed and every share is whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is handed at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any grid point: the inputs' buffers hold their blocks, so the body's triple applies; the rest passes
    through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation9 (c : Dev nD) : BodyObligation (dat9 (F := F) V c) (defs₀ (F := F)) Variants.none () Set.univ := fun t => by
  rw [bigSep_W9, bigSep_W9]
  exact sound_body9 V c t

end Cert.Kernel.Frm

end
-- ==== Proof.KB.Reg10.lean ====
/-
  Region 10 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds the window's block at every grid point, whether or not the point fetched it
    (a point that does not fetch has the block index of the point before it). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds the window's block at every grid point, whether or not the point fetched it
    (a point that does not fetch has the block index of the point before it). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds the window's block at every grid point, whether or not the point fetched it
    (a point that does not fetch has the block index of the point before it). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! The body reads every staging buffer whole and stores the output buffer whole. -/
abbrev r10_S2000x512 : Rect S2000x512 := Rect.unit (s := S2000x512) ![0, 0] S2000x512.size inb_S2000x512_S2000x512_0_0
abbrev r10_S2000x1 : Rect S2000x1 := Rect.unit (s := S2000x1) ![0, 0] S2000x1.size inb_S2000x1_S2000x1_0_0
abbrev r10_S512x512 : Rect S512x512 := Rect.unit (s := S512x512) ![0, 0] S512x512.size inb_S512x512_S512x512_0_0

/-- The output window's staging buffer after the body: its one whole-buffer store of the body's arithmetic
    applied to the input blocks. -/
def out10_3 (x0 : Vec F S2000x512 .f32) (x1 : Vec F S2000x1 .f32) (x2 : Vec F S512x512 .f32) : Vec F S2000x512 .f32 :=
  View.canon [⟨r10_S2000x512, k10_pay1 (View.ld x0 r10_S2000x512) (View.ld x1 r10_S2000x1) (View.ld x2 r10_S512x512)⟩]

/-- The one store covers the buffer. -/
theorem cover10_3 (p0 : Vec F S2000x512 .f32) (y : S2000x512.Idx) :
    ∃ pc ∈ ([⟨r10_S2000x512, p0⟩] : List (View.Piece (Elt F) S2000x512 .f32)), y ∈ pc.1.set :=
  View.cover_of_tiled [⟨r10_S2000x512, p0⟩] S2000x512.size (by rfl) y

set_option maxHeartbeats 1000000 in
/-- The kernel body, run on whole staging buffers: the inputs' buffers are read and left as they were, the output's
    buffer (whatever it held) ends at `out10_3` of the inputs. -/
theorem sound_kernel10 (c : Dev nD) (E : Set ℕ) (i : grid10.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2)) -∗ K ⟨⟩))
      ⊢ wp frame (wpE (defs₀ (F := F)) Variants.none c none) E (cc10__scaled_matmul_kernel i arg1 harg1 arg2 harg2 arg3 harg3 arg4 harg4) K := by
  simp only [cc10__scaled_matmul_kernel_eq_skeleton]; unfold cc10__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-- The region's proof data on core `c`: the windows' arrays as the region finds them; after the body at point `t`
    every input's buffer still holds its block and the output's holds the body's result on the input blocks;
    nothing is owed and every share is whole. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is handed at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it hands back. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any grid point: the inputs' buffers hold their blocks, so the body's triple applies; the rest passes
    through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation10 (c : Dev nD) : BodyObligation (dat10 (F := F) V c) (defs₀ (F := F)) Variants.none () Set.univ := fun t => by
  rw [bigSep_W10, bigSep_W10]
  exact sound_body10 V c t

end Cert.Kernel.Frm

end
-- ==== Proof.KB.Reg11.lean ====
/-
  Region 11 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds the window's block at every grid point, whether or not the point fetched it
    (a point that does not fetch has the block index of the point before it). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds the window's block at every grid point, whether or not the point fetched it
    (a point that does not fetch has the block index of the point before it). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds the window's block at every grid point, whether or not the point fetched it
    (a point that does not fetch has the block index of the point before it). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's staging buffer holds the window's block at every grid point, whether or not the point fetched it
    (a point that does not fetch has the block index of the point before it). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's staging buffer holds the window's block at every grid point, whether or not the point fetched it
    (a point that does not fetch has the block index of the point before it). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's staging buffer holds the window's block at every grid point, whether or not the point fetched it
    (a point that does not fetch has the block index of the point before it). -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! The body reads every staging buffer whole and stores the output buffer whole. -/
abbrev r11_S2000x512 : Rect S2000x512 := Rect.unit (s := S2000x512) ![0, 0] S2000x512.size inb_S2000x512_S2000x512_0_0
abbrev r11_S2000x1 : Rect S2000x1 := Rect.unit (s := S2000x1) ![0, 0] S2000x1.size inb_S2000x1_S2000x1_0_0
abbrev r11_S1x512 : Rect S1x512 := Rect.unit (s := S1x512) ![0, 0] S1x512.size inb_S1x512_S1x512_0_0

/-- The output window's staging buffer after the body: its one whole-buffer store of the body's arithmetic
    applied to the input blocks. -/
def out11_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r11_S2000x512, k11_pay1 (View.ld x0 r11_S2000x512) (View.ld x1 r11_S2000x1) (View.ld x2 r11_S1x512) (View.ld x3 r11_S1x512) (View.ld x4 r11_S1x512) (View.ld x5 r11_S1x512)⟩]

/-- The one store covers the buffer. -/
theorem cover11_6 (p0 : Vec F S2000x512 .f32) (y : S2000x512.Idx) :
    ∃ pc ∈ ([⟨r11_S2000x512, p0⟩] : List (View.Piece (Elt F) S2000x512 .f32)), y ∈ pc.1.set :=
  View.cover_of_tiled [⟨r11_S2000x512, p0⟩] S2000x512.size (by rfl) y

set_option maxHeartbeats 1000000 in
/-- The kernel body, run on whole staging buffers: the inputs' buffers are read and left as they were, the output's
    buffer (whatever it held) ends at `out11_6` of the inputs. -/
theorem sound_kernel11 (c : Dev nD) (E : Set ℕ) (i : grid11.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__bn_relu_kernel i arg1 harg1 arg2 harg2 arg3 harg3 arg4 harg4 arg5 harg5 arg6 harg6 arg7 harg7) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The region's proof data on core `c`: the windows' arrays as the region finds them; after the body at point `t`
    every input's buffer still holds its block and the output's holds the body's result on the input blocks;
    nothing is owed and every share is whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is handed at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any grid point: the inputs' buffers hold their blocks, so the body's triple applies; the rest passes
    through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation11 (c : Dev nD) : BodyObligation (dat11 (F := F) V c) (defs₀ (F := F)) Variants.none () Set.univ := fun t => by
  rw [bigSep_W11, bigSep_W11]
  exact sound_body11 V c t

end Cert.Kernel.Frm

end
-- ==== Proof.KB.Reg12.lean ====
/-
  Region 12 of @main (the final linear layer): the pipeline's proof data and the body's obligation, at any buffer
  contents `V` the region may be entered from. The body multiplies a block of 200 rows of the concatenated features by
  the whole weight matrix and adds the bias row.
-/
import proofs.«144268_j91216515432581_2_alg».proof.Proof.Gen.Kernel.Launch
import proofs.«144268_j91216515432581_2_alg».proof.Proof.Gen.Kernel.Skeleton
import proofs.«144268_j91216515432581_2_alg».proof.Proof.Gen.Kernel.Points
import Idealize.ShloMosaic.Lib.Pipeline.FrameBody
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds the window's block at every grid point, whether or not the point fetched it
    (a point that does not fetch has the block index of the point before it). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds the window's block at every grid point, whether or not the point fetched it
    (a point that does not fetch has the block index of the point before it). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds the window's block at every grid point, whether or not the point fetched it
    (a point that does not fetch has the block index of the point before it). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! The body reads every staging buffer whole and stores the output buffer whole. -/
abbrev r12_S200x3072 : Rect S200x3072 := Rect.unit (s := S200x3072) ![0, 0] S200x3072.size inb_S200x3072_S200x3072_0_0
abbrev r12_S3072x64 : Rect S3072x64 := Rect.unit (s := S3072x64) ![0, 0] S3072x64.size inb_S3072x64_S3072x64_0_0
abbrev r12_S1x64 : Rect S1x64 := Rect.unit (s := S1x64) ![0, 0] S1x64.size inb_S1x64_S1x64_0_0
abbrev r12_S200x64 : Rect S200x64 := Rect.unit (s := S200x64) ![0, 0] S200x64.size inb_S200x64_S200x64_0_0

/-- The output window's staging buffer after the body: its one whole-buffer store of the body's arithmetic
    applied to the input blocks. -/
def out12_3 (x0 : Vec F S200x3072 .f32) (x1 : Vec F S3072x64 .f32) (x2 : Vec F S1x64 .f32) : Vec F S200x64 .f32 :=
  View.canon [⟨r12_S200x64, k12_pay1 (View.ld x0 r12_S200x3072) (View.ld x1 r12_S3072x64) (View.ld x2 r12_S1x64)⟩]

/-- The one store covers the buffer. -/
theorem cover12_3 (p0 : Vec F S200x64 .f32) (y : S200x64.Idx) :
    ∃ pc ∈ ([⟨r12_S200x64, p0⟩] : List (View.Piece (Elt F) S200x64 .f32)), y ∈ pc.1.set :=
  View.cover_of_tiled [⟨r12_S200x64, p0⟩] S200x64.size (by rfl) y

set_option maxHeartbeats 1000000 in
/-- The kernel body, run on whole staging buffers: the inputs' buffers are read and left as they were, the output's
    buffer (whatever it held) ends at `out12_3` of the inputs. -/
theorem sound_kernel12 (c : Dev nD) (E : Set ℕ) (i : grid12.Coords) (arg1 : Memref sig .tc .vmem S200x3072 .f32) (harg1 : arg1.IsWhole) (arg2 : Memref sig .tc .vmem S3072x64 .f32) (harg2 : arg2.IsWhole) (arg3 : Memref sig .tc .vmem S1x64 .f32) (harg3 : arg3.IsWhole) (arg4 : Memref sig .tc .vmem S200x64 .f32) (harg4 : arg4.IsWhole)
    (x0 : Vec F S200x3072 .f32) (x1 : Vec F S3072x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__final_linear_kernel i arg1 harg1 arg2 harg2 arg3 harg3 arg4 harg4) K := by
  simp only [cc12__final_linear_kernel_eq_skeleton]; unfold cc12__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The region's proof data on core `c`: the windows' arrays as the region finds them; after the body at point `t`
    every input's buffer still holds its block and the output's holds the body's result on the input blocks;
    nothing is owed and every share is whole. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is handed at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it hands back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any grid point: the inputs' buffers hold their blocks, so the body's triple applies; the rest passes
    through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation12 (c : Dev nD) : BodyObligation (dat12 (F := F) V c) (defs₀ (F := F)) Variants.none () Set.univ := fun t => by
  rw [bigSep_W12, bigSep_W12]
  exact sound_body12 V c t

end Cert.Kernel.Frm

end
-- ==== Proof.KB.Fold.lean ====
/-
  The contents of every buffer of a core between two items of @main (a stretch of host operations, or one of the 13
  kernel regions): the launch memory, then each host stretch applied, then, at a region's exit, the region's output
  array replaced by what the pipeline's write-backs leave and every other buffer as it was. At a region's exit each of
  its arrays holds what the pipeline leaves, and no item writes an argument array.
-/
import proofs.«144268_j91216515432581_2_alg».proof.Proof.KB.Reg0
import proofs.«144268_j91216515432581_2_alg».proof.Proof.KB.Reg1
import proofs.«144268_j91216515432581_2_alg».proof.Proof.KB.Reg2
import proofs.«144268_j91216515432581_2_alg».proof.Proof.KB.Reg3
import proofs.«144268_j91216515432581_2_alg».proof.Proof.KB.Reg4
import proofs.«144268_j91216515432581_2_alg».proof.Proof.KB.Reg5
import proofs.«144268_j91216515432581_2_alg».proof.Proof.KB.Reg6
import proofs.«144268_j91216515432581_2_alg».proof.Proof.KB.Reg7
import proofs.«144268_j91216515432581_2_alg».proof.Proof.KB.Reg8
import proofs.«144268_j91216515432581_2_alg».proof.Proof.KB.Reg9
import proofs.«144268_j91216515432581_2_alg».proof.Proof.KB.Reg10
import proofs.«144268_j91216515432581_2_alg».proof.Proof.KB.Reg11
import proofs.«144268_j91216515432581_2_alg».proof.Proof.KB.Reg12
import proofs.«144268_j91216515432581_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
abbrev B0 : Dev nD → Valuation τ sig (Elt F) := fun c b => m (c, b)
abbrev T0 : (c : Dev nD) → (b : Ref sig .tc) → Buf (Elt F) ((c : Thread nD τ).loc b) := fun c b => B0 m c b
/-- After item 0, the host stretch `hostOps0`. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- After item 1, the host stretch `hostOps0_1`. -/
abbrev B2 : Dev nD → Valuation τ sig (Elt F) := fun c => StableHlo.after hostOps0_1 (B1 m c)
abbrev T2 : (c : Dev nD) → (b : Ref sig .tc) → Buf (Elt F) ((c : Thread nD τ).loc b) := fun c b => B2 m c b
/-- After item 2, the host stretch `hostOps0_2`. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b
/-- After item 3, the host stretch `hostOps0_3`. -/
abbrev B4 : Dev nD → Valuation τ sig (Elt F) := fun c => StableHlo.after hostOps0_3 (B3 m c)
abbrev T4 : (c : Dev nD) → (b : Ref sig .tc) → Buf (Elt F) ((c : Thread nD τ).loc b) := fun c b => B4 m c b
/-- After item 4, the host stretch `hostOps0_4`. -/
abbrev B5 : Dev nD → Valuation τ sig (Elt F) := fun c => StableHlo.after hostOps0_4 (B4 m c)
abbrev T5 : (c : Dev nD) → (b : Ref sig .tc) → Buf (Elt F) ((c : Thread nD τ).loc b) := fun c b => B5 m c b
/-- After item 5, region 0: its output array `main_v15` at what the pipeline's write-backs leave, every other
    buffer as the region found it. -/
def B6 (c : Dev nD) : Valuation τ sig (Elt F) :=
  Function.update (B5 m c) main_v15 ((dat0 (T5 m) c).arrAt 3 cfg0.N)
theorem B6_out (c : Dev nD) : B6 m c main_v15 = (dat0 (T5 m) c).arrAt 3 cfg0.N := by
  unfold B6; exact Function.update_self ..
theorem B6_of_ne (c : Dev nD) (b : Ref sig .tc) (hb : b ≠ main_v15) : B6 m c b = B5 m c b := by
  unfold B6; exact Function.update_of_ne (StableHlo.devRef_ne_of_ne hb) ..
abbrev T6 : (c : Dev nD) → (b : Ref sig .tc) → Buf (Elt F) ((c : Thread nD τ).loc b) := fun c b => B6 m c b
/-- After item 6, the host stretch `hostOps1`. -/
abbrev B7 : Dev nD → Valuation τ sig (Elt F) := fun c => StableHlo.after hostOps1 (B6 m c)
abbrev T7 : (c : Dev nD) → (b : Ref sig .tc) → Buf (Elt F) ((c : Thread nD τ).loc b) := fun c b => B7 m c b
/-- After item 7, region 1: its output array `main_v44` at what the pipeline's write-backs leave, every other
    buffer as the region found it. -/
def B8 (c : Dev nD) : Valuation τ sig (Elt F) :=
  Function.update (B7 m c) main_v44 ((dat1 (T7 m) c).arrAt 6 cfg1.N)
theorem B8_out (c : Dev nD) : B8 m c main_v44 = (dat1 (T7 m) c).arrAt 6 cfg1.N := by
  unfold B8; exact Function.update_self ..
theorem B8_of_ne (c : Dev nD) (b : Ref sig .tc) (hb : b ≠ main_v44) : B8 m c b = B7 m c b := by
  unfold B8; exact Function.update_of_ne (StableHlo.devRef_ne_of_ne hb) ..
abbrev T8 : (c : Dev nD) → (b : Ref sig .tc) → Buf (Elt F) ((c : Thread nD τ).loc b) := fun c b => B8 m c b
/-- After item 8, the host stretch `hostOps2`. -/
abbrev B9 : Dev nD → Valuation τ sig (Elt F) := fun c => StableHlo.after hostOps2 (B8 m c)
abbrev T9 : (c : Dev nD) → (b : Ref sig .tc) → Buf (Elt F) ((c : Thread nD τ).loc b) := fun c b => B9 m c b
/-- After item 9, region 2: its output array `main_v47` at what the pipeline's write-backs leave, every other
    buffer as the region found it. -/
def B10 (c : Dev nD) : Valuation τ sig (Elt F) :=
  Function.update (B9 m c) main_v47 ((dat2 (T9 m) c).arrAt 3 cfg2.N)
theorem B10_out (c : Dev nD) : B10 m c main_v47 = (dat2 (T9 m) c).arrAt 3 cfg2.N := by
  unfold B10; exact Function.update_self ..
theorem B10_of_ne (c : Dev nD) (b : Ref sig .tc) (hb : b ≠ main_v47) : B10 m c b = B9 m c b := by
  unfold B10; exact Function.update_of_ne (StableHlo.devRef_ne_of_ne hb) ..
abbrev T10 : (c : Dev nD) → (b : Ref sig .tc) → Buf (Elt F) ((c : Thread nD τ).loc b) := fun c b => B10 m c b
/-- After item 10, the host stretch `hostOps3`. -/
abbrev B11 : Dev nD → Valuation τ sig (Elt F) := fun c => StableHlo.after hostOps3 (B10 m c)
abbrev T11 : (c : Dev nD) → (b : Ref sig .tc) → Buf (Elt F) ((c : Thread nD τ).loc b) := fun c b => B11 m c b
/-- After item 11, region 3: its output array `main_v76` at what the pipeline's write-backs leave, every other
    buffer as the region found it. -/
def B12 (c : Dev nD) : Valuation τ sig (Elt F) :=
  Function.update (B11 m c) main_v76 ((dat3 (T11 m) c).arrAt 6 cfg3.N)
theorem B12_out (c : Dev nD) : B12 m c main_v76 = (dat3 (T11 m) c).arrAt 6 cfg3.N := by
  unfold B12; exact Function.update_self ..
theorem B12_of_ne (c : Dev nD) (b : Ref sig .tc) (hb : b ≠ main_v76) : B12 m c b = B11 m c b := by
  unfold B12; exact Function.update_of_ne (StableHlo.devRef_ne_of_ne hb) ..
abbrev T12 : (c : Dev nD) → (b : Ref sig .tc) → Buf (Elt F) ((c : Thread nD τ).loc b) := fun c b => B12 m c b
/-- After item 12, the host stretch `hostOps4`. -/
abbrev B13 : Dev nD → Valuation τ sig (Elt F) := fun c => StableHlo.after hostOps4 (B12 m c)
abbrev T13 : (c : Dev nD) → (b : Ref sig .tc) → Buf (Elt F) ((c : Thread nD τ).loc b) := fun c b => B13 m c b
/-- After item 13, region 4: its output array `main_v79` at what the pipeline's write-backs leave, every other
    buffer as the region found it. -/
def B14 (c : Dev nD) : Valuation τ sig (Elt F) :=
  Function.update (B13 m c) main_v79 ((dat4 (T13 m) c).arrAt 3 cfg4.N)
theorem B14_out (c : Dev nD) : B14 m c main_v79 = (dat4 (T13 m) c).arrAt 3 cfg4.N := by
  unfold B14; exact Function.update_self ..
theorem B14_of_ne (c : Dev nD) (b : Ref sig .tc) (hb : b ≠ main_v79) : B14 m c b = B13 m c b := by
  unfold B14; exact Function.update_of_ne (StableHlo.devRef_ne_of_ne hb) ..
abbrev T14 : (c : Dev nD) → (b : Ref sig .tc) → Buf (Elt F) ((c : Thread nD τ).loc b) := fun c b => B14 m c b
/-- After item 14, the host stretch `hostOps5`. -/
abbrev B15 : Dev nD → Valuation τ sig (Elt F) := fun c => StableHlo.after hostOps5 (B14 m c)
abbrev T15 : (c : Dev nD) → (b : Ref sig .tc) → Buf (Elt F) ((c : Thread nD τ).loc b) := fun c b => B15 m c b
/-- After item 15, region 5: its output array `main_v108` at what the pipeline's write-backs leave, every other
    buffer as the region found it. -/
def B16 (c : Dev nD) : Valuation τ sig (Elt F) :=
  Function.update (B15 m c) main_v108 ((dat5 (T15 m) c).arrAt 6 cfg5.N)
theorem B16_out (c : Dev nD) : B16 m c main_v108 = (dat5 (T15 m) c).arrAt 6 cfg5.N := by
  unfold B16; exact Function.update_self ..
theorem B16_of_ne (c : Dev nD) (b : Ref sig .tc) (hb : b ≠ main_v108) : B16 m c b = B15 m c b := by
  unfold B16; exact Function.update_of_ne (StableHlo.devRef_ne_of_ne hb) ..
abbrev T16 : (c : Dev nD) → (b : Ref sig .tc) → Buf (Elt F) ((c : Thread nD τ).loc b) := fun c b => B16 m c b
/-- After item 16, the host stretch `hostOps6`. -/
abbrev B17 : Dev nD → Valuation τ sig (Elt F) := fun c => StableHlo.after hostOps6 (B16 m c)
abbrev T17 : (c : Dev nD) → (b : Ref sig .tc) → Buf (Elt F) ((c : Thread nD τ).loc b) := fun c b => B17 m c b
/-- After item 17, region 6: its output array `main_v111` at what the pipeline's write-backs leave, every other
    buffer as the region found it. -/
def B18 (c : Dev nD) : Valuation τ sig (Elt F) :=
  Function.update (B17 m c) main_v111 ((dat6 (T17 m) c).arrAt 3 cfg6.N)
theorem B18_out (c : Dev nD) : B18 m c main_v111 = (dat6 (T17 m) c).arrAt 3 cfg6.N := by
  unfold B18; exact Function.update_self ..
theorem B18_of_ne (c : Dev nD) (b : Ref sig .tc) (hb : b ≠ main_v111) : B18 m c b = B17 m c b := by
  unfold B18; exact Function.update_of_ne (StableHlo.devRef_ne_of_ne hb) ..
abbrev T18 : (c : Dev nD) → (b : Ref sig .tc) → Buf (Elt F) ((c : Thread nD τ).loc b) := fun c b => B18 m c b
/-- After item 18, the host stretch `hostOps7`. -/
abbrev B19 : Dev nD → Valuation τ sig (Elt F) := fun c => StableHlo.after hostOps7 (B18 m c)
abbrev T19 : (c : Dev nD) → (b : Ref sig .tc) → Buf (Elt F) ((c : Thread nD τ).loc b) := fun c b => B19 m c b
/-- After item 19, region 7: its output array `main_v140` at what the pipeline's write-backs leave, every other
    buffer as the region found it. -/
def B20 (c : Dev nD) : Valuation τ sig (Elt F) :=
  Function.update (B19 m c) main_v140 ((dat7 (T19 m) c).arrAt 6 cfg7.N)
theorem B20_out (c : Dev nD) : B20 m c main_v140 = (dat7 (T19 m) c).arrAt 6 cfg7.N := by
  unfold B20; exact Function.update_self ..
theorem B20_of_ne (c : Dev nD) (b : Ref sig .tc) (hb : b ≠ main_v140) : B20 m c b = B19 m c b := by
  unfold B20; exact Function.update_of_ne (StableHlo.devRef_ne_of_ne hb) ..
abbrev T20 : (c : Dev nD) → (b : Ref sig .tc) → Buf (Elt F) ((c : Thread nD τ).loc b) := fun c b => B20 m c b
/-- After item 20, the host stretch `hostOps8`. -/
abbrev B21 : Dev nD → Valuation τ sig (Elt F) := fun c => StableHlo.after hostOps8 (B20 m c)
abbrev T21 : (c : Dev nD) → (b : Ref sig .tc) → Buf (Elt F) ((c : Thread nD τ).loc b) := fun c b => B21 m c b
/-- After item 21, region 8: its output array `main_v143` at what the pipeline's write-backs leave, every other
    buffer as the region found it. -/
def B22 (c : Dev nD) : Valuation τ sig (Elt F) :=
  Function.update (B21 m c) main_v143 ((dat8 (T21 m) c).arrAt 3 cfg8.N)
theorem B22_out (c : Dev nD) : B22 m c main_v143 = (dat8 (T21 m) c).arrAt 3 cfg8.N := by
  unfold B22; exact Function.update_self ..
theorem B22_of_ne (c : Dev nD) (b : Ref sig .tc) (hb : b ≠ main_v143) : B22 m c b = B21 m c b := by
  unfold B22; exact Function.update_of_ne (StableHlo.devRef_ne_of_ne hb) ..
abbrev T22 : (c : Dev nD) → (b : Ref sig .tc) → Buf (Elt F) ((c : Thread nD τ).loc b) := fun c b => B22 m c b
/-- After item 22, the host stretch `hostOps9`. -/
abbrev B23 : Dev nD → Valuation τ sig (Elt F) := fun c => StableHlo.after hostOps9 (B22 m c)
abbrev T23 : (c : Dev nD) → (b : Ref sig .tc) → Buf (Elt F) ((c : Thread nD τ).loc b) := fun c b => B23 m c b
/-- After item 23, region 9: its output array `main_v172` at what the pipeline's write-backs leave, every other
    buffer as the region found it. -/
def B24 (c : Dev nD) : Valuation τ sig (Elt F) :=
  Function.update (B23 m c) main_v172 ((dat9 (T23 m) c).arrAt 6 cfg9.N)
theorem B24_out (c : Dev nD) : B24 m c main_v172 = (dat9 (T23 m) c).arrAt 6 cfg9.N := by
  unfold B24; exact Function.update_self ..
theorem B24_of_ne (c : Dev nD) (b : Ref sig .tc) (hb : b ≠ main_v172) : B24 m c b = B23 m c b := by
  unfold B24; exact Function.update_of_ne (StableHlo.devRef_ne_of_ne hb) ..
abbrev T24 : (c : Dev nD) → (b : Ref sig .tc) → Buf (Elt F) ((c : Thread nD τ).loc b) := fun c b => B24 m c b
/-- After item 24, the host stretch `hostOps10`. -/
abbrev B25 : Dev nD → Valuation τ sig (Elt F) := fun c => StableHlo.after hostOps10 (B24 m c)
abbrev T25 : (c : Dev nD) → (b : Ref sig .tc) → Buf (Elt F) ((c : Thread nD τ).loc b) := fun c b => B25 m c b
/-- After item 25, region 10: its output array `main_v175` at what the pipeline's write-backs leave, every other
    buffer as the region found it. -/
def B26 (c : Dev nD) : Valuation τ sig (Elt F) :=
  Function.update (B25 m c) main_v175 ((dat10 (T25 m) c).arrAt 3 cfg10.N)
theorem B26_out (c : Dev nD) : B26 m c main_v175 = (dat10 (T25 m) c).arrAt 3 cfg10.N := by
  unfold B26; exact Function.update_self ..
theorem B26_of_ne (c : Dev nD) (b : Ref sig .tc) (hb : b ≠ main_v175) : B26 m c b = B25 m c b := by
  unfold B26; exact Function.update_of_ne (StableHlo.devRef_ne_of_ne hb) ..
abbrev T26 : (c : Dev nD) → (b : Ref sig .tc) → Buf (Elt F) ((c : Thread nD τ).loc b) := fun c b => B26 m c b
/-- After item 26, the host stretch `hostOps11`. -/
abbrev B27 : Dev nD → Valuation τ sig (Elt F) := fun c => StableHlo.after hostOps11 (B26 m c)
abbrev T27 : (c : Dev nD) → (b : Ref sig .tc) → Buf (Elt F) ((c : Thread nD τ).loc b) := fun c b => B27 m c b
/-- After item 27, region 11: its output array `main_v204` at what the pipeline's write-backs leave, every other
    buffer as the region found it. -/
def B28 (c : Dev nD) : Valuation τ sig (Elt F) :=
  Function.update (B27 m c) main_v204 ((dat11 (T27 m) c).arrAt 6 cfg11.N)
theorem B28_out (c : Dev nD) : B28 m c main_v204 = (dat11 (T27 m) c).arrAt 6 cfg11.N := by
  unfold B28; exact Function.update_self ..
theorem B28_of_ne (c : Dev nD) (b : Ref sig .tc) (hb : b ≠ main_v204) : B28 m c b = B27 m c b := by
  unfold B28; exact Function.update_of_ne (StableHlo.devRef_ne_of_ne hb) ..
abbrev T28 : (c : Dev nD) → (b : Ref sig .tc) → Buf (Elt F) ((c : Thread nD τ).loc b) := fun c b => B28 m c b
/-- After item 28, the host stretch `hostOps12`. -/
abbrev B29 : Dev nD → Valuation τ sig (Elt F) := fun c => StableHlo.after hostOps12 (B28 m c)
abbrev T29 : (c : Dev nD) → (b : Ref sig .tc) → Buf (Elt F) ((c : Thread nD τ).loc b) := fun c b => B29 m c b
/-- After item 29, region 12: its output array `main_v207` at what the pipeline's write-backs leave, every other
    buffer as the region found it. -/
def B30 (c : Dev nD) : Valuation τ sig (Elt F) :=
  Function.update (B29 m c) main_v207 ((dat12 (T29 m) c).arrAt 3 cfg12.N)
theorem B30_out (c : Dev nD) : B30 m c main_v207 = (dat12 (T29 m) c).arrAt 3 cfg12.N := by
  unfold B30; exact Function.update_self ..
theorem B30_of_ne (c : Dev nD) (b : Ref sig .tc) (hb : b ≠ main_v207) : B30 m c b = B29 m c b := by
  unfold B30; exact Function.update_of_ne (StableHlo.devRef_ne_of_ne hb) ..
abbrev T30 : (c : Dev nD) → (b : Ref sig .tc) → Buf (Elt F) ((c : Thread nD τ).loc b) := fun c b => B30 m c b

/-! ## At a region's exit each of its arrays holds what the pipeline leaves, and every other buffer what it held -/

set_option maxHeartbeats 4000000 in
theorem hF0 (c : Dev nD) : ∀ w : Fin cfg0.W, (dat0 (T5 m) c).arrAt w cfg0.N = T6 m c (Pipeline.arrRef spec0 w) := fun
  | 0 => (((dat0 (T5 m) c).arrAt_in 0 rfl _).trans (A_eq0 (T5 m) c 0)).trans (B6_of_ne m c _ (by decide)).symm
  | 1 => (((dat0 (T5 m) c).arrAt_in 1 rfl _).trans (A_eq0 (T5 m) c 1)).trans (B6_of_ne m c _ (by decide)).symm
  | 2 => (((dat0 (T5 m) c).arrAt_in 2 rfl _).trans (A_eq0 (T5 m) c 2)).trans (B6_of_ne m c _ (by decide)).symm
  | 3 => (B6_out m c).symm
  | ⟨_ + 4, h⟩ => absurd h (Nat.not_lt.2 (Nat.le_add_left _ _))
theorem hrest0 (c : Dev nD) : ∀ b, b ∉ Finset.univ.image (Pipeline.arrRef spec0) → T6 m c b = T5 m c b :=
  fun b hb => B6_of_ne m c b fun e => hb (Finset.mem_image.mpr ⟨3, Finset.mem_univ _, e.symm⟩)

set_option maxHeartbeats 4000000 in
theorem hF1 (c : Dev nD) : ∀ w : Fin cfg1.W, (dat1 (T7 m) c).arrAt w cfg1.N = T8 m c (Pipeline.arrRef spec1 w) := fun
  | 0 => (((dat1 (T7 m) c).arrAt_in 0 rfl _).trans (A_eq1 (T7 m) c 0)).trans (B8_of_ne m c _ (by decide)).symm
  | 1 => (((dat1 (T7 m) c).arrAt_in 1 rfl _).trans (A_eq1 (T7 m) c 1)).trans (B8_of_ne m c _ (by decide)).symm
  | 2 => (((dat1 (T7 m) c).arrAt_in 2 rfl _).trans (A_eq1 (T7 m) c 2)).trans (B8_of_ne m c _ (by decide)).symm
  | 3 => (((dat1 (T7 m) c).arrAt_in 3 rfl _).trans (A_eq1 (T7 m) c 3)).trans (B8_of_ne m c _ (by decide)).symm
  | 4 => (((dat1 (T7 m) c).arrAt_in 4 rfl _).trans (A_eq1 (T7 m) c 4)).trans (B8_of_ne m c _ (by decide)).symm
  | 5 => (((dat1 (T7 m) c).arrAt_in 5 rfl _).trans (A_eq1 (T7 m) c 5)).trans (B8_of_ne m c _ (by decide)).symm
  | 6 => (B8_out m c).symm
  | ⟨_ + 7, h⟩ => absurd h (Nat.not_lt.2 (Nat.le_add_left _ _))
theorem hrest1 (c : Dev nD) : ∀ b, b ∉ Finset.univ.image (Pipeline.arrRef spec1) → T8 m c b = T7 m c b :=
  fun b hb => B8_of_ne m c b fun e => hb (Finset.mem_image.mpr ⟨6, Finset.mem_univ _, e.symm⟩)

set_option maxHeartbeats 4000000 in
theorem hF2 (c : Dev nD) : ∀ w : Fin cfg2.W, (dat2 (T9 m) c).arrAt w cfg2.N = T10 m c (Pipeline.arrRef spec2 w) := fun
  | 0 => (((dat2 (T9 m) c).arrAt_in 0 rfl _).trans (A_eq2 (T9 m) c 0)).trans (B10_of_ne m c _ (by decide)).symm
  | 1 => (((dat2 (T9 m) c).arrAt_in 1 rfl _).trans (A_eq2 (T9 m) c 1)).trans (B10_of_ne m c _ (by decide)).symm
  | 2 => (((dat2 (T9 m) c).arrAt_in 2 rfl _).trans (A_eq2 (T9 m) c 2)).trans (B10_of_ne m c _ (by decide)).symm
  | 3 => (B10_out m c).symm
  | ⟨_ + 4, h⟩ => absurd h (Nat.not_lt.2 (Nat.le_add_left _ _))
theorem hrest2 (c : Dev nD) : ∀ b, b ∉ Finset.univ.image (Pipeline.arrRef spec2) → T10 m c b = T9 m c b :=
  fun b hb => B10_of_ne m c b fun e => hb (Finset.mem_image.mpr ⟨3, Finset.mem_univ _, e.symm⟩)

set_option maxHeartbeats 4000000 in
theorem hF3 (c : Dev nD) : ∀ w : Fin cfg3.W, (dat3 (T11 m) c).arrAt w cfg3.N = T12 m c (Pipeline.arrRef spec3 w) := fun
  | 0 => (((dat3 (T11 m) c).arrAt_in 0 rfl _).trans (A_eq3 (T11 m) c 0)).trans (B12_of_ne m c _ (by decide)).symm
  | 1 => (((dat3 (T11 m) c).arrAt_in 1 rfl _).trans (A_eq3 (T11 m) c 1)).trans (B12_of_ne m c _ (by decide)).symm
  | 2 => (((dat3 (T11 m) c).arrAt_in 2 rfl _).trans (A_eq3 (T11 m) c 2)).trans (B12_of_ne m c _ (by decide)).symm
  | 3 => (((dat3 (T11 m) c).arrAt_in 3 rfl _).trans (A_eq3 (T11 m) c 3)).trans (B12_of_ne m c _ (by decide)).symm
  | 4 => (((dat3 (T11 m) c).arrAt_in 4 rfl _).trans (A_eq3 (T11 m) c 4)).trans (B12_of_ne m c _ (by decide)).symm
  | 5 => (((dat3 (T11 m) c).arrAt_in 5 rfl _).trans (A_eq3 (T11 m) c 5)).trans (B12_of_ne m c _ (by decide)).symm
  | 6 => (B12_out m c).symm
  | ⟨_ + 7, h⟩ => absurd h (Nat.not_lt.2 (Nat.le_add_left _ _))
theorem hrest3 (c : Dev nD) : ∀ b, b ∉ Finset.univ.image (Pipeline.arrRef spec3) → T12 m c b = T11 m c b :=
  fun b hb => B12_of_ne m c b fun e => hb (Finset.mem_image.mpr ⟨6, Finset.mem_univ _, e.symm⟩)

set_option maxHeartbeats 4000000 in
theorem hF4 (c : Dev nD) : ∀ w : Fin cfg4.W, (dat4 (T13 m) c).arrAt w cfg4.N = T14 m c (Pipeline.arrRef spec4 w) := fun
  | 0 => (((dat4 (T13 m) c).arrAt_in 0 rfl _).trans (A_eq4 (T13 m) c 0)).trans (B14_of_ne m c _ (by decide)).symm
  | 1 => (((dat4 (T13 m) c).arrAt_in 1 rfl _).trans (A_eq4 (T13 m) c 1)).trans (B14_of_ne m c _ (by decide)).symm
  | 2 => (((dat4 (T13 m) c).arrAt_in 2 rfl _).trans (A_eq4 (T13 m) c 2)).trans (B14_of_ne m c _ (by decide)).symm
  | 3 => (B14_out m c).symm
  | ⟨_ + 4, h⟩ => absurd h (Nat.not_lt.2 (Nat.le_add_left _ _))
theorem hrest4 (c : Dev nD) : ∀ b, b ∉ Finset.univ.image (Pipeline.arrRef spec4) → T14 m c b = T13 m c b :=
  fun b hb => B14_of_ne m c b fun e => hb (Finset.mem_image.mpr ⟨3, Finset.mem_univ _, e.symm⟩)

set_option maxHeartbeats 4000000 in
theorem hF5 (c : Dev nD) : ∀ w : Fin cfg5.W, (dat5 (T15 m) c).arrAt w cfg5.N = T16 m c (Pipeline.arrRef spec5 w) := fun
  | 0 => (((dat5 (T15 m) c).arrAt_in 0 rfl _).trans (A_eq5 (T15 m) c 0)).trans (B16_of_ne m c _ (by decide)).symm
  | 1 => (((dat5 (T15 m) c).arrAt_in 1 rfl _).trans (A_eq5 (T15 m) c 1)).trans (B16_of_ne m c _ (by decide)).symm
  | 2 => (((dat5 (T15 m) c).arrAt_in 2 rfl _).trans (A_eq5 (T15 m) c 2)).trans (B16_of_ne m c _ (by decide)).symm
  | 3 => (((dat5 (T15 m) c).arrAt_in 3 rfl _).trans (A_eq5 (T15 m) c 3)).trans (B16_of_ne m c _ (by decide)).symm
  | 4 => (((dat5 (T15 m) c).arrAt_in 4 rfl _).trans (A_eq5 (T15 m) c 4)).trans (B16_of_ne m c _ (by decide)).symm
  | 5 => (((dat5 (T15 m) c).arrAt_in 5 rfl _).trans (A_eq5 (T15 m) c 5)).trans (B16_of_ne m c _ (by decide)).symm
  | 6 => (B16_out m c).symm
  | ⟨_ + 7, h⟩ => absurd h (Nat.not_lt.2 (Nat.le_add_left _ _))
theorem hrest5 (c : Dev nD) : ∀ b, b ∉ Finset.univ.image (Pipeline.arrRef spec5) → T16 m c b = T15 m c b :=
  fun b hb => B16_of_ne m c b fun e => hb (Finset.mem_image.mpr ⟨6, Finset.mem_univ _, e.symm⟩)

set_option maxHeartbeats 4000000 in
theorem hF6 (c : Dev nD) : ∀ w : Fin cfg6.W, (dat6 (T17 m) c).arrAt w cfg6.N = T18 m c (Pipeline.arrRef spec6 w) := fun
  | 0 => (((dat6 (T17 m) c).arrAt_in 0 rfl _).trans (A_eq6 (T17 m) c 0)).trans (B18_of_ne m c _ (by decide)).symm
  | 1 => (((dat6 (T17 m) c).arrAt_in 1 rfl _).trans (A_eq6 (T17 m) c 1)).trans (B18_of_ne m c _ (by decide)).symm
  | 2 => (((dat6 (T17 m) c).arrAt_in 2 rfl _).trans (A_eq6 (T17 m) c 2)).trans (B18_of_ne m c _ (by decide)).symm
  | 3 => (B18_out m c).symm
  | ⟨_ + 4, h⟩ => absurd h (Nat.not_lt.2 (Nat.le_add_left _ _))
theorem hrest6 (c : Dev nD) : ∀ b, b ∉ Finset.univ.image (Pipeline.arrRef spec6) → T18 m c b = T17 m c b :=
  fun b hb => B18_of_ne m c b fun e => hb (Finset.mem_image.mpr ⟨3, Finset.mem_univ _, e.symm⟩)

set_option maxHeartbeats 4000000 in
theorem hF7 (c : Dev nD) : ∀ w : Fin cfg7.W, (dat7 (T19 m) c).arrAt w cfg7.N = T20 m c (Pipeline.arrRef spec7 w) := fun
  | 0 => (((dat7 (T19 m) c).arrAt_in 0 rfl _).trans (A_eq7 (T19 m) c 0)).trans (B20_of_ne m c _ (by decide)).symm
  | 1 => (((dat7 (T19 m) c).arrAt_in 1 rfl _).trans (A_eq7 (T19 m) c 1)).trans (B20_of_ne m c _ (by decide)).symm
  | 2 => (((dat7 (T19 m) c).arrAt_in 2 rfl _).trans (A_eq7 (T19 m) c 2)).trans (B20_of_ne m c _ (by decide)).symm
  | 3 => (((dat7 (T19 m) c).arrAt_in 3 rfl _).trans (A_eq7 (T19 m) c 3)).trans (B20_of_ne m c _ (by decide)).symm
  | 4 => (((dat7 (T19 m) c).arrAt_in 4 rfl _).trans (A_eq7 (T19 m) c 4)).trans (B20_of_ne m c _ (by decide)).symm
  | 5 => (((dat7 (T19 m) c).arrAt_in 5 rfl _).trans (A_eq7 (T19 m) c 5)).trans (B20_of_ne m c _ (by decide)).symm
  | 6 => (B20_out m c).symm
  | ⟨_ + 7, h⟩ => absurd h (Nat.not_lt.2 (Nat.le_add_left _ _))
theorem hrest7 (c : Dev nD) : ∀ b, b ∉ Finset.univ.image (Pipeline.arrRef spec7) → T20 m c b = T19 m c b :=
  fun b hb => B20_of_ne m c b fun e => hb (Finset.mem_image.mpr ⟨6, Finset.mem_univ _, e.symm⟩)

set_option maxHeartbeats 4000000 in
theorem hF8 (c : Dev nD) : ∀ w : Fin cfg8.W, (dat8 (T21 m) c).arrAt w cfg8.N = T22 m c (Pipeline.arrRef spec8 w) := fun
  | 0 => (((dat8 (T21 m) c).arrAt_in 0 rfl _).trans (A_eq8 (T21 m) c 0)).trans (B22_of_ne m c _ (by decide)).symm
  | 1 => (((dat8 (T21 m) c).arrAt_in 1 rfl _).trans (A_eq8 (T21 m) c 1)).trans (B22_of_ne m c _ (by decide)).symm
  | 2 => (((dat8 (T21 m) c).arrAt_in 2 rfl _).trans (A_eq8 (T21 m) c 2)).trans (B22_of_ne m c _ (by decide)).symm
  | 3 => (B22_out m c).symm
  | ⟨_ + 4, h⟩ => absurd h (Nat.not_lt.2 (Nat.le_add_left _ _))
theorem hrest8 (c : Dev nD) : ∀ b, b ∉ Finset.univ.image (Pipeline.arrRef spec8) → T22 m c b = T21 m c b :=
  fun b hb => B22_of_ne m c b fun e => hb (Finset.mem_image.mpr ⟨3, Finset.mem_univ _, e.symm⟩)

set_option maxHeartbeats 4000000 in
theorem hF9 (c : Dev nD) : ∀ w : Fin cfg9.W, (dat9 (T23 m) c).arrAt w cfg9.N = T24 m c (Pipeline.arrRef spec9 w) := fun
  | 0 => (((dat9 (T23 m) c).arrAt_in 0 rfl _).trans (A_eq9 (T23 m) c 0)).trans (B24_of_ne m c _ (by decide)).symm
  | 1 => (((dat9 (T23 m) c).arrAt_in 1 rfl _).trans (A_eq9 (T23 m) c 1)).trans (B24_of_ne m c _ (by decide)).symm
  | 2 => (((dat9 (T23 m) c).arrAt_in 2 rfl _).trans (A_eq9 (T23 m) c 2)).trans (B24_of_ne m c _ (by decide)).symm
  | 3 => (((dat9 (T23 m) c).arrAt_in 3 rfl _).trans (A_eq9 (T23 m) c 3)).trans (B24_of_ne m c _ (by decide)).symm
  | 4 => (((dat9 (T23 m) c).arrAt_in 4 rfl _).trans (A_eq9 (T23 m) c 4)).trans (B24_of_ne m c _ (by decide)).symm
  | 5 => (((dat9 (T23 m) c).arrAt_in 5 rfl _).trans (A_eq9 (T23 m) c 5)).trans (B24_of_ne m c _ (by decide)).symm
  | 6 => (B24_out m c).symm
  | ⟨_ + 7, h⟩ => absurd h (Nat.not_lt.2 (Nat.le_add_left _ _))
theorem hrest9 (c : Dev nD) : ∀ b, b ∉ Finset.univ.image (Pipeline.arrRef spec9) → T24 m c b = T23 m c b :=
  fun b hb => B24_of_ne m c b fun e => hb (Finset.mem_image.mpr ⟨6, Finset.mem_univ _, e.symm⟩)

set_option maxHeartbeats 4000000 in
theorem hF10 (c : Dev nD) : ∀ w : Fin cfg10.W, (dat10 (T25 m) c).arrAt w cfg10.N = T26 m c (Pipeline.arrRef spec10 w) := fun
  | 0 => (((dat10 (T25 m) c).arrAt_in 0 rfl _).trans (A_eq10 (T25 m) c 0)).trans (B26_of_ne m c _ (by decide)).symm
  | 1 => (((dat10 (T25 m) c).arrAt_in 1 rfl _).trans (A_eq10 (T25 m) c 1)).trans (B26_of_ne m c _ (by decide)).symm
  | 2 => (((dat10 (T25 m) c).arrAt_in 2 rfl _).trans (A_eq10 (T25 m) c 2)).trans (B26_of_ne m c _ (by decide)).symm
  | 3 => (B26_out m c).symm
  | ⟨_ + 4, h⟩ => absurd h (Nat.not_lt.2 (Nat.le_add_left _ _))
theorem hrest10 (c : Dev nD) : ∀ b, b ∉ Finset.univ.image (Pipeline.arrRef spec10) → T26 m c b = T25 m c b :=
  fun b hb => B26_of_ne m c b fun e => hb (Finset.mem_image.mpr ⟨3, Finset.mem_univ _, e.symm⟩)

set_option maxHeartbeats 4000000 in
theorem hF11 (c : Dev nD) : ∀ w : Fin cfg11.W, (dat11 (T27 m) c).arrAt w cfg11.N = T28 m c (Pipeline.arrRef spec11 w) := fun
  | 0 => (((dat11 (T27 m) c).arrAt_in 0 rfl _).trans (A_eq11 (T27 m) c 0)).trans (B28_of_ne m c _ (by decide)).symm
  | 1 => (((dat11 (T27 m) c).arrAt_in 1 rfl _).trans (A_eq11 (T27 m) c 1)).trans (B28_of_ne m c _ (by decide)).symm
  | 2 => (((dat11 (T27 m) c).arrAt_in 2 rfl _).trans (A_eq11 (T27 m) c 2)).trans (B28_of_ne m c _ (by decide)).symm
  | 3 => (((dat11 (T27 m) c).arrAt_in 3 rfl _).trans (A_eq11 (T27 m) c 3)).trans (B28_of_ne m c _ (by decide)).symm
  | 4 => (((dat11 (T27 m) c).arrAt_in 4 rfl _).trans (A_eq11 (T27 m) c 4)).trans (B28_of_ne m c _ (by decide)).symm
  | 5 => (((dat11 (T27 m) c).arrAt_in 5 rfl _).trans (A_eq11 (T27 m) c 5)).trans (B28_of_ne m c _ (by decide)).symm
  | 6 => (B28_out m c).symm
  | ⟨_ + 7, h⟩ => absurd h (Nat.not_lt.2 (Nat.le_add_left _ _))
theorem hrest11 (c : Dev nD) : ∀ b, b ∉ Finset.univ.image (Pipeline.arrRef spec11) → T28 m c b = T27 m c b :=
  fun b hb => B28_of_ne m c b fun e => hb (Finset.mem_image.mpr ⟨6, Finset.mem_univ _, e.symm⟩)

set_option maxHeartbeats 4000000 in
theorem hF12 (c : Dev nD) : ∀ w : Fin cfg12.W, (dat12 (T29 m) c).arrAt w cfg12.N = T30 m c (Pipeline.arrRef spec12 w) := fun
  | 0 => (((dat12 (T29 m) c).arrAt_in 0 rfl _).trans (A_eq12 (T29 m) c 0)).trans (B30_of_ne m c _ (by decide)).symm
  | 1 => (((dat12 (T29 m) c).arrAt_in 1 rfl _).trans (A_eq12 (T29 m) c 1)).trans (B30_of_ne m c _ (by decide)).symm
  | 2 => (((dat12 (T29 m) c).arrAt_in 2 rfl _).trans (A_eq12 (T29 m) c 2)).trans (B30_of_ne m c _ (by decide)).symm
  | 3 => (B30_out m c).symm
  | ⟨_ + 4, h⟩ => absurd h (Nat.not_lt.2 (Nat.le_add_left _ _))
theorem hrest12 (c : Dev nD) : ∀ b, b ∉ Finset.univ.image (Pipeline.arrRef spec12) → T30 m c b = T29 m c b :=
  fun b hb => B30_of_ne m c b fun e => hb (Finset.mem_image.mpr ⟨3, Finset.mem_univ _, e.symm⟩)

/-! ## No item writes an argument array -/

theorem B30_main_arg0 (c : Dev nD) : B30 m c main_arg0 = m ((c : Thread nD τ).loc main_arg0) :=
  (B30_of_ne m c main_arg0 (by decide)).trans <|
  (StableHlo.after_of_writes_sub hostOps12 (B28 m c) hostOps12_writes (r := main_arg0) (by decide)).trans <|
  (B28_of_ne m c main_arg0 (by decide)).trans <|
  (StableHlo.after_of_writes_sub hostOps11 (B26 m c) hostOps11_writes (r := main_arg0) (by decide)).trans <|
  (B26_of_ne m c main_arg0 (by decide)).trans <|
  (StableHlo.after_of_writes_sub hostOps10 (B24 m c) hostOps10_writes (r := main_arg0) (by decide)).trans <|
  (B24_of_ne m c main_arg0 (by decide)).trans <|
  (StableHlo.after_of_writes_sub hostOps9 (B22 m c) hostOps9_writes (r := main_arg0) (by decide)).trans <|
  (B22_of_ne m c main_arg0 (by decide)).trans <|
  (StableHlo.after_of_writes_sub hostOps8 (B20 m c) hostOps8_writes (r := main_arg0) (by decide)).trans <|
  (B20_of_ne m c main_arg0 (by decide)).trans <|
  (StableHlo.after_of_writes_sub hostOps7 (B18 m c) hostOps7_writes (r := main_arg0) (by decide)).trans <|
  (B18_of_ne m c main_arg0 (by decide)).trans <|
  (StableHlo.after_of_writes_sub hostOps6 (B16 m c) hostOps6_writes (r := main_arg0) (by decide)).trans <|
  (B16_of_ne m c main_arg0 (by decide)).trans <|
  (StableHlo.after_of_writes_sub hostOps5 (B14 m c) hostOps5_writes (r := main_arg0) (by decide)).trans <|
  (B14_of_ne m c main_arg0 (by decide)).trans <|
  (StableHlo.after_of_writes_sub hostOps4 (B12 m c) hostOps4_writes (r := main_arg0) (by decide)).trans <|
  (B12_of_ne m c main_arg0 (by decide)).trans <|
  (StableHlo.after_of_writes_sub hostOps3 (B10 m c) hostOps3_writes (r := main_arg0) (by decide)).trans <|
  (B10_of_ne m c main_arg0 (by decide)).trans <|
  (StableHlo.after_of_writes_sub hostOps2 (B8 m c) hostOps2_writes (r := main_arg0) (by decide)).trans <|
  (B8_of_ne m c main_arg0 (by decide)).trans <|
  (StableHlo.after_of_writes_sub hostOps1 (B6 m c) hostOps1_writes (r := main_arg0) (by decide)).trans <|
  (B6_of_ne m c main_arg0 (by decide)).trans <|
  (StableHlo.after_of_writes_sub hostOps0_4 (B4 m c) hostOps0_4_writes (r := main_arg0) (by decide)).trans <|
  (StableHlo.after_of_writes_sub hostOps0_3 (B3 m c) hostOps0_3_writes (r := main_arg0) (by decide)).trans <|
  (StableHlo.after_of_writes_sub hostOps0_2 (B2 m c) hostOps0_2_writes (r := main_arg0) (by decide)).trans <|
  (StableHlo.after_of_writes_sub hostOps0_1 (B1 m c) hostOps0_1_writes (r := main_arg0) (by decide)).trans <|
  (StableHlo.after_of_writes_sub hostOps0 (B0 m c) hostOps0_writes (r := main_arg0) (by decide)).trans <| rfl

theorem B30_main_arg1 (c : Dev nD) : B30 m c main_arg1 = m ((c : Thread nD τ).loc main_arg1) :=
  (B30_of_ne m c main_arg1 (by decide)).trans <|
  (StableHlo.after_of_writes_sub hostOps12 (B28 m c) hostOps12_writes (r := main_arg1) (by decide)).trans <|
  (B28_of_ne m c main_arg1 (by decide)).trans <|
  (StableHlo.after_of_writes_sub hostOps11 (B26 m c) hostOps11_writes (r := main_arg1) (by decide)).trans <|
  (B26_of_ne m c main_arg1 (by decide)).trans <|
  (StableHlo.after_of_writes_sub hostOps10 (B24 m c) hostOps10_writes (r := main_arg1) (by decide)).trans <|
  (B24_of_ne m c main_arg1 (by decide)).trans <|
  (StableHlo.after_of_writes_sub hostOps9 (B22 m c) hostOps9_writes (r := main_arg1) (by decide)).trans <|
  (B22_of_ne m c main_arg1 (by decide)).trans <|
  (StableHlo.after_of_writes_sub hostOps8 (B20 m c) hostOps8_writes (r := main_arg1) (by decide)).trans <|
  (B20_of_ne m c main_arg1 (by decide)).trans <|
  (StableHlo.after_of_writes_sub hostOps7 (B18 m c) hostOps7_writes (r := main_arg1) (by decide)).trans <|
  (B18_of_ne m c main_arg1 (by decide)).trans <|
  (StableHlo.after_of_writes_sub hostOps6 (B16 m c) hostOps6_writes (r := main_arg1) (by decide)).trans <|
  (B16_of_ne m c main_arg1 (by decide)).trans <|
  (StableHlo.after_of_writes_sub hostOps5 (B14 m c) hostOps5_writes (r := main_arg1) (by decide)).trans <|
  (B14_of_ne m c main_arg1 (by decide)).trans <|
  (StableHlo.after_of_writes_sub hostOps4 (B12 m c) hostOps4_writes (r := main_arg1) (by decide)).trans <|
  (B12_of_ne m c main_arg1 (by decide)).trans <|
  (StableHlo.after_of_writes_sub hostOps3 (B10 m c) hostOps3_writes (r := main_arg1) (by decide)).trans <|
  (B10_of_ne m c main_arg1 (by decide)).trans <|
  (StableHlo.after_of_writes_sub hostOps2 (B8 m c) hostOps2_writes (r := main_arg1) (by decide)).trans <|
  (B8_of_ne m c main_arg1 (by decide)).trans <|
  (StableHlo.after_of_writes_sub hostOps1 (B6 m c) hostOps1_writes (r := main_arg1) (by decide)).trans <|
  (B6_of_ne m c main_arg1 (by decide)).trans <|
  (StableHlo.after_of_writes_sub hostOps0_4 (B4 m c) hostOps0_4_writes (r := main_arg1) (by decide)).trans <|
  (StableHlo.after_of_writes_sub hostOps0_3 (B3 m c) hostOps0_3_writes (r := main_arg1) (by decide)).trans <|
  (StableHlo.after_of_writes_sub hostOps0_2 (B2 m c) hostOps0_2_writes (r := main_arg1) (by decide)).trans <|
  (StableHlo.after_of_writes_sub hostOps0_1 (B1 m c) hostOps0_1_writes (r := main_arg1) (by decide)).trans <|
  (StableHlo.after_of_writes_sub hostOps0 (B0 m c) hostOps0_writes (r := main_arg1) (by decide)).trans <| rfl

theorem B30_main_arg2 (c : Dev nD) : B30 m c main_arg2 = m ((c : Thread nD τ).loc main_arg2) :=
  (B30_of_ne m c main_arg2 (by decide)).trans <|
  (StableHlo.after_of_writes_sub hostOps12 (B28 m c) hostOps12_writes (r := main_arg2) (by decide)).trans <|
  (B28_of_ne m c main_arg2 (by decide)).trans <|
  (StableHlo.after_of_writes_sub hostOps11 (B26 m c) hostOps11_writes (r := main_arg2) (by decide)).trans <|
  (B26_of_ne m c main_arg2 (by decide)).trans <|
  (StableHlo.after_of_writes_sub hostOps10 (B24 m c) hostOps10_writes (r := main_arg2) (by decide)).trans <|
  (B24_of_ne m c main_arg2 (by decide)).trans <|
  (StableHlo.after_of_writes_sub hostOps9 (B22 m c) hostOps9_writes (r := main_arg2) (by decide)).trans <|
  (B22_of_ne m c main_arg2 (by decide)).trans <|
  (StableHlo.after_of_writes_sub hostOps8 (B20 m c) hostOps8_writes (r := main_arg2) (by decide)).trans <|
  (B20_of_ne m c main_arg2 (by decide)).trans <|
  (StableHlo.after_of_writes_sub hostOps7 (B18 m c) hostOps7_writes (r := main_arg2) (by decide)).trans <|
  (B18_of_ne m c main_arg2 (by decide)).trans <|
  (StableHlo.after_of_writes_sub hostOps6 (B16 m c) hostOps6_writes (r := main_arg2) (by decide)).trans <|
  (B16_of_ne m c main_arg2 (by decide)).trans <|
  (StableHlo.after_of_writes_sub hostOps5 (B14 m c) hostOps5_writes (r := main_arg2) (by decide)).trans <|
  (B14_of_ne m c main_arg2 (by decide)).trans <|
  (StableHlo.after_of_writes_sub hostOps4 (B12 m c) hostOps4_writes (r := main_arg2) (by decide)).trans <|
  (B12_of_ne m c main_arg2 (by decide)).trans <|
  (StableHlo.after_of_writes_sub hostOps3 (B10 m c) hostOps3_writes (r := main_arg2) (by decide)).trans <|
  (B10_of_ne m c main_arg2 (by decide)).trans <|
  (StableHlo.after_of_writes_sub hostOps2 (B8 m c) hostOps2_writes (r := main_arg2) (by decide)).trans <|
  (B8_of_ne m c main_arg2 (by decide)).trans <|
  (StableHlo.after_of_writes_sub hostOps1 (B6 m c) hostOps1_writes (r := main_arg2) (by decide)).trans <|
  (B6_of_ne m c main_arg2 (by decide)).trans <|
  (StableHlo.after_of_writes_sub hostOps0_4 (B4 m c) hostOps0_4_writes (r := main_arg2) (by decide)).trans <|
  (StableHlo.after_of_writes_sub hostOps0_3 (B3 m c) hostOps0_3_writes (r := main_arg2) (by decide)).trans <|
  (StableHlo.after_of_writes_sub hostOps0_2 (B2 m c) hostOps0_2_writes (r := main_arg2) (by decide)).trans <|
  (StableHlo.after_of_writes_sub hostOps0_1 (B1 m c) hostOps0_1_writes (r := main_arg2) (by decide)).trans <|
  (StableHlo.after_of_writes_sub hostOps0 (B0 m c) hostOps0_writes (r := main_arg2) (by decide)).trans <| rfl

theorem B30_main_arg3 (c : Dev nD) : B30 m c main_arg3 = m ((c : Thread nD τ).loc main_arg3) :=
  (B30_of_ne m c main_arg3 (by decide)).trans <|
  (StableHlo.after_of_writes_sub hostOps12 (B28 m c) hostOps12_writes (r := main_arg3) (by decide)).trans <|
  (B28_of_ne m c main_arg3 (by decide)).trans <|
  (StableHlo.after_of_writes_sub hostOps11 (B26 m c) hostOps11_writes (r := main_arg3) (by decide)).trans <|
  (B26_of_ne m c main_arg3 (by decide)).trans <|
  (StableHlo.after_of_writes_sub hostOps10 (B24 m c) hostOps10_writes (r := main_arg3) (by decide)).trans <|
  (B24_of_ne m c main_arg3 (by decide)).trans <|
  (StableHlo.after_of_writes_sub hostOps9 (B22 m c) hostOps9_writes (r := main_arg3) (by decide)).trans <|
  (B22_of_ne m c main_arg3 (by decide)).trans <|
  (StableHlo.after_of_writes_sub hostOps8 (B20 m c) hostOps8_writes (r := main_arg3) (by decide)).trans <|
  (B20_of_ne m c main_arg3 (by decide)).trans <|
  (StableHlo.after_of_writes_sub hostOps7 (B18 m c) hostOps7_writes (r := main_arg3) (by decide)).trans <|
  (B18_of_ne m c main_arg3 (by decide)).trans <|
  (StableHlo.after_of_writes_sub hostOps6 (B16 m c) hostOps6_writes (r := main_arg3) (by decide)).trans <|
  (B16_of_ne m c main_arg3 (by decide)).trans <|
  (StableHlo.after_of_writes_sub hostOps5 (B14 m c) hostOps5_writes (r := main_arg3) (by decide)).trans <|
  (B14_of_ne m c main_arg3 (by decide)).trans <|
  (StableHlo.after_of_writes_sub hostOps4 (B12 m c) hostOps4_writes (r := main_arg3) (by decide)).trans <|
  (B12_of_ne m c main_arg3 (by decide)).trans <|
  (StableHlo.after_of_writes_sub hostOps3 (B10 m c) hostOps3_writes (r := main_arg3) (by decide)).trans <|
  (B10_of_ne m c main_arg3 (by decide)).trans <|
  (StableHlo.after_of_writes_sub hostOps2 (B8 m c) hostOps2_writes (r := main_arg3) (by decide)).trans <|
  (B8_of_ne m c main_arg3 (by decide)).trans <|
  (StableHlo.after_of_writes_sub hostOps1 (B6 m c) hostOps1_writes (r := main_arg3) (by decide)).trans <|
  (B6_of_ne m c main_arg3 (by decide)).trans <|
  (StableHlo.after_of_writes_sub hostOps0_4 (B4 m c) hostOps0_4_writes (r := main_arg3) (by decide)).trans <|
  (StableHlo.after_of_writes_sub hostOps0_3 (B3 m c) hostOps0_3_writes (r := main_arg3) (by decide)).trans <|
  (StableHlo.after_of_writes_sub hostOps0_2 (B2 m c) hostOps0_2_writes (r := main_arg3) (by decide)).trans <|
  (StableHlo.after_of_writes_sub hostOps0_1 (B1 m c) hostOps0_1_writes (r := main_arg3) (by decide)).trans <|
  (StableHlo.after_of_writes_sub hostOps0 (B0 m c) hostOps0_writes (r := main_arg3) (by decide)).trans <| rfl

theorem B30_main_arg4 (c : Dev nD) : B30 m c main_arg4 = m ((c : Thread nD τ).loc main_arg4) :=
  (B30_of_ne m c main_arg4 (by decide)).trans <|
  (StableHlo.after_of_writes_sub hostOps12 (B28 m c) hostOps12_writes (r := main_arg4) (by decide)).trans <|
  (B28_of_ne m c main_arg4 (by decide)).trans <|
  (StableHlo.after_of_writes_sub hostOps11 (B26 m c) hostOps11_writes (r := main_arg4) (by decide)).trans <|
  (B26_of_ne m c main_arg4 (by decide)).trans <|
  (StableHlo.after_of_writes_sub hostOps10 (B24 m c) hostOps10_writes (r := main_arg4) (by decide)).trans <|
  (B24_of_ne m c main_arg4 (by decide)).trans <|
  (StableHlo.after_of_writes_sub hostOps9 (B22 m c) hostOps9_writes (r := main_arg4) (by decide)).trans <|
  (B22_of_ne m c main_arg4 (by decide)).trans <|
  (StableHlo.after_of_writes_sub hostOps8 (B20 m c) hostOps8_writes (r := main_arg4) (by decide)).trans <|
  (B20_of_ne m c main_arg4 (by decide)).trans <|
  (StableHlo.after_of_writes_sub hostOps7 (B18 m c) hostOps7_writes (r := main_arg4) (by decide)).trans <|
  (B18_of_ne m c main_arg4 (by decide)).trans <|
  (StableHlo.after_of_writes_sub hostOps6 (B16 m c) hostOps6_writes (r := main_arg4) (by decide)).trans <|
  (B16_of_ne m c main_arg4 (by decide)).trans <|
  (StableHlo.after_of_writes_sub hostOps5 (B14 m c) hostOps5_writes (r := main_arg4) (by decide)).trans <|
  (B14_of_ne m c main_arg4 (by decide)).trans <|
  (StableHlo.after_of_writes_sub hostOps4 (B12 m c) hostOps4_writes (r := main_arg4) (by decide)).trans <|
  (B12_of_ne m c main_arg4 (by decide)).trans <|
  (StableHlo.after_of_writes_sub hostOps3 (B10 m c) hostOps3_writes (r := main_arg4) (by decide)).trans <|
  (B10_of_ne m c main_arg4 (by decide)).trans <|
  (StableHlo.after_of_writes_sub hostOps2 (B8 m c) hostOps2_writes (r := main_arg4) (by decide)).trans <|
  (B8_of_ne m c main_arg4 (by decide)).trans <|
  (StableHlo.after_of_writes_sub hostOps1 (B6 m c) hostOps1_writes (r := main_arg4) (by decide)).trans <|
  (B6_of_ne m c main_arg4 (by decide)).trans <|
  (StableHlo.after_of_writes_sub hostOps0_4 (B4 m c) hostOps0_4_writes (r := main_arg4) (by decide)).trans <|
  (StableHlo.after_of_writes_sub hostOps0_3 (B3 m c) hostOps0_3_writes (r := main_arg4) (by decide)).trans <|
  (StableHlo.after_of_writes_sub hostOps0_2 (B2 m c) hostOps0_2_writes (r := main_arg4) (by decide)).trans <|
  (StableHlo.after_of_writes_sub hostOps0_1 (B1 m c) hostOps0_1_writes (r := main_arg4) (by decide)).trans <|
  (StableHlo.after_of_writes_sub hostOps0 (B0 m c) hostOps0_writes (r := main_arg4) (by decide)).trans <| rfl

theorem B30_main_arg5 (c : Dev nD) : B30 m c main_arg5 = m ((c : Thread nD τ).loc main_arg5) :=
  (B30_of_ne m c main_arg5 (by decide)).trans <|
  (StableHlo.after_of_writes_sub hostOps12 (B28 m c) hostOps12_writes (r := main_arg5) (by decide)).trans <|
  (B28_of_ne m c main_arg5 (by decide)).trans <|
  (StableHlo.after_of_writes_sub hostOps11 (B26 m c) hostOps11_writes (r := main_arg5) (by decide)).trans <|
  (B26_of_ne m c main_arg5 (by decide)).trans <|
  (StableHlo.after_of_writes_sub hostOps10 (B24 m c) hostOps10_writes (r := main_arg5) (by decide)).trans <|
  (B24_of_ne m c main_arg5 (by decide)).trans <|
  (StableHlo.after_of_writes_sub hostOps9 (B22 m c) hostOps9_writes (r := main_arg5) (by decide)).trans <|
  (B22_of_ne m c main_arg5 (by decide)).trans <|
  (StableHlo.after_of_writes_sub hostOps8 (B20 m c) hostOps8_writes (r := main_arg5) (by decide)).trans <|
  (B20_of_ne m c main_arg5 (by decide)).trans <|
  (StableHlo.after_of_writes_sub hostOps7 (B18 m c) hostOps7_writes (r := main_arg5) (by decide)).trans <|
  (B18_of_ne m c main_arg5 (by decide)).trans <|
  (StableHlo.after_of_writes_sub hostOps6 (B16 m c) hostOps6_writes (r := main_arg5) (by decide)).trans <|
  (B16_of_ne m c main_arg5 (by decide)).trans <|
  (StableHlo.after_of_writes_sub hostOps5 (B14 m c) hostOps5_writes (r := main_arg5) (by decide)).trans <|
  (B14_of_ne m c main_arg5 (by decide)).trans <|
  (StableHlo.after_of_writes_sub hostOps4 (B12 m c) hostOps4_writes (r := main_arg5) (by decide)).trans <|
  (B12_of_ne m c main_arg5 (by decide)).trans <|
  (StableHlo.after_of_writes_sub hostOps3 (B10 m c) hostOps3_writes (r := main_arg5) (by decide)).trans <|
  (B10_of_ne m c main_arg5 (by decide)).trans <|
  (StableHlo.after_of_writes_sub hostOps2 (B8 m c) hostOps2_writes (r := main_arg5) (by decide)).trans <|
  (B8_of_ne m c main_arg5 (by decide)).trans <|
  (StableHlo.after_of_writes_sub hostOps1 (B6 m c) hostOps1_writes (r := main_arg5) (by decide)).trans <|
  (B6_of_ne m c main_arg5 (by decide)).trans <|
  (StableHlo.after_of_writes_sub hostOps0_4 (B4 m c) hostOps0_4_writes (r := main_arg5) (by decide)).trans <|
  (StableHlo.after_of_writes_sub hostOps0_3 (B3 m c) hostOps0_3_writes (r := main_arg5) (by decide)).trans <|
  (StableHlo.after_of_writes_sub hostOps0_2 (B2 m c) hostOps0_2_writes (r := main_arg5) (by decide)).trans <|
  (StableHlo.after_of_writes_sub hostOps0_1 (B1 m c) hostOps0_1_writes (r := main_arg5) (by decide)).trans <|
  (StableHlo.after_of_writes_sub hostOps0 (B0 m c) hostOps0_writes (r := main_arg5) (by decide)).trans <| rfl

theorem B30_main_arg6 (c : Dev nD) : B30 m c main_arg6 = m ((c : Thread nD τ).loc main_arg6) :=
  (B30_of_ne m c main_arg6 (by decide)).trans <|
  (StableHlo.after_of_writes_sub hostOps12 (B28 m c) hostOps12_writes (r := main_arg6) (by decide)).trans <|
  (B28_of_ne m c main_arg6 (by decide)).trans <|
  (StableHlo.after_of_writes_sub hostOps11 (B26 m c) hostOps11_writes (r := main_arg6) (by decide)).trans <|
  (B26_of_ne m c main_arg6 (by decide)).trans <|
  (StableHlo.after_of_writes_sub hostOps10 (B24 m c) hostOps10_writes (r := main_arg6) (by decide)).trans <|
  (B24_of_ne m c main_arg6 (by decide)).trans <|
  (StableHlo.after_of_writes_sub hostOps9 (B22 m c) hostOps9_writes (r := main_arg6) (by decide)).trans <|
  (B22_of_ne m c main_arg6 (by decide)).trans <|
  (StableHlo.after_of_writes_sub hostOps8 (B20 m c) hostOps8_writes (r := main_arg6) (by decide)).trans <|
  (B20_of_ne m c main_arg6 (by decide)).trans <|
  (StableHlo.after_of_writes_sub hostOps7 (B18 m c) hostOps7_writes (r := main_arg6) (by decide)).trans <|
  (B18_of_ne m c main_arg6 (by decide)).trans <|
  (StableHlo.after_of_writes_sub hostOps6 (B16 m c) hostOps6_writes (r := main_arg6) (by decide)).trans <|
  (B16_of_ne m c main_arg6 (by decide)).trans <|
  (StableHlo.after_of_writes_sub hostOps5 (B14 m c) hostOps5_writes (r := main_arg6) (by decide)).trans <|
  (B14_of_ne m c main_arg6 (by decide)).trans <|
  (StableHlo.after_of_writes_sub hostOps4 (B12 m c) hostOps4_writes (r := main_arg6) (by decide)).trans <|
  (B12_of_ne m c main_arg6 (by decide)).trans <|
  (StableHlo.after_of_writes_sub hostOps3 (B10 m c) hostOps3_writes (r := main_arg6) (by decide)).trans <|
  (B10_of_ne m c main_arg6 (by decide)).trans <|
  (StableHlo.after_of_writes_sub hostOps2 (B8 m c) hostOps2_writes (r := main_arg6) (by decide)).trans <|
  (B8_of_ne m c main_arg6 (by decide)).trans <|
  (StableHlo.after_of_writes_sub hostOps1 (B6 m c) hostOps1_writes (r := main_arg6) (by decide)).trans <|
  (B6_of_ne m c main_arg6 (by decide)).trans <|
  (StableHlo.after_of_writes_sub hostOps0_4 (B4 m c) hostOps0_4_writes (r := main_arg6) (by decide)).trans <|
  (StableHlo.after_of_writes_sub hostOps0_3 (B3 m c) hostOps0_3_writes (r := main_arg6) (by decide)).trans <|
  (StableHlo.after_of_writes_sub hostOps0_2 (B2 m c) hostOps0_2_writes (r := main_arg6) (by decide)).trans <|
  (StableHlo.after_of_writes_sub hostOps0_1 (B1 m c) hostOps0_1_writes (r := main_arg6) (by decide)).trans <|
  (StableHlo.after_of_writes_sub hostOps0 (B0 m c) hostOps0_writes (r := main_arg6) (by decide)).trans <| rfl

theorem B30_main_arg7 (c : Dev nD) : B30 m c main_arg7 = m ((c : Thread nD τ).loc main_arg7) :=
  (B30_of_ne m c main_arg7 (by decide)).trans <|
  (StableHlo.after_of_writes_sub hostOps12 (B28 m c) hostOps12_writes (r := main_arg7) (by decide)).trans <|
  (B28_of_ne m c main_arg7 (by decide)).trans <|
  (StableHlo.after_of_writes_sub hostOps11 (B26 m c) hostOps11_writes (r := main_arg7) (by decide)).trans <|
  (B26_of_ne m c main_arg7 (by decide)).trans <|
  (StableHlo.after_of_writes_sub hostOps10 (B24 m c) hostOps10_writes (r := main_arg7) (by decide)).trans <|
  (B24_of_ne m c main_arg7 (by decide)).trans <|
  (StableHlo.after_of_writes_sub hostOps9 (B22 m c) hostOps9_writes (r := main_arg7) (by decide)).trans <|
  (B22_of_ne m c main_arg7 (by decide)).trans <|
  (StableHlo.after_of_writes_sub hostOps8 (B20 m c) hostOps8_writes (r := main_arg7) (by decide)).trans <|
  (B20_of_ne m c main_arg7 (by decide)).trans <|
  (StableHlo.after_of_writes_sub hostOps7 (B18 m c) hostOps7_writes (r := main_arg7) (by decide)).trans <|
  (B18_of_ne m c main_arg7 (by decide)).trans <|
  (StableHlo.after_of_writes_sub hostOps6 (B16 m c) hostOps6_writes (r := main_arg7) (by decide)).trans <|
  (B16_of_ne m c main_arg7 (by decide)).trans <|
  (StableHlo.after_of_writes_sub hostOps5 (B14 m c) hostOps5_writes (r := main_arg7) (by decide)).trans <|
  (B14_of_ne m c main_arg7 (by decide)).trans <|
  (StableHlo.after_of_writes_sub hostOps4 (B12 m c) hostOps4_writes (r := main_arg7) (by decide)).trans <|
  (B12_of_ne m c main_arg7 (by decide)).trans <|
  (StableHlo.after_of_writes_sub hostOps3 (B10 m c) hostOps3_writes (r := main_arg7) (by decide)).trans <|
  (B10_of_ne m c main_arg7 (by decide)).trans <|
  (StableHlo.after_of_writes_sub hostOps2 (B8 m c) hostOps2_writes (r := main_arg7) (by decide)).trans <|
  (B8_of_ne m c main_arg7 (by decide)).trans <|
  (StableHlo.after_of_writes_sub hostOps1 (B6 m c) hostOps1_writes (r := main_arg7) (by decide)).trans <|
  (B6_of_ne m c main_arg7 (by decide)).trans <|
  (StableHlo.after_of_writes_sub hostOps0_4 (B4 m c) hostOps0_4_writes (r := main_arg7) (by decide)).trans <|
  (StableHlo.after_of_writes_sub hostOps0_3 (B3 m c) hostOps0_3_writes (r := main_arg7) (by decide)).trans <|
  (StableHlo.after_of_writes_sub hostOps0_2 (B2 m c) hostOps0_2_writes (r := main_arg7) (by decide)).trans <|
  (StableHlo.after_of_writes_sub hostOps0_1 (B1 m c) hostOps0_1_writes (r := main_arg7) (by decide)).trans <|
  (StableHlo.after_of_writes_sub hostOps0 (B0 m c) hostOps0_writes (r := main_arg7) (by decide)).trans <| rfl

theorem B30_main_arg8 (c : Dev nD) : B30 m c main_arg8 = m ((c : Thread nD τ).loc main_arg8) :=
  (B30_of_ne m c main_arg8 (by decide)).trans <|
  (StableHlo.after_of_writes_sub hostOps12 (B28 m c) hostOps12_writes (r := main_arg8) (by decide)).trans <|
  (B28_of_ne m c main_arg8 (by decide)).trans <|
  (StableHlo.after_of_writes_sub hostOps11 (B26 m c) hostOps11_writes (r := main_arg8) (by decide)).trans <|
  (B26_of_ne m c main_arg8 (by decide)).trans <|
  (StableHlo.after_of_writes_sub hostOps10 (B24 m c) hostOps10_writes (r := main_arg8) (by decide)).trans <|
  (B24_of_ne m c main_arg8 (by decide)).trans <|
  (StableHlo.after_of_writes_sub hostOps9 (B22 m c) hostOps9_writes (r := main_arg8) (by decide)).trans <|
  (B22_of_ne m c main_arg8 (by decide)).trans <|
  (StableHlo.after_of_writes_sub hostOps8 (B20 m c) hostOps8_writes (r := main_arg8) (by decide)).trans <|
  (B20_of_ne m c main_arg8 (by decide)).trans <|
  (StableHlo.after_of_writes_sub hostOps7 (B18 m c) hostOps7_writes (r := main_arg8) (by decide)).trans <|
  (B18_of_ne m c main_arg8 (by decide)).trans <|
  (StableHlo.after_of_writes_sub hostOps6 (B16 m c) hostOps6_writes (r := main_arg8) (by decide)).trans <|
  (B16_of_ne m c main_arg8 (by decide)).trans <|
  (StableHlo.after_of_writes_sub hostOps5 (B14 m c) hostOps5_writes (r := main_arg8) (by decide)).trans <|
  (B14_of_ne m c main_arg8 (by decide)).trans <|
  (StableHlo.after_of_writes_sub hostOps4 (B12 m c) hostOps4_writes (r := main_arg8) (by decide)).trans <|
  (B12_of_ne m c main_arg8 (by decide)).trans <|
  (StableHlo.after_of_writes_sub hostOps3 (B10 m c) hostOps3_writes (r := main_arg8) (by decide)).trans <|
  (B10_of_ne m c main_arg8 (by decide)).trans <|
  (StableHlo.after_of_writes_sub hostOps2 (B8 m c) hostOps2_writes (r := main_arg8) (by decide)).trans <|
  (B8_of_ne m c main_arg8 (by decide)).trans <|
  (StableHlo.after_of_writes_sub hostOps1 (B6 m c) hostOps1_writes (r := main_arg8) (by decide)).trans <|
  (B6_of_ne m c main_arg8 (by decide)).trans <|
  (StableHlo.after_of_writes_sub hostOps0_4 (B4 m c) hostOps0_4_writes (r := main_arg8) (by decide)).trans <|
  (StableHlo.after_of_writes_sub hostOps0_3 (B3 m c) hostOps0_3_writes (r := main_arg8) (by decide)).trans <|
  (StableHlo.after_of_writes_sub hostOps0_2 (B2 m c) hostOps0_2_writes (r := main_arg8) (by decide)).trans <|
  (StableHlo.after_of_writes_sub hostOps0_1 (B1 m c) hostOps0_1_writes (r := main_arg8) (by decide)).trans <|
  (StableHlo.after_of_writes_sub hostOps0 (B0 m c) hostOps0_writes (r := main_arg8) (by decide)).trans <| rfl

theorem B30_main_arg9 (c : Dev nD) : B30 m c main_arg9 = m ((c : Thread nD τ).loc main_arg9) :=
  (B30_of_ne m c main_arg9 (by decide)).trans <|
  (StableHlo.after_of_writes_sub hostOps12 (B28 m c) hostOps12_writes (r := main_arg9) (by decide)).trans <|
  (B28_of_ne m c main_arg9 (by decide)).trans <|
  (StableHlo.after_of_writes_sub hostOps11 (B26 m c) hostOps11_writes (r := main_arg9) (by decide)).trans <|
  (B26_of_ne m c main_arg9 (by decide)).trans <|
  (StableHlo.after_of_writes_sub hostOps10 (B24 m c) hostOps10_writes (r := main_arg9) (by decide)).trans <|
  (B24_of_ne m c main_arg9 (by decide)).trans <|
  (StableHlo.after_of_writes_sub hostOps9 (B22 m c) hostOps9_writes (r := main_arg9) (by decide)).trans <|
  (B22_of_ne m c main_arg9 (by decide)).trans <|
  (StableHlo.after_of_writes_sub hostOps8 (B20 m c) hostOps8_writes (r := main_arg9) (by decide)).trans <|
  (B20_of_ne m c main_arg9 (by decide)).trans <|
  (StableHlo.after_of_writes_sub hostOps7 (B18 m c) hostOps7_writes (r := main_arg9) (by decide)).trans <|
  (B18_of_ne m c main_arg9 (by decide)).trans <|
  (StableHlo.after_of_writes_sub hostOps6 (B16 m c) hostOps6_writes (r := main_arg9) (by decide)).trans <|
  (B16_of_ne m c main_arg9 (by decide)).trans <|
  (StableHlo.after_of_writes_sub hostOps5 (B14 m c) hostOps5_writes (r := main_arg9) (by decide)).trans <|
  (B14_of_ne m c main_arg9 (by decide)).trans <|
  (StableHlo.after_of_writes_sub hostOps4 (B12 m c) hostOps4_writes (r := main_arg9) (by decide)).trans <|
  (B12_of_ne m c main_arg9 (by decide)).trans <|
  (StableHlo.after_of_writes_sub hostOps3 (B10 m c) hostOps3_writes (r := main_arg9) (by decide)).trans <|
  (B10_of_ne m c main_arg9 (by decide)).trans <|
  (StableHlo.after_of_writes_sub hostOps2 (B8 m c) hostOps2_writes (r := main_arg9) (by decide)).trans <|
  (B8_of_ne m c main_arg9 (by decide)).trans <|
  (StableHlo.after_of_writes_sub hostOps1 (B6 m c) hostOps1_writes (r := main_arg9) (by decide)).trans <|
  (B6_of_ne m c main_arg9 (by decide)).trans <|
  (StableHlo.after_of_writes_sub hostOps0_4 (B4 m c) hostOps0_4_writes (r := main_arg9) (by decide)).trans <|
  (StableHlo.after_of_writes_sub hostOps0_3 (B3 m c) hostOps0_3_writes (r := main_arg9) (by decide)).trans <|
  (StableHlo.after_of_writes_sub hostOps0_2 (B2 m c) hostOps0_2_writes (r := main_arg9) (by decide)).trans <|
  (StableHlo.after_of_writes_sub hostOps0_1 (B1 m c) hostOps0_1_writes (r := main_arg9) (by decide)).trans <|
  (StableHlo.after_of_writes_sub hostOps0 (B0 m c) hostOps0_writes (r := main_arg9) (by decide)).trans <| rfl

theorem B30_main_arg10 (c : Dev nD) : B30 m c main_arg10 = m ((c : Thread nD τ).loc main_arg10) :=
  (B30_of_ne m c main_arg10 (by decide)).trans <|
  (StableHlo.after_of_writes_sub hostOps12 (B28 m c) hostOps12_writes (r := main_arg10) (by decide)).trans <|
  (B28_of_ne m c main_arg10 (by decide)).trans <|
  (StableHlo.after_of_writes_sub hostOps11 (B26 m c) hostOps11_writes (r := main_arg10) (by decide)).trans <|
  (B26_of_ne m c main_arg10 (by decide)).trans <|
  (StableHlo.after_of_writes_sub hostOps10 (B24 m c) hostOps10_writes (r := main_arg10) (by decide)).trans <|
  (B24_of_ne m c main_arg10 (by decide)).trans <|
  (StableHlo.after_of_writes_sub hostOps9 (B22 m c) hostOps9_writes (r := main_arg10) (by decide)).trans <|
  (B22_of_ne m c main_arg10 (by decide)).trans <|
  (StableHlo.after_of_writes_sub hostOps8 (B20 m c) hostOps8_writes (r := main_arg10) (by decide)).trans <|
  (B20_of_ne m c main_arg10 (by decide)).trans <|
  (StableHlo.after_of_writes_sub hostOps7 (B18 m c) hostOps7_writes (r := main_arg10) (by decide)).trans <|
  (B18_of_ne m c main_arg10 (by decide)).trans <|
  (StableHlo.after_of_writes_sub hostOps6 (B16 m c) hostOps6_writes (r := main_arg10) (by decide)).trans <|
  (B16_of_ne m c main_arg10 (by decide)).trans <|
  (StableHlo.after_of_writes_sub hostOps5 (B14 m c) hostOps5_writes (r := main_arg10) (by decide)).trans <|
  (B14_of_ne m c main_arg10 (by decide)).trans <|
  (StableHlo.after_of_writes_sub hostOps4 (B12 m c) hostOps4_writes (r := main_arg10) (by decide)).trans <|
  (B12_of_ne m c main_arg10 (by decide)).trans <|
  (StableHlo.after_of_writes_sub hostOps3 (B10 m c) hostOps3_writes (r := main_arg10) (by decide)).trans <|
  (B10_of_ne m c main_arg10 (by decide)).trans <|
  (StableHlo.after_of_writes_sub hostOps2 (B8 m c) hostOps2_writes (r := main_arg10) (by decide)).trans <|
  (B8_of_ne m c main_arg10 (by decide)).trans <|
  (StableHlo.after_of_writes_sub hostOps1 (B6 m c) hostOps1_writes (r := main_arg10) (by decide)).trans <|
  (B6_of_ne m c main_arg10 (by decide)).trans <|
  (StableHlo.after_of_writes_sub hostOps0_4 (B4 m c) hostOps0_4_writes (r := main_arg10) (by decide)).trans <|
  (StableHlo.after_of_writes_sub hostOps0_3 (B3 m c) hostOps0_3_writes (r := main_arg10) (by decide)).trans <|
  (StableHlo.after_of_writes_sub hostOps0_2 (B2 m c) hostOps0_2_writes (r := main_arg10) (by decide)).trans <|
  (StableHlo.after_of_writes_sub hostOps0_1 (B1 m c) hostOps0_1_writes (r := main_arg10) (by decide)).trans <|
  (StableHlo.after_of_writes_sub hostOps0 (B0 m c) hostOps0_writes (r := main_arg10) (by decide)).trans <| rfl

theorem B30_main_arg11 (c : Dev nD) : B30 m c main_arg11 = m ((c : Thread nD τ).loc main_arg11) :=
  (B30_of_ne m c main_arg11 (by decide)).trans <|
  (StableHlo.after_of_writes_sub hostOps12 (B28 m c) hostOps12_writes (r := main_arg11) (by decide)).trans <|
  (B28_of_ne m c main_arg11 (by decide)).trans <|
  (StableHlo.after_of_writes_sub hostOps11 (B26 m c) hostOps11_writes (r := main_arg11) (by decide)).trans <|
  (B26_of_ne m c main_arg11 (by decide)).trans <|
  (StableHlo.after_of_writes_sub hostOps10 (B24 m c) hostOps10_writes (r := main_arg11) (by decide)).trans <|
  (B24_of_ne m c main_arg11 (by decide)).trans <|
  (StableHlo.after_of_writes_sub hostOps9 (B22 m c) hostOps9_writes (r := main_arg11) (by decide)).trans <|
  (B22_of_ne m c main_arg11 (by decide)).trans <|
  (StableHlo.after_of_writes_sub hostOps8 (B20 m c) hostOps8_writes (r := main_arg11) (by decide)).trans <|
  (B20_of_ne m c main_arg11 (by decide)).trans <|
  (StableHlo.after_of_writes_sub hostOps7 (B18 m c) hostOps7_writes (r := main_arg11) (by decide)).trans <|
  (B18_of_ne m c main_arg11 (by decide)).trans <|
  (StableHlo.after_of_writes_sub hostOps6 (B16 m c) hostOps6_writes (r := main_arg11) (by decide)).trans <|
  (B16_of_ne m c main_arg11 (by decide)).trans <|
  (StableHlo.after_of_writes_sub hostOps5 (B14 m c) hostOps5_writes (r := main_arg11) (by decide)).trans <|
  (B14_of_ne m c main_arg11 (by decide)).trans <|
  (StableHlo.after_of_writes_sub hostOps4 (B12 m c) hostOps4_writes (r := main_arg11) (by decide)).trans <|
  (B12_of_ne m c main_arg11 (by decide)).trans <|
  (StableHlo.after_of_writes_sub hostOps3 (B10 m c) hostOps3_writes (r := main_arg11) (by decide)).trans <|
  (B10_of_ne m c main_arg11 (by decide)).trans <|
  (StableHlo.after_of_writes_sub hostOps2 (B8 m c) hostOps2_writes (r := main_arg11) (by decide)).trans <|
  (B8_of_ne m c main_arg11 (by decide)).trans <|
  (StableHlo.after_of_writes_sub hostOps1 (B6 m c) hostOps1_writes (r := main_arg11) (by decide)).trans <|
  (B6_of_ne m c main_arg11 (by decide)).trans <|
  (StableHlo.after_of_writes_sub hostOps0_4 (B4 m c) hostOps0_4_writes (r := main_arg11) (by decide)).trans <|
  (StableHlo.after_of_writes_sub hostOps0_3 (B3 m c) hostOps0_3_writes (r := main_arg11) (by decide)).trans <|
  (StableHlo.after_of_writes_sub hostOps0_2 (B2 m c) hostOps0_2_writes (r := main_arg11) (by decide)).trans <|
  (StableHlo.after_of_writes_sub hostOps0_1 (B1 m c) hostOps0_1_writes (r := main_arg11) (by decide)).trans <|
  (StableHlo.after_of_writes_sub hostOps0 (B0 m c) hostOps0_writes (r := main_arg11) (by decide)).trans <| rfl

end Cert.Kernel.Frm

end
-- ==== Proof.KB.Run.lean ====
/-
  The run of @main as a whole: each kernel region is a segment entered from the buffer contents before it and left at
  the contents after it, each stretch of host operations a segment by itself; the launch over the segments reads every
  buffer of the final state off the last contents. Two consequences: the argument arrays end as launched, and the
  result array ends at the last region's write-backs.
-/
import proofs.«144268_j91216515432581_2_alg».proof.Proof.KB.Fold
import Idealize.ShloMosaic.Lib.Pipeline.RegionsLoop
import Idealize.ShloMosaic.Lib.Pipeline.FrameSuffix
import Idealize.ShloMosaic.Lib.Ring

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No region's index maps read a prefetched table. -/
abbrev adm : (p : Fin 13) → (pcfgs (F := F) p).Adm := fun p => (cfgs p).toPCfg_adm
/-- Every region's proof data, each at the contents its region is entered from. -/
def pdats : (p : Fin 13) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T7 m) c
  | ⟨2, _⟩ => fun c => dat2 (T9 m) c
  | ⟨3, _⟩ => fun c => dat3 (T11 m) c
  | ⟨4, _⟩ => fun c => dat4 (T13 m) c
  | ⟨5, _⟩ => fun c => dat5 (T15 m) c
  | ⟨6, _⟩ => fun c => dat6 (T17 m) c
  | ⟨7, _⟩ => fun c => dat7 (T19 m) c
  | ⟨8, _⟩ => fun c => dat8 (T21 m) c
  | ⟨9, _⟩ => fun c => dat9 (T23 m) c
  | ⟨10, _⟩ => fun c => dat10 (T25 m) c
  | ⟨11, _⟩ => fun c => dat11 (T27 m) c
  | ⟨12, _⟩ => fun c => dat12 (T29 m) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (B30 m c) ∗ ∃ r, prngReg c r)

/-! ## The regions as segments -/

set_option backward.isDefEq.respectTransparency.types false in
/-- Region 0 as a segment: entered from every unscoped buffer at the contents before it, left at the contents after it.
    Its arrays are split out of the unscoped buffers at entry and put back, at what the pipeline leaves, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (T5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T5 m c) (T6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it.
    Its arrays are split out of the unscoped buffers at entry and put back, at what the pipeline leaves, at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T7 m c) (T8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after it.
    Its arrays are split out of the unscoped buffers at entry and put back, at what the pipeline leaves, at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec2 c (T9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T9 m c) (T10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at the contents before it, left at the contents after it.
    Its arrays are split out of the unscoped buffers at entry and put back, at what the pipeline leaves, at exit. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m) c).loose
  hwaits := Pipeline.hwaits_of_owed_zero _ _ _ _ L lv 3 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec3 c (T11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T11 m c) (T12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at the contents before it, left at the contents after it.
    Its arrays are split out of the unscoped buffers at entry and put back, at what the pipeline leaves, at exit. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T13 m) c).loose
  hwaits := Pipeline.hwaits_of_owed_zero _ _ _ _ L lv 4 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec4 c (T13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T13 m c) (T14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from every unscoped buffer at the contents before it, left at the contents after it.
    Its arrays are split out of the unscoped buffers at entry and put back, at what the pipeline leaves, at exit. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T15 m) c).loose
  hwaits := Pipeline.hwaits_of_owed_zero _ _ _ _ L lv 5 fun _ _ => rfl
  pre c := iprop(StableHlo.held (c : Thread nD τ) (Pipeline.ucRefs τ sig) (B15 m c) ∗ R c)
  post c := iprop(StableHlo.held (c : Thread nD τ) (Pipeline.ucRefs τ sig) (B16 m c) ∗ R c)
  X c := iprop(∃ r, prngReg c r)
  Y c := iprop(∃ r, prngReg c r)
  Z c := Pipeline.unscopedRest (Ix := Unit) (Name := ℕ) (U := UR sig nD τ) (Lvl := ℕ) spec5 c (T15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T15 m c) (T16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from every unscoped buffer at the contents before it, left at the contents after it.
    Its arrays are split out of the unscoped buffers at entry and put back, at what the pipeline leaves, at exit. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T17 m) c).loose
  hwaits := Pipeline.hwaits_of_owed_zero _ _ _ _ L lv 6 fun _ _ => rfl
  pre c := iprop(StableHlo.held (c : Thread nD τ) (Pipeline.ucRefs τ sig) (B17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec6 c (T17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T17 m c) (T18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered from every unscoped buffer at the contents before it, left at the contents after it.
    Its arrays are split out of the unscoped buffers at entry and put back, at what the pipeline leaves, at exit. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T19 m) c).loose
  hwaits := Pipeline.hwaits_of_owed_zero _ _ _ _ L lv 7 fun _ _ => rfl
  pre c := iprop(StableHlo.held (c : Thread nD τ) (Pipeline.ucRefs τ sig) (B19 m c) ∗ R c)
  post c := iprop(StableHlo.held (c : Thread nD τ) (Pipeline.ucRefs τ sig) (B20 m c) ∗ R c)
  X c := iprop(∃ r, prngReg c r)
  Y c := iprop(∃ r, prngReg c r)
  Z c := Pipeline.unscopedRest (Ix := Unit) (Name := ℕ) (U := UR sig nD τ) (Lvl := ℕ) spec7 c (T19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T19 m c) (T20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 as a segment: entered from every unscoped buffer at the contents before it, left at the contents after it.
    Its arrays are split out of the unscoped buffers at entry and put back, at what the pipeline leaves, at exit. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T21 m) c).loose
  hwaits := Pipeline.hwaits_of_owed_zero _ _ _ _ L lv 8 fun _ _ => rfl
  pre c := iprop(StableHlo.held (c : Thread nD τ) (Pipeline.ucRefs τ sig) (B21 m c) ∗ R c)
  post c := iprop(StableHlo.held (c : Thread nD τ) (Pipeline.ucRefs τ sig) (B22 m c) ∗ R c)
  X c := iprop(∃ r, prngReg c r)
  Y c := iprop(∃ r, prngReg c r)
  Z c := Pipeline.unscopedRest (Ix := Unit) (Name := ℕ) (U := UR sig nD τ) (Lvl := ℕ) spec8 c (T21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T21 m c) (T22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as a segment: entered from every unscoped buffer at the contents before it, left at the contents after it.
    Its arrays are split out of the unscoped buffers at entry and put back, at what the pipeline leaves, at exit. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T23 m) c).loose
  hwaits := Pipeline.hwaits_of_owed_zero _ _ _ _ L lv 9 fun _ _ => rfl
  pre c := iprop(StableHlo.held (c : Thread nD τ) (Pipeline.ucRefs τ sig) (B23 m c) ∗ R c)
  post c := iprop(StableHlo.held (c : Thread nD τ) (Pipeline.ucRefs τ sig) (B24 m c) ∗ R c)
  X c := iprop(∃ r, prngReg c r)
  Y c := iprop(∃ r, prngReg c r)
  Z c := Pipeline.unscopedRest (Ix := Unit) (Name := ℕ) (U := UR sig nD τ) (Lvl := ℕ) spec9 c (T23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T23 m c) (T24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as a segment: entered from every unscoped buffer at the contents before it, left at the contents after it.
    Its arrays are split out of the unscoped buffers at entry and put back, at what the pipeline leaves, at exit. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T25 m) c).loose
  hwaits := Pipeline.hwaits_of_owed_zero _ _ _ _ L lv 10 fun _ _ => rfl
  pre c := iprop(StableHlo.held (c : Thread nD τ) (Pipeline.ucRefs τ sig) (B25 m c) ∗ R c)
  post c := iprop(StableHlo.held (c : Thread nD τ) (Pipeline.ucRefs τ sig) (B26 m c) ∗ R c)
  X c := iprop(∃ r, prngReg c r)
  Y c := iprop(∃ r, prngReg c r)
  Z c := Pipeline.unscopedRest (Ix := Unit) (Name := ℕ) (U := UR sig nD τ) (Lvl := ℕ) spec10 c (T25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T25 m c) (T26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 as a segment: entered from every unscoped buffer at the contents before it, left at the contents after it.
    Its arrays are split out of the unscoped buffers at entry and put back, at what the pipeline leaves, at exit. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T27 m) c).loose
  hwaits := Pipeline.hwaits_of_owed_zero _ _ _ _ L lv 11 fun _ _ => rfl
  pre c := iprop(StableHlo.held (c : Thread nD τ) (Pipeline.ucRefs τ sig) (B27 m c) ∗ R c)
  post c := iprop(StableHlo.held (c : Thread nD τ) (Pipeline.ucRefs τ sig) (B28 m c) ∗ R c)
  X c := iprop(∃ r, prngReg c r)
  Y c := iprop(∃ r, prngReg c r)
  Z c := Pipeline.unscopedRest (Ix := Unit) (Name := ℕ) (U := UR sig nD τ) (Lvl := ℕ) spec11 c (T27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T27 m c) (T28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 as a segment: entered from every unscoped buffer at the contents before it, left at the contents after it.
    Its arrays are split out of the unscoped buffers at entry and put back, at what the pipeline leaves, at exit. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T29 m) c).loose
  hwaits := Pipeline.hwaits_of_owed_zero _ _ _ _ L lv 12 fun _ _ => rfl
  pre c := iprop(StableHlo.held (c : Thread nD τ) (Pipeline.ucRefs τ sig) (B29 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (T29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T29 m c) (T30 m c) ((pdats m 12 c).arrAt · cfg12.N) (hF12 m c) (hrest12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 30 items in order: a host segment per stretch from the contents before it, a region per kernel call. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .host (hseg hostOps2 hostOps2_sub hostOps2_fresh (B8 m)),
    .region (reg2 m),
    .host (hseg hostOps3 hostOps3_sub hostOps3_fresh (B10 m)),
    .region (reg3 m),
    .host (hseg hostOps4 hostOps4_sub hostOps4_fresh (B12 m)),
    .region (reg4 m),
    .host (hseg hostOps5 hostOps5_sub hostOps5_fresh (B14 m)),
    .region (reg5 m),
    .host (hseg hostOps6 hostOps6_sub hostOps6_fresh (B16 m)),
    .region (reg6 m),
    .host (hseg hostOps7 hostOps7_sub hostOps7_fresh (B18 m)),
    .region (reg7 m),
    .host (hseg hostOps8 hostOps8_sub hostOps8_fresh (B20 m)),
    .region (reg8 m),
    .host (hseg hostOps9 hostOps9_sub hostOps9_fresh (B22 m)),
    .region (reg9 m),
    .host (hseg hostOps10 hostOps10_sub hostOps10_fresh (B24 m)),
    .region (reg10 m),
    .host (hseg hostOps11 hostOps11_sub hostOps11_fresh (B26 m)),
    .region (reg11 m),
    .host (hseg hostOps12 hostOps12_sub hostOps12_fresh (B28 m)),
    .region (reg12 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each core's every unscoped buffer holds the last contents `B30`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B30 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B30 m c b)
    (hfin := fun c s' => by
      iintro ⟨⟨Hh, -⟩, HSI⟩
      unfold StableHlo.held
      imodintro
      iapply (pointsTo_read_all (Pipeline.ucRefs τ sig) (fun b => (((c : Thread nD τ)).1, b)) (B30 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B30_main_arg0 m c),
      (h c _ (mem_uc main_arg1 (by decide))).trans (B30_main_arg1 m c),
      (h c _ (mem_uc main_arg2 (by decide))).trans (B30_main_arg2 m c),
      (h c _ (mem_uc main_arg3 (by decide))).trans (B30_main_arg3 m c),
      (h c _ (mem_uc main_arg4 (by decide))).trans (B30_main_arg4 m c),
      (h c _ (mem_uc main_arg5 (by decide))).trans (B30_main_arg5 m c),
      (h c _ (mem_uc main_arg6 (by decide))).trans (B30_main_arg6 m c),
      (h c _ (mem_uc main_arg7 (by decide))).trans (B30_main_arg7 m c),
      (h c _ (mem_uc main_arg8 (by decide))).trans (B30_main_arg8 m c),
      (h c _ (mem_uc main_arg9 (by decide))).trans (B30_main_arg9 m c),
      (h c _ (mem_uc main_arg10 (by decide))).trans (B30_main_arg10 m c),
      (h c _ (mem_uc main_arg11 (by decide))).trans (B30_main_arg11 m c)⟩) (run_all m ρ)

/-- THE RESULT: the result array ends at what the last region's write-backs leave, and the argument arrays as launched. -/
theorem run_result : θ_run defs (onTc (τ := τ) (main (F := F))) ⟨m, fun _ => 0, ρ⟩ (fun r => ∀ c : Dev nD,
      r.2.mem ((c.tc : Thread nD τ).loc main_v207) = (dat12 (T29 m) c).arrAt 3 cfg12.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v207 (by decide))).trans (B30_out m c),
      (h c _ (mem_uc main_arg0 (by decide))).trans (B30_main_arg0 m c),
      (h c _ (mem_uc main_arg1 (by decide))).trans (B30_main_arg1 m c),
      (h c _ (mem_uc main_arg2 (by decide))).trans (B30_main_arg2 m c),
      (h c _ (mem_uc main_arg3 (by decide))).trans (B30_main_arg3 m c),
      (h c _ (mem_uc main_arg4 (by decide))).trans (B30_main_arg4 m c),
      (h c _ (mem_uc main_arg5 (by decide))).trans (B30_main_arg5 m c),
      (h c _ (mem_uc main_arg6 (by decide))).trans (B30_main_arg6 m c),
      (h c _ (mem_uc main_arg7 (by decide))).trans (B30_main_arg7 m c),
      (h c _ (mem_uc main_arg8 (by decide))).trans (B30_main_arg8 m c),
      (h c _ (mem_uc main_arg9 (by decide))).trans (B30_main_arg9 m c),
      (h c _ (mem_uc main_arg10 (by decide))).trans (B30_main_arg10 m c),
      (h c _ (mem_uc main_arg11 (by decide))).trans (B30_main_arg11 m c)⟩) (run_all m ρ)

end Cert.Kernel.Frm

end
-- ==== Proof.KI.Reg0.lean ====
/-
  Region 0 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not the point fetched it
    (a point that does not fetch has the block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not the point fetched it
    (a point that does not fetch has the block index of the point before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether or not the point fetched it
    (a point that does not fetch has the block index of the point before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads every staging buffer whole and stores the output buffer whole. -/
abbrev r0_S2000x512 : Rect S2000x512 := Rect.unit (s := S2000x512) ![0, 0] S2000x512.size inb_S2000x512_S2000x512_0_0
abbrev r0_S2000x1 : Rect S2000x1 := Rect.unit (s := S2000x1) ![0, 0] S2000x1.size inb_S2000x1_S2000x1_0_0
abbrev r0_S512x512 : Rect S512x512 := Rect.unit (s := S512x512) ![0, 0] S512x512.size inb_S512x512_S512x512_0_0

/-- The output window's staging buffer after the body: its one whole-buffer store of the body's arithmetic
    applied to the input blocks. -/
def out0_3 (x0 : Vec F S2000x512 .f32) (x1 : Vec F S2000x1 .f32) (x2 : Vec F S512x512 .f32) : Vec F S2000x512 .f32 :=
  View.canon [⟨r0_S2000x512, k0_pay1 (View.ld x0 r0_S2000x512) (View.ld x1 r0_S2000x1) (View.ld x2 r0_S512x512)⟩]

/-- The one store covers the buffer. -/
theorem cover0_3 (p0 : Vec F S2000x512 .f32) (y : S2000x512.Idx) :
    ∃ pc ∈ ([⟨r0_S2000x512, p0⟩] : List (View.Piece (Elt F) S2000x512 .f32)), y ∈ pc.1.set :=
  View.cover_of_tiled [⟨r0_S2000x512, p0⟩] S2000x512.size (by rfl) y

set_option maxHeartbeats 1000000 in
/-- The kernel body, run on whole staging buffers: the inputs' buffers are read and left as they were, the output's
    buffer (whatever it held) ends at `out0_3` of the inputs. -/
theorem sound_kernel0 (c : Dev nD) (E : Set ℕ) (i : grid0.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the windows' arrays as the region finds them; after the body at point `t`
    every input's buffer still holds its block and the output's holds the body's result on the input blocks;
    nothing is owed and every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Reg1.lean ====
/-
  Region 1 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether or not the point fetched it
    (a point that does not fetch has the block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether or not the point fetched it
    (a point that does not fetch has the block index of the point before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every grid point, whether or not the point fetched it
    (a point that does not fetch has the block index of the point before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every grid point, whether or not the point fetched it
    (a point that does not fetch has the block index of the point before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every grid point, whether or not the point fetched it
    (a point that does not fetch has the block index of the point before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds the window's block at every grid point, whether or not the point fetched it
    (a point that does not fetch has the block index of the point before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The body reads every staging buffer whole and stores the output buffer whole. -/
abbrev r1_S2000x512 : Rect S2000x512 := Rect.unit (s := S2000x512) ![0, 0] S2000x512.size inb_S2000x512_S2000x512_0_0
abbrev r1_S2000x1 : Rect S2000x1 := Rect.unit (s := S2000x1) ![0, 0] S2000x1.size inb_S2000x1_S2000x1_0_0
abbrev r1_S1x512 : Rect S1x512 := Rect.unit (s := S1x512) ![0, 0] S1x512.size inb_S1x512_S1x512_0_0

/-- The output window's staging buffer after the body: its one whole-buffer store of the body's arithmetic
    applied to the input blocks. -/
def out1_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r1_S2000x512, k1_pay1 (View.ld x0 r1_S2000x512) (View.ld x1 r1_S2000x1) (View.ld x2 r1_S1x512) (View.ld x3 r1_S1x512) (View.ld x4 r1_S1x512) (View.ld x5 r1_S1x512)⟩]

/-- The one store covers the buffer. -/
theorem cover1_6 (p0 : Vec F S2000x512 .f32) (y : S2000x512.Idx) :
    ∃ pc ∈ ([⟨r1_S2000x512, p0⟩] : List (View.Piece (Elt F) S2000x512 .f32)), y ∈ pc.1.set :=
  View.cover_of_tiled [⟨r1_S2000x512, p0⟩] S2000x512.size (by rfl) y

set_option maxHeartbeats 1000000 in
/-- The kernel body, run on whole staging buffers: the inputs' buffers are read and left as they were, the output's
    buffer (whatever it held) ends at `out1_6` of the inputs. -/
theorem sound_kernel1 (c : Dev nD) (E : Set ℕ) (i : grid1.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_relu_kernel i arg1 harg1 arg2 harg2 arg3 harg3 arg4 harg4 arg5 harg5 arg6 harg6 arg7 harg7) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core `c`: the windows' arrays as the region finds them; after the body at point `t`
    every input's buffer still holds its block and the output's holds the body's result on the input blocks;
    nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Reg2.lean ====
/-
  Region 2 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether or not the point fetched it
    (a point that does not fetch has the block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether or not the point fetched it
    (a point that does not fetch has the block index of the point before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every grid point, whether or not the point fetched it
    (a point that does not fetch has the block index of the point before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body reads every staging buffer whole and stores the output buffer whole. -/
abbrev r2_S2000x512 : Rect S2000x512 := Rect.unit (s := S2000x512) ![0, 0] S2000x512.size inb_S2000x512_S2000x512_0_0
abbrev r2_S2000x1 : Rect S2000x1 := Rect.unit (s := S2000x1) ![0, 0] S2000x1.size inb_S2000x1_S2000x1_0_0
abbrev r2_S512x512 : Rect S512x512 := Rect.unit (s := S512x512) ![0, 0] S512x512.size inb_S512x512_S512x512_0_0

/-- The output window's staging buffer after the body: its one whole-buffer store of the body's arithmetic
    applied to the input blocks. -/
def out2_3 (x0 : Vec F S2000x512 .f32) (x1 : Vec F S2000x1 .f32) (x2 : Vec F S512x512 .f32) : Vec F S2000x512 .f32 :=
  View.canon [⟨r2_S2000x512, k2_pay1 (View.ld x0 r2_S2000x512) (View.ld x1 r2_S2000x1) (View.ld x2 r2_S512x512)⟩]

/-- The one store covers the buffer. -/
theorem cover2_3 (p0 : Vec F S2000x512 .f32) (y : S2000x512.Idx) :
    ∃ pc ∈ ([⟨r2_S2000x512, p0⟩] : List (View.Piece (Elt F) S2000x512 .f32)), y ∈ pc.1.set :=
  View.cover_of_tiled [⟨r2_S2000x512, p0⟩] S2000x512.size (by rfl) y

set_option maxHeartbeats 1000000 in
/-- The kernel body, run on whole staging buffers: the inputs' buffers are read and left as they were, the output's
    buffer (whatever it held) ends at `out2_3` of the inputs. -/
theorem sound_kernel2 (c : Dev nD) (E : Set ℕ) (i : grid2.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scaled_matmul_kernel i arg1 harg1 arg2 harg2 arg3 harg3 arg4 harg4) K := by
  simp only [cc2__scaled_matmul_kernel_eq_skeleton]; unfold cc2__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the windows' arrays as the region finds them; after the body at point `t`
    every input's buffer still holds its block and the output's holds the body's result on the input blocks;
    nothing is owed and every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Reg3.lean ====
/-
  Region 3 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether or not the point fetched it
    (a point that does not fetch has the block index of the point before it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether or not the point fetched it
    (a point that does not fetch has the block index of the point before it). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every grid point, whether or not the point fetched it
    (a point that does not fetch has the block index of the point before it). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every grid point, whether or not the point fetched it
    (a point that does not fetch has the block index of the point before it). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every grid point, whether or not the point fetched it
    (a point that does not fetch has the block index of the point before it). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds the window's block at every grid point, whether or not the point fetched it
    (a point that does not fetch has the block index of the point before it). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! The body reads every staging buffer whole and stores the output buffer whole. -/
abbrev r3_S2000x512 : Rect S2000x512 := Rect.unit (s := S2000x512) ![0, 0] S2000x512.size inb_S2000x512_S2000x512_0_0
abbrev r3_S2000x1 : Rect S2000x1 := Rect.unit (s := S2000x1) ![0, 0] S2000x1.size inb_S2000x1_S2000x1_0_0
abbrev r3_S1x512 : Rect S1x512 := Rect.unit (s := S1x512) ![0, 0] S1x512.size inb_S1x512_S1x512_0_0

/-- The output window's staging buffer after the body: its one whole-buffer store of the body's arithmetic
    applied to the input blocks. -/
def out3_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r3_S2000x512, k3_pay1 (View.ld x0 r3_S2000x512) (View.ld x1 r3_S2000x1) (View.ld x2 r3_S1x512) (View.ld x3 r3_S1x512) (View.ld x4 r3_S1x512) (View.ld x5 r3_S1x512)⟩]

/-- The one store covers the buffer. -/
theorem cover3_6 (p0 : Vec F S2000x512 .f32) (y : S2000x512.Idx) :
    ∃ pc ∈ ([⟨r3_S2000x512, p0⟩] : List (View.Piece (Elt F) S2000x512 .f32)), y ∈ pc.1.set :=
  View.cover_of_tiled [⟨r3_S2000x512, p0⟩] S2000x512.size (by rfl) y

set_option maxHeartbeats 1000000 in
/-- The kernel body, run on whole staging buffers: the inputs' buffers are read and left as they were, the output's
    buffer (whatever it held) ends at `out3_6` of the inputs. -/
theorem sound_kernel3 (c : Dev nD) (E : Set ℕ) (i : grid3.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_relu_kernel i arg1 harg1 arg2 harg2 arg3 harg3 arg4 harg4 arg5 harg5 arg6 harg6 arg7 harg7) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The region's proof data on core `c`: the windows' arrays as the region finds them; after the body at point `t`
    every input's buffer still holds its block and the output's holds the body's result on the input blocks;
    nothing is owed and every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any grid point: the inputs' buffers hold their blocks, so the body's triple applies; the rest passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Reg4.lean ====
/-
  Region 4 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether or not the point fetched it
    (a point that does not fetch has the block index of the point before it). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether or not the point fetched it
    (a point that does not fetch has the block index of the point before it). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every grid point, whether or not the point fetched it
    (a point that does not fetch has the block index of the point before it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The body reads every staging buffer whole and stores the output buffer whole. -/
abbrev r4_S2000x512 : Rect S2000x512 := Rect.unit (s := S2000x512) ![0, 0] S2000x512.size inb_S2000x512_S2000x512_0_0
abbrev r4_S2000x1 : Rect S2000x1 := Rect.unit (s := S2000x1) ![0, 0] S2000x1.size inb_S2000x1_S2000x1_0_0
abbrev r4_S512x512 : Rect S512x512 := Rect.unit (s := S512x512) ![0, 0] S512x512.size inb_S512x512_S512x512_0_0

/-- The output window's staging buffer after the body: its one whole-buffer store of the body's arithmetic
    applied to the input blocks. -/
def out4_3 (x0 : Vec F S2000x512 .f32) (x1 : Vec F S2000x1 .f32) (x2 : Vec F S512x512 .f32) : Vec F S2000x512 .f32 :=
  View.canon [⟨r4_S2000x512, k4_pay1 (View.ld x0 r4_S2000x512) (View.ld x1 r4_S2000x1) (View.ld x2 r4_S512x512)⟩]

/-- The one store covers the buffer. -/
theorem cover4_3 (p0 : Vec F S2000x512 .f32) (y : S2000x512.Idx) :
    ∃ pc ∈ ([⟨r4_S2000x512, p0⟩] : List (View.Piece (Elt F) S2000x512 .f32)), y ∈ pc.1.set :=
  View.cover_of_tiled [⟨r4_S2000x512, p0⟩] S2000x512.size (by rfl) y

set_option maxHeartbeats 1000000 in
/-- The kernel body, run on whole staging buffers: the inputs' buffers are read and left as they were, the output's
    buffer (whatever it held) ends at `out4_3` of the inputs. -/
theorem sound_kernel4 (c : Dev nD) (E : Set ℕ) (i : grid4.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__scaled_matmul_kernel i arg1 harg1 arg2 harg2 arg3 harg3 arg4 harg4) K := by
  simp only [cc4__scaled_matmul_kernel_eq_skeleton]; unfold cc4__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the windows' arrays as the region finds them; after the body at point `t`
    every input's buffer still holds its block and the output's holds the body's result on the input blocks;
    nothing is owed and every share is whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the inputs' buffers hold their blocks, so the body's triple applies; the rest passes
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Reg5.lean ====
/-
  Region 5 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether or not the point fetched it
    (a point that does not fetch has the block index of the point before it). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether or not the point fetched it
    (a point that does not fetch has the block index of the point before it). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every grid point, whether or not the point fetched it
    (a point that does not fetch has the block index of the point before it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every grid point, whether or not the point fetched it
    (a point that does not fetch has the block index of the point before it). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every grid point, whether or not the point fetched it
    (a point that does not fetch has the block index of the point before it). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds the window's block at every grid point, whether or not the point fetched it
    (a point that does not fetch has the block index of the point before it). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! The body reads every staging buffer whole and stores the output buffer whole. -/
abbrev r5_S2000x512 : Rect S2000x512 := Rect.unit (s := S2000x512) ![0, 0] S2000x512.size inb_S2000x512_S2000x512_0_0
abbrev r5_S2000x1 : Rect S2000x1 := Rect.unit (s := S2000x1) ![0, 0] S2000x1.size inb_S2000x1_S2000x1_0_0
abbrev r5_S1x512 : Rect S1x512 := Rect.unit (s := S1x512) ![0, 0] S1x512.size inb_S1x512_S1x512_0_0

/-- The output window's staging buffer after the body: its one whole-buffer store of the body's arithmetic
    applied to the input blocks. -/
def out5_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r5_S2000x512, k5_pay1 (View.ld x0 r5_S2000x512) (View.ld x1 r5_S2000x1) (View.ld x2 r5_S1x512) (View.ld x3 r5_S1x512) (View.ld x4 r5_S1x512) (View.ld x5 r5_S1x512)⟩]

/-- The one store covers the buffer. -/
theorem cover5_6 (p0 : Vec F S2000x512 .f32) (y : S2000x512.Idx) :
    ∃ pc ∈ ([⟨r5_S2000x512, p0⟩] : List (View.Piece (Elt F) S2000x512 .f32)), y ∈ pc.1.set :=
  View.cover_of_tiled [⟨r5_S2000x512, p0⟩] S2000x512.size (by rfl) y

set_option maxHeartbeats 1000000 in
/-- The kernel body, run on whole staging buffers: the inputs' buffers are read and left as they were, the output's
    buffer (whatever it held) ends at `out5_6` of the inputs. -/
theorem sound_kernel5 (c : Dev nD) (E : Set ℕ) (i : grid5.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The region's proof data on core `c`: the windows' arrays as the region finds them; after the body at point `t`
    every input's buffer still holds its block and the output's holds the body's result on the input blocks;
    nothing is owed and every share is whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any grid point: the inputs' buffers hold their blocks, so the body's triple applies; the rest passes
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Reg6.lean ====
/-
  Region 6 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not the point fetched it
    (a point that does not fetch has the block index of the point before it). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not the point fetched it
    (a point that does not fetch has the block index of the point before it). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not the point fetched it
    (a point that does not fetch has the block index of the point before it). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! The body reads every staging buffer whole and stores the output buffer whole. -/
abbrev r6_S2000x512 : Rect S2000x512 := Rect.unit (s := S2000x512) ![0, 0] S2000x512.size inb_S2000x512_S2000x512_0_0
abbrev r6_S2000x1 : Rect S2000x1 := Rect.unit (s := S2000x1) ![0, 0] S2000x1.size inb_S2000x1_S2000x1_0_0
abbrev r6_S512x512 : Rect S512x512 := Rect.unit (s := S512x512) ![0, 0] S512x512.size inb_S512x512_S512x512_0_0

/-- The output window's staging buffer after the body: its one whole-buffer store of the body's arithmetic
    applied to the input blocks. -/
def out6_3 (x0 : Vec F S2000x512 .f32) (x1 : Vec F S2000x1 .f32) (x2 : Vec F S512x512 .f32) : Vec F S2000x512 .f32 :=
  View.canon [⟨r6_S2000x512, k6_pay1 (View.ld x0 r6_S2000x512) (View.ld x1 r6_S2000x1) (View.ld x2 r6_S512x512)⟩]

/-- The one store covers the buffer. -/
theorem cover6_3 (p0 : Vec F S2000x512 .f32) (y : S2000x512.Idx) :
    ∃ pc ∈ ([⟨r6_S2000x512, p0⟩] : List (View.Piece (Elt F) S2000x512 .f32)), y ∈ pc.1.set :=
  View.cover_of_tiled [⟨r6_S2000x512, p0⟩] S2000x512.size (by rfl) y

set_option maxHeartbeats 1000000 in
/-- The kernel body, run on whole staging buffers: the inputs' buffers are read and left as they were, the output's
    buffer (whatever it held) ends at `out6_3` of the inputs. -/
theorem sound_kernel6 (c : Dev nD) (E : Set ℕ) (i : grid6.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__scaled_matmul_kernel i arg1 harg1 arg2 harg2 arg3 harg3 arg4 harg4) K := by
  simp only [cc6__scaled_matmul_kernel_eq_skeleton]; unfold cc6__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The region's proof data on core `c`: the windows' arrays as the region finds them; after the body at point `t`
    every input's buffer still holds its block and the output's holds the body's result on the input blocks;
    nothing is owed and every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is handed at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' buffers hold their blocks, so the body's triple applies; the rest passes
    through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KI.Reg7.lean ====
/-
  Region 7 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every grid point, whether or not the point fetched it
    (a point that does not fetch has the block index of the point before it). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every grid point, whether or not the point fetched it
    (a point that does not fetch has the block index of the point before it). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every grid point, whether or not the point fetched it
    (a point that does not fetch has the block index of the point before it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every grid point, whether or not the point fetched it
    (a point that does not fetch has the block index of the point before it). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds the window's block at every grid point, whether or not the point fetched it
    (a point that does not fetch has the block index of the point before it). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds the window's block at every grid point, whether or not the point fetched it
    (a point that does not fetch has the block index of the point before it). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! The body reads every staging buffer whole and stores the output buffer whole. -/
abbrev r7_S2000x512 : Rect S2000x512 := Rect.unit (s := S2000x512) ![0, 0] S2000x512.size inb_S2000x512_S2000x512_0_0
abbrev r7_S2000x1 : Rect S2000x1 := Rect.unit (s := S2000x1) ![0, 0] S2000x1.size inb_S2000x1_S2000x1_0_0
abbrev r7_S1x512 : Rect S1x512 := Rect.unit (s := S1x512) ![0, 0] S1x512.size inb_S1x512_S1x512_0_0

/-- The output window's staging buffer after the body: its one whole-buffer store of the body's arithmetic
    applied to the input blocks. -/
def out7_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r7_S2000x512, k7_pay1 (View.ld x0 r7_S2000x512) (View.ld x1 r7_S2000x1) (View.ld x2 r7_S1x512) (View.ld x3 r7_S1x512) (View.ld x4 r7_S1x512) (View.ld x5 r7_S1x512)⟩]

/-- The one store covers the buffer. -/
theorem cover7_6 (p0 : Vec F S2000x512 .f32) (y : S2000x512.Idx) :
    ∃ pc ∈ ([⟨r7_S2000x512, p0⟩] : List (View.Piece (Elt F) S2000x512 .f32)), y ∈ pc.1.set :=
  View.cover_of_tiled [⟨r7_S2000x512, p0⟩] S2000x512.size (by rfl) y

set_option maxHeartbeats 1000000 in
/-- The kernel body, run on whole staging buffers: the inputs' buffers are read and left as they were, the output's
    buffer (whatever it held) ends at `out7_6` of the inputs. -/
theorem sound_kernel7 (c : Dev nD) (E : Set ℕ) (i : grid7.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__bn_relu_kernel i arg1 harg1 arg2 harg2 arg3 harg3 arg4 harg4 arg5 harg5 arg6 harg6 arg7 harg7) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The region's proof data on core `c`: the windows' arrays as the region finds them; after the body at point `t`
    every input's buffer still holds its block and the output's holds the body's result on the input blocks;
    nothing is owed and every share is whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is handed at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any grid point: the inputs' buffers hold their blocks, so the body's triple applies; the rest passes
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.KI.Reg8.lean ====
/-
  Region 8 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every grid point, whether or not the point fetched it
    (a point that does not fetch has the block index of the point before it). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every grid point, whether or not the point fetched it
    (a point that does not fetch has the block index of the point before it). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every grid point, whether or not the point fetched it
    (a point that does not fetch has the block index of the point before it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! The body reads every staging buffer whole and stores the output buffer whole. -/
abbrev r8_S2000x512 : Rect S2000x512 := Rect.unit (s := S2000x512) ![0, 0] S2000x512.size inb_S2000x512_S2000x512_0_0
abbrev r8_S2000x1 : Rect S2000x1 := Rect.unit (s := S2000x1) ![0, 0] S2000x1.size inb_S2000x1_S2000x1_0_0
abbrev r8_S512x512 : Rect S512x512 := Rect.unit (s := S512x512) ![0, 0] S512x512.size inb_S512x512_S512x512_0_0

/-- The output window's staging buffer after the body: its one whole-buffer store of the body's arithmetic
    applied to the input blocks. -/
def out8_3 (x0 : Vec F S2000x512 .f32) (x1 : Vec F S2000x1 .f32) (x2 : Vec F S512x512 .f32) : Vec F S2000x512 .f32 :=
  View.canon [⟨r8_S2000x512, k8_pay1 (View.ld x0 r8_S2000x512) (View.ld x1 r8_S2000x1) (View.ld x2 r8_S512x512)⟩]

/-- The one store covers the buffer. -/
theorem cover8_3 (p0 : Vec F S2000x512 .f32) (y : S2000x512.Idx) :
    ∃ pc ∈ ([⟨r8_S2000x512, p0⟩] : List (View.Piece (Elt F) S2000x512 .f32)), y ∈ pc.1.set :=
  View.cover_of_tiled [⟨r8_S2000x512, p0⟩] S2000x512.size (by rfl) y

set_option maxHeartbeats 1000000 in
/-- The kernel body, run on whole staging buffers: the inputs' buffers are read and left as they were, the output's
    buffer (whatever it held) ends at `out8_3` of the inputs. -/
theorem sound_kernel8 (c : Dev nD) (E : Set ℕ) (i : grid8.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__scaled_matmul_kernel i arg1 harg1 arg2 harg2 arg3 harg3 arg4 harg4) K := by
  simp only [cc8__scaled_matmul_kernel_eq_skeleton]; unfold cc8__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The region's proof data on core `c`: the windows' arrays as the region finds them; after the body at point `t`
    every input's buffer still holds its block and the output's holds the body's result on the input blocks;
    nothing is owed and every share is whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is handed at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any grid point: the inputs' buffers hold their blocks, so the body's triple applies; the rest passes
    through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation8 (c : Dev nD) : BodyObligation (dat8 (F := F) V c) (defs₀ (F := F)) Variants.none () Set.univ := fun t => by
  rw [bigSep_W8, bigSep_W8]
  exact sound_body8 V c t

end Cert.KernelIdeal.Frm

end
-- ==== Proof.KI.Reg9.lean ====
/-
  Region 9 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every grid point, whether or not the point fetched it
    (a point that does not fetch has the block index of the point before it). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every grid point, whether or not the point fetched it
    (a point that does not fetch has the block index of the point before it). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every grid point, whether or not the point fetched it
    (a point that does not fetch has the block index of the point before it). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds the window's block at every grid point, whether or not the point fetched it
    (a point that does not fetch has the block index of the point before it). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds the window's block at every grid point, whether or not the point fetched it
    (a point that does not fetch has the block index of the point before it). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds the window's block at every grid point, whether or not the point fetched it
    (a point that does not fetch has the block index of the point before it). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! The body reads every staging buffer whole and stores the output buffer whole. -/
abbrev r9_S2000x512 : Rect S2000x512 := Rect.unit (s := S2000x512) ![0, 0] S2000x512.size inb_S2000x512_S2000x512_0_0
abbrev r9_S2000x1 : Rect S2000x1 := Rect.unit (s := S2000x1) ![0, 0] S2000x1.size inb_S2000x1_S2000x1_0_0
abbrev r9_S1x512 : Rect S1x512 := Rect.unit (s := S1x512) ![0, 0] S1x512.size inb_S1x512_S1x512_0_0

/-- The output window's staging buffer after the body: its one whole-buffer store of the body's arithmetic
    applied to the input blocks. -/
def out9_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r9_S2000x512, k9_pay1 (View.ld x0 r9_S2000x512) (View.ld x1 r9_S2000x1) (View.ld x2 r9_S1x512) (View.ld x3 r9_S1x512) (View.ld x4 r9_S1x512) (View.ld x5 r9_S1x512)⟩]

/-- The one store covers the buffer. -/
theorem cover9_6 (p0 : Vec F S2000x512 .f32) (y : S2000x512.Idx) :
    ∃ pc ∈ ([⟨r9_S2000x512, p0⟩] : List (View.Piece (Elt F) S2000x512 .f32)), y ∈ pc.1.set :=
  View.cover_of_tiled [⟨r9_S2000x512, p0⟩] S2000x512.size (by rfl) y

set_option maxHeartbeats 1000000 in
/-- The kernel body, run on whole staging buffers: the inputs' buffers are read and left as they were, the output's
    buffer (whatever it held) ends at `out9_6` of the inputs. -/
theorem sound_kernel9 (c : Dev nD) (E : Set ℕ) (i : grid9.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__bn_relu_kernel i arg1 harg1 arg2 harg2 arg3 harg3 arg4 harg4 arg5 harg5 arg6 harg6 arg7 harg7) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The region's proof data on core `c`: the windows' arrays as the region finds them; after the body at point `t`
    every input's buffer still holds its block and the output's holds the body's result on the input blocks;
    nothing is owed and every share is whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is handed at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any grid point: the inputs' buffers hold their blocks, so the body's triple applies; the rest passes
    through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation9 (c : Dev nD) : BodyObligation (dat9 (F := F) V c) (defs₀ (F := F)) Variants.none () Set.univ := fun t => by
  rw [bigSep_W9, bigSep_W9]
  exact sound_body9 V c t

end Cert.KernelIdeal.Frm

end
-- ==== Proof.KI.Reg10.lean ====
/-
  Region 10 of @main (a row-scaled matrix product): the pipeline's proof data and the body's obligation, at any
  buffer contents `V` the region may be entered from. The body scales a block of 2000 rows by its column of row
  factors and multiplies it by the whole 512 by 512 weight matrix.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds the window's block at every grid point, whether or not the point fetched it
    (a point that does not fetch has the block index of the point before it). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds the window's block at every grid point, whether or not the point fetched it
    (a point that does not fetch has the block index of the point before it). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds the window's block at every grid point, whether or not the point fetched it
    (a point that does not fetch has the block index of the point before it). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! The body reads every staging buffer whole and stores the output buffer whole. -/
abbrev r10_S2000x512 : Rect S2000x512 := Rect.unit (s := S2000x512) ![0, 0] S2000x512.size inb_S2000x512_S2000x512_0_0
abbrev r10_S2000x1 : Rect S2000x1 := Rect.unit (s := S2000x1) ![0, 0] S2000x1.size inb_S2000x1_S2000x1_0_0
abbrev r10_S512x512 : Rect S512x512 := Rect.unit (s := S512x512) ![0, 0] S512x512.size inb_S512x512_S512x512_0_0

/-- The output window's staging buffer after the body: its one whole-buffer store of the body's arithmetic
    applied to the input blocks. -/
def out10_3 (x0 : Vec F S2000x512 .f32) (x1 : Vec F S2000x1 .f32) (x2 : Vec F S512x512 .f32) : Vec F S2000x512 .f32 :=
  View.canon [⟨r10_S2000x512, k10_pay1 (View.ld x0 r10_S2000x512) (View.ld x1 r10_S2000x1) (View.ld x2 r10_S512x512)⟩]

/-- The one store covers the buffer. -/
theorem cover10_3 (p0 : Vec F S2000x512 .f32) (y : S2000x512.Idx) :
    ∃ pc ∈ ([⟨r10_S2000x512, p0⟩] : List (View.Piece (Elt F) S2000x512 .f32)), y ∈ pc.1.set :=
  View.cover_of_tiled [⟨r10_S2000x512, p0⟩] S2000x512.size (by rfl) y

set_option maxHeartbeats 1000000 in
/-- The kernel body, run on whole staging buffers: the inputs' buffers are read and left as they were, the output's
    buffer (whatever it held) ends at `out10_3` of the inputs. -/
theorem sound_kernel10 (c : Dev nD) (E : Set ℕ) (i : grid10.Coords) (arg1 : Memref sig .tc .vmem S2000x512 .f32) (harg1 : arg1.IsWhole) (arg2 : Memref sig .tc .vmem S2000x1 .f32) (harg2 : arg2.IsWhole) (arg3 : Memref sig .tc .vmem S512x512 .f32) (harg3 : arg3.IsWhole) (arg4 : Memref sig .tc .vmem S2000x512 .f32) (harg4 : arg4.IsWhole)
    (x0 : Vec F S2000x512 .f32) (x1 : Vec F S2000x1 .f32) (x2 : Vec F S512x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2)) -∗ K ⟨⟩))
      ⊢ wp frame (wpE (defs₀ (F := F)) Variants.none c none) E (cc10__scaled_matmul_kernel i arg1 harg1 arg2 harg2 arg3 harg3 arg4 harg4) K := by
  simp only [cc10__scaled_matmul_kernel_eq_skeleton]; unfold cc10__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-- The region's proof data on core `c`: the windows' arrays as the region finds them; after the body at point `t`
    every input's buffer still holds its block and the output's holds the body's result on the input blocks;
    nothing is owed and every share is whole. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is handed at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it hands back. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any grid point: the inputs' buffers hold their blocks, so the body's triple applies; the rest passes
    through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation10 (c : Dev nD) : BodyObligation (dat10 (F := F) V c) (defs₀ (F := F)) Variants.none () Set.univ := fun t => by
  rw [bigSep_W10, bigSep_W10]
  exact sound_body10 V c t

end Cert.KernelIdeal.Frm

end
-- ==== Proof.KI.Reg11.lean ====
/-
  Region 11 of @main (normalisation and rectifier): the pipeline's proof data and the body's obligation, at any
  buffer contents `V` the region may be entered from. The body scales a block of 2000 rows by its column of row
  factors, adds a bias row, subtracts a mean row, multiplies by a scale row, adds a shift row and takes the maximum
  with zero.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds the window's block at every grid point, whether or not the point fetched it
    (a point that does not fetch has the block index of the point before it). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds the window's block at every grid point, whether or not the point fetched it
    (a point that does not fetch has the block index of the point before it). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds the window's block at every grid point, whether or not the point fetched it
    (a point that does not fetch has the block index of the point before it). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's staging buffer holds the window's block at every grid point, whether or not the point fetched it
    (a point that does not fetch has the block index of the point before it). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's staging buffer holds the window's block at every grid point, whether or not the point fetched it
    (a point that does not fetch has the block index of the point before it). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's staging buffer holds the window's block at every grid point, whether or not the point fetched it
    (a point that does not fetch has the block index of the point before it). -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! The body reads every staging buffer whole and stores the output buffer whole. -/
abbrev r11_S2000x512 : Rect S2000x512 := Rect.unit (s := S2000x512) ![0, 0] S2000x512.size inb_S2000x512_S2000x512_0_0
abbrev r11_S2000x1 : Rect S2000x1 := Rect.unit (s := S2000x1) ![0, 0] S2000x1.size inb_S2000x1_S2000x1_0_0
abbrev r11_S1x512 : Rect S1x512 := Rect.unit (s := S1x512) ![0, 0] S1x512.size inb_S1x512_S1x512_0_0

/-- The output window's staging buffer after the body: its one whole-buffer store of the body's arithmetic
    applied to the input blocks. -/
def out11_6 (x0 : Vec F S2000x512 .f32) (x1 : Vec F S2000x1 .f32) (x2 : Vec F S1x512 .f32) (x3 : Vec F S1x512 .f32) (x4 : Vec F S1x512 .f32) (x5 : Vec F S1x512 .f32) : Vec F S2000x512 .f32 :=
  View.canon [⟨r11_S2000x512, k11_pay1 (View.ld x0 r11_S2000x512) (View.ld x1 r11_S2000x1) (View.ld x2 r11_S1x512) (View.ld x3 r11_S1x512) (View.ld x4 r11_S1x512) (View.ld x5 r11_S1x512)⟩]

/-- The one store covers the buffer. -/
theorem cover11_6 (p0 : Vec F S2000x512 .f32) (y : S2000x512.Idx) :
    ∃ pc ∈ ([⟨r11_S2000x512, p0⟩] : List (View.Piece (Elt F) S2000x512 .f32)), y ∈ pc.1.set :=
  View.cover_of_tiled [⟨r11_S2000x512, p0⟩] S2000x512.size (by rfl) y

set_option maxHeartbeats 1000000 in
/-- The kernel body, run on whole staging buffers: the inputs' buffers are read and left as they were, the output's
    buffer (whatever it held) ends at `out11_6` of the inputs. -/
theorem sound_kernel11 (c : Dev nD) (E : Set ℕ) (i : grid11.Coords) (arg1 : Memref sig .tc .vmem S2000x512 .f32) (harg1 : arg1.IsWhole) (arg2 : Memref sig .tc .vmem S2000x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2000x512 .f32) (harg7 : arg7.IsWhole)
    (x0 : Vec F S2000x512 .f32) (x1 : Vec F S2000x1 .f32) (x2 : Vec F S1x512 .f32) (x3 : Vec F S1x512 .f32) (x4 : Vec F S1x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__bn_relu_kernel i arg1 harg1 arg2 harg2 arg3 harg3 arg4 harg4 arg5 harg5 arg6 harg6 arg7 harg7) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The region's proof data on core `c`: the windows' arrays as the region finds them; after the body at point `t`
    every input's buffer still holds its block and the output's holds the body's result on the input blocks;
    nothing is owed and every share is whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is handed at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any grid point: the inputs' buffers hold their blocks, so the body's triple applies; the rest passes
    through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every grid point. -/
theorem body_obligation11 (c : Dev nD) : BodyObligation (dat11 (F := F) V c) (defs₀ (F := F)) Variants.none () Set.univ := fun t => by
  rw [bigSep_W11, bigSep_W11]
  exact sound_body11 V c t

end Cert.KernelIdeal.Frm

end
-- ==== Proof.KI.Reg12.lean ====
/-
  Region 12 of @main (the final linear layer): the pipeline's proof data and the body's obligation, at any buffer
  contents `V` the region may be entered from. The body multiplies a block of 200 rows of the concatenated features by
  the whole weight matrix and adds the bias row.
-/
import proofs.«144268_j91216515432581_2_alg».proof.Proof.Gen.KernelIdeal.Launch
import proofs.«144268_j91216515432581_2_alg».proof.Proof.Gen.KernelIdeal.Skeleton
import proofs.«144268_j91216515432581_2_alg».proof.Proof.Gen.KernelIdeal.Points
import Idealize.ShloMosaic.Lib.Pipeline.FrameBody
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds the window's block at every grid point, whether or not the point fetched it
    (a point that does not fetch has the block index of the point before it). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds the window's block at every grid point, whether or not the point fetched it
    (a point that does not fetch has the block index of the point before it). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds the window's block at every grid point, whether or not the point fetched it
    (a point that does not fetch has the block index of the point before it). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! The body reads every staging buffer whole and stores the output buffer whole. -/
abbrev r12_S200x3072 : Rect S200x3072 := Rect.unit (s := S200x3072) ![0, 0] S200x3072.size inb_S200x3072_S200x3072_0_0
abbrev r12_S3072x64 : Rect S3072x64 := Rect.unit (s := S3072x64) ![0, 0] S3072x64.size inb_S3072x64_S3072x64_0_0
abbrev r12_S1x64 : Rect S1x64 := Rect.unit (s := S1x64) ![0, 0] S1x64.size inb_S1x64_S1x64_0_0
abbrev r12_S200x64 : Rect S200x64 := Rect.unit (s := S200x64) ![0, 0] S200x64.size inb_S200x64_S200x64_0_0

/-- The output window's staging buffer after the body: its one whole-buffer store of the body's arithmetic
    applied to the input blocks. -/
def out12_3 (x0 : Vec F S200x3072 .f32) (x1 : Vec F S3072x64 .f32) (x2 : Vec F S1x64 .f32) : Vec F S200x64 .f32 :=
  View.canon [⟨r12_S200x64, k12_pay1 (View.ld x0 r12_S200x3072) (View.ld x1 r12_S3072x64) (View.ld x2 r12_S1x64)⟩]

/-- The one store covers the buffer. -/
theorem cover12_3 (p0 : Vec F S200x64 .f32) (y : S200x64.Idx) :
    ∃ pc ∈ ([⟨r12_S200x64, p0⟩] : List (View.Piece (Elt F) S200x64 .f32)), y ∈ pc.1.set :=
  View.cover_of_tiled [⟨r12_S200x64, p0⟩] S200x64.size (by rfl) y

set_option maxHeartbeats 1000000 in
/-- The kernel body, run on whole staging buffers: the inputs' buffers are read and left as they were, the output's
    buffer (whatever it held) ends at `out12_3` of the inputs. -/
theorem sound_kernel12 (c : Dev nD) (E : Set ℕ) (i : grid12.Coords) (arg1 : Memref sig .tc .vmem S200x3072 .f32) (harg1 : arg1.IsWhole) (arg2 : Memref sig .tc .vmem S3072x64 .f32) (harg2 : arg2.IsWhole) (arg3 : Memref sig .tc .vmem S1x64 .f32) (harg3 : arg3.IsWhole) (arg4 : Memref sig .tc .vmem S200x64 .f32) (harg4 : arg4.IsWhole)
    (x0 : Vec F S200x3072 .f32) (x1 : Vec F S3072x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__final_linear_kernel i arg1 harg1 arg2 harg2 arg3 harg3 arg4 harg4) K := by
  simp only [cc12__final_linear_kernel_eq_skeleton]; unfold cc12__final_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The region's proof data on core `c`: the windows' arrays as the region finds them; after the body at point `t`
    every input's buffer still holds its block and the output's holds the body's result on the input blocks;
    nothing is owed and every share is whole. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is handed at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it hands back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any grid point: the inputs' buffers hold their blocks, so the body's triple applies; the rest passes
    through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every grid point. -/
theorem body_obligation12 (c : Dev nD) : BodyObligation (dat12 (F := F) V c) (defs₀ (F := F)) Variants.none () Set.univ := fun t => by
  rw [bigSep_W12, bigSep_W12]
  exact sound_body12 V c t

end Cert.KernelIdeal.Frm

end
-- ==== Proof.KI.Fold.lean ====
/-
  The contents of every buffer of a core between two items of @main (a stretch of host operations, or one of the 13
  kernel regions): the launch memory, then each host stretch applied, then, at a region's exit, the region's output
  array replaced by what the pipeline's write-backs leave and every other buffer as it was. At a region's exit each of
  its arrays holds what the pipeline leaves, and no item writes an argument array.
-/
import proofs.«144268_j91216515432581_2_alg».proof.Proof.KI.Reg0
import proofs.«144268_j91216515432581_2_alg».proof.Proof.KI.Reg1
import proofs.«144268_j91216515432581_2_alg».proof.Proof.KI.Reg2
import proofs.«144268_j91216515432581_2_alg».proof.Proof.KI.Reg3
import proofs.«144268_j91216515432581_2_alg».proof.Proof.KI.Reg4
import proofs.«144268_j91216515432581_2_alg».proof.Proof.KI.Reg5
import proofs.«144268_j91216515432581_2_alg».proof.Proof.KI.Reg6
import proofs.«144268_j91216515432581_2_alg».proof.Proof.KI.Reg7
import proofs.«144268_j91216515432581_2_alg».proof.Proof.KI.Reg8
import proofs.«144268_j91216515432581_2_alg».proof.Proof.KI.Reg9
import proofs.«144268_j91216515432581_2_alg».proof.Proof.KI.Reg10
import proofs.«144268_j91216515432581_2_alg».proof.Proof.KI.Reg11
import proofs.«144268_j91216515432581_2_alg».proof.Proof.KI.Reg12
import proofs.«144268_j91216515432581_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
abbrev B0 : Dev nD → Valuation τ sig (Elt F) := fun c b => m (c, b)
abbrev T0 : (c : Dev nD) → (b : Ref sig .tc) → Buf (Elt F) ((c : Thread nD τ).loc b) := fun c b => B0 m c b
/-- After item 0, the host stretch `hostOps0`. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- After item 1, the host stretch `hostOps0_1`. -/
abbrev B2 : Dev nD → Valuation τ sig (Elt F) := fun c => StableHlo.after hostOps0_1 (B1 m c)
abbrev T2 : (c : Dev nD) → (b : Ref sig .tc) → Buf (Elt F) ((c : Thread nD τ).loc b) := fun c b => B2 m c b
/-- After item 2, the host stretch `hostOps0_2`. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b
/-- After item 3, the host stretch `hostOps0_3`. -/
abbrev B4 : Dev nD → Valuation τ sig (Elt F) := fun c => StableHlo.after hostOps0_3 (B3 m c)
abbrev T4 : (c : Dev nD) → (b : Ref sig .tc) → Buf (Elt F) ((c : Thread nD τ).loc b) := fun c b => B4 m c b
/-- After item 4, the host stretch `hostOps0_4`. -/
abbrev B5 : Dev nD → Valuation τ sig (Elt F) := fun c => StableHlo.after hostOps0_4 (B4 m c)
abbrev T5 : (c : Dev nD) → (b : Ref sig .tc) → Buf (Elt F) ((c : Thread nD τ).loc b) := fun c b => B5 m c b
/-- After item 5, region 0: its output array `main_v15` at what the pipeline's write-backs leave, every other
    buffer as the region found it. -/
def B6 (c : Dev nD) : Valuation τ sig (Elt F) :=
  Function.update (B5 m c) main_v15 ((dat0 (T5 m) c).arrAt 3 cfg0.N)
theorem B6_out (c : Dev nD) : B6 m c main_v15 = (dat0 (T5 m) c).arrAt 3 cfg0.N := by
  unfold B6; exact Function.update_self ..
theorem B6_of_ne (c : Dev nD) (b : Ref sig .tc) (hb : b ≠ main_v15) : B6 m c b = B5 m c b := by
  unfold B6; exact Function.update_of_ne (StableHlo.devRef_ne_of_ne hb) ..
abbrev T6 : (c : Dev nD) → (b : Ref sig .tc) → Buf (Elt F) ((c : Thread nD τ).loc b) := fun c b => B6 m c b
/-- After item 6, the host stretch `hostOps1`. -/
abbrev B7 : Dev nD → Valuation τ sig (Elt F) := fun c => StableHlo.after hostOps1 (B6 m c)
abbrev T7 : (c : Dev nD) → (b : Ref sig .tc) → Buf (Elt F) ((c : Thread nD τ).loc b) := fun c b => B7 m c b
/-- After item 7, region 1: its output array `main_v44` at what the pipeline's write-backs leave, every other
    buffer as the region found it. -/
def B8 (c : Dev nD) : Valuation τ sig (Elt F) :=
  Function.update (B7 m c) main_v44 ((dat1 (T7 m) c).arrAt 6 cfg1.N)
theorem B8_out (c : Dev nD) : B8 m c main_v44 = (dat1 (T7 m) c).arrAt 6 cfg1.N := by
  unfold B8; exact Function.update_self ..
theorem B8_of_ne (c : Dev nD) (b : Ref sig .tc) (hb : b ≠ main_v44) : B8 m c b = B7 m c b := by
  unfold B8; exact Function.update_of_ne (StableHlo.devRef_ne_of_ne hb) ..
abbrev T8 : (c : Dev nD) → (b : Ref sig .tc) → Buf (Elt F) ((c : Thread nD τ).loc b) := fun c b => B8 m c b
/-- After item 8, the host stretch `hostOps2`. -/
abbrev B9 : Dev nD → Valuation τ sig (Elt F) := fun c => StableHlo.after hostOps2 (B8 m c)
abbrev T9 : (c : Dev nD) → (b : Ref sig .tc) → Buf (Elt F) ((c : Thread nD τ).loc b) := fun c b => B9 m c b
/-- After item 9, region 2: its output array `main_v47` at what the pipeline's write-backs leave, every other
    buffer as the region found it. -/
def B10 (c : Dev nD) : Valuation τ sig (Elt F) :=
  Function.update (B9 m c) main_v47 ((dat2 (T9 m) c).arrAt 3 cfg2.N)
theorem B10_out (c : Dev nD) : B10 m c main_v47 = (dat2 (T9 m) c).arrAt 3 cfg2.N := by
  unfold B10; exact Function.update_self ..
theorem B10_of_ne (c : Dev nD) (b : Ref sig .tc) (hb : b ≠ main_v47) : B10 m c b = B9 m c b := by
  unfold B10; exact Function.update_of_ne (StableHlo.devRef_ne_of_ne hb) ..
abbrev T10 : (c : Dev nD) → (b : Ref sig .tc) → Buf (Elt F) ((c : Thread nD τ).loc b) := fun c b => B10 m c b
/-- After item 10, the host stretch `hostOps3`. -/
abbrev B11 : Dev nD → Valuation τ sig (Elt F) := fun c => StableHlo.after hostOps3 (B10 m c)
abbrev T11 : (c : Dev nD) → (b : Ref sig .tc) → Buf (Elt F) ((c : Thread nD τ).loc b) := fun c b => B11 m c b
/-- After item 11, region 3: its output array `main_v76` at what the pipeline's write-backs leave, every other
    buffer as the region found it. -/
def B12 (c : Dev nD) : Valuation τ sig (Elt F) :=
  Function.update (B11 m c) main_v76 ((dat3 (T11 m) c).arrAt 6 cfg3.N)
theorem B12_out (c : Dev nD) : B12 m c main_v76 = (dat3 (T11 m) c).arrAt 6 cfg3.N := by
  unfold B12; exact Function.update_self ..
theorem B12_of_ne (c : Dev nD) (b : Ref sig .tc) (hb : b ≠ main_v76) : B12 m c b = B11 m c b := by
  unfold B12; exact Function.update_of_ne (StableHlo.devRef_ne_of_ne hb) ..
abbrev T12 : (c : Dev nD) → (b : Ref sig .tc) → Buf (Elt F) ((c : Thread nD τ).loc b) := fun c b => B12 m c b
/-- After item 12, the host stretch `hostOps4`. -/
abbrev B13 : Dev nD → Valuation τ sig (Elt F) := fun c => StableHlo.after hostOps4 (B12 m c)
abbrev T13 : (c : Dev nD) → (b : Ref sig .tc) → Buf (Elt F) ((c : Thread nD τ).loc b) := fun c b => B13 m c b
/-- After item 13, region 4: its output array `main_v79` at what the pipeline's write-backs leave, every other
    buffer as the region found it. -/
def B14 (c : Dev nD) : Valuation τ sig (Elt F) :=
  Function.update (B13 m c) main_v79 ((dat4 (T13 m) c).arrAt 3 cfg4.N)
theorem B14_out (c : Dev nD) : B14 m c main_v79 = (dat4 (T13 m) c).arrAt 3 cfg4.N := by
  unfold B14; exact Function.update_self ..
theorem B14_of_ne (c : Dev nD) (b : Ref sig .tc) (hb : b ≠ main_v79) : B14 m c b = B13 m c b := by
  unfold B14; exact Function.update_of_ne (StableHlo.devRef_ne_of_ne hb) ..
abbrev T14 : (c : Dev nD) → (b : Ref sig .tc) → Buf (Elt F) ((c : Thread nD τ).loc b) := fun c b => B14 m c b
/-- After item 14, the host stretch `hostOps5`. -/
abbrev B15 : Dev nD → Valuation τ sig (Elt F) := fun c => StableHlo.after hostOps5 (B14 m c)
abbrev T15 : (c : Dev nD) → (b : Ref sig .tc) → Buf (Elt F) ((c : Thread nD τ).loc b) := fun c b => B15 m c b
/-- After item 15, region 5: its output array `main_v108` at what the pipeline's write-backs leave, every other
    buffer as the region found it. -/
def B16 (c : Dev nD) : Valuation τ sig (Elt F) :=
  Function.update (B15 m c) main_v108 ((dat5 (T15 m) c).arrAt 6 cfg5.N)
theorem B16_out (c : Dev nD) : B16 m c main_v108 = (dat5 (T15 m) c).arrAt 6 cfg5.N := by
  unfold B16; exact Function.update_self ..
theorem B16_of_ne (c : Dev nD) (b : Ref sig .tc) (hb : b ≠ main_v108) : B16 m c b = B15 m c b := by
  unfold B16; exact Function.update_of_ne (StableHlo.devRef_ne_of_ne hb) ..
abbrev T16 : (c : Dev nD) → (b : Ref sig .tc) → Buf (Elt F) ((c : Thread nD τ).loc b) := fun c b => B16 m c b
/-- After item 16, the host stretch `hostOps6`. -/
abbrev B17 : Dev nD → Valuation τ sig (Elt F) := fun c => StableHlo.after hostOps6 (B16 m c)
abbrev T17 : (c : Dev nD) → (b : Ref sig .tc) → Buf (Elt F) ((c : Thread nD τ).loc b) := fun c b => B17 m c b
/-- After item 17, region 6: its output array `main_v111` at what the pipeline's write-backs leave, every other
    buffer as the region found it. -/
def B18 (c : Dev nD) : Valuation τ sig (Elt F) :=
  Function.update (B17 m c) main_v111 ((dat6 (T17 m) c).arrAt 3 cfg6.N)
theorem B18_out (c : Dev nD) : B18 m c main_v111 = (dat6 (T17 m) c).arrAt 3 cfg6.N := by
  unfold B18; exact Function.update_self ..
theorem B18_of_ne (c : Dev nD) (b : Ref sig .tc) (hb : b ≠ main_v111) : B18 m c b = B17 m c b := by
  unfold B18; exact Function.update_of_ne (StableHlo.devRef_ne_of_ne hb) ..
abbrev T18 : (c : Dev nD) → (b : Ref sig .tc) → Buf (Elt F) ((c : Thread nD τ).loc b) := fun c b => B18 m c b
/-- After item 18, the host stretch `hostOps7`. -/
abbrev B19 : Dev nD → Valuation τ sig (Elt F) := fun c => StableHlo.after hostOps7 (B18 m c)
abbrev T19 : (c : Dev nD) → (b : Ref sig .tc) → Buf (Elt F) ((c : Thread nD τ).loc b) := fun c b => B19 m c b
/-- After item 19, region 7: its output array `main_v140` at what the pipeline's write-backs leave, every other
    buffer as the region found it. -/
def B20 (c : Dev nD) : Valuation τ sig (Elt F) :=
  Function.update (B19 m c) main_v140 ((dat7 (T19 m) c).arrAt 6 cfg7.N)
theorem B20_out (c : Dev nD) : B20 m c main_v140 = (dat7 (T19 m) c).arrAt 6 cfg7.N := by
  unfold B20; exact Function.update_self ..
theorem B20_of_ne (c : Dev nD) (b : Ref sig .tc) (hb : b ≠ main_v140) : B20 m c b = B19 m c b := by
  unfold B20; exact Function.update_of_ne (StableHlo.devRef_ne_of_ne hb) ..
abbrev T20 : (c : Dev nD) → (b : Ref sig .tc) → Buf (Elt F) ((c : Thread nD τ).loc b) := fun c b => B20 m c b
/-- After item 20, the host stretch `hostOps8`. -/
abbrev B21 : Dev nD → Valuation τ sig (Elt F) := fun c => StableHlo.after hostOps8 (B20 m c)
abbrev T21 : (c : Dev nD) → (b : Ref sig .tc) → Buf (Elt F) ((c : Thread nD τ).loc b) := fun c b => B21 m c b
/-- After item 21, region 8: its output array `main_v143` at what the pipeline's write-backs leave, every other
    buffer as the region found it. -/
def B22 (c : Dev nD) : Valuation τ sig (Elt F) :=
  Function.update (B21 m c) main_v143 ((dat8 (T21 m) c).arrAt 3 cfg8.N)
theorem B22_out (c : Dev nD) : B22 m c main_v143 = (dat8 (T21 m) c).arrAt 3 cfg8.N := by
  unfold B22; exact Function.update_self ..
theorem B22_of_ne (c : Dev nD) (b : Ref sig .tc) (hb : b ≠ main_v143) : B22 m c b = B21 m c b := by
  unfold B22; exact Function.update_of_ne (StableHlo.devRef_ne_of_ne hb) ..
abbrev T22 : (c : Dev nD) → (b : Ref sig .tc) → Buf (Elt F) ((c : Thread nD τ).loc b) := fun c b => B22 m c b
/-- After item 22, the host stretch `hostOps9`. -/
abbrev B23 : Dev nD → Valuation τ sig (Elt F) := fun c => StableHlo.after hostOps9 (B22 m c)
abbrev T23 : (c : Dev nD) → (b : Ref sig .tc) → Buf (Elt F) ((c : Thread nD τ).loc b) := fun c b => B23 m c b
/-- After item 23, region 9: its output array `main_v172` at what the pipeline's write-backs leave, every other
    buffer as the region found it. -/
def B24 (c : Dev nD) : Valuation τ sig (Elt F) :=
  Function.update (B23 m c) main_v172 ((dat9 (T23 m) c).arrAt 6 cfg9.N)
theorem B24_out (c : Dev nD) : B24 m c main_v172 = (dat9 (T23 m) c).arrAt 6 cfg9.N := by
  unfold B24; exact Function.update_self ..
theorem B24_of_ne (c : Dev nD) (b : Ref sig .tc) (hb : b ≠ main_v172) : B24 m c b = B23 m c b := by
  unfold B24; exact Function.update_of_ne (StableHlo.devRef_ne_of_ne hb) ..
abbrev T24 : (c : Dev nD) → (b : Ref sig .tc) → Buf (Elt F) ((c : Thread nD τ).loc b) := fun c b => B24 m c b
/-- After item 24, the host stretch `hostOps10`. -/
abbrev B25 : Dev nD → Valuation τ sig (Elt F) := fun c => StableHlo.after hostOps10 (B24 m c)
abbrev T25 : (c : Dev nD) → (b : Ref sig .tc) → Buf (Elt F) ((c : Thread nD τ).loc b) := fun c b => B25 m c b
/-- After item 25, region 10: its output array `main_v175` at what the pipeline's write-backs leave, every other
    buffer as the region found it. -/
def B26 (c : Dev nD) : Valuation τ sig (Elt F) :=
  Function.update (B25 m c) main_v175 ((dat10 (T25 m) c).arrAt 3 cfg10.N)
theorem B26_out (c : Dev nD) : B26 m c main_v175 = (dat10 (T25 m) c).arrAt 3 cfg10.N := by
  unfold B26; exact Function.update_self ..
theorem B26_of_ne (c : Dev nD) (b : Ref sig .tc) (hb : b ≠ main_v175) : B26 m c b = B25 m c b := by
  unfold B26; exact Function.update_of_ne (StableHlo.devRef_ne_of_ne hb) ..
abbrev T26 : (c : Dev nD) → (b : Ref sig .tc) → Buf (Elt F) ((c : Thread nD τ).loc b) := fun c b => B26 m c b
/-- After item 26, the host stretch `hostOps11`. -/
abbrev B27 : Dev nD → Valuation τ sig (Elt F) := fun c => StableHlo.after hostOps11 (B26 m c)
abbrev T27 : (c : Dev nD) → (b : Ref sig .tc) → Buf (Elt F) ((c : Thread nD τ).loc b) := fun c b => B27 m c b
/-- After item 27, region 11: its output array `main_v204` at what the pipeline's write-backs leave, every other
    buffer as the region found it. -/
def B28 (c : Dev nD) : Valuation τ sig (Elt F) :=
  Function.update (B27 m c) main_v204 ((dat11 (T27 m) c).arrAt 6 cfg11.N)
theorem B28_out (c : Dev nD) : B28 m c main_v204 = (dat11 (T27 m) c).arrAt 6 cfg11.N := by
  unfold B28; exact Function.update_self ..
theorem B28_of_ne (c : Dev nD) (b : Ref sig .tc) (hb : b ≠ main_v204) : B28 m c b = B27 m c b := by
  unfold B28; exact Function.update_of_ne (StableHlo.devRef_ne_of_ne hb) ..
abbrev T28 : (c : Dev nD) → (b : Ref sig .tc) → Buf (Elt F) ((c : Thread nD τ).loc b) := fun c b => B28 m c b
/-- After item 28, the host stretch `hostOps12`. -/
abbrev B29 : Dev nD → Valuation τ sig (Elt F) := fun c => StableHlo.after hostOps12 (B28 m c)
abbrev T29 : (c : Dev nD) → (b : Ref sig .tc) → Buf (Elt F) ((c : Thread nD τ).loc b) := fun c b => B29 m c b
/-- After item 29, region 12: its output array `main_v207` at what the pipeline's write-backs leave, every other
    buffer as the region found it. -/
def B30 (c : Dev nD) : Valuation τ sig (Elt F) :=
  Function.update (B29 m c) main_v207 ((dat12 (T29 m) c).arrAt 3 cfg12.N)
theorem B30_out (c : Dev nD) : B30 m c main_v207 = (dat12 (T29 m) c).arrAt 3 cfg12.N := by
  unfold B30; exact Function.update_self ..
theorem B30_of_ne (c : Dev nD) (b : Ref sig .tc) (hb : b ≠ main_v207) : B30 m c b = B29 m c b := by
  unfold B30; exact Function.update_of_ne (StableHlo.devRef_ne_of_ne hb) ..
abbrev T30 : (c : Dev nD) → (b : Ref sig .tc) → Buf (Elt F) ((c : Thread nD τ).loc b) := fun c b => B30 m c b

/-! ## At a region's exit each of its arrays holds what the pipeline leaves, and every other buffer what it held -/

set_option maxHeartbeats 4000000 in
theorem hF0 (c : Dev nD) : ∀ w : Fin cfg0.W, (dat0 (T5 m) c).arrAt w cfg0.N = T6 m c (Pipeline.arrRef spec0 w) := fun
  | 0 => (((dat0 (T5 m) c).arrAt_in 0 rfl _).trans (A_eq0 (T5 m) c 0)).trans (B6_of_ne m c _ (by decide)).symm
  | 1 => (((dat0 (T5 m) c).arrAt_in 1 rfl _).trans (A_eq0 (T5 m) c 1)).trans (B6_of_ne m c _ (by decide)).symm
  | 2 => (((dat0 (T5 m) c).arrAt_in 2 rfl _).trans (A_eq0 (T5 m) c 2)).trans (B6_of_ne m c _ (by decide)).symm
  | 3 => (B6_out m c).symm
  | ⟨_ + 4, h⟩ => absurd h (Nat.not_lt.2 (Nat.le_add_left _ _))
theorem hrest0 (c : Dev nD) : ∀ b, b ∉ Finset.univ.image (Pipeline.arrRef spec0) → T6 m c b = T5 m c b :=
  fun b hb => B6_of_ne m c b fun e => hb (Finset.mem_image.mpr ⟨3, Finset.mem_univ _, e.symm⟩)

set_option maxHeartbeats 4000000 in
theorem hF1 (c : Dev nD) : ∀ w : Fin cfg1.W, (dat1 (T7 m) c).arrAt w cfg1.N = T8 m c (Pipeline.arrRef spec1 w) := fun
  | 0 => (((dat1 (T7 m) c).arrAt_in 0 rfl _).trans (A_eq1 (T7 m) c 0)).trans (B8_of_ne m c _ (by decide)).symm
  | 1 => (((dat1 (T7 m) c).arrAt_in 1 rfl _).trans (A_eq1 (T7 m) c 1)).trans (B8_of_ne m c _ (by decide)).symm
  | 2 => (((dat1 (T7 m) c).arrAt_in 2 rfl _).trans (A_eq1 (T7 m) c 2)).trans (B8_of_ne m c _ (by decide)).symm
  | 3 => (((dat1 (T7 m) c).arrAt_in 3 rfl _).trans (A_eq1 (T7 m) c 3)).trans (B8_of_ne m c _ (by decide)).symm
  | 4 => (((dat1 (T7 m) c).arrAt_in 4 rfl _).trans (A_eq1 (T7 m) c 4)).trans (B8_of_ne m c _ (by decide)).symm
  | 5 => (((dat1 (T7 m) c).arrAt_in 5 rfl _).trans (A_eq1 (T7 m) c 5)).trans (B8_of_ne m c _ (by decide)).symm
  | 6 => (B8_out m c).symm
  | ⟨_ + 7, h⟩ => absurd h (Nat.not_lt.2 (Nat.le_add_left _ _))
theorem hrest1 (c : Dev nD) : ∀ b, b ∉ Finset.univ.image (Pipeline.arrRef spec1) → T8 m c b = T7 m c b :=
  fun b hb => B8_of_ne m c b fun e => hb (Finset.mem_image.mpr ⟨6, Finset.mem_univ _, e.symm⟩)

set_option maxHeartbeats 4000000 in
theorem hF2 (c : Dev nD) : ∀ w : Fin cfg2.W, (dat2 (T9 m) c).arrAt w cfg2.N = T10 m c (Pipeline.arrRef spec2 w) := fun
  | 0 => (((dat2 (T9 m) c).arrAt_in 0 rfl _).trans (A_eq2 (T9 m) c 0)).trans (B10_of_ne m c _ (by decide)).symm
  | 1 => (((dat2 (T9 m) c).arrAt_in 1 rfl _).trans (A_eq2 (T9 m) c 1)).trans (B10_of_ne m c _ (by decide)).symm
  | 2 => (((dat2 (T9 m) c).arrAt_in 2 rfl _).trans (A_eq2 (T9 m) c 2)).trans (B10_of_ne m c _ (by decide)).symm
  | 3 => (B10_out m c).symm
  | ⟨_ + 4, h⟩ => absurd h (Nat.not_lt.2 (Nat.le_add_left _ _))
theorem hrest2 (c : Dev nD) : ∀ b, b ∉ Finset.univ.image (Pipeline.arrRef spec2) → T10 m c b = T9 m c b :=
  fun b hb => B10_of_ne m c b fun e => hb (Finset.mem_image.mpr ⟨3, Finset.mem_univ _, e.symm⟩)

set_option maxHeartbeats 4000000 in
theorem hF3 (c : Dev nD) : ∀ w : Fin cfg3.W, (dat3 (T11 m) c).arrAt w cfg3.N = T12 m c (Pipeline.arrRef spec3 w) := fun
  | 0 => (((dat3 (T11 m) c).arrAt_in 0 rfl _).trans (A_eq3 (T11 m) c 0)).trans (B12_of_ne m c _ (by decide)).symm
  | 1 => (((dat3 (T11 m) c).arrAt_in 1 rfl _).trans (A_eq3 (T11 m) c 1)).trans (B12_of_ne m c _ (by decide)).symm
  | 2 => (((dat3 (T11 m) c).arrAt_in 2 rfl _).trans (A_eq3 (T11 m) c 2)).trans (B12_of_ne m c _ (by decide)).symm
  | 3 => (((dat3 (T11 m) c).arrAt_in 3 rfl _).trans (A_eq3 (T11 m) c 3)).trans (B12_of_ne m c _ (by decide)).symm
  | 4 => (((dat3 (T11 m) c).arrAt_in 4 rfl _).trans (A_eq3 (T11 m) c 4)).trans (B12_of_ne m c _ (by decide)).symm
  | 5 => (((dat3 (T11 m) c).arrAt_in 5 rfl _).trans (A_eq3 (T11 m) c 5)).trans (B12_of_ne m c _ (by decide)).symm
  | 6 => (B12_out m c).symm
  | ⟨_ + 7, h⟩ => absurd h (Nat.not_lt.2 (Nat.le_add_left _ _))
theorem hrest3 (c : Dev nD) : ∀ b, b ∉ Finset.univ.image (Pipeline.arrRef spec3) → T12 m c b = T11 m c b :=
  fun b hb => B12_of_ne m c b fun e => hb (Finset.mem_image.mpr ⟨6, Finset.mem_univ _, e.symm⟩)

set_option maxHeartbeats 4000000 in
theorem hF4 (c : Dev nD) : ∀ w : Fin cfg4.W, (dat4 (T13 m) c).arrAt w cfg4.N = T14 m c (Pipeline.arrRef spec4 w) := fun
  | 0 => (((dat4 (T13 m) c).arrAt_in 0 rfl _).trans (A_eq4 (T13 m) c 0)).trans (B14_of_ne m c _ (by decide)).symm
  | 1 => (((dat4 (T13 m) c).arrAt_in 1 rfl _).trans (A_eq4 (T13 m) c 1)).trans (B14_of_ne m c _ (by decide)).symm
  | 2 => (((dat4 (T13 m) c).arrAt_in 2 rfl _).trans (A_eq4 (T13 m) c 2)).trans (B14_of_ne m c _ (by decide)).symm
  | 3 => (B14_out m c).symm
  | ⟨_ + 4, h⟩ => absurd h (Nat.not_lt.2 (Nat.le_add_left _ _))
theorem hrest4 (c : Dev nD) : ∀ b, b ∉ Finset.univ.image (Pipeline.arrRef spec4) → T14 m c b = T13 m c b :=
  fun b hb => B14_of_ne m c b fun e => hb (Finset.mem_image.mpr ⟨3, Finset.mem_univ _, e.symm⟩)

set_option maxHeartbeats 4000000 in
theorem hF5 (c : Dev nD) : ∀ w : Fin cfg5.W, (dat5 (T15 m) c).arrAt w cfg5.N = T16 m c (Pipeline.arrRef spec5 w) := fun
  | 0 => (((dat5 (T15 m) c).arrAt_in 0 rfl _).trans (A_eq5 (T15 m) c 0)).trans (B16_of_ne m c _ (by decide)).symm
  | 1 => (((dat5 (T15 m) c).arrAt_in 1 rfl _).trans (A_eq5 (T15 m) c 1)).trans (B16_of_ne m c _ (by decide)).symm
  | 2 => (((dat5 (T15 m) c).arrAt_in 2 rfl _).trans (A_eq5 (T15 m) c 2)).trans (B16_of_ne m c _ (by decide)).symm
  | 3 => (((dat5 (T15 m) c).arrAt_in 3 rfl _).trans (A_eq5 (T15 m) c 3)).trans (B16_of_ne m c _ (by decide)).symm
  | 4 => (((dat5 (T15 m) c).arrAt_in 4 rfl _).trans (A_eq5 (T15 m) c 4)).trans (B16_of_ne m c _ (by decide)).symm
  | 5 => (((dat5 (T15 m) c).arrAt_in 5 rfl _).trans (A_eq5 (T15 m) c 5)).trans (B16_of_ne m c _ (by decide)).symm
  | 6 => (B16_out m c).symm
  | ⟨_ + 7, h⟩ => absurd h (Nat.not_lt.2 (Nat.le_add_left _ _))
theorem hrest5 (c : Dev nD) : ∀ b, b ∉ Finset.univ.image (Pipeline.arrRef spec5) → T16 m c b = T15 m c b :=
  fun b hb => B16_of_ne m c b fun e => hb (Finset.mem_image.mpr ⟨6, Finset.mem_univ _, e.symm⟩)

set_option maxHeartbeats 4000000 in
theorem hF6 (c : Dev nD) : ∀ w : Fin cfg6.W, (dat6 (T17 m) c).arrAt w cfg6.N = T18 m c (Pipeline.arrRef spec6 w) := fun
  | 0 => (((dat6 (T17 m) c).arrAt_in 0 rfl _).trans (A_eq6 (T17 m) c 0)).trans (B18_of_ne m c _ (by decide)).symm
  | 1 => (((dat6 (T17 m) c).arrAt_in 1 rfl _).trans (A_eq6 (T17 m) c 1)).trans (B18_of_ne m c _ (by decide)).symm
  | 2 => (((dat6 (T17 m) c).arrAt_in 2 rfl _).trans (A_eq6 (T17 m) c 2)).trans (B18_of_ne m c _ (by decide)).symm
  | 3 => (B18_out m c).symm
  | ⟨_ + 4, h⟩ => absurd h (Nat.not_lt.2 (Nat.le_add_left _ _))
theorem hrest6 (c : Dev nD) : ∀ b, b ∉ Finset.univ.image (Pipeline.arrRef spec6) → T18 m c b = T17 m c b :=
  fun b hb => B18_of_ne m c b fun e => hb (Finset.mem_image.mpr ⟨3, Finset.mem_univ _, e.symm⟩)

set_option maxHeartbeats 4000000 in
theorem hF7 (c : Dev nD) : ∀ w : Fin cfg7.W, (dat7 (T19 m) c).arrAt w cfg7.N = T20 m c (Pipeline.arrRef spec7 w) := fun
  | 0 => (((dat7 (T19 m) c).arrAt_in 0 rfl _).trans (A_eq7 (T19 m) c 0)).trans (B20_of_ne m c _ (by decide)).symm
  | 1 => (((dat7 (T19 m) c).arrAt_in 1 rfl _).trans (A_eq7 (T19 m) c 1)).trans (B20_of_ne m c _ (by decide)).symm
  | 2 => (((dat7 (T19 m) c).arrAt_in 2 rfl _).trans (A_eq7 (T19 m) c 2)).trans (B20_of_ne m c _ (by decide)).symm
  | 3 => (((dat7 (T19 m) c).arrAt_in 3 rfl _).trans (A_eq7 (T19 m) c 3)).trans (B20_of_ne m c _ (by decide)).symm
  | 4 => (((dat7 (T19 m) c).arrAt_in 4 rfl _).trans (A_eq7 (T19 m) c 4)).trans (B20_of_ne m c _ (by decide)).symm
  | 5 => (((dat7 (T19 m) c).arrAt_in 5 rfl _).trans (A_eq7 (T19 m) c 5)).trans (B20_of_ne m c _ (by decide)).symm
  | 6 => (B20_out m c).symm
  | ⟨_ + 7, h⟩ => absurd h (Nat.not_lt.2 (Nat.le_add_left _ _))
theorem hrest7 (c : Dev nD) : ∀ b, b ∉ Finset.univ.image (Pipeline.arrRef spec7) → T20 m c b = T19 m c b :=
  fun b hb => B20_of_ne m c b fun e => hb (Finset.mem_image.mpr ⟨6, Finset.mem_univ _, e.symm⟩)

set_option maxHeartbeats 4000000 in
theorem hF8 (c : Dev nD) : ∀ w : Fin cfg8.W, (dat8 (T21 m) c).arrAt w cfg8.N = T22 m c (Pipeline.arrRef spec8 w) := fun
  | 0 => (((dat8 (T21 m) c).arrAt_in 0 rfl _).trans (A_eq8 (T21 m) c 0)).trans (B22_of_ne m c _ (by decide)).symm
  | 1 => (((dat8 (T21 m) c).arrAt_in 1 rfl _).trans (A_eq8 (T21 m) c 1)).trans (B22_of_ne m c _ (by decide)).symm
  | 2 => (((dat8 (T21 m) c).arrAt_in 2 rfl _).trans (A_eq8 (T21 m) c 2)).trans (B22_of_ne m c _ (by decide)).symm
  | 3 => (B22_out m c).symm
  | ⟨_ + 4, h⟩ => absurd h (Nat.not_lt.2 (Nat.le_add_left _ _))
theorem hrest8 (c : Dev nD) : ∀ b, b ∉ Finset.univ.image (Pipeline.arrRef spec8) → T22 m c b = T21 m c b :=
  fun b hb => B22_of_ne m c b fun e => hb (Finset.mem_image.mpr ⟨3, Finset.mem_univ _, e.symm⟩)

set_option maxHeartbeats 4000000 in
theorem hF9 (c : Dev nD) : ∀ w : Fin cfg9.W, (dat9 (T23 m) c).arrAt w cfg9.N = T24 m c (Pipeline.arrRef spec9 w) := fun
  | 0 => (((dat9 (T23 m) c).arrAt_in 0 rfl _).trans (A_eq9 (T23 m) c 0)).trans (B24_of_ne m c _ (by decide)).symm
  | 1 => (((dat9 (T23 m) c).arrAt_in 1 rfl _).trans (A_eq9 (T23 m) c 1)).trans (B24_of_ne m c _ (by decide)).symm
  | 2 => (((dat9 (T23 m) c).arrAt_in 2 rfl _).trans (A_eq9 (T23 m) c 2)).trans (B24_of_ne m c _ (by decide)).symm
  | 3 => (((dat9 (T23 m) c).arrAt_in 3 rfl _).trans (A_eq9 (T23 m) c 3)).trans (B24_of_ne m c _ (by decide)).symm
  | 4 => (((dat9 (T23 m) c).arrAt_in 4 rfl _).trans (A_eq9 (T23 m) c 4)).trans (B24_of_ne m c _ (by decide)).symm
  | 5 => (((dat9 (T23 m) c).arrAt_in 5 rfl _).trans (A_eq9 (T23 m) c 5)).trans (B24_of_ne m c _ (by decide)).symm
  | 6 => (B24_out m c).symm
  | ⟨_ + 7, h⟩ => absurd h (Nat.not_lt.2 (Nat.le_add_left _ _))
theorem hrest9 (c : Dev nD) : ∀ b, b ∉ Finset.univ.image (Pipeline.arrRef spec9) → T24 m c b = T23 m c b :=
  fun b hb => B24_of_ne m c b fun e => hb (Finset.mem_image.mpr ⟨6, Finset.mem_univ _, e.symm⟩)

set_option maxHeartbeats 4000000 in
theorem hF10 (c : Dev nD) : ∀ w : Fin cfg10.W, (dat10 (T25 m) c).arrAt w cfg10.N = T26 m c (Pipeline.arrRef spec10 w) := fun
  | 0 => (((dat10 (T25 m) c).arrAt_in 0 rfl _).trans (A_eq10 (T25 m) c 0)).trans (B26_of_ne m c _ (by decide)).symm
  | 1 => (((dat10 (T25 m) c).arrAt_in 1 rfl _).trans (A_eq10 (T25 m) c 1)).trans (B26_of_ne m c _ (by decide)).symm
  | 2 => (((dat10 (T25 m) c).arrAt_in 2 rfl _).trans (A_eq10 (T25 m) c 2)).trans (B26_of_ne m c _ (by decide)).symm
  | 3 => (B26_out m c).symm
  | ⟨_ + 4, h⟩ => absurd h (Nat.not_lt.2 (Nat.le_add_left _ _))
theorem hrest10 (c : Dev nD) : ∀ b, b ∉ Finset.univ.image (Pipeline.arrRef spec10) → T26 m c b = T25 m c b :=
  fun b hb => B26_of_ne m c b fun e => hb (Finset.mem_image.mpr ⟨3, Finset.mem_univ _, e.symm⟩)

set_option maxHeartbeats 4000000 in
theorem hF11 (c : Dev nD) : ∀ w : Fin cfg11.W, (dat11 (T27 m) c).arrAt w cfg11.N = T28 m c (Pipeline.arrRef spec11 w) := fun
  | 0 => (((dat11 (T27 m) c).arrAt_in 0 rfl _).trans (A_eq11 (T27 m) c 0)).trans (B28_of_ne m c _ (by decide)).symm
  | 1 => (((dat11 (T27 m) c).arrAt_in 1 rfl _).trans (A_eq11 (T27 m) c 1)).trans (B28_of_ne m c _ (by decide)).symm
  | 2 => (((dat11 (T27 m) c).arrAt_in 2 rfl _).trans (A_eq11 (T27 m) c 2)).trans (B28_of_ne m c _ (by decide)).symm
  | 3 => (((dat11 (T27 m) c).arrAt_in 3 rfl _).trans (A_eq11 (T27 m) c 3)).trans (B28_of_ne m c _ (by decide)).symm
  | 4 => (((dat11 (T27 m) c).arrAt_in 4 rfl _).trans (A_eq11 (T27 m) c 4)).trans (B28_of_ne m c _ (by decide)).symm
  | 5 => (((dat11 (T27 m) c).arrAt_in 5 rfl _).trans (A_eq11 (T27 m) c 5)).trans (B28_of_ne m c _ (by decide)).symm
  | 6 => (B28_out m c).symm
  | ⟨_ + 7, h⟩ => absurd h (Nat.not_lt.2 (Nat.le_add_left _ _))
theorem hrest11 (c : Dev nD) : ∀ b, b ∉ Finset.univ.image (Pipeline.arrRef spec11) → T28 m c b = T27 m c b :=
  fun b hb => B28_of_ne m c b fun e => hb (Finset.mem_image.mpr ⟨6, Finset.mem_univ _, e.symm⟩)

set_option maxHeartbeats 4000000 in
theorem hF12 (c : Dev nD) : ∀ w : Fin cfg12.W, (dat12 (T29 m) c).arrAt w cfg12.N = T30 m c (Pipeline.arrRef spec12 w) := fun
  | 0 => (((dat12 (T29 m) c).arrAt_in 0 rfl _).trans (A_eq12 (T29 m) c 0)).trans (B30_of_ne m c _ (by decide)).symm
  | 1 => (((dat12 (T29 m) c).arrAt_in 1 rfl _).trans (A_eq12 (T29 m) c 1)).trans (B30_of_ne m c _ (by decide)).symm
  | 2 => (((dat12 (T29 m) c).arrAt_in 2 rfl _).trans (A_eq12 (T29 m) c 2)).trans (B30_of_ne m c _ (by decide)).symm
  | 3 => (B30_out m c).symm
  | ⟨_ + 4, h⟩ => absurd h (Nat.not_lt.2 (Nat.le_add_left _ _))
theorem hrest12 (c : Dev nD) : ∀ b, b ∉ Finset.univ.image (Pipeline.arrRef spec12) → T30 m c b = T29 m c b :=
  fun b hb => B30_of_ne m c b fun e => hb (Finset.mem_image.mpr ⟨3, Finset.mem_univ _, e.symm⟩)

/-! ## No item writes an argument array -/

theorem B30_main_arg0 (c : Dev nD) : B30 m c main_arg0 = m ((c : Thread nD τ).loc main_arg0) :=
  (B30_of_ne m c main_arg0 (by decide)).trans <|
  (StableHlo.after_of_writes_sub hostOps12 (B28 m c) hostOps12_writes (r := main_arg0) (by decide)).trans <|
  (B28_of_ne m c main_arg0 (by decide)).trans <|
  (StableHlo.after_of_writes_sub hostOps11 (B26 m c) hostOps11_writes (r := main_arg0) (by decide)).trans <|
  (B26_of_ne m c main_arg0 (by decide)).trans <|
  (StableHlo.after_of_writes_sub hostOps10 (B24 m c) hostOps10_writes (r := main_arg0) (by decide)).trans <|
  (B24_of_ne m c main_arg0 (by decide)).trans <|
  (StableHlo.after_of_writes_sub hostOps9 (B22 m c) hostOps9_writes (r := main_arg0) (by decide)).trans <|
  (B22_of_ne m c main_arg0 (by decide)).trans <|
  (StableHlo.after_of_writes_sub hostOps8 (B20 m c) hostOps8_writes (r := main_arg0) (by decide)).trans <|
  (B20_of_ne m c main_arg0 (by decide)).trans <|
  (StableHlo.after_of_writes_sub hostOps7 (B18 m c) hostOps7_writes (r := main_arg0) (by decide)).trans <|
  (B18_of_ne m c main_arg0 (by decide)).trans <|
  (StableHlo.after_of_writes_sub hostOps6 (B16 m c) hostOps6_writes (r := main_arg0) (by decide)).trans <|
  (B16_of_ne m c main_arg0 (by decide)).trans <|
  (StableHlo.after_of_writes_sub hostOps5 (B14 m c) hostOps5_writes (r := main_arg0) (by decide)).trans <|
  (B14_of_ne m c main_arg0 (by decide)).trans <|
  (StableHlo.after_of_writes_sub hostOps4 (B12 m c) hostOps4_writes (r := main_arg0) (by decide)).trans <|
  (B12_of_ne m c main_arg0 (by decide)).trans <|
  (StableHlo.after_of_writes_sub hostOps3 (B10 m c) hostOps3_writes (r := main_arg0) (by decide)).trans <|
  (B10_of_ne m c main_arg0 (by decide)).trans <|
  (StableHlo.after_of_writes_sub hostOps2 (B8 m c) hostOps2_writes (r := main_arg0) (by decide)).trans <|
  (B8_of_ne m c main_arg0 (by decide)).trans <|
  (StableHlo.after_of_writes_sub hostOps1 (B6 m c) hostOps1_writes (r := main_arg0) (by decide)).trans <|
  (B6_of_ne m c main_arg0 (by decide)).trans <|
  (StableHlo.after_of_writes_sub hostOps0_4 (B4 m c) hostOps0_4_writes (r := main_arg0) (by decide)).trans <|
  (StableHlo.after_of_writes_sub hostOps0_3 (B3 m c) hostOps0_3_writes (r := main_arg0) (by decide)).trans <|
  (StableHlo.after_of_writes_sub hostOps0_2 (B2 m c) hostOps0_2_writes (r := main_arg0) (by decide)).trans <|
  (StableHlo.after_of_writes_sub hostOps0_1 (B1 m c) hostOps0_1_writes (r := main_arg0) (by decide)).trans <|
  (StableHlo.after_of_writes_sub hostOps0 (B0 m c) hostOps0_writes (r := main_arg0) (by decide)).trans <| rfl

theorem B30_main_arg1 (c : Dev nD) : B30 m c main_arg1 = m ((c : Thread nD τ).loc main_arg1) :=
  (B30_of_ne m c main_arg1 (by decide)).trans <|
  (StableHlo.after_of_writes_sub hostOps12 (B28 m c) hostOps12_writes (r := main_arg1) (by decide)).trans <|
  (B28_of_ne m c main_arg1 (by decide)).trans <|
  (StableHlo.after_of_writes_sub hostOps11 (B26 m c) hostOps11_writes (r := main_arg1) (by decide)).trans <|
  (B26_of_ne m c main_arg1 (by decide)).trans <|
  (StableHlo.after_of_writes_sub hostOps10 (B24 m c) hostOps10_writes (r := main_arg1) (by decide)).trans <|
  (B24_of_ne m c main_arg1 (by decide)).trans <|
  (StableHlo.after_of_writes_sub hostOps9 (B22 m c) hostOps9_writes (r := main_arg1) (by decide)).trans <|
  (B22_of_ne m c main_arg1 (by decide)).trans <|
  (StableHlo.after_of_writes_sub hostOps8 (B20 m c) hostOps8_writes (r := main_arg1) (by decide)).trans <|
  (B20_of_ne m c main_arg1 (by decide)).trans <|
  (StableHlo.after_of_writes_sub hostOps7 (B18 m c) hostOps7_writes (r := main_arg1) (by decide)).trans <|
  (B18_of_ne m c main_arg1 (by decide)).trans <|
  (StableHlo.after_of_writes_sub hostOps6 (B16 m c) hostOps6_writes (r := main_arg1) (by decide)).trans <|
  (B16_of_ne m c main_arg1 (by decide)).trans <|
  (StableHlo.after_of_writes_sub hostOps5 (B14 m c) hostOps5_writes (r := main_arg1) (by decide)).trans <|
  (B14_of_ne m c main_arg1 (by decide)).trans <|
  (StableHlo.after_of_writes_sub hostOps4 (B12 m c) hostOps4_writes (r := main_arg1) (by decide)).trans <|
  (B12_of_ne m c main_arg1 (by decide)).trans <|
  (StableHlo.after_of_writes_sub hostOps3 (B10 m c) hostOps3_writes (r := main_arg1) (by decide)).trans <|
  (B10_of_ne m c main_arg1 (by decide)).trans <|
  (StableHlo.after_of_writes_sub hostOps2 (B8 m c) hostOps2_writes (r := main_arg1) (by decide)).trans <|
  (B8_of_ne m c main_arg1 (by decide)).trans <|
  (StableHlo.after_of_writes_sub hostOps1 (B6 m c) hostOps1_writes (r := main_arg1) (by decide)).trans <|
  (B6_of_ne m c main_arg1 (by decide)).trans <|
  (StableHlo.after_of_writes_sub hostOps0_4 (B4 m c) hostOps0_4_writes (r := main_arg1) (by decide)).trans <|
  (StableHlo.after_of_writes_sub hostOps0_3 (B3 m c) hostOps0_3_writes (r := main_arg1) (by decide)).trans <|
  (StableHlo.after_of_writes_sub hostOps0_2 (B2 m c) hostOps0_2_writes (r := main_arg1) (by decide)).trans <|
  (StableHlo.after_of_writes_sub hostOps0_1 (B1 m c) hostOps0_1_writes (r := main_arg1) (by decide)).trans <|
  (StableHlo.after_of_writes_sub hostOps0 (B0 m c) hostOps0_writes (r := main_arg1) (by decide)).trans <| rfl

theorem B30_main_arg2 (c : Dev nD) : B30 m c main_arg2 = m ((c : Thread nD τ).loc main_arg2) :=
  (B30_of_ne m c main_arg2 (by decide)).trans <|
  (StableHlo.after_of_writes_sub hostOps12 (B28 m c) hostOps12_writes (r := main_arg2) (by decide)).trans <|
  (B28_of_ne m c main_arg2 (by decide)).trans <|
  (StableHlo.after_of_writes_sub hostOps11 (B26 m c) hostOps11_writes (r := main_arg2) (by decide)).trans <|
  (B26_of_ne m c main_arg2 (by decide)).trans <|
  (StableHlo.after_of_writes_sub hostOps10 (B24 m c) hostOps10_writes (r := main_arg2) (by decide)).trans <|
  (B24_of_ne m c main_arg2 (by decide)).trans <|
  (StableHlo.after_of_writes_sub hostOps9 (B22 m c) hostOps9_writes (r := main_arg2) (by decide)).trans <|
  (B22_of_ne m c main_arg2 (by decide)).trans <|
  (StableHlo.after_of_writes_sub hostOps8 (B20 m c) hostOps8_writes (r := main_arg2) (by decide)).trans <|
  (B20_of_ne m c main_arg2 (by decide)).trans <|
  (StableHlo.after_of_writes_sub hostOps7 (B18 m c) hostOps7_writes (r := main_arg2) (by decide)).trans <|
  (B18_of_ne m c main_arg2 (by decide)).trans <|
  (StableHlo.after_of_writes_sub hostOps6 (B16 m c) hostOps6_writes (r := main_arg2) (by decide)).trans <|
  (B16_of_ne m c main_arg2 (by decide)).trans <|
  (StableHlo.after_of_writes_sub hostOps5 (B14 m c) hostOps5_writes (r := main_arg2) (by decide)).trans <|
  (B14_of_ne m c main_arg2 (by decide)).trans <|
  (StableHlo.after_of_writes_sub hostOps4 (B12 m c) hostOps4_writes (r := main_arg2) (by decide)).trans <|
  (B12_of_ne m c main_arg2 (by decide)).trans <|
  (StableHlo.after_of_writes_sub hostOps3 (B10 m c) hostOps3_writes (r := main_arg2) (by decide)).trans <|
  (B10_of_ne m c main_arg2 (by decide)).trans <|
  (StableHlo.after_of_writes_sub hostOps2 (B8 m c) hostOps2_writes (r := main_arg2) (by decide)).trans <|
  (B8_of_ne m c main_arg2 (by decide)).trans <|
  (StableHlo.after_of_writes_sub hostOps1 (B6 m c) hostOps1_writes (r := main_arg2) (by decide)).trans <|
  (B6_of_ne m c main_arg2 (by decide)).trans <|
  (StableHlo.after_of_writes_sub hostOps0_4 (B4 m c) hostOps0_4_writes (r := main_arg2) (by decide)).trans <|
  (StableHlo.after_of_writes_sub hostOps0_3 (B3 m c) hostOps0_3_writes (r := main_arg2) (by decide)).trans <|
  (StableHlo.after_of_writes_sub hostOps0_2 (B2 m c) hostOps0_2_writes (r := main_arg2) (by decide)).trans <|
  (StableHlo.after_of_writes_sub hostOps0_1 (B1 m c) hostOps0_1_writes (r := main_arg2) (by decide)).trans <|
  (StableHlo.after_of_writes_sub hostOps0 (B0 m c) hostOps0_writes (r := main_arg2) (by decide)).trans <| rfl

theorem B30_main_arg3 (c : Dev nD) : B30 m c main_arg3 = m ((c : Thread nD τ).loc main_arg3) :=
  (B30_of_ne m c main_arg3 (by decide)).trans <|
  (StableHlo.after_of_writes_sub hostOps12 (B28 m c) hostOps12_writes (r := main_arg3) (by decide)).trans <|
  (B28_of_ne m c main_arg3 (by decide)).trans <|
  (StableHlo.after_of_writes_sub hostOps11 (B26 m c) hostOps11_writes (r := main_arg3) (by decide)).trans <|
  (B26_of_ne m c main_arg3 (by decide)).trans <|
  (StableHlo.after_of_writes_sub hostOps10 (B24 m c) hostOps10_writes (r := main_arg3) (by decide)).trans <|
  (B24_of_ne m c main_arg3 (by decide)).trans <|
  (StableHlo.after_of_writes_sub hostOps9 (B22 m c) hostOps9_writes (r := main_arg3) (by decide)).trans <|
  (B22_of_ne m c main_arg3 (by decide)).trans <|
  (StableHlo.after_of_writes_sub hostOps8 (B20 m c) hostOps8_writes (r := main_arg3) (by decide)).trans <|
  (B20_of_ne m c main_arg3 (by decide)).trans <|
  (StableHlo.after_of_writes_sub hostOps7 (B18 m c) hostOps7_writes (r := main_arg3) (by decide)).trans <|
  (B18_of_ne m c main_arg3 (by decide)).trans <|
  (StableHlo.after_of_writes_sub hostOps6 (B16 m c) hostOps6_writes (r := main_arg3) (by decide)).trans <|
  (B16_of_ne m c main_arg3 (by decide)).trans <|
  (StableHlo.after_of_writes_sub hostOps5 (B14 m c) hostOps5_writes (r := main_arg3) (by decide)).trans <|
  (B14_of_ne m c main_arg3 (by decide)).trans <|
  (StableHlo.after_of_writes_sub hostOps4 (B12 m c) hostOps4_writes (r := main_arg3) (by decide)).trans <|
  (B12_of_ne m c main_arg3 (by decide)).trans <|
  (StableHlo.after_of_writes_sub hostOps3 (B10 m c) hostOps3_writes (r := main_arg3) (by decide)).trans <|
  (B10_of_ne m c main_arg3 (by decide)).trans <|
  (StableHlo.after_of_writes_sub hostOps2 (B8 m c) hostOps2_writes (r := main_arg3) (by decide)).trans <|
  (B8_of_ne m c main_arg3 (by decide)).trans <|
  (StableHlo.after_of_writes_sub hostOps1 (B6 m c) hostOps1_writes (r := main_arg3) (by decide)).trans <|
  (B6_of_ne m c main_arg3 (by decide)).trans <|
  (StableHlo.after_of_writes_sub hostOps0_4 (B4 m c) hostOps0_4_writes (r := main_arg3) (by decide)).trans <|
  (StableHlo.after_of_writes_sub hostOps0_3 (B3 m c) hostOps0_3_writes (r := main_arg3) (by decide)).trans <|
  (StableHlo.after_of_writes_sub hostOps0_2 (B2 m c) hostOps0_2_writes (r := main_arg3) (by decide)).trans <|
  (StableHlo.after_of_writes_sub hostOps0_1 (B1 m c) hostOps0_1_writes (r := main_arg3) (by decide)).trans <|
  (StableHlo.after_of_writes_sub hostOps0 (B0 m c) hostOps0_writes (r := main_arg3) (by decide)).trans <| rfl

theorem B30_main_arg4 (c : Dev nD) : B30 m c main_arg4 = m ((c : Thread nD τ).loc main_arg4) :=
  (B30_of_ne m c main_arg4 (by decide)).trans <|
  (StableHlo.after_of_writes_sub hostOps12 (B28 m c) hostOps12_writes (r := main_arg4) (by decide)).trans <|
  (B28_of_ne m c main_arg4 (by decide)).trans <|
  (StableHlo.after_of_writes_sub hostOps11 (B26 m c) hostOps11_writes (r := main_arg4) (by decide)).trans <|
  (B26_of_ne m c main_arg4 (by decide)).trans <|
  (StableHlo.after_of_writes_sub hostOps10 (B24 m c) hostOps10_writes (r := main_arg4) (by decide)).trans <|
  (B24_of_ne m c main_arg4 (by decide)).trans <|
  (StableHlo.after_of_writes_sub hostOps9 (B22 m c) hostOps9_writes (r := main_arg4) (by decide)).trans <|
  (B22_of_ne m c main_arg4 (by decide)).trans <|
  (StableHlo.after_of_writes_sub hostOps8 (B20 m c) hostOps8_writes (r := main_arg4) (by decide)).trans <|
  (B20_of_ne m c main_arg4 (by decide)).trans <|
  (StableHlo.after_of_writes_sub hostOps7 (B18 m c) hostOps7_writes (r := main_arg4) (by decide)).trans <|
  (B18_of_ne m c main_arg4 (by decide)).trans <|
  (StableHlo.after_of_writes_sub hostOps6 (B16 m c) hostOps6_writes (r := main_arg4) (by decide)).trans <|
  (B16_of_ne m c main_arg4 (by decide)).trans <|
  (StableHlo.after_of_writes_sub hostOps5 (B14 m c) hostOps5_writes (r := main_arg4) (by decide)).trans <|
  (B14_of_ne m c main_arg4 (by decide)).trans <|
  (StableHlo.after_of_writes_sub hostOps4 (B12 m c) hostOps4_writes (r := main_arg4) (by decide)).trans <|
  (B12_of_ne m c main_arg4 (by decide)).trans <|
  (StableHlo.after_of_writes_sub hostOps3 (B10 m c) hostOps3_writes (r := main_arg4) (by decide)).trans <|
  (B10_of_ne m c main_arg4 (by decide)).trans <|
  (StableHlo.after_of_writes_sub hostOps2 (B8 m c) hostOps2_writes (r := main_arg4) (by decide)).trans <|
  (B8_of_ne m c main_arg4 (by decide)).trans <|
  (StableHlo.after_of_writes_sub hostOps1 (B6 m c) hostOps1_writes (r := main_arg4) (by decide)).trans <|
  (B6_of_ne m c main_arg4 (by decide)).trans <|
  (StableHlo.after_of_writes_sub hostOps0_4 (B4 m c) hostOps0_4_writes (r := main_arg4) (by decide)).trans <|
  (StableHlo.after_of_writes_sub hostOps0_3 (B3 m c) hostOps0_3_writes (r := main_arg4) (by decide)).trans <|
  (StableHlo.after_of_writes_sub hostOps0_2 (B2 m c) hostOps0_2_writes (r := main_arg4) (by decide)).trans <|
  (StableHlo.after_of_writes_sub hostOps0_1 (B1 m c) hostOps0_1_writes (r := main_arg4) (by decide)).trans <|
  (StableHlo.after_of_writes_sub hostOps0 (B0 m c) hostOps0_writes (r := main_arg4) (by decide)).trans <| rfl

theorem B30_main_arg5 (c : Dev nD) : B30 m c main_arg5 = m ((c : Thread nD τ).loc main_arg5) :=
  (B30_of_ne m c main_arg5 (by decide)).trans <|
  (StableHlo.after_of_writes_sub hostOps12 (B28 m c) hostOps12_writes (r := main_arg5) (by decide)).trans <|
  (B28_of_ne m c main_arg5 (by decide)).trans <|
  (StableHlo.after_of_writes_sub hostOps11 (B26 m c) hostOps11_writes (r := main_arg5) (by decide)).trans <|
  (B26_of_ne m c main_arg5 (by decide)).trans <|
  (StableHlo.after_of_writes_sub hostOps10 (B24 m c) hostOps10_writes (r := main_arg5) (by decide)).trans <|
  (B24_of_ne m c main_arg5 (by decide)).trans <|
  (StableHlo.after_of_writes_sub hostOps9 (B22 m c) hostOps9_writes (r := main_arg5) (by decide)).trans <|
  (B22_of_ne m c main_arg5 (by decide)).trans <|
  (StableHlo.after_of_writes_sub hostOps8 (B20 m c) hostOps8_writes (r := main_arg5) (by decide)).trans <|
  (B20_of_ne m c main_arg5 (by decide)).trans <|
  (StableHlo.after_of_writes_sub hostOps7 (B18 m c) hostOps7_writes (r := main_arg5) (by decide)).trans <|
  (B18_of_ne m c main_arg5 (by decide)).trans <|
  (StableHlo.after_of_writes_sub hostOps6 (B16 m c) hostOps6_writes (r := main_arg5) (by decide)).trans <|
  (B16_of_ne m c main_arg5 (by decide)).trans <|
  (StableHlo.after_of_writes_sub hostOps5 (B14 m c) hostOps5_writes (r := main_arg5) (by decide)).trans <|
  (B14_of_ne m c main_arg5 (by decide)).trans <|
  (StableHlo.after_of_writes_sub hostOps4 (B12 m c) hostOps4_writes (r := main_arg5) (by decide)).trans <|
  (B12_of_ne m c main_arg5 (by decide)).trans <|
  (StableHlo.after_of_writes_sub hostOps3 (B10 m c) hostOps3_writes (r := main_arg5) (by decide)).trans <|
  (B10_of_ne m c main_arg5 (by decide)).trans <|
  (StableHlo.after_of_writes_sub hostOps2 (B8 m c) hostOps2_writes (r := main_arg5) (by decide)).trans <|
  (B8_of_ne m c main_arg5 (by decide)).trans <|
  (StableHlo.after_of_writes_sub hostOps1 (B6 m c) hostOps1_writes (r := main_arg5) (by decide)).trans <|
  (B6_of_ne m c main_arg5 (by decide)).trans <|
  (StableHlo.after_of_writes_sub hostOps0_4 (B4 m c) hostOps0_4_writes (r := main_arg5) (by decide)).trans <|
  (StableHlo.after_of_writes_sub hostOps0_3 (B3 m c) hostOps0_3_writes (r := main_arg5) (by decide)).trans <|
  (StableHlo.after_of_writes_sub hostOps0_2 (B2 m c) hostOps0_2_writes (r := main_arg5) (by decide)).trans <|
  (StableHlo.after_of_writes_sub hostOps0_1 (B1 m c) hostOps0_1_writes (r := main_arg5) (by decide)).trans <|
  (StableHlo.after_of_writes_sub hostOps0 (B0 m c) hostOps0_writes (r := main_arg5) (by decide)).trans <| rfl

theorem B30_main_arg6 (c : Dev nD) : B30 m c main_arg6 = m ((c : Thread nD τ).loc main_arg6) :=
  (B30_of_ne m c main_arg6 (by decide)).trans <|
  (StableHlo.after_of_writes_sub hostOps12 (B28 m c) hostOps12_writes (r := main_arg6) (by decide)).trans <|
  (B28_of_ne m c main_arg6 (by decide)).trans <|
  (StableHlo.after_of_writes_sub hostOps11 (B26 m c) hostOps11_writes (r := main_arg6) (by decide)).trans <|
  (B26_of_ne m c main_arg6 (by decide)).trans <|
  (StableHlo.after_of_writes_sub hostOps10 (B24 m c) hostOps10_writes (r := main_arg6) (by decide)).trans <|
  (B24_of_ne m c main_arg6 (by decide)).trans <|
  (StableHlo.after_of_writes_sub hostOps9 (B22 m c) hostOps9_writes (r := main_arg6) (by decide)).trans <|
  (B22_of_ne m c main_arg6 (by decide)).trans <|
  (StableHlo.after_of_writes_sub hostOps8 (B20 m c) hostOps8_writes (r := main_arg6) (by decide)).trans <|
  (B20_of_ne m c main_arg6 (by decide)).trans <|
  (StableHlo.after_of_writes_sub hostOps7 (B18 m c) hostOps7_writes (r := main_arg6) (by decide)).trans <|
  (B18_of_ne m c main_arg6 (by decide)).trans <|
  (StableHlo.after_of_writes_sub hostOps6 (B16 m c) hostOps6_writes (r := main_arg6) (by decide)).trans <|
  (B16_of_ne m c main_arg6 (by decide)).trans <|
  (StableHlo.after_of_writes_sub hostOps5 (B14 m c) hostOps5_writes (r := main_arg6) (by decide)).trans <|
  (B14_of_ne m c main_arg6 (by decide)).trans <|
  (StableHlo.after_of_writes_sub hostOps4 (B12 m c) hostOps4_writes (r := main_arg6) (by decide)).trans <|
  (B12_of_ne m c main_arg6 (by decide)).trans <|
  (StableHlo.after_of_writes_sub hostOps3 (B10 m c) hostOps3_writes (r := main_arg6) (by decide)).trans <|
  (B10_of_ne m c main_arg6 (by decide)).trans <|
  (StableHlo.after_of_writes_sub hostOps2 (B8 m c) hostOps2_writes (r := main_arg6) (by decide)).trans <|
  (B8_of_ne m c main_arg6 (by decide)).trans <|
  (StableHlo.after_of_writes_sub hostOps1 (B6 m c) hostOps1_writes (r := main_arg6) (by decide)).trans <|
  (B6_of_ne m c main_arg6 (by decide)).trans <|
  (StableHlo.after_of_writes_sub hostOps0_4 (B4 m c) hostOps0_4_writes (r := main_arg6) (by decide)).trans <|
  (StableHlo.after_of_writes_sub hostOps0_3 (B3 m c) hostOps0_3_writes (r := main_arg6) (by decide)).trans <|
  (StableHlo.after_of_writes_sub hostOps0_2 (B2 m c) hostOps0_2_writes (r := main_arg6) (by decide)).trans <|
  (StableHlo.after_of_writes_sub hostOps0_1 (B1 m c) hostOps0_1_writes (r := main_arg6) (by decide)).trans <|
  (StableHlo.after_of_writes_sub hostOps0 (B0 m c) hostOps0_writes (r := main_arg6) (by decide)).trans <| rfl

theorem B30_main_arg7 (c : Dev nD) : B30 m c main_arg7 = m ((c : Thread nD τ).loc main_arg7) :=
  (B30_of_ne m c main_arg7 (by decide)).trans <|
  (StableHlo.after_of_writes_sub hostOps12 (B28 m c) hostOps12_writes (r := main_arg7) (by decide)).trans <|
  (B28_of_ne m c main_arg7 (by decide)).trans <|
  (StableHlo.after_of_writes_sub hostOps11 (B26 m c) hostOps11_writes (r := main_arg7) (by decide)).trans <|
  (B26_of_ne m c main_arg7 (by decide)).trans <|
  (StableHlo.after_of_writes_sub hostOps10 (B24 m c) hostOps10_writes (r := main_arg7) (by decide)).trans <|
  (B24_of_ne m c main_arg7 (by decide)).trans <|
  (StableHlo.after_of_writes_sub hostOps9 (B22 m c) hostOps9_writes (r := main_arg7) (by decide)).trans <|
  (B22_of_ne m c main_arg7 (by decide)).trans <|
  (StableHlo.after_of_writes_sub hostOps8 (B20 m c) hostOps8_writes (r := main_arg7) (by decide)).trans <|
  (B20_of_ne m c main_arg7 (by decide)).trans <|
  (StableHlo.after_of_writes_sub hostOps7 (B18 m c) hostOps7_writes (r := main_arg7) (by decide)).trans <|
  (B18_of_ne m c main_arg7 (by decide)).trans <|
  (StableHlo.after_of_writes_sub hostOps6 (B16 m c) hostOps6_writes (r := main_arg7) (by decide)).trans <|
  (B16_of_ne m c main_arg7 (by decide)).trans <|
  (StableHlo.after_of_writes_sub hostOps5 (B14 m c) hostOps5_writes (r := main_arg7) (by decide)).trans <|
  (B14_of_ne m c main_arg7 (by decide)).trans <|
  (StableHlo.after_of_writes_sub hostOps4 (B12 m c) hostOps4_writes (r := main_arg7) (by decide)).trans <|
  (B12_of_ne m c main_arg7 (by decide)).trans <|
  (StableHlo.after_of_writes_sub hostOps3 (B10 m c) hostOps3_writes (r := main_arg7) (by decide)).trans <|
  (B10_of_ne m c main_arg7 (by decide)).trans <|
  (StableHlo.after_of_writes_sub hostOps2 (B8 m c) hostOps2_writes (r := main_arg7) (by decide)).trans <|
  (B8_of_ne m c main_arg7 (by decide)).trans <|
  (StableHlo.after_of_writes_sub hostOps1 (B6 m c) hostOps1_writes (r := main_arg7) (by decide)).trans <|
  (B6_of_ne m c main_arg7 (by decide)).trans <|
  (StableHlo.after_of_writes_sub hostOps0_4 (B4 m c) hostOps0_4_writes (r := main_arg7) (by decide)).trans <|
  (StableHlo.after_of_writes_sub hostOps0_3 (B3 m c) hostOps0_3_writes (r := main_arg7) (by decide)).trans <|
  (StableHlo.after_of_writes_sub hostOps0_2 (B2 m c) hostOps0_2_writes (r := main_arg7) (by decide)).trans <|
  (StableHlo.after_of_writes_sub hostOps0_1 (B1 m c) hostOps0_1_writes (r := main_arg7) (by decide)).trans <|
  (StableHlo.after_of_writes_sub hostOps0 (B0 m c) hostOps0_writes (r := main_arg7) (by decide)).trans <| rfl

theorem B30_main_arg8 (c : Dev nD) : B30 m c main_arg8 = m ((c : Thread nD τ).loc main_arg8) :=
  (B30_of_ne m c main_arg8 (by decide)).trans <|
  (StableHlo.after_of_writes_sub hostOps12 (B28 m c) hostOps12_writes (r := main_arg8) (by decide)).trans <|
  (B28_of_ne m c main_arg8 (by decide)).trans <|
  (StableHlo.after_of_writes_sub hostOps11 (B26 m c) hostOps11_writes (r := main_arg8) (by decide)).trans <|
  (B26_of_ne m c main_arg8 (by decide)).trans <|
  (StableHlo.after_of_writes_sub hostOps10 (B24 m c) hostOps10_writes (r := main_arg8) (by decide)).trans <|
  (B24_of_ne m c main_arg8 (by decide)).trans <|
  (StableHlo.after_of_writes_sub hostOps9 (B22 m c) hostOps9_writes (r := main_arg8) (by decide)).trans <|
  (B22_of_ne m c main_arg8 (by decide)).trans <|
  (StableHlo.after_of_writes_sub hostOps8 (B20 m c) hostOps8_writes (r := main_arg8) (by decide)).trans <|
  (B20_of_ne m c main_arg8 (by decide)).trans <|
  (StableHlo.after_of_writes_sub hostOps7 (B18 m c) hostOps7_writes (r := main_arg8) (by decide)).trans <|
  (B18_of_ne m c main_arg8 (by decide)).trans <|
  (StableHlo.after_of_writes_sub hostOps6 (B16 m c) hostOps6_writes (r := main_arg8) (by decide)).trans <|
  (B16_of_ne m c main_arg8 (by decide)).trans <|
  (StableHlo.after_of_writes_sub hostOps5 (B14 m c) hostOps5_writes (r := main_arg8) (by decide)).trans <|
  (B14_of_ne m c main_arg8 (by decide)).trans <|
  (StableHlo.after_of_writes_sub hostOps4 (B12 m c) hostOps4_writes (r := main_arg8) (by decide)).trans <|
  (B12_of_ne m c main_arg8 (by decide)).trans <|
  (StableHlo.after_of_writes_sub hostOps3 (B10 m c) hostOps3_writes (r := main_arg8) (by decide)).trans <|
  (B10_of_ne m c main_arg8 (by decide)).trans <|
  (StableHlo.after_of_writes_sub hostOps2 (B8 m c) hostOps2_writes (r := main_arg8) (by decide)).trans <|
  (B8_of_ne m c main_arg8 (by decide)).trans <|
  (StableHlo.after_of_writes_sub hostOps1 (B6 m c) hostOps1_writes (r := main_arg8) (by decide)).trans <|
  (B6_of_ne m c main_arg8 (by decide)).trans <|
  (StableHlo.after_of_writes_sub hostOps0_4 (B4 m c) hostOps0_4_writes (r := main_arg8) (by decide)).trans <|
  (StableHlo.after_of_writes_sub hostOps0_3 (B3 m c) hostOps0_3_writes (r := main_arg8) (by decide)).trans <|
  (StableHlo.after_of_writes_sub hostOps0_2 (B2 m c) hostOps0_2_writes (r := main_arg8) (by decide)).trans <|
  (StableHlo.after_of_writes_sub hostOps0_1 (B1 m c) hostOps0_1_writes (r := main_arg8) (by decide)).trans <|
  (StableHlo.after_of_writes_sub hostOps0 (B0 m c) hostOps0_writes (r := main_arg8) (by decide)).trans <| rfl

theorem B30_main_arg9 (c : Dev nD) : B30 m c main_arg9 = m ((c : Thread nD τ).loc main_arg9) :=
  (B30_of_ne m c main_arg9 (by decide)).trans <|
  (StableHlo.after_of_writes_sub hostOps12 (B28 m c) hostOps12_writes (r := main_arg9) (by decide)).trans <|
  (B28_of_ne m c main_arg9 (by decide)).trans <|
  (StableHlo.after_of_writes_sub hostOps11 (B26 m c) hostOps11_writes (r := main_arg9) (by decide)).trans <|
  (B26_of_ne m c main_arg9 (by decide)).trans <|
  (StableHlo.after_of_writes_sub hostOps10 (B24 m c) hostOps10_writes (r := main_arg9) (by decide)).trans <|
  (B24_of_ne m c main_arg9 (by decide)).trans <|
  (StableHlo.after_of_writes_sub hostOps9 (B22 m c) hostOps9_writes (r := main_arg9) (by decide)).trans <|
  (B22_of_ne m c main_arg9 (by decide)).trans <|
  (StableHlo.after_of_writes_sub hostOps8 (B20 m c) hostOps8_writes (r := main_arg9) (by decide)).trans <|
  (B20_of_ne m c main_arg9 (by decide)).trans <|
  (StableHlo.after_of_writes_sub hostOps7 (B18 m c) hostOps7_writes (r := main_arg9) (by decide)).trans <|
  (B18_of_ne m c main_arg9 (by decide)).trans <|
  (StableHlo.after_of_writes_sub hostOps6 (B16 m c) hostOps6_writes (r := main_arg9) (by decide)).trans <|
  (B16_of_ne m c main_arg9 (by decide)).trans <|
  (StableHlo.after_of_writes_sub hostOps5 (B14 m c) hostOps5_writes (r := main_arg9) (by decide)).trans <|
  (B14_of_ne m c main_arg9 (by decide)).trans <|
  (StableHlo.after_of_writes_sub hostOps4 (B12 m c) hostOps4_writes (r := main_arg9) (by decide)).trans <|
  (B12_of_ne m c main_arg9 (by decide)).trans <|
  (StableHlo.after_of_writes_sub hostOps3 (B10 m c) hostOps3_writes (r := main_arg9) (by decide)).trans <|
  (B10_of_ne m c main_arg9 (by decide)).trans <|
  (StableHlo.after_of_writes_sub hostOps2 (B8 m c) hostOps2_writes (r := main_arg9) (by decide)).trans <|
  (B8_of_ne m c main_arg9 (by decide)).trans <|
  (StableHlo.after_of_writes_sub hostOps1 (B6 m c) hostOps1_writes (r := main_arg9) (by decide)).trans <|
  (B6_of_ne m c main_arg9 (by decide)).trans <|
  (StableHlo.after_of_writes_sub hostOps0_4 (B4 m c) hostOps0_4_writes (r := main_arg9) (by decide)).trans <|
  (StableHlo.after_of_writes_sub hostOps0_3 (B3 m c) hostOps0_3_writes (r := main_arg9) (by decide)).trans <|
  (StableHlo.after_of_writes_sub hostOps0_2 (B2 m c) hostOps0_2_writes (r := main_arg9) (by decide)).trans <|
  (StableHlo.after_of_writes_sub hostOps0_1 (B1 m c) hostOps0_1_writes (r := main_arg9) (by decide)).trans <|
  (StableHlo.after_of_writes_sub hostOps0 (B0 m c) hostOps0_writes (r := main_arg9) (by decide)).trans <| rfl

theorem B30_main_arg10 (c : Dev nD) : B30 m c main_arg10 = m ((c : Thread nD τ).loc main_arg10) :=
  (B30_of_ne m c main_arg10 (by decide)).trans <|
  (StableHlo.after_of_writes_sub hostOps12 (B28 m c) hostOps12_writes (r := main_arg10) (by decide)).trans <|
  (B28_of_ne m c main_arg10 (by decide)).trans <|
  (StableHlo.after_of_writes_sub hostOps11 (B26 m c) hostOps11_writes (r := main_arg10) (by decide)).trans <|
  (B26_of_ne m c main_arg10 (by decide)).trans <|
  (StableHlo.after_of_writes_sub hostOps10 (B24 m c) hostOps10_writes (r := main_arg10) (by decide)).trans <|
  (B24_of_ne m c main_arg10 (by decide)).trans <|
  (StableHlo.after_of_writes_sub hostOps9 (B22 m c) hostOps9_writes (r := main_arg10) (by decide)).trans <|
  (B22_of_ne m c main_arg10 (by decide)).trans <|
  (StableHlo.after_of_writes_sub hostOps8 (B20 m c) hostOps8_writes (r := main_arg10) (by decide)).trans <|
  (B20_of_ne m c main_arg10 (by decide)).trans <|
  (StableHlo.after_of_writes_sub hostOps7 (B18 m c) hostOps7_writes (r := main_arg10) (by decide)).trans <|
  (B18_of_ne m c main_arg10 (by decide)).trans <|
  (StableHlo.after_of_writes_sub hostOps6 (B16 m c) hostOps6_writes (r := main_arg10) (by decide)).trans <|
  (B16_of_ne m c main_arg10 (by decide)).trans <|
  (StableHlo.after_of_writes_sub hostOps5 (B14 m c) hostOps5_writes (r := main_arg10) (by decide)).trans <|
  (B14_of_ne m c main_arg10 (by decide)).trans <|
  (StableHlo.after_of_writes_sub hostOps4 (B12 m c) hostOps4_writes (r := main_arg10) (by decide)).trans <|
  (B12_of_ne m c main_arg10 (by decide)).trans <|
  (StableHlo.after_of_writes_sub hostOps3 (B10 m c) hostOps3_writes (r := main_arg10) (by decide)).trans <|
  (B10_of_ne m c main_arg10 (by decide)).trans <|
  (StableHlo.after_of_writes_sub hostOps2 (B8 m c) hostOps2_writes (r := main_arg10) (by decide)).trans <|
  (B8_of_ne m c main_arg10 (by decide)).trans <|
  (StableHlo.after_of_writes_sub hostOps1 (B6 m c) hostOps1_writes (r := main_arg10) (by decide)).trans <|
  (B6_of_ne m c main_arg10 (by decide)).trans <|
  (StableHlo.after_of_writes_sub hostOps0_4 (B4 m c) hostOps0_4_writes (r := main_arg10) (by decide)).trans <|
  (StableHlo.after_of_writes_sub hostOps0_3 (B3 m c) hostOps0_3_writes (r := main_arg10) (by decide)).trans <|
  (StableHlo.after_of_writes_sub hostOps0_2 (B2 m c) hostOps0_2_writes (r := main_arg10) (by decide)).trans <|
  (StableHlo.after_of_writes_sub hostOps0_1 (B1 m c) hostOps0_1_writes (r := main_arg10) (by decide)).trans <|
  (StableHlo.after_of_writes_sub hostOps0 (B0 m c) hostOps0_writes (r := main_arg10) (by decide)).trans <| rfl

theorem B30_main_arg11 (c : Dev nD) : B30 m c main_arg11 = m ((c : Thread nD τ).loc main_arg11) :=
  (B30_of_ne m c main_arg11 (by decide)).trans <|
  (StableHlo.after_of_writes_sub hostOps12 (B28 m c) hostOps12_writes (r := main_arg11) (by decide)).trans <|
  (B28_of_ne m c main_arg11 (by decide)).trans <|
  (StableHlo.after_of_writes_sub hostOps11 (B26 m c) hostOps11_writes (r := main_arg11) (by decide)).trans <|
  (B26_of_ne m c main_arg11 (by decide)).trans <|
  (StableHlo.after_of_writes_sub hostOps10 (B24 m c) hostOps10_writes (r := main_arg11) (by decide)).trans <|
  (B24_of_ne m c main_arg11 (by decide)).trans <|
  (StableHlo.after_of_writes_sub hostOps9 (B22 m c) hostOps9_writes (r := main_arg11) (by decide)).trans <|
  (B22_of_ne m c main_arg11 (by decide)).trans <|
  (StableHlo.after_of_writes_sub hostOps8 (B20 m c) hostOps8_writes (r := main_arg11) (by decide)).trans <|
  (B20_of_ne m c main_arg11 (by decide)).trans <|
  (StableHlo.after_of_writes_sub hostOps7 (B18 m c) hostOps7_writes (r := main_arg11) (by decide)).trans <|
  (B18_of_ne m c main_arg11 (by decide)).trans <|
  (StableHlo.after_of_writes_sub hostOps6 (B16 m c) hostOps6_writes (r := main_arg11) (by decide)).trans <|
  (B16_of_ne m c main_arg11 (by decide)).trans <|
  (StableHlo.after_of_writes_sub hostOps5 (B14 m c) hostOps5_writes (r := main_arg11) (by decide)).trans <|
  (B14_of_ne m c main_arg11 (by decide)).trans <|
  (StableHlo.after_of_writes_sub hostOps4 (B12 m c) hostOps4_writes (r := main_arg11) (by decide)).trans <|
  (B12_of_ne m c main_arg11 (by decide)).trans <|
  (StableHlo.after_of_writes_sub hostOps3 (B10 m c) hostOps3_writes (r := main_arg11) (by decide)).trans <|
  (B10_of_ne m c main_arg11 (by decide)).trans <|
  (StableHlo.after_of_writes_sub hostOps2 (B8 m c) hostOps2_writes (r := main_arg11) (by decide)).trans <|
  (B8_of_ne m c main_arg11 (by decide)).trans <|
  (StableHlo.after_of_writes_sub hostOps1 (B6 m c) hostOps1_writes (r := main_arg11) (by decide)).trans <|
  (B6_of_ne m c main_arg11 (by decide)).trans <|
  (StableHlo.after_of_writes_sub hostOps0_4 (B4 m c) hostOps0_4_writes (r := main_arg11) (by decide)).trans <|
  (StableHlo.after_of_writes_sub hostOps0_3 (B3 m c) hostOps0_3_writes (r := main_arg11) (by decide)).trans <|
  (StableHlo.after_of_writes_sub hostOps0_2 (B2 m c) hostOps0_2_writes (r := main_arg11) (by decide)).trans <|
  (StableHlo.after_of_writes_sub hostOps0_1 (B1 m c) hostOps0_1_writes (r := main_arg11) (by decide)).trans <|
  (StableHlo.after_of_writes_sub hostOps0 (B0 m c) hostOps0_writes (r := main_arg11) (by decide)).trans <| rfl

end Cert.KernelIdeal.Frm

end
-- ==== Proof.KI.Run.lean ====
/-
  The run of @main as a whole: each kernel region is a segment entered from the buffer contents before it and left at
  the contents after it, each stretch of host operations a segment by itself; the launch over the segments reads every
  buffer of the final state off the last contents. Two consequences: the argument arrays end as launched, and the
  result array ends at the last region's write-backs.
-/
import proofs.«144268_j91216515432581_2_alg».proof.Proof.KI.Fold
import Idealize.ShloMosaic.Lib.Pipeline.RegionsLoop
import Idealize.ShloMosaic.Lib.Pipeline.FrameSuffix
import Idealize.ShloMosaic.Lib.Ring

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No region's index maps read a prefetched table. -/
abbrev adm : (p : Fin 13) → (pcfgs (F := F) p).Adm := fun p => (cfgs p).toPCfg_adm
/-- Every region's proof data, each at the contents its region is entered from. -/
def pdats : (p : Fin 13) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T7 m) c
  | ⟨2, _⟩ => fun c => dat2 (T9 m) c
  | ⟨3, _⟩ => fun c => dat3 (T11 m) c
  | ⟨4, _⟩ => fun c => dat4 (T13 m) c
  | ⟨5, _⟩ => fun c => dat5 (T15 m) c
  | ⟨6, _⟩ => fun c => dat6 (T17 m) c
  | ⟨7, _⟩ => fun c => dat7 (T19 m) c
  | ⟨8, _⟩ => fun c => dat8 (T21 m) c
  | ⟨9, _⟩ => fun c => dat9 (T23 m) c
  | ⟨10, _⟩ => fun c => dat10 (T25 m) c
  | ⟨11, _⟩ => fun c => dat11 (T27 m) c
  | ⟨12, _⟩ => fun c => dat12 (T29 m) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (B30 m c) ∗ ∃ r, prngReg c r)

/-! ## The regions as segments -/

set_option backward.isDefEq.respectTransparency.types false in
/-- Region 0 as a segment: entered from every unscoped buffer at the contents before it, left at the contents after it.
    Its arrays are split out of the unscoped buffers at entry and put back, at what the pipeline leaves, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (T5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T5 m c) (T6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it.
    Its arrays are split out of the unscoped buffers at entry and put back, at what the pipeline leaves, at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T7 m c) (T8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after it.
    Its arrays are split out of the unscoped buffers at entry and put back, at what the pipeline leaves, at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec2 c (T9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T9 m c) (T10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at the contents before it, left at the contents after it.
    Its arrays are split out of the unscoped buffers at entry and put back, at what the pipeline leaves, at exit. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m) c).loose
  hwaits := Pipeline.hwaits_of_owed_zero _ _ _ _ L lv 3 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec3 c (T11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T11 m c) (T12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at the contents before it, left at the contents after it.
    Its arrays are split out of the unscoped buffers at entry and put back, at what the pipeline leaves, at exit. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T13 m) c).loose
  hwaits := Pipeline.hwaits_of_owed_zero _ _ _ _ L lv 4 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec4 c (T13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T13 m c) (T14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from every unscoped buffer at the contents before it, left at the contents after it.
    Its arrays are split out of the unscoped buffers at entry and put back, at what the pipeline leaves, at exit. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T15 m) c).loose
  hwaits := Pipeline.hwaits_of_owed_zero _ _ _ _ L lv 5 fun _ _ => rfl
  pre c := iprop(StableHlo.held (c : Thread nD τ) (Pipeline.ucRefs τ sig) (B15 m c) ∗ R c)
  post c := iprop(StableHlo.held (c : Thread nD τ) (Pipeline.ucRefs τ sig) (B16 m c) ∗ R c)
  X c := iprop(∃ r, prngReg c r)
  Y c := iprop(∃ r, prngReg c r)
  Z c := Pipeline.unscopedRest (Ix := Unit) (Name := ℕ) (U := UR sig nD τ) (Lvl := ℕ) spec5 c (T15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T15 m c) (T16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from every unscoped buffer at the contents before it, left at the contents after it.
    Its arrays are split out of the unscoped buffers at entry and put back, at what the pipeline leaves, at exit. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T17 m) c).loose
  hwaits := Pipeline.hwaits_of_owed_zero _ _ _ _ L lv 6 fun _ _ => rfl
  pre c := iprop(StableHlo.held (c : Thread nD τ) (Pipeline.ucRefs τ sig) (B17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec6 c (T17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T17 m c) (T18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered from every unscoped buffer at the contents before it, left at the contents after it.
    Its arrays are split out of the unscoped buffers at entry and put back, at what the pipeline leaves, at exit. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T19 m) c).loose
  hwaits := Pipeline.hwaits_of_owed_zero _ _ _ _ L lv 7 fun _ _ => rfl
  pre c := iprop(StableHlo.held (c : Thread nD τ) (Pipeline.ucRefs τ sig) (B19 m c) ∗ R c)
  post c := iprop(StableHlo.held (c : Thread nD τ) (Pipeline.ucRefs τ sig) (B20 m c) ∗ R c)
  X c := iprop(∃ r, prngReg c r)
  Y c := iprop(∃ r, prngReg c r)
  Z c := Pipeline.unscopedRest (Ix := Unit) (Name := ℕ) (U := UR sig nD τ) (Lvl := ℕ) spec7 c (T19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T19 m c) (T20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 as a segment: entered from every unscoped buffer at the contents before it, left at the contents after it.
    Its arrays are split out of the unscoped buffers at entry and put back, at what the pipeline leaves, at exit. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T21 m) c).loose
  hwaits := Pipeline.hwaits_of_owed_zero _ _ _ _ L lv 8 fun _ _ => rfl
  pre c := iprop(StableHlo.held (c : Thread nD τ) (Pipeline.ucRefs τ sig) (B21 m c) ∗ R c)
  post c := iprop(StableHlo.held (c : Thread nD τ) (Pipeline.ucRefs τ sig) (B22 m c) ∗ R c)
  X c := iprop(∃ r, prngReg c r)
  Y c := iprop(∃ r, prngReg c r)
  Z c := Pipeline.unscopedRest (Ix := Unit) (Name := ℕ) (U := UR sig nD τ) (Lvl := ℕ) spec8 c (T21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T21 m c) (T22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as a segment: entered from every unscoped buffer at the contents before it, left at the contents after it.
    Its arrays are split out of the unscoped buffers at entry and put back, at what the pipeline leaves, at exit. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T23 m) c).loose
  hwaits := Pipeline.hwaits_of_owed_zero _ _ _ _ L lv 9 fun _ _ => rfl
  pre c := iprop(StableHlo.held (c : Thread nD τ) (Pipeline.ucRefs τ sig) (B23 m c) ∗ R c)
  post c := iprop(StableHlo.held (c : Thread nD τ) (Pipeline.ucRefs τ sig) (B24 m c) ∗ R c)
  X c := iprop(∃ r, prngReg c r)
  Y c := iprop(∃ r, prngReg c r)
  Z c := Pipeline.unscopedRest (Ix := Unit) (Name := ℕ) (U := UR sig nD τ) (Lvl := ℕ) spec9 c (T23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T23 m c) (T24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as a segment: entered from every unscoped buffer at the contents before it, left at the contents after it.
    Its arrays are split out of the unscoped buffers at entry and put back, at what the pipeline leaves, at exit. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T25 m) c).loose
  hwaits := Pipeline.hwaits_of_owed_zero _ _ _ _ L lv 10 fun _ _ => rfl
  pre c := iprop(StableHlo.held (c : Thread nD τ) (Pipeline.ucRefs τ sig) (B25 m c) ∗ R c)
  post c := iprop(StableHlo.held (c : Thread nD τ) (Pipeline.ucRefs τ sig) (B26 m c) ∗ R c)
  X c := iprop(∃ r, prngReg c r)
  Y c := iprop(∃ r, prngReg c r)
  Z c := Pipeline.unscopedRest (Ix := Unit) (Name := ℕ) (U := UR sig nD τ) (Lvl := ℕ) spec10 c (T25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T25 m c) (T26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 as a segment: entered from every unscoped buffer at the contents before it, left at the contents after it.
    Its arrays are split out of the unscoped buffers at entry and put back, at what the pipeline leaves, at exit. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T27 m) c).loose
  hwaits := Pipeline.hwaits_of_owed_zero _ _ _ _ L lv 11 fun _ _ => rfl
  pre c := iprop(StableHlo.held (c : Thread nD τ) (Pipeline.ucRefs τ sig) (B27 m c) ∗ R c)
  post c := iprop(StableHlo.held (c : Thread nD τ) (Pipeline.ucRefs τ sig) (B28 m c) ∗ R c)
  X c := iprop(∃ r, prngReg c r)
  Y c := iprop(∃ r, prngReg c r)
  Z c := Pipeline.unscopedRest (Ix := Unit) (Name := ℕ) (U := UR sig nD τ) (Lvl := ℕ) spec11 c (T27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T27 m c) (T28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 as a segment: entered from every unscoped buffer at the contents before it, left at the contents after it.
    Its arrays are split out of the unscoped buffers at entry and put back, at what the pipeline leaves, at exit. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T29 m) c).loose
  hwaits := Pipeline.hwaits_of_owed_zero _ _ _ _ L lv 12 fun _ _ => rfl
  pre c := iprop(StableHlo.held (c : Thread nD τ) (Pipeline.ucRefs τ sig) (B29 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (T29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T29 m c) (T30 m c) ((pdats m 12 c).arrAt · cfg12.N) (hF12 m c) (hrest12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 30 items in order: a host segment per stretch from the contents before it, a region per kernel call. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .host (hseg hostOps2 hostOps2_sub hostOps2_fresh (B8 m)),
    .region (reg2 m),
    .host (hseg hostOps3 hostOps3_sub hostOps3_fresh (B10 m)),
    .region (reg3 m),
    .host (hseg hostOps4 hostOps4_sub hostOps4_fresh (B12 m)),
    .region (reg4 m),
    .host (hseg hostOps5 hostOps5_sub hostOps5_fresh (B14 m)),
    .region (reg5 m),
    .host (hseg hostOps6 hostOps6_sub hostOps6_fresh (B16 m)),
    .region (reg6 m),
    .host (hseg hostOps7 hostOps7_sub hostOps7_fresh (B18 m)),
    .region (reg7 m),
    .host (hseg hostOps8 hostOps8_sub hostOps8_fresh (B20 m)),
    .region (reg8 m),
    .host (hseg hostOps9 hostOps9_sub hostOps9_fresh (B22 m)),
    .region (reg9 m),
    .host (hseg hostOps10 hostOps10_sub hostOps10_fresh (B24 m)),
    .region (reg10 m),
    .host (hseg hostOps11 hostOps11_sub hostOps11_fresh (B26 m)),
    .region (reg11 m),
    .host (hseg hostOps12 hostOps12_sub hostOps12_fresh (B28 m)),
    .region (reg12 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each core's every unscoped buffer holds the last contents `B30`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B30 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B30 m c b)
    (hfin := fun c s' => by
      iintro ⟨⟨Hh, -⟩, HSI⟩
      unfold StableHlo.held
      imodintro
      iapply (pointsTo_read_all (Pipeline.ucRefs τ sig) (fun b => (((c : Thread nD τ)).1, b)) (B30 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B30_main_arg0 m c),
      (h c _ (mem_uc main_arg1 (by decide))).trans (B30_main_arg1 m c),
      (h c _ (mem_uc main_arg2 (by decide))).trans (B30_main_arg2 m c),
      (h c _ (mem_uc main_arg3 (by decide))).trans (B30_main_arg3 m c),
      (h c _ (mem_uc main_arg4 (by decide))).trans (B30_main_arg4 m c),
      (h c _ (mem_uc main_arg5 (by decide))).trans (B30_main_arg5 m c),
      (h c _ (mem_uc main_arg6 (by decide))).trans (B30_main_arg6 m c),
      (h c _ (mem_uc main_arg7 (by decide))).trans (B30_main_arg7 m c),
      (h c _ (mem_uc main_arg8 (by decide))).trans (B30_main_arg8 m c),
      (h c _ (mem_uc main_arg9 (by decide))).trans (B30_main_arg9 m c),
      (h c _ (mem_uc main_arg10 (by decide))).trans (B30_main_arg10 m c),
      (h c _ (mem_uc main_arg11 (by decide))).trans (B30_main_arg11 m c)⟩) (run_all m ρ)

/-- THE RESULT: the result array ends at what the last region's write-backs leave, and the argument arrays as launched. -/
theorem run_result : θ_run defs (onTc (τ := τ) (main (F := F))) ⟨m, fun _ => 0, ρ⟩ (fun r => ∀ c : Dev nD,
      r.2.mem ((c.tc : Thread nD τ).loc main_v207) = (dat12 (T29 m) c).arrAt 3 cfg12.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v207 (by decide))).trans (B30_out m c),
      (h c _ (mem_uc main_arg0 (by decide))).trans (B30_main_arg0 m c),
      (h c _ (mem_uc main_arg1 (by decide))).trans (B30_main_arg1 m c),
      (h c _ (mem_uc main_arg2 (by decide))).trans (B30_main_arg2 m c),
      (h c _ (mem_uc main_arg3 (by decide))).trans (B30_main_arg3 m c),
      (h c _ (mem_uc main_arg4 (by decide))).trans (B30_main_arg4 m c),
      (h c _ (mem_uc main_arg5 (by decide))).trans (B30_main_arg5 m c),
      (h c _ (mem_uc main_arg6 (by decide))).trans (B30_main_arg6 m c),
      (h c _ (mem_uc main_arg7 (by decide))).trans (B30_main_arg7 m c),
      (h c _ (mem_uc main_arg8 (by decide))).trans (B30_main_arg8 m c),
      (h c _ (mem_uc main_arg9 (by decide))).trans (B30_main_arg9 m c),
      (h c _ (mem_uc main_arg10 (by decide))).trans (B30_main_arg10 m c),
      (h c _ (mem_uc main_arg11 (by decide))).trans (B30_main_arg11 m c)⟩) (run_all m ρ)

end Cert.KernelIdeal.Frm

end
-- ==== Proof.KI.RefTerm.lean ====
/-
  The reference's result as a composition of named whole-array functions of its twelve argument arrays: the two
  degree normalisations (a count of the edges at each node, clamped below by one, to the power minus one half), a
  layer (scale the rows by the source normalisation, multiply by the layer's weights, gather along the edges'
  sources and add up at their destinations, scale the rows by the destination normalisation, add the bias row,
  subtract the running mean, multiply by the scale row, add the shift row, clamp below by zero), the six layers one
  after the other, and the final linear layer over the six outputs laid side by side.
-/
import proofs.«144268_j91216515432581_2_alg».proof.ReferenceIdeal
import proofs.«144268_j91216515432581_2_alg».proof.Proof.Gen.ReferenceIdeal

noncomputable section

namespace Cert.KI.Ref

open Cert.ReferenceIdeal Cert.ReferenceIdeal.Gen Idealize.ShloMosaic

variable {F : FTy → Type} [FloatOps F]

/-- The all-zero 10000 by 512 array. -/
def zeros : (⟨S10000x512, .f32⟩ : BufTy).Contents (Elt F) :=
  broadcastInDim S10000x512 ![] bcast_S_S10000x512 (constant S_ .f32 0x00000000#32)

/-- The degree normalisation of an edge-end array: the number of edges at each node, clamped below by one, to the
    power minus one half. -/
def degNorm (a : (⟨S160000, .i32⟩ : BufTy).Contents (Elt F)) : (⟨S10000, .f32⟩ : BufTy).Contents (Elt F) :=
  Host.powf (maximumf (broadcastInDim S10000 ![] bcast_S_S10000 (id (constant S_ .f32 0x3F800000#32))) (Host.scatterAdd scatter_S10000_S160000x1_S160000_n_0_0_1 (broadcastInDim S10000 ![] bcast_S_S10000 (constant S_ .f32 0x00000000#32)) (broadcastInDim S160000x1 ![0] bcast_S160000_S160000x1_0 a) (broadcastInDim S160000 ![] bcast_S_S160000 (constant S_ .f32 0x3F800000#32)))) (broadcastInDim S10000 ![] bcast_S_S10000 (constant S_ .f32 0xBF000000#32))

/-- The same as a column. -/
def normCol (a : (⟨S160000, .i32⟩ : BufTy).Contents (Elt F)) : (⟨S10000x1, .f32⟩ : BufTy).Contents (Elt F) :=
  broadcastInDim S10000x1 ![0] bcast_S10000_S10000x1_0 (degNorm (F := F) a)

/-- The edges' source nodes as gather indices (a negative index counted from the end). -/
def gatherIdx (a10 : (⟨S160000, .i32⟩ : BufTy).Contents (Elt F)) : (⟨S160000x1, .i32⟩ : BufTy).Contents (Elt F) :=
  broadcastInDim S160000x1 ![0] bcast_S160000_S160000x1_0 (select (cmpi .slt a10 (broadcastInDim S160000 ![] bcast_S_S160000 (constantI S_ 32 0#32))) (addi a10 (broadcastInDim S160000 ![] bcast_S_S160000 (constantI S_ 32 10000#32))) a10)

/-- One row of a 6 by 512 parameter array, as a vector. -/
def rowOf (off : Fin 2 → Nat) (hs : S6x512.Slices off S1x512) (a : (⟨S6x512, .f32⟩ : BufTy).Contents (Elt F)) : (⟨S512, .f32⟩ : BufTy).Contents (Elt F) :=
  shapeCast _ (extractStridedSlice S1x512 off a hs) shapeCasts_S1x512_S512

/-- A layer's scale row: its gain row times the reciprocal square root of its variance row plus epsilon. -/
def scaleOf (off : Fin 2 → Nat) (hs : S6x512.Slices off S1x512) (a4 a7 : (⟨S6x512, .f32⟩ : BufTy).Contents (Elt F)) : (⟨S512, .f32⟩ : BufTy).Contents (Elt F) :=
  mulf (rowOf off hs a4) (Host.rsqrt (addf (rowOf off hs a7) (broadcastInDim S512 ![] bcast_S_S512 (constant S_ .f32 0x3727C5AC#32))))

/-- One 512 by 512 matrix of the 5 by 512 by 512 weight array. -/
def weightOf (off : Fin 3 → Nat) (hs : S5x512x512.Slices off S1x512x512) (a2 : (⟨S5x512x512, .f32⟩ : BufTy).Contents (Elt F)) : (⟨S512x512, .f32⟩ : BufTy).Contents (Elt F) :=
  shapeCast _ (extractStridedSlice S1x512x512 off a2 hs) shapeCasts_S1x512x512_S512x512

/-- The rows scaled by the source normalisation, times the weights. -/
def scaled (h : (⟨S10000x512, .f32⟩ : BufTy).Contents (Elt F)) (a10 : (⟨S160000, .i32⟩ : BufTy).Contents (Elt F)) (W : (⟨S512x512, .f32⟩ : BufTy).Contents (Elt F)) : (⟨S10000x512, .f32⟩ : BufTy).Contents (Elt F) :=
  Host.dotGeneral dot_S10000x512_S512x512_S10000x512_1_0_0_1_n_n none (mulf h (broadcastInDim S10000x512 ![0, 1] bcast_S10000x1_S10000x512_0_1 (normCol (F := F) a10))) W

/-- Gather the rows along the edges' sources and add them up at the edges' destinations. -/
def aggregate (P : (⟨S10000x512, .f32⟩ : BufTy).Contents (Elt F)) (a10 a11 : (⟨S160000, .i32⟩ : BufTy).Contents (Elt F)) : (⟨S10000x512, .f32⟩ : BufTy).Contents (Elt F) :=
  Host.scatterAdd scatter_S10000x512_S160000x1_S160000x512_1_0_0_1 (zeros (F := F)) (broadcastInDim S160000x1 ![0] bcast_S160000_S160000x1_0 a11) (Host.gather gather_S10000x512_S160000x1_S160000x512_1_0_n_n_0_1_1512 P (gatherIdx (F := F) a10))

/-- A parameter vector laid along every row. -/
def rows (v : (⟨S512, .f32⟩ : BufTy).Contents (Elt F)) : (⟨S10000x512, .f32⟩ : BufTy).Contents (Elt F) :=
  broadcastInDim S10000x512 ![0, 1] bcast_S1x512_S10000x512_0_1 (broadcastInDim S1x512 ![1] bcast_S512_S1x512_1 v)

/-- Scale the rows by a column, add a row, subtract a row, multiply by a row, add a row, clamp below by zero. -/
def normRelu (A : (⟨S10000x512, .f32⟩ : BufTy).Contents (Elt F)) (ND : (⟨S10000x1, .f32⟩ : BufTy).Contents (Elt F)) (v2 v3 v4 v5 : (⟨S512, .f32⟩ : BufTy).Contents (Elt F)) : (⟨S10000x512, .f32⟩ : BufTy).Contents (Elt F) :=
  maximumf (addf (mulf (subf (addf (mulf A (broadcastInDim S10000x512 ![0, 1] bcast_S10000x1_S10000x512_0_1 ND)) (rows v2)) (rows v3)) (rows v4)) (rows v5)) (zeros (F := F))

/-- One layer, from the previous layer's output and the layer's weights. -/
def layer (off : Fin 2 → Nat) (hs : S6x512.Slices off S1x512) (h : (⟨S10000x512, .f32⟩ : BufTy).Contents (Elt F)) (W : (⟨S512x512, .f32⟩ : BufTy).Contents (Elt F))
    (a3 a4 a5 a6 a7 : (⟨S6x512, .f32⟩ : BufTy).Contents (Elt F)) (a10 a11 : (⟨S160000, .i32⟩ : BufTy).Contents (Elt F)) : (⟨S10000x512, .f32⟩ : BufTy).Contents (Elt F) :=
  normRelu (aggregate (scaled h a10 W) a10 a11) (normCol (F := F) a11) (rowOf off hs a3) (rowOf off hs a6) (scaleOf off hs a4 a7) (rowOf off hs a5)

section Layers
variable (a0 : (⟨S10000x512, .f32⟩ : BufTy).Contents (Elt F)) (a1 : (⟨S512x512, .f32⟩ : BufTy).Contents (Elt F)) (a2 : (⟨S5x512x512, .f32⟩ : BufTy).Contents (Elt F))
  (a3 a4 a5 a6 a7 : (⟨S6x512, .f32⟩ : BufTy).Contents (Elt F)) (a8 : (⟨S3072x64, .f32⟩ : BufTy).Contents (Elt F)) (a9 : (⟨S64, .f32⟩ : BufTy).Contents (Elt F))
  (a10 a11 : (⟨S160000, .i32⟩ : BufTy).Contents (Elt F))

/-- The six layers' outputs. -/
def h1 : (⟨S10000x512, .f32⟩ : BufTy).Contents (Elt F) := layer ![0, 0] slices_S6x512_S1x512_0_0 a0 a1 a3 a4 a5 a6 a7 a10 a11
def h2 : (⟨S10000x512, .f32⟩ : BufTy).Contents (Elt F) := layer ![1, 0] slices_S6x512_S1x512_1_0 (h1 a0 a1 a3 a4 a5 a6 a7 a10 a11) (weightOf ![0, 0, 0] slices_S5x512x512_S1x512x512_0_0_0 a2) a3 a4 a5 a6 a7 a10 a11
def h3 : (⟨S10000x512, .f32⟩ : BufTy).Contents (Elt F) := layer ![2, 0] slices_S6x512_S1x512_2_0 (h2 a0 a1 a2 a3 a4 a5 a6 a7 a10 a11) (weightOf ![1, 0, 0] slices_S5x512x512_S1x512x512_1_0_0 a2) a3 a4 a5 a6 a7 a10 a11
def h4 : (⟨S10000x512, .f32⟩ : BufTy).Contents (Elt F) := layer ![3, 0] slices_S6x512_S1x512_3_0 (h3 a0 a1 a2 a3 a4 a5 a6 a7 a10 a11) (weightOf ![2, 0, 0] slices_S5x512x512_S1x512x512_2_0_0 a2) a3 a4 a5 a6 a7 a10 a11
def h5 : (⟨S10000x512, .f32⟩ : BufTy).Contents (Elt F) := layer ![4, 0] slices_S6x512_S1x512_4_0 (h4 a0 a1 a2 a3 a4 a5 a6 a7 a10 a11) (weightOf ![3, 0, 0] slices_S5x512x512_S1x512x512_3_0_0 a2) a3 a4 a5 a6 a7 a10 a11
def h6 : (⟨S10000x512, .f32⟩ : BufTy).Contents (Elt F) := layer ![5, 0] slices_S6x512_S1x512_5_0 (h5 a0 a1 a2 a3 a4 a5 a6 a7 a10 a11) (weightOf ![4, 0, 0] slices_S5x512x512_S1x512x512_4_0_0 a2) a3 a4 a5 a6 a7 a10 a11

/-- The six outputs side by side. -/
def hcat : (⟨S10000x3072, .f32⟩ : BufTy).Contents (Elt F) :=
  concatenate S10000x3072 1 [⟨S10000x512, h1 a0 a1 a3 a4 a5 a6 a7 a10 a11⟩, ⟨S10000x512, h2 a0 a1 a2 a3 a4 a5 a6 a7 a10 a11⟩, ⟨S10000x512, h3 a0 a1 a2 a3 a4 a5 a6 a7 a10 a11⟩, ⟨S10000x512, h4 a0 a1 a2 a3 a4 a5 a6 a7 a10 a11⟩, ⟨S10000x512, h5 a0 a1 a2 a3 a4 a5 a6 a7 a10 a11⟩, ⟨S10000x512, h6 a0 a1 a2 a3 a4 a5 a6 a7 a10 a11⟩] concatenates_S10000x512_S10000x512_S10000x512_S10000x512_S10000x512_S10000x512_S10000x3072_d1

/-- The reference's result: the final linear layer over the six outputs side by side. -/
def refTerm : (⟨S10000x64, .f32⟩ : BufTy).Contents (Elt F) :=
  addf (Host.dotGeneral dot_S10000x3072_S3072x64_S10000x64_1_0_0_1_n_n none (hcat a0 a1 a2 a3 a4 a5 a6 a7 a10 a11) a8) (broadcastInDim S10000x64 ![0, 1] bcast_S1x64_S10000x64_0_1 (broadcastInDim S1x64 ![1] bcast_S64_S1x64_1 a9))

end Layers

end Cert.KI.Ref

end
-- ==== Proof.KI.MatmulLaw.lean ====
/-
  The matrix products of the graph network, entry by entry, at the exact (extended real) values.

  A plain product of an M by K matrix with a K by N matrix contracts the left operand's columns with the right
  operand's rows: its entry (p, q) is the sum over k of l(p,k) * r(k,q), whichever record of dimension numbers
  names the contraction, and whether it is a block product accumulated into a zero block or a whole-array product
  with no accumulator. At the exact values a change of float format is the identity, so:

  * a layer's block product, of a block of rows scaled by its column of row factors with the whole weight matrix,
    has entry (p, q) equal to the sum over k of (x(p,k) * s(p,0)) * w(k,q);
  * the final block product with its bias row has entry (p, q) equal to the sum over k of x(p,k) * w(k,q), plus
    b(0,q);
  * the whole-array products of the same operands have the same entries at every row r of the whole array.
  A vector reshaped to one row is the vector broadcast to one row.
-/
import proofs.«144268_j91216515432581_2_alg».proof.Proof.Gen.KernelIdeal.Skeleton
import proofs.«144268_j91216515432581_2_alg».proof.Proof.Gen.ReferenceIdeal
import Idealize.ShloMosaic.Lib.Pipeline.Value
import Idealize.ShloMosaic.Lib.ValueIdx
import Idealize.ShloMosaic.PureOps.Ideal.Laws

noncomputable section

namespace Cert.KI.Matmul

open Idealize.ShloMosaic Idealize.ShloMosaic.ValueIdx
open scoped BigOperators

/-- The dimension numbers of a plain product of an M by K matrix with a K by N matrix: contract the left
    operand's columns with the right operand's rows. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

section Plain
variable {M K N : Nat}

theorem plain_lhs0 (j : (⟨2, ![M, N]⟩ : Shape).Idx) (k : (DotDims.plain M K N).contr.Idx) :
    ((DotDims.plain M K N).lhsIdx j k 0).val = (j 0).val := rfl
theorem plain_lhs1 (j : (⟨2, ![M, N]⟩ : Shape).Idx) (k : (DotDims.plain M K N).contr.Idx) :
    ((DotDims.plain M K N).lhsIdx j k 1).val = (k ⟨0, Nat.one_pos⟩).val := rfl
theorem plain_rhs0 (j : (⟨2, ![M, N]⟩ : Shape).Idx) (k : (DotDims.plain M K N).contr.Idx) :
    ((DotDims.plain M K N).rhsIdx j k 0).val = (k ⟨0, Nat.one_pos⟩).val := rfl
theorem plain_rhs1 (j : (⟨2, ![M, N]⟩ : Shape).Idx) (k : (DotDims.plain M K N).contr.Idx) :
    ((DotDims.plain M K N).rhsIdx j k 1).val = (j 1).val := rfl

/-- The contraction sum of the plain product at row p and column q: the sum over k of l(p,k) * r(k,q). -/
theorem plain_sum (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Plain

/-- The same for any record of those dimension numbers. -/
theorem contr_sum_plain {M K N : Nat} (D : DotDims ⟨2, ![M, K]⟩ ⟨2, ![K, N]⟩ ⟨2, ![M, N]⟩) (hD : IsPlain D)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  obtain ⟨h1, h2, h3, h4, h5, h6⟩ := hD
  simp only at h1 h2 h3 h4 h5 h6
  subst h1 h2 h3 h4 h5 h6
  exact plain_sum l r p q

/-! ## The kernels' arithmetic at an index -/

section Payloads
open Cert.KernelIdeal Cert.KernelIdeal.Gen

/-- A column of row factors laid along the rows, read at row p: the factor of row p. -/
theorem rowFactor_apply {M N : Nat} (s : (⟨2, ![M, 1]⟩ : Shape).Idx → EReal)
    (h : (⟨2, ![M, 1]⟩ : Shape).Broadcasts ⟨2, ![M, N]⟩) (p : Fin M) (k : Fin N) :
    broadcastTo ⟨2, ![M, N]⟩ s h (ix2 p k) = s (ix2 p (0 : Fin 1)) := by
  refine broadcastTo_apply s h (ix2 p k) (ix2 p (0 : Fin 1)) ?_
  intro a
  match a with
  | ⟨0, _⟩ =>
    show p.val = if M = 1 then 0 else p.val
    split
    · have := p.isLt; omega
    · rfl
  | ⟨1, _⟩ => show (0 : ℕ) = if (1 : ℕ) = 1 then 0 else _; rw [if_pos rfl]

/-- Region 0's arithmetic at row p and column q of the block: the sum over k of the scaled entry (p,k) times
    the weight (k,q). -/
theorem k0_pay1_apply (x0 : Vec Ideal S2000x512 .f32) (x1 : Vec Ideal S2000x1 .f32) (x2 : Vec Ideal S512x512 .f32)
    (p : Fin 2000) (q : Fin 512) :
    k0_pay1 x0 x1 x2 (ix2 p q) = ∑ k : Fin 512, (x0 (ix2 p k) * x1 (ix2 p (0 : Fin 1))) * x2 (ix2 k q) := by
  unfold k0_pay1
  simp only [shapeCast_self]
  refine (Ideal.matmul_constant_zero_apply _ none _ _ (ix2 p q)).trans ?_
  refine (contr_sum_plain _ ⟨rfl, rfl, rfl, rfl, rfl, rfl⟩ _ _ p q).trans ?_
  refine Finset.sum_congr rfl fun k _ => ?_
  show (x0 (ix2 p k) * broadcastTo S2000x512 x1 broadcasts_S2000x1_S2000x512 (ix2 p k)) * x2 (ix2 k q) = _
  rw [rowFactor_apply]

/-- Regions 2, 4, 6, 8, 10 have one arithmetic, region 0's up to casts of a block to its own shape. -/
theorem k2_pay1_apply (x0 : Vec Ideal S2000x512 .f32) (x1 : Vec Ideal S2000x1 .f32) (x2 : Vec Ideal S512x512 .f32)
    (p : Fin 2000) (q : Fin 512) :
    k2_pay1 x0 x1 x2 (ix2 p q) = ∑ k : Fin 512, (x0 (ix2 p k) * x1 (ix2 p (0 : Fin 1))) * x2 (ix2 k q) := by
  unfold k2_pay1
  simp only [shapeCast_self]
  refine (Ideal.matmul_constant_zero_apply _ none _ _ (ix2 p q)).trans ?_
  refine (contr_sum_plain _ ⟨rfl, rfl, rfl, rfl, rfl, rfl⟩ _ _ p q).trans ?_
  refine Finset.sum_congr rfl fun k _ => ?_
  show (x0 (ix2 p k) * broadcastTo S2000x512 x1 broadcasts_S2000x1_S2000x512 (ix2 p k)) * x2 (ix2 k q) = _
  rw [rowFactor_apply]

theorem k4_pay1_apply (x0 : Vec Ideal S2000x512 .f32) (x1 : Vec Ideal S2000x1 .f32) (x2 : Vec Ideal S512x512 .f32)
    (p : Fin 2000) (q : Fin 512) :
    k4_pay1 x0 x1 x2 (ix2 p q) = ∑ k : Fin 512, (x0 (ix2 p k) * x1 (ix2 p (0 : Fin 1))) * x2 (ix2 k q) :=
  k2_pay1_apply x0 x1 x2 p q
theorem k6_pay1_apply (x0 : Vec Ideal S2000x512 .f32) (x1 : Vec Ideal S2000x1 .f32) (x2 : Vec Ideal S512x512 .f32)
    (p : Fin 2000) (q : Fin 512) :
    k6_pay1 x0 x1 x2 (ix2 p q) = ∑ k : Fin 512, (x0 (ix2 p k) * x1 (ix2 p (0 : Fin 1))) * x2 (ix2 k q) :=
  k2_pay1_apply x0 x1 x2 p q
theorem k8_pay1_apply (x0 : Vec Ideal S2000x512 .f32) (x1 : Vec Ideal S2000x1 .f32) (x2 : Vec Ideal S512x512 .f32)
    (p : Fin 2000) (q : Fin 512) :
    k8_pay1 x0 x1 x2 (ix2 p q) = ∑ k : Fin 512, (x0 (ix2 p k) * x1 (ix2 p (0 : Fin 1))) * x2 (ix2 k q) :=
  k2_pay1_apply x0 x1 x2 p q
theorem k10_pay1_apply (x0 : Vec Ideal S2000x512 .f32) (x1 : Vec Ideal S2000x1 .f32) (x2 : Vec Ideal S512x512 .f32)
    (p : Fin 2000) (q : Fin 512) :
    k10_pay1 x0 x1 x2 (ix2 p q) = ∑ k : Fin 512, (x0 (ix2 p k) * x1 (ix2 p (0 : Fin 1))) * x2 (ix2 k q) :=
  k2_pay1_apply x0 x1 x2 p q

/-- A one-row matrix laid along the rows, read at (p, q): the row's entry q. -/
theorem rowBcast_apply {M N : Nat} (b : (⟨2, ![1, N]⟩ : Shape).Idx → EReal)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) ?_
  intro a
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- Region 12's arithmetic at row p and column q of the block: the product's entry plus the bias entry q. -/
theorem k12_pay1_apply (x0 : Vec Ideal S200x3072 .f32) (x1 : Vec Ideal S3072x64 .f32) (x2 : Vec Ideal S1x64 .f32)
    (p : Fin 200) (q : Fin 64) :
    k12_pay1 x0 x1 x2 (ix2 p q) = (∑ k : Fin 3072, x0 (ix2 p k) * x1 (ix2 k q)) + x2 (ix2 (0 : Fin 1) q) := by
  unfold k12_pay1
  simp only [shapeCast_self]
  show FloatOps.matmul (F := Ideal) dot_S200x3072_S3072x64_S200x64_1_0_0_1_n_n none _ _ (constant S200x64 .f32 0x00000000#32) (ix2 p q)
      + broadcastTo S200x64 x2 broadcasts_S1x64_S200x64 (ix2 p q) = _
  rw [rowBcast_apply, Ideal.matmul_constant_zero_apply, contr_sum_plain _ ⟨rfl, rfl, rfl, rfl, rfl, rfl⟩ _ _ p q]
  rfl

end Payloads

/-! ## The reference's operations at an index -/

section Reference

/-- A column of row factors broadcast along the rows by the host, read at (p, k): the factor of row p. -/
theorem colBcast_apply {M N : Nat} (s : (⟨2, ![M, 1]⟩ : Shape).Idx → EReal)
    (h : (⟨2, ![M, 1]⟩ : Shape).BroadcastsInDim ⟨2, ![M, N]⟩ ![0, 1]) (p : Fin M) (k : Fin N) :
    broadcastInDim ⟨2, ![M, N]⟩ ![0, 1] h s (ix2 p k) = s (ix2 p (0 : Fin 1)) := by
  refine broadcastInDim_apply ![0, 1] h s (ix2 p k) (ix2 p (0 : Fin 1)) ?_
  intro a
  match a with
  | ⟨0, _⟩ =>
    show p.val = if M = 1 then 0 else p.val
    split
    · have := p.isLt; omega
    · rfl
  | ⟨1, _⟩ => show (0 : ℕ) = if (1 : ℕ) = 1 then 0 else _; rw [if_pos rfl]

/-- A one-row matrix broadcast along the rows by the host, read at (p, q): the row's entry q. -/
theorem oneRowBcast_apply {M N : Nat} (b : (⟨2, ![1, N]⟩ : Shape).Idx → EReal)
    (h : (⟨2, ![1, N]⟩ : Shape).BroadcastsInDim ⟨2, ![M, N]⟩ ![0, 1]) (p : Fin M) (q : Fin N) :
    broadcastInDim ⟨2, ![M, N]⟩ ![0, 1] h b (ix2 p q) = b (ix2 (0 : Fin 1) q) := by
  refine broadcastInDim_apply ![0, 1] h b (ix2 p q) (ix2 (0 : Fin 1) q) ?_
  intro a
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The reference's row-scaled product of a layer: every row of X times its factor, then times the weights. -/
abbrev scaledProduct (X : FVec Ideal Cert.ReferenceIdeal.S10000x512 .f32) (S : FVec Ideal Cert.ReferenceIdeal.S10000x1 .f32)
    (Wt : FVec Ideal Cert.ReferenceIdeal.S512x512 .f32) : FVec Ideal Cert.ReferenceIdeal.S10000x512 .f32 :=
  Host.dotGeneral (F := Ideal) Cert.ReferenceIdeal.dot_S10000x512_S512x512_S10000x512_1_0_0_1_n_n none
    (mulf X (broadcastInDim Cert.ReferenceIdeal.S10000x512 ![0, 1] Cert.ReferenceIdeal.Gen.bcast_S10000x1_S10000x512_0_1 S)) Wt

/-- At row r and column q: the sum over k of the scaled entry (r,k) times the weight (k,q). -/
theorem scaledProduct_apply (X : FVec Ideal Cert.ReferenceIdeal.S10000x512 .f32) (S : FVec Ideal Cert.ReferenceIdeal.S10000x1 .f32)
    (Wt : FVec Ideal Cert.ReferenceIdeal.S512x512 .f32) (r : Fin 10000) (q : Fin 512) :
    scaledProduct X S Wt (ix2 r q) = ∑ k : Fin 512, (X (ix2 r k) * S (ix2 r (0 : Fin 1))) * Wt (ix2 k q) := by
  refine (Ideal.dotGeneral_apply _ none _ _ _ (ix2 r q)).trans ?_
  refine (contr_sum_plain _ ⟨rfl, rfl, rfl, rfl, rfl, rfl⟩ _ _ r q).trans ?_
  refine Finset.sum_congr rfl fun k _ => ?_
  show (X (ix2 r k) * broadcastInDim Cert.ReferenceIdeal.S10000x512 ![0, 1] Cert.ReferenceIdeal.Gen.bcast_S10000x1_S10000x512_0_1 S (ix2 r k)) * Wt (ix2 k q) = _
  rw [colBcast_apply]

/-- The reference's final linear layer over a one-row bias: the product plus the bias laid along the rows. -/
abbrev finalLinear (X : FVec Ideal Cert.ReferenceIdeal.S10000x3072 .f32) (Wt : FVec Ideal Cert.ReferenceIdeal.S3072x64 .f32)
    (B : FVec Ideal Cert.ReferenceIdeal.S1x64 .f32) : FVec Ideal Cert.ReferenceIdeal.S10000x64 .f32 :=
  addf (Host.dotGeneral (F := Ideal) Cert.ReferenceIdeal.dot_S10000x3072_S3072x64_S10000x64_1_0_0_1_n_n none X Wt)
    (broadcastInDim Cert.ReferenceIdeal.S10000x64 ![0, 1] Cert.ReferenceIdeal.Gen.bcast_S1x64_S10000x64_0_1 B)

/-- At row r and column q: the product's entry plus the bias entry q. -/
theorem finalLinear_apply (X : FVec Ideal Cert.ReferenceIdeal.S10000x3072 .f32) (Wt : FVec Ideal Cert.ReferenceIdeal.S3072x64 .f32)
    (B : FVec Ideal Cert.ReferenceIdeal.S1x64 .f32) (r : Fin 10000) (q : Fin 64) :
    finalLinear X Wt B (ix2 r q) = (∑ k : Fin 3072, X (ix2 r k) * Wt (ix2 k q)) + B (ix2 (0 : Fin 1) q) := by
  show FloatOps.dotGeneral Cert.ReferenceIdeal.dot_S10000x3072_S3072x64_S10000x64_1_0_0_1_n_n none .single X Wt (ix2 r q)
      + broadcastInDim Cert.ReferenceIdeal.S10000x64 ![0, 1] Cert.ReferenceIdeal.Gen.bcast_S1x64_S10000x64_0_1 B (ix2 r q) = _
  rw [oneRowBcast_apply, Ideal.dotGeneral_apply, contr_sum_plain _ ⟨rfl, rfl, rfl, rfl, rfl, rfl⟩ _ _ r q]

/-- A vector reshaped to one row is the vector broadcast to one row along axis 1. -/
theorem reshape_row_eq_bcast {N : Nat} (b : (⟨1, ![N]⟩ : Shape).Idx → EReal)
    (hs : (⟨1, ![N]⟩ : Shape).ShapeCasts ⟨2, ![1, N]⟩) (hb : (⟨1, ![N]⟩ : Shape).BroadcastsInDim ⟨2, ![1, N]⟩ ![1]) :
    shapeCast ⟨2, ![1, N]⟩ b hs = broadcastInDim ⟨2, ![1, N]⟩ ![1] hb b := by
  funext j
  obtain ⟨z, t, rfl⟩ : ∃ (z : Fin 1) (t : Fin N), j = ix2 z t := ⟨j 0, j 1, eq_ix2 j⟩
  have e1 := shapeCast_apply b hs (ix2 z t) (ix1 t) (by
    rw [Shape.rowMajor_val_two, Shape.rowMajor_val_one]
    show t.val = z.val * N + t.val
    have := z.isLt; have hz : z.val = 0 := by omega
    rw [hz]; omega)
  have e2 := broadcastInDim_apply ![1] hb b (ix2 z t) (ix1 t) (by
    intro a
    match a with
    | ⟨0, _⟩ =>
      show t.val = if N = 1 then 0 else t.val
      split
      · have := t.isLt; omega
      · rfl)
  exact e1.trans e2.symm

end Reference

end Cert.KI.Matmul

end
-- ==== Proof.KI.BnLaw.lean ====
/-
  A block of rows scaled by a column of row factors, shifted by a bias row, centred by a mean row, scaled by a
  scale row, shifted again and cut off below at a constant: the same six pointwise operations written in two
  ways, and both read at one element.

  In the first way every operand is a block: the column [a,1] is laid across the b columns and each row [1,b]
  down the a rows by a broadcast that keeps the rank. In the second way the operands are whole arrays and
  vectors: the column is laid across by a broadcast in dimensions [0,1], and each vector [n] is first made a one-row
  matrix by a broadcast in dimension [1] and then laid down the rows by a broadcast in dimensions [0,1].

  Element (p, q) of either is   max (((x (p,q) * f (p,0) + b q) - m q) * s q + e q) z.   Nothing here uses a
  law of arithmetic: the two readings apply the same operations to the same elements in the same order, so
  they agree at the infinities too.
-/
import Idealize.ShloMosaic.Lib.KernelVsHost
import Idealize.ShloMosaic.Lib.ValueLayout

noncomputable section

namespace Cert.BnLaw

open Idealize.ShloMosaic Idealize.ShloMosaic.ValueIdx

/-! ## Three broadcasts read at an element -/

section Layout
variable {α : Type}

/-- A one-column matrix laid across `b` columns reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column laid across by a broadcast in dimensions [0, 1]. -/
theorem broadcastInDim_col_apply {m n : ℕ} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro ax
  match ax with
  | ⟨0, _⟩ =>
    show r.val = if m = 1 then 0 else r.val
    split
    · have := r.isLt; omega
    · rfl
  | ⟨1, _⟩ => rfl

/-- A vector made a one-row matrix by a broadcast in dimension [1] reads, at (u, t), the vector's entry t. -/
theorem broadcastInDim_vec_row_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro ax
  match ax with
  | ⟨0, _⟩ =>
    show t.val = if n = 1 then 0 else t.val
    split
    · have := t.isLt; omega
    · rfl

/-- A vector laid along every row of a matrix in those two steps reads, at (r, t), the vector's entry t. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α)
    (r : Fin m) (t : Fin n) :
    broadcastInDim ⟨2, ![m, n]⟩ ![0, 1] h2 (broadcastInDim ⟨2, ![1, n]⟩ ![1] h1 x) (ix2 r t) = x (ix1 t) :=
  (broadcastInDim_oneRow_apply h2 _ r t).trans (broadcastInDim_vec_row_apply h1 x 0 t)

end Layout

/-! ## The two readings at an element -/

section AtIdeal

/-- The element both readings have at row `p`, column `q`. -/
abbrev elem (x f b m s e z : EReal) : EReal := max (((x * f + b) - m) * s + e) z

/-- The block form at element (p, q). The casts of a block to its own shape are the identity. -/
theorem block_apply {a b : ℕ} (x0 : FVec Ideal ⟨2, ![a, b]⟩ .f32) (x1 : FVec Ideal ⟨2, ![a, 1]⟩ .f32)
    (x2 x3 x4 x5 : FVec Ideal ⟨2, ![1, b]⟩ .f32)
    (c0 : (⟨2, ![a, b]⟩ : Shape).ShapeCasts ⟨2, ![a, b]⟩) (c1 : (⟨2, ![a, 1]⟩ : Shape).ShapeCasts ⟨2, ![a, 1]⟩)
    (c2 : (⟨2, ![1, b]⟩ : Shape).ShapeCasts ⟨2, ![1, b]⟩)
    (hc : (⟨2, ![a, 1]⟩ : Shape).Broadcasts ⟨2, ![a, b]⟩) (hr : (⟨2, ![1, b]⟩ : Shape).Broadcasts ⟨2, ![a, b]⟩)
    (z : Ideal .f32) (p : Fin a) (q : Fin b) :
    (maximumf (addf (mulf (subf (addf (mulf (shapeCast ⟨2, ![a, b]⟩ x0 c0)
        (broadcastTo ⟨2, ![a, b]⟩ (shapeCast ⟨2, ![a, 1]⟩ x1 c1) hc))
        (broadcastTo ⟨2, ![a, b]⟩ (shapeCast ⟨2, ![1, b]⟩ x2 c2) hr))
        (broadcastTo ⟨2, ![a, b]⟩ (shapeCast ⟨2, ![1, b]⟩ x3 c2) hr))
        (broadcastTo ⟨2, ![a, b]⟩ (shapeCast ⟨2, ![1, b]⟩ x4 c2) hr))
        (broadcastTo ⟨2, ![a, b]⟩ (shapeCast ⟨2, ![1, b]⟩ x5 c2) hr))
        (broadcast ⟨2, ![a, b]⟩ z) : FVec Ideal ⟨2, ![a, b]⟩ .f32) (ix2 p q)
      = elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) z := by
  rw [shapeCast_self x0 c0, shapeCast_self x1 c1, shapeCast_self x2 c2, shapeCast_self x3 c2,
    shapeCast_self x4 c2, shapeCast_self x5 c2]
  show max ((((x0 (ix2 p q) * broadcastTo ⟨2, ![a, b]⟩ x1 hc (ix2 p q) + broadcastTo ⟨2, ![a, b]⟩ x2 hr (ix2 p q))
      - broadcastTo ⟨2, ![a, b]⟩ x3 hr (ix2 p q)) * broadcastTo ⟨2, ![a, b]⟩ x4 hr (ix2 p q))
      + broadcastTo ⟨2, ![a, b]⟩ x5 hr (ix2 p q)) z = _
  rw [broadcastTo_a1_ab_apply x1 hc p q, broadcastTo_1b_ab_apply x2 hr p q, broadcastTo_1b_ab_apply x3 hr p q,
    broadcastTo_1b_ab_apply x4 hr p q, broadcastTo_1b_ab_apply x5 hr p q]

/-- The whole-array form at element (r, q). -/
theorem whole_apply {m n : ℕ} (A : FVec Ideal ⟨2, ![m, n]⟩ .f32) (f : FVec Ideal ⟨2, ![m, 1]⟩ .f32)
    (b mu s e : FVec Ideal ⟨1, ![n]⟩ .f32)
    (hcol : (⟨2, ![m, 1]⟩ : Shape).BroadcastsInDim ⟨2, ![m, n]⟩ ![0, 1])
    (h1 : (⟨1, ![n]⟩ : Shape).BroadcastsInDim ⟨2, ![1, n]⟩ ![1])
    (h2 : (⟨2, ![1, n]⟩ : Shape).BroadcastsInDim ⟨2, ![m, n]⟩ ![0, 1])
    (Z : FVec Ideal ⟨2, ![m, n]⟩ .f32) (r : Fin m) (q : Fin n) :
    (maximumf (addf (mulf (subf (addf (mulf A (broadcastInDim ⟨2, ![m, n]⟩ ![0, 1] hcol f))
        (broadcastInDim ⟨2, ![m, n]⟩ ![0, 1] h2 (broadcastInDim ⟨2, ![1, n]⟩ ![1] h1 b)))
        (broadcastInDim ⟨2, ![m, n]⟩ ![0, 1] h2 (broadcastInDim ⟨2, ![1, n]⟩ ![1] h1 mu)))
        (broadcastInDim ⟨2, ![m, n]⟩ ![0, 1] h2 (broadcastInDim ⟨2, ![1, n]⟩ ![1] h1 s)))
        (broadcastInDim ⟨2, ![m, n]⟩ ![0, 1] h2 (broadcastInDim ⟨2, ![1, n]⟩ ![1] h1 e)))
        Z : FVec Ideal ⟨2, ![m, n]⟩ .f32) (ix2 r q)
      = elem (A (ix2 r q)) (f (ix2 r (0 : Fin 1))) (b (ix1 q)) (mu (ix1 q)) (s (ix1 q)) (e (ix1 q)) (Z (ix2 r q)) := by
  show max ((((A (ix2 r q) * broadcastInDim ⟨2, ![m, n]⟩ ![0, 1] hcol f (ix2 r q)
      + broadcastInDim ⟨2, ![m, n]⟩ ![0, 1] h2 (broadcastInDim ⟨2, ![1, n]⟩ ![1] h1 b) (ix2 r q))
      - broadcastInDim ⟨2, ![m, n]⟩ ![0, 1] h2 (broadcastInDim ⟨2, ![1, n]⟩ ![1] h1 mu) (ix2 r q))
      * broadcastInDim ⟨2, ![m, n]⟩ ![0, 1] h2 (broadcastInDim ⟨2, ![1, n]⟩ ![1] h1 s) (ix2 r q))
      + broadcastInDim ⟨2, ![m, n]⟩ ![0, 1] h2 (broadcastInDim ⟨2, ![1, n]⟩ ![1] h1 e) (ix2 r q)) (Z (ix2 r q)) = _
  rw [broadcastInDim_col_apply hcol f r q, broadcastInDim_vec_rows_apply h1 h2 b r q,
    broadcastInDim_vec_rows_apply h1 h2 mu r q, broadcastInDim_vec_rows_apply h1 h2 s r q,
    broadcastInDim_vec_rows_apply h1 h2 e r q]

end AtIdeal

end Cert.BnLaw

end
-- ==== Proof.KI.Val1.lean ====
/-
  Region 1 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them.
-/
import proofs.«144268_j91216515432581_2_alg».proof.Proof.KI.Reg1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's arithmetic at row `p`, column `q` of a block. -/
theorem pay1_apply (x0 : Vec Ideal S2000x512 .f32) (x1 : Vec Ideal S2000x1 .f32) (x2 x3 x4 x5 : Vec Ideal S1x512 .f32)
    (p : Fin 2000) (q : Fin 512) :
    k1_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k1_pay1
  exact BnLaw.block_apply x0 x1 x2 x3 x4 x5 _ _ _ _ _ _ p q

/-- The output buffer after the body, at row `p`, column `q`: the one store is of the whole buffer. -/
theorem out1_6_apply (x0 : Vec Ideal S2000x512 .f32) (x1 : Vec Ideal S2000x1 .f32) (x2 x3 x4 x5 : Vec Ideal S1x512 .f32)
    (p : Fin 2000) (q : Fin 512) :
    out1_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out1_6
  rw [View.canon_unit_zero hz1]
  simp only [View.ld_unit_zero (S := S2000x512) hz1, View.ld_unit_zero (S := S2000x1) hz1, View.ld_unit_zero (S := S1x512) hz1]
  exact pay1_apply x0 x1 x2 x3 x4 x5 p q

/-- The block indices, decided over the five grid points: the row-blocked windows are at block (t, 0), the four
    one-row windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of window 0 is rows 2000 t … 2000 t + 1999 of its array. -/
theorem iblk1_0_apply (c : Dev nD) (t : Fin cfg1.N) (p : Fin 2000) (q : Fin 512) (r : Fin 10000)
    (hr : r.val = t.val * 2000 + p.val) :
    (iblk1 V c 0 t : Vec Ideal S2000x512 .f32) (ix2 p q)
      = (V c (Pipeline.arrRef spec1 0) : S10000x512.Idx → Elt Ideal .f32) (ix2 r q) := by
  obtain ⟨e0, e1, -⟩ := idx_facts1 t
  unfold iblk1
  rw [View.read_apply]
  show V c (Pipeline.arrRef spec1 0) (((cfg1.win 0).blk t).view.emb (ix2 p q)) = V c (Pipeline.arrRef spec1 0) (ix2 r q)
  refine congrArg (V c (Pipeline.arrRef spec1 0)) (funext fun a => Fin.ext ?_)
  match a with
  | ⟨0, _⟩ => show win1_0.index t (0 : Fin 2) * 2000 + 1 * p.val = r.val; rw [e0, hr]; omega
  | ⟨1, _⟩ => show win1_0.index t (1 : Fin 2) * 512 + 1 * q.val = q.val; rw [e1]; omega

/-- Block `t` of window 1 is rows 2000 t … 2000 t + 1999 of the column of row factors. -/
theorem iblk1_1_apply (c : Dev nD) (t : Fin cfg1.N) (p : Fin 2000) (r : Fin 10000)
    (hr : r.val = t.val * 2000 + p.val) :
    (iblk1 V c 1 t : Vec Ideal S2000x1 .f32) (ix2 p (0 : Fin 1))
      = (V c (Pipeline.arrRef spec1 1) : S10000x1.Idx → Elt Ideal .f32) (ix2 r (0 : Fin 1)) := by
  obtain ⟨-, -, e0, e1, -⟩ := idx_facts1 t
  unfold iblk1
  rw [View.read_apply]
  show V c (Pipeline.arrRef spec1 1) (((cfg1.win 1).blk t).view.emb (ix2 p (0 : Fin 1))) = V c (Pipeline.arrRef spec1 1) (ix2 r (0 : Fin 1))
  refine congrArg (V c (Pipeline.arrRef spec1 1)) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Window 2 is one row, fetched whole at every point. -/
theorem iblk1_2_apply (c : Dev nD) (t : Fin cfg1.N) (q : Fin 512) :
    (iblk1 V c 2 t : Vec Ideal S1x512 .f32) (ix2 (0 : Fin 1) q)
      = (V c (Pipeline.arrRef spec1 2) : S1x512.Idx → Elt Ideal .f32) (ix2 (0 : Fin 1) q) := by
  obtain ⟨-, -, -, -, e20, e21, e30, e31, e40, e41, e50, e51, -⟩ := idx_facts1 t
  unfold iblk1
  rw [View.read_apply]
  show V c (Pipeline.arrRef spec1 2) (((cfg1.win 2).blk t).view.emb (ix2 (0 : Fin 1) q)) = V c (Pipeline.arrRef spec1 2) (ix2 (0 : Fin 1) q)
  refine congrArg (V c (Pipeline.arrRef spec1 2)) (funext fun a => Fin.ext ?_)
  match a with
  | ⟨0, _⟩ => show win1_2.index t (0 : Fin 2) * 1 + 1 * 0 = 0; rw [e20]
  | ⟨1, _⟩ => show win1_2.index t (1 : Fin 2) * 512 + 1 * q.val = q.val; rw [e21]; omega

/-- Window 3 is one row, fetched whole at every point. -/
theorem iblk1_3_apply (c : Dev nD) (t : Fin cfg1.N) (q : Fin 512) :
    (iblk1 V c 3 t : Vec Ideal S1x512 .f32) (ix2 (0 : Fin 1) q)
      = (V c (Pipeline.arrRef spec1 3) : S1x512.Idx → Elt Ideal .f32) (ix2 (0 : Fin 1) q) := by
  obtain ⟨-, -, -, -, e20, e21, e30, e31, e40, e41, e50, e51, -⟩ := idx_facts1 t
  unfold iblk1
  rw [View.read_apply]
  show V c (Pipeline.arrRef spec1 3) (((cfg1.win 3).blk t).view.emb (ix2 (0 : Fin 1) q)) = V c (Pipeline.arrRef spec1 3) (ix2 (0 : Fin 1) q)
  refine congrArg (V c (Pipeline.arrRef spec1 3)) (funext fun a => Fin.ext ?_)
  match a with
  | ⟨0, _⟩ => show win1_3.index t (0 : Fin 2) * 1 + 1 * 0 = 0; rw [e30]
  | ⟨1, _⟩ => show win1_3.index t (1 : Fin 2) * 512 + 1 * q.val = q.val; rw [e31]; omega

/-- Window 4 is one row, fetched whole at every point. -/
theorem iblk1_4_apply (c : Dev nD) (t : Fin cfg1.N) (q : Fin 512) :
    (iblk1 V c 4 t : Vec Ideal S1x512 .f32) (ix2 (0 : Fin 1) q)
      = (V c (Pipeline.arrRef spec1 4) : S1x512.Idx → Elt Ideal .f32) (ix2 (0 : Fin 1) q) := by
  obtain ⟨-, -, -, -, e20, e21, e30, e31, e40, e41, e50, e51, -⟩ := idx_facts1 t
  unfold iblk1
  rw [View.read_apply]
  show V c (Pipeline.arrRef spec1 4) (((cfg1.win 4).blk t).view.emb (ix2 (0 : Fin 1) q)) = V c (Pipeline.arrRef spec1 4) (ix2 (0 : Fin 1) q)
  refine congrArg (V c (Pipeline.arrRef spec1 4)) (funext fun a => Fin.ext ?_)
  match a with
  | ⟨0, _⟩ => show win1_4.index t (0 : Fin 2) * 1 + 1 * 0 = 0; rw [e40]
  | ⟨1, _⟩ => show win1_4.index t (1 : Fin 2) * 512 + 1 * q.val = q.val; rw [e41]; omega

/-- Window 5 is one row, fetched whole at every point. -/
theorem iblk1_5_apply (c : Dev nD) (t : Fin cfg1.N) (q : Fin 512) :
    (iblk1 V c 5 t : Vec Ideal S1x512 .f32) (ix2 (0 : Fin 1) q)
      = (V c (Pipeline.arrRef spec1 5) : S1x512.Idx → Elt Ideal .f32) (ix2 (0 : Fin 1) q) := by
  obtain ⟨-, -, -, -, e20, e21, e30, e31, e40, e41, e50, e51, -⟩ := idx_facts1 t
  unfold iblk1
  rw [View.read_apply]
  show V c (Pipeline.arrRef spec1 5) (((cfg1.win 5).blk t).view.emb (ix2 (0 : Fin 1) q)) = V c (Pipeline.arrRef spec1 5) (ix2 (0 : Fin 1) q)
  refine congrArg (V c (Pipeline.arrRef spec1 5)) (funext fun a => Fin.ext ?_)
  match a with
  | ⟨0, _⟩ => show win1_5.index t (0 : Fin 2) * 1 + 1 * 0 = 0; rw [e50]
  | ⟨1, _⟩ => show win1_5.index t (1 : Fin 2) * 512 + 1 * q.val = q.val; rw [e51]; omega

/-- A window whose array is a vector recast as one row reads, at column `q` of its block, the vector's entry `q`. -/
theorem row_of_vec (A : S1x512.Idx → Elt Ideal .f32) (v : FVec Ideal S512 .f32) (hsc : S512.ShapeCasts S1x512)
    (h : A = shapeCast S1x512 v hsc) (q : Fin 512) : A (ix2 (0 : Fin 1) q) = v (ix1 q) := by
  rw [h]; exact shapeCast_a_1a_apply v hsc 0 q

/-- The host's form of the same arithmetic on whole arrays: the column of row factors laid across the 512 columns,
    each of the four vectors made a row and laid down the 10000 rows, the cut-off a splat of the zero word. -/
abbrev bnWhole (A : FVec Ideal S10000x512 .f32) (ND : FVec Ideal S10000x1 .f32) (v2 v3 v4 v5 : FVec Ideal S512 .f32) :
    FVec Ideal S10000x512 .f32 :=
  maximumf (addf (mulf (subf (addf (mulf A
    (broadcastInDim S10000x512 ![0, 1] Cert.ReferenceIdeal.Gen.bcast_S10000x1_S10000x512_0_1 ND))
    (broadcastInDim S10000x512 ![0, 1] Cert.ReferenceIdeal.Gen.bcast_S1x512_S10000x512_0_1 (broadcastInDim S1x512 ![1] Cert.ReferenceIdeal.Gen.bcast_S512_S1x512_1 v2)))
    (broadcastInDim S10000x512 ![0, 1] Cert.ReferenceIdeal.Gen.bcast_S1x512_S10000x512_0_1 (broadcastInDim S1x512 ![1] Cert.ReferenceIdeal.Gen.bcast_S512_S1x512_1 v3)))
    (broadcastInDim S10000x512 ![0, 1] Cert.ReferenceIdeal.Gen.bcast_S1x512_S10000x512_0_1 (broadcastInDim S1x512 ![1] Cert.ReferenceIdeal.Gen.bcast_S512_S1x512_1 v4)))
    (broadcastInDim S10000x512 ![0, 1] Cert.ReferenceIdeal.Gen.bcast_S1x512_S10000x512_0_1 (broadcastInDim S1x512 ![1] Cert.ReferenceIdeal.Gen.bcast_S512_S1x512_1 v5)))
    (broadcastInDim S10000x512 ![] Cert.ReferenceIdeal.Gen.bcast_S_S10000x512 (constant (F := Ideal) S_ .f32 0x00000000#32))

/-- Element (p, q) of what point `t` leaves in the output buffer is element (2000 t + p, q) of the whole-array form:
    the block's element of the array and of the column of row factors sit in row 2000 t + p, and the four rows'
    entries at column q are entry q of each vector. -/
theorem elem1_eq (c : Dev nD) (t : Fin cfg1.N) (v2 v3 v4 v5 : FVec Ideal S512 .f32) (hsc : S512.ShapeCasts S1x512)
    (h2 : (V c (Pipeline.arrRef spec1 2) : S1x512.Idx → Elt Ideal .f32) = shapeCast S1x512 v2 hsc)
    (h3 : (V c (Pipeline.arrRef spec1 3) : S1x512.Idx → Elt Ideal .f32) = shapeCast S1x512 v3 hsc)
    (h4 : (V c (Pipeline.arrRef spec1 4) : S1x512.Idx → Elt Ideal .f32) = shapeCast S1x512 v4 hsc)
    (h5 : (V c (Pipeline.arrRef spec1 5) : S1x512.Idx → Elt Ideal .f32) = shapeCast S1x512 v5 hsc)
    (p : Fin 2000) (q : Fin 512) (r : Fin 10000) (hr : r.val = t.val * 2000 + p.val) :
    out1_6 (iblk1 V c 0 t) (iblk1 V c 1 t) (iblk1 V c 2 t) (iblk1 V c 3 t) (iblk1 V c 4 t) (iblk1 V c 5 t) (ix2 p q)
      = bnWhole (V c (Pipeline.arrRef spec1 0)) (V c (Pipeline.arrRef spec1 1)) v2 v3 v4 v5 (ix2 r q) := by
  refine (out1_6_apply (iblk1 V c 0 t) (iblk1 V c 1 t) (iblk1 V c 2 t) (iblk1 V c 3 t) (iblk1 V c 4 t) (iblk1 V c 5 t)
    p q).trans ?_
  refine Eq.trans ?_ (BnLaw.whole_apply (m := 10000) (n := 512) (V c (Pipeline.arrRef spec1 0)) (V c (Pipeline.arrRef spec1 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk1_0_apply V c t p q r hr
  have e1 := iblk1_1_apply V c t p r hr
  have e2 := (iblk1_2_apply V c t q).trans (row_of_vec _ v2 hsc h2 q)
  have e3 := (iblk1_3_apply V c t q).trans (row_of_vec _ v3 hsc h3 q)
  have e4 := (iblk1_4_apply V c t q).trans (row_of_vec _ v4 hsc h4 q)
  have e5 := (iblk1_5_apply V c t q).trans (row_of_vec _ v5 hsc h5 q)
  exact congr (congr (congr (congr (congr (congr (congrArg BnLaw.elem e0) e1) e2) e3) e4) e5) rfl

/-- What point `t` writes back is block `t` of the whole-array form. -/
theorem flushed1_eq (c : Dev nD) (t : Fin cfg1.N) (v2 v3 v4 v5 : FVec Ideal S512 .f32) (hsc : S512.ShapeCasts S1x512)
    (h2 : (V c (Pipeline.arrRef spec1 2) : S1x512.Idx → Elt Ideal .f32) = shapeCast S1x512 v2 hsc)
    (h3 : (V c (Pipeline.arrRef spec1 3) : S1x512.Idx → Elt Ideal .f32) = shapeCast S1x512 v3 hsc)
    (h4 : (V c (Pipeline.arrRef spec1 4) : S1x512.Idx → Elt Ideal .f32) = shapeCast S1x512 v4 hsc)
    (h5 : (V c (Pipeline.arrRef spec1 5) : S1x512.Idx → Elt Ideal .f32) = shapeCast S1x512 v5 hsc) :
    (dat1 V c).flushed 6 t = ((cfg1.win 6).blk t).view.read (Elt Ideal)
      (bnWhole (V c (Pipeline.arrRef spec1 0)) (V c (Pipeline.arrRef spec1 1)) v2 v3 v4 v5) := by
  show (cfg1.win 6).cut (grid1.coords t) ((dat1 V c).after 6 t) = _
  rw [after1_6]
  funext j
  have hN : cfg1.N = 5 := N_1
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts1 t
  have hx : (cfg1.win 6).xinj (grid1.coords t) j = ix2 (⟨(j 0).val, h0⟩ : Fin 2000) (⟨(j 1).val, h1⟩ : Fin 512) := by
    funext a
    match a with
    | ⟨0, _⟩ => rfl
    | ⟨1, _⟩ => rfl
  have he : ((cfg1.win 6).blk t).view.emb j
      = ix2 (⟨t.val * 2000 + (j 0).val, by omega⟩ : Fin 10000) (⟨(j 1).val, h1⟩ : Fin 512) := by
    funext a
    apply Fin.ext
    match a with
    | ⟨0, _⟩ => show win1_6.index t (0 : Fin 2) * 2000 + 1 * (j 0).val = t.val * 2000 + (j 0).val; rw [e60]; omega
    | ⟨1, _⟩ => show win1_6.index t (1 : Fin 2) * 512 + 1 * (j 1).val = (j 1).val; rw [e61]; omega
  show out1_6 (iblk1 V c 0 t) (iblk1 V c 1 t) (iblk1 V c 2 t) (iblk1 V c 3 t) (iblk1 V c 4 t) (iblk1 V c 5 t)
      ((cfg1.win 6).xinj (grid1.coords t) j)
    = bnWhole (V c (Pipeline.arrRef spec1 0)) (V c (Pipeline.arrRef spec1 1)) v2 v3 v4 v5 (((cfg1.win 6).blk t).view.emb j)
  rw [hx, he]
  exact elem1_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk1_6 (t : Fin cfg1.N) (i : S10000x512.Idx) :
    i ∈ ((cfg1.win 6).blk t).view.set ↔ ∀ a : Fin 2, win1_6.index t a * S2000x512.size a ≤ (i a).val
      ∧ (i a).val < win1_6.index t a * S2000x512.size a + S2000x512.size a := by
  show i ∈ ((View.whole main_v44).slice (win1_6.rect t)).set ↔ _
  rw [View.set_slice_whole, Rect.mem_set_unit]
  exact Iff.rfl

/-- The five blocks tile the array: row `r` lies in the block of point `r / 2000`. -/
theorem covers1_6 (i : S10000x512.Idx) :
    ∃ t : Fin cfg1.N, (cfg1.win 6).flush t = true ∧ i ∈ ((cfg1.win 6).blk t).view.set := by
  have hi0 : (i 0).val < 10000 := (i 0).isLt
  have hi1 : (i 1).val < 512 := (i 1).isLt
  have hN : cfg1.N = 5 := N_1
  have hlt : (i 0).val / 2000 < cfg1.N := by rw [hN]; omega
  obtain ⟨-, -, -, -, -, -, -, -, -, -, -, -, e60, e61⟩ := idx_facts1 ⟨(i 0).val / 2000, hlt⟩
  refine ⟨⟨(i 0).val / 2000, hlt⟩, flush1_6 _, ?_⟩
  rw [mem_blk1_6]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, hlt⟩ (1 : Fin 2) * 512 ≤ (i 1).val
      ∧ (i 1).val < win1_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val1 (c : Dev nD) (v2 v3 v4 v5 : FVec Ideal S512 .f32) (hsc : S512.ShapeCasts S1x512)
    (h2 : (V c (Pipeline.arrRef spec1 2) : S1x512.Idx → Elt Ideal .f32) = shapeCast S1x512 v2 hsc)
    (h3 : (V c (Pipeline.arrRef spec1 3) : S1x512.Idx → Elt Ideal .f32) = shapeCast S1x512 v3 hsc)
    (h4 : (V c (Pipeline.arrRef spec1 4) : S1x512.Idx → Elt Ideal .f32) = shapeCast S1x512 v4 hsc)
    (h5 : (V c (Pipeline.arrRef spec1 5) : S1x512.Idx → Elt Ideal .f32) = shapeCast S1x512 v5 hsc) :
    (dat1 V c).arrAt 6 cfg1.N
      = bnWhole (V c (Pipeline.arrRef spec1 0)) (V c (Pipeline.arrRef spec1 1)) v2 v3 v4 v5 :=
  (dat1 V c).arrAt_eq_of_cover 6 _ (fun t _ => flushed1_eq V c t v2 v3 v4 v5 hsc h2 h3 h4 h5) covers1_6

/-- The same with the whole-array form written out operation by operation. -/
theorem val1_spelt (c : Dev nD) (v2 v3 v4 v5 : FVec Ideal S512 .f32) (hsc : S512.ShapeCasts S1x512)
    (h2 : (V c (Pipeline.arrRef spec1 2) : S1x512.Idx → Elt Ideal .f32) = shapeCast S1x512 v2 hsc)
    (h3 : (V c (Pipeline.arrRef spec1 3) : S1x512.Idx → Elt Ideal .f32) = shapeCast S1x512 v3 hsc)
    (h4 : (V c (Pipeline.arrRef spec1 4) : S1x512.Idx → Elt Ideal .f32) = shapeCast S1x512 v4 hsc)
    (h5 : (V c (Pipeline.arrRef spec1 5) : S1x512.Idx → Elt Ideal .f32) = shapeCast S1x512 v5 hsc) :
    ((dat1 V c).arrAt 6 cfg1.N : S10000x512.Idx → Elt Ideal .f32)
      = maximumf (addf (mulf (subf (addf (mulf (V c (Pipeline.arrRef spec1 0) : S10000x512.Idx → Elt Ideal .f32)
          (broadcastInDim S10000x512 ![0, 1] Cert.ReferenceIdeal.Gen.bcast_S10000x1_S10000x512_0_1 (V c (Pipeline.arrRef spec1 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val1 V c v2 v3 v4 v5 hsc h2 h3 h4 h5

end Cert.KernelIdeal.Frm

end
-- ==== Proof.KI.Chain0.lean ====
/-
  The chain of @main at the exact (extended real) values, start: the names of the twelve argument arrays as the
  launch memory holds them and of the reference's six layer outputs over them; the whole-array functions respect
  equal arguments; and the first stretches of host operations leave the two degree normalisations (the count of the
  edges at each node, clamped below by one, to the power minus one half) as columns.
-/
import proofs.«144268_j91216515432581_2_alg».proof.Proof.KI.Fold
import proofs.«144268_j91216515432581_2_alg».proof.Proof.KI.RefTerm
import proofs.«144268_j91216515432581_2_alg».proof.Proof.KI.MatmulLaw
import proofs.«144268_j91216515432581_2_alg».proof.Proof.KI.Val1
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## The argument arrays, and the reference's layer outputs over them -/

abbrev A0 : (⟨Cert.ReferenceIdeal.S10000x512, .f32⟩ : BufTy).Contents (Elt Ideal) := B0 m c main_arg0
abbrev A1 : (⟨Cert.ReferenceIdeal.S512x512, .f32⟩ : BufTy).Contents (Elt Ideal) := B0 m c main_arg1
abbrev A2 : (⟨Cert.ReferenceIdeal.S5x512x512, .f32⟩ : BufTy).Contents (Elt Ideal) := B0 m c main_arg2
abbrev A3 : (⟨Cert.ReferenceIdeal.S6x512, .f32⟩ : BufTy).Contents (Elt Ideal) := B0 m c main_arg3
abbrev A4 : (⟨Cert.ReferenceIdeal.S6x512, .f32⟩ : BufTy).Contents (Elt Ideal) := B0 m c main_arg4
abbrev A5 : (⟨Cert.ReferenceIdeal.S6x512, .f32⟩ : BufTy).Contents (Elt Ideal) := B0 m c main_arg5
abbrev A6 : (⟨Cert.ReferenceIdeal.S6x512, .f32⟩ : BufTy).Contents (Elt Ideal) := B0 m c main_arg6
abbrev A7 : (⟨Cert.ReferenceIdeal.S6x512, .f32⟩ : BufTy).Contents (Elt Ideal) := B0 m c main_arg7
abbrev A8 : (⟨Cert.ReferenceIdeal.S3072x64, .f32⟩ : BufTy).Contents (Elt Ideal) := B0 m c main_arg8
abbrev A9 : (⟨Cert.ReferenceIdeal.S64, .f32⟩ : BufTy).Contents (Elt Ideal) := B0 m c main_arg9
abbrev A10 : (⟨Cert.ReferenceIdeal.S160000, .i32⟩ : BufTy).Contents (Elt Ideal) := B0 m c main_arg10
abbrev A11 : (⟨Cert.ReferenceIdeal.S160000, .i32⟩ : BufTy).Contents (Elt Ideal) := B0 m c main_arg11

abbrev H1 : (⟨Cert.ReferenceIdeal.S10000x512, .f32⟩ : BufTy).Contents (Elt Ideal) := Ref.h1 (A0 m c) (A1 m c) (A3 m c) (A4 m c) (A5 m c) (A6 m c) (A7 m c) (A10 m c) (A11 m c)
abbrev H2 : (⟨Cert.ReferenceIdeal.S10000x512, .f32⟩ : BufTy).Contents (Elt Ideal) := Ref.h2 (A0 m c) (A1 m c) (A2 m c) (A3 m c) (A4 m c) (A5 m c) (A6 m c) (A7 m c) (A10 m c) (A11 m c)
abbrev H3 : (⟨Cert.ReferenceIdeal.S10000x512, .f32⟩ : BufTy).Contents (Elt Ideal) := Ref.h3 (A0 m c) (A1 m c) (A2 m c) (A3 m c) (A4 m c) (A5 m c) (A6 m c) (A7 m c) (A10 m c) (A11 m c)
abbrev H4 : (⟨Cert.ReferenceIdeal.S10000x512, .f32⟩ : BufTy).Contents (Elt Ideal) := Ref.h4 (A0 m c) (A1 m c) (A2 m c) (A3 m c) (A4 m c) (A5 m c) (A6 m c) (A7 m c) (A10 m c) (A11 m c)
abbrev H5 : (⟨Cert.ReferenceIdeal.S10000x512, .f32⟩ : BufTy).Contents (Elt Ideal) := Ref.h5 (A0 m c) (A1 m c) (A2 m c) (A3 m c) (A4 m c) (A5 m c) (A6 m c) (A7 m c) (A10 m c) (A11 m c)
abbrev H6 : (⟨Cert.ReferenceIdeal.S10000x512, .f32⟩ : BufTy).Contents (Elt Ideal) := Ref.h6 (A0 m c) (A1 m c) (A2 m c) (A3 m c) (A4 m c) (A5 m c) (A6 m c) (A7 m c) (A10 m c) (A11 m c)

/-! ## Whole-array functions respect equal arguments -/

theorem scaledProduct_congr {X X' : FVec Ideal Cert.ReferenceIdeal.S10000x512 .f32} {S S' : FVec Ideal Cert.ReferenceIdeal.S10000x1 .f32} {W W' : FVec Ideal Cert.ReferenceIdeal.S512x512 .f32}
    (hX : X = X') (hS : S = S') (hW : W = W') : scaledProduct X S W = scaledProduct X' S' W' := by subst hX hS hW; rfl
theorem aggregate_congr {P P' : (⟨Cert.ReferenceIdeal.S10000x512, .f32⟩ : BufTy).Contents (Elt Ideal)} {a a' b b' : (⟨Cert.ReferenceIdeal.S160000, .i32⟩ : BufTy).Contents (Elt Ideal)}
    (hP : P = P') (ha : a = a') (hb : b = b') : Ref.aggregate P a b = Ref.aggregate P' a' b' := by subst hP ha hb; rfl
theorem bnWhole_congr {A A' : FVec Ideal S10000x512 .f32} {ND ND' : FVec Ideal S10000x1 .f32} (v2 v3 v4 v5 : FVec Ideal S512 .f32)
    (hA : A = A') (hN : ND = ND') : bnWhole A ND v2 v3 v4 v5 = bnWhole A' ND' v2 v3 v4 v5 := by subst hA hN; rfl
theorem finalLinear_congr {X X' : FVec Ideal Cert.ReferenceIdeal.S10000x3072 .f32} {W W' : FVec Ideal Cert.ReferenceIdeal.S3072x64 .f32} {B B' : FVec Ideal Cert.ReferenceIdeal.S1x64 .f32}
    (hX : X = X') (hW : W = W') (hB : B = B') : finalLinear X W B = finalLinear X' W' B' := by subst hX hW hB; rfl

/-! ## The degree columns -/

set_option maxHeartbeats 2000000 in
/-- The first stretches of host operations leave the source-degree normalisation as a column, -/
theorem v13_at5 : (B5 m c main_v13 : Cert.ReferenceIdeal.S10000x1.Idx → EReal) = Ref.normCol (A10 m c) := by
  dsimp only [B5, B4, B3, B2, B1, hostOps0, hostOps0_1, hostOps0_2, hostOps0_3, hostOps0_4]
  after_results
  rfl
set_option maxHeartbeats 2000000 in
/-- and the destination-degree normalisation as a column. -/
theorem v14_at5 : (B5 m c main_v14 : Cert.ReferenceIdeal.S10000x1.Idx → EReal) = Ref.normCol (A11 m c) := by
  dsimp only [B5, B4, B3, B2, B1, hostOps0, hostOps0_1, hostOps0_2, hostOps0_3, hostOps0_4]
  after_results
  rfl

end Cert.KernelIdeal.Frm

end
-- ==== Proof.KI.Val0.lean ====
/-
  Region 0 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg0
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz0 : (![0, 0] : Fin 2 → Nat) = fun _ => 0 := funext fun a => by fin_cases a <;> rfl

/-- The block indices over the grid: at point t the row blocks of the input, of the row factors and of the output
    are block t, and the weight matrix is its one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the region's output array ends holding: the row-scaled product of the arrays the region finds. -/
abbrev G0 (c : Dev nD) : S10000x512.Idx → EReal :=
  scaledProduct (V c (Pipeline.arrRef spec0 0)) (V c (Pipeline.arrRef spec0 1)) (V c (Pipeline.arrRef spec0 2))

/-- The input's block at point t is rows 2000 t .. 2000 t + 1999 of its array. -/
theorem iblk0_0_apply (c : Dev nD) (t : Fin cfg0.N) (p : Fin 2000) (k : Fin 512) (r : Fin 10000)
    (hr : r.val = 2000 * t.val + p.val) :
    (iblk0 V c 0 t : Vec Ideal S2000x512 .f32) (ix2 p k)
      = (V c (Pipeline.arrRef spec0 0) : S10000x512.Idx → EReal) (ix2 r k) := by
  obtain ⟨e0, e1, -⟩ := idx_facts0 t
  unfold iblk0
  rw [View.read_apply]
  show (V c (Pipeline.arrRef spec0 0) : S10000x512.Idx → EReal) _ = _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The row factors' block at point t is rows 2000 t .. 2000 t + 1999 of their column. -/
theorem iblk0_1_apply (c : Dev nD) (t : Fin cfg0.N) (p : Fin 2000) (r : Fin 10000)
    (hr : r.val = 2000 * t.val + p.val) :
    (iblk0 V c 1 t : Vec Ideal S2000x1 .f32) (ix2 p (0 : Fin 1))
      = (V c (Pipeline.arrRef spec0 1) : S10000x1.Idx → EReal) (ix2 r (0 : Fin 1)) := by
  obtain ⟨-, -, e0, e1, -⟩ := idx_facts0 t
  unfold iblk0
  rw [View.read_apply]
  show (V c (Pipeline.arrRef spec0 1) : S10000x1.Idx → EReal) _ = _
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- The weights' block at every point is the whole matrix. -/
theorem iblk0_2_apply (c : Dev nD) (t : Fin cfg0.N) (k : Fin 512) (q : Fin 512) :
    (iblk0 V c 2 t : Vec Ideal S512x512 .f32) (ix2 k q)
      = (V c (Pipeline.arrRef spec0 2) : S512x512.Idx → EReal) (ix2 k q) := by
  obtain ⟨-, -, -, -, e0, e1, -⟩ := idx_facts0 t
  unfold iblk0
  rw [View.read_apply]
  show (V c (Pipeline.arrRef spec0 2) : S512x512.Idx → EReal) _ = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 512 + 1 * q.val = q.val; rw [e1]; omega

/-- What point t writes back is block t of the row-scaled product. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S2000x512) hz0, View.ld_unit_zero (S := S2000x1) hz0,
    View.ld_unit_zero (S := S512x512) hz0]
  obtain ⟨-, -, -, -, -, -, e0, e1⟩ := idx_facts0 t
  have ht : t.val < 5 := lt_of_lt_of_eq t.isLt N_0
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg0.win 3).blk t).view.emb (ix2 p q) = (ix2 r q : S10000x512.Idx) := by
    funext a; apply Fin.ext
    match a with
    | ⟨0, _⟩ => show win0_3.index t (0 : Fin 2) * 2000 + 1 * p.val = r.val; rw [e0, hr]; omega
    | ⟨1, _⟩ => show win0_3.index t (1 : Fin 2) * 512 + 1 * q.val = q.val; rw [e1]; omega
  show k0_pay1 (iblk0 V c 0 t) (iblk0 V c 1 t) (iblk0 V c 2 t) (ix2 p q)
      = G0 V c (((cfg0.win 3).blk t).view.emb (ix2 p q))
  rw [hemb]
  refine (k0_pay1_apply _ _ _ p q).trans (Eq.trans ?_ (scaledProduct_apply _ _ _ r q).symm)
  refine Finset.sum_congr rfl fun k _ => ?_
  rw [iblk0_0_apply V c t p k r hr, iblk0_1_apply V c t p r hr, iblk0_2_apply V c t k q]

/-- An index of the output array is in point t's block iff each coordinate is in the block's range on its axis. -/
theorem mem_blk0 (t : Fin cfg0.N) (i : S10000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole (Pipeline.arrRef spec0 3)).slice (win0_3.rect t)).set ↔ _
  rw [View.set_slice_whole, Rect.mem_set_unit]
  exact Iff.rfl

/-- Row r of the output array is in the block of point r / 2000. -/
theorem cover0 (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 5 := N_0
  let t : Fin cfg0.N := ⟨(i 0).val / 2000, by rw [hN]; omega⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e0]; show (i 0).val / 2000 * 2000 ≤ (i 0).val ∧ (i 0).val < (i 0).val / 2000 * 2000 + 2000; omega
  | ⟨1, _⟩ =>
    show win0_3.index t (1 : Fin 2) * 512 ≤ (i 1).val ∧ (i 1).val < win0_3.index t (1 : Fin 2) * 512 + 512
    rw [e1]; omega

/-- The region's output array after the run: the row-scaled product of the arrays the region finds. -/
theorem final0 (c : Dev nD) : (dat0 V c).arrAt 3 cfg0.N = G0 V c :=
  (dat0 V c).arrAt_eq_of_cover 3 (G0 V c) (fun t _ => flushed0_eq V c t) (cover0)

end Cert.KernelIdeal.Frm

end
-- ==== Proof.KI.Chain1.lean ====
/-
  The chain of @main at the exact values, layer 1: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 1 output of the argument arrays. Every buffer a later item reads is carried unchanged across the items that
  do not write it.
-/
import proofs.«144268_j91216515432581_2_alg».proof.Proof.KI.Chain0
import proofs.«144268_j91216515432581_2_alg».proof.Proof.KI.Val0
import proofs.«144268_j91216515432581_2_alg».proof.Proof.KI.Val1
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 1 -/

theorem arg0_at5 : B5 m c main_arg0 = A0 m c :=
  (StableHlo.after_of_writes_sub hostOps0_4 (B4 m c) hostOps0_4_writes (r := main_arg0) (by decide)).trans <|
    (StableHlo.after_of_writes_sub hostOps0_3 (B3 m c) hostOps0_3_writes (r := main_arg0) (by decide)).trans <|
    (StableHlo.after_of_writes_sub hostOps0_2 (B2 m c) hostOps0_2_writes (r := main_arg0) (by decide)).trans <|
    (StableHlo.after_of_writes_sub hostOps0_1 (B1 m c) hostOps0_1_writes (r := main_arg0) (by decide)).trans <|
    (StableHlo.after_of_writes_sub hostOps0 (B0 m c) hostOps0_writes (r := main_arg0) (by decide)).trans <| rfl
theorem arg1_at5 : B5 m c main_arg1 = A1 m c :=
  (StableHlo.after_of_writes_sub hostOps0_4 (B4 m c) hostOps0_4_writes (r := main_arg1) (by decide)).trans <|
    (StableHlo.after_of_writes_sub hostOps0_3 (B3 m c) hostOps0_3_writes (r := main_arg1) (by decide)).trans <|
    (StableHlo.after_of_writes_sub hostOps0_2 (B2 m c) hostOps0_2_writes (r := main_arg1) (by decide)).trans <|
    (StableHlo.after_of_writes_sub hostOps0_1 (B1 m c) hostOps0_1_writes (r := main_arg1) (by decide)).trans <|
    (StableHlo.after_of_writes_sub hostOps0 (B0 m c) hostOps0_writes (r := main_arg1) (by decide)).trans <| rfl
theorem v13_at5' : (B5 m c main_v13 : Cert.ReferenceIdeal.S10000x1.Idx → EReal) = Ref.normCol (A10 m c) :=
  (rfl).trans (v13_at5 m c)
/-- Region 0 leaves the layer's scaled product. -/
theorem out0 : (B6 m c main_v15 : Cert.ReferenceIdeal.S10000x512.Idx → EReal) = Ref.scaled (A0 m c) (A10 m c) (A1 m c) :=
  (B6_out m c).trans <| (final0 (T5 m) c).trans <|
    (scaledProduct_congr (arg0_at5 m c) (v13_at5' m c) (arg1_at5 m c)).trans rfl
theorem arg3_at6 : B6 m c main_arg3 = A3 m c :=
  (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at6 : B6 m c main_arg4 = A4 m c :=
  (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at6 : B6 m c main_arg5 = A5 m c :=
  (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at6 : B6 m c main_arg6 = A6 m c :=
  (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at6 : B6 m c main_arg7 = A7 m c :=
  (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at6 : B6 m c main_arg10 = A10 m c :=
  (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at6 : B6 m c main_arg11 = A11 m c :=
  (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at7 : (B7 m c main_v25 : Cert.ReferenceIdeal.S10000x512.Idx → EReal) = Ref.aggregate (Ref.scaled (A0 m c) (A10 m c) (A1 m c)) (A10 m c) (A11 m c) :=
  (show (B7 m c main_v25 : Cert.ReferenceIdeal.S10000x512.Idx → EReal) = Ref.aggregate (B6 m c main_v15) (B6 m c main_arg10) (B6 m c main_arg11) by
    dsimp only [B7, hostOps1]; after_results; rfl).trans
  (aggregate_congr (out0 m c) (arg10_at6 m c) (arg11_at6 m c))
set_option maxHeartbeats 2000000 in
theorem row2_at7 : (B7 m c main_v40 : S1x512.Idx → EReal) = shapeCast S1x512 (Ref.rowOf ![0, 0] Cert.ReferenceIdeal.Gen.slices_S6x512_S1x512_0_0 (A3 m c)) shapeCasts_S512_S1x512 :=
  (show (B7 m c main_v40 : S1x512.Idx → EReal) = shapeCast S1x512 (Ref.rowOf ![0, 0] Cert.ReferenceIdeal.Gen.slices_S6x512_S1x512_0_0 (B6 m c main_arg3)) shapeCasts_S512_S1x512 by
    dsimp only [B7, hostOps1]; after_results; rfl).trans
  (congrArg (fun a => shapeCast S1x512 (Ref.rowOf ![0, 0] Cert.ReferenceIdeal.Gen.slices_S6x512_S1x512_0_0 a) shapeCasts_S512_S1x512) (arg3_at6 m c))
set_option maxHeartbeats 2000000 in
theorem row3_at7 : (B7 m c main_v41 : S1x512.Idx → EReal) = shapeCast S1x512 (Ref.rowOf ![0, 0] Cert.ReferenceIdeal.Gen.slices_S6x512_S1x512_0_0 (A6 m c)) shapeCasts_S512_S1x512 :=
  (show (B7 m c main_v41 : S1x512.Idx → EReal) = shapeCast S1x512 (Ref.rowOf ![0, 0] Cert.ReferenceIdeal.Gen.slices_S6x512_S1x512_0_0 (B6 m c main_arg6)) shapeCasts_S512_S1x512 by
    dsimp only [B7, hostOps1]; after_results; rfl).trans
  (congrArg (fun a => shapeCast S1x512 (Ref.rowOf ![0, 0] Cert.ReferenceIdeal.Gen.slices_S6x512_S1x512_0_0 a) shapeCasts_S512_S1x512) (arg6_at6 m c))
set_option maxHeartbeats 2000000 in
theorem row4_at7 : (B7 m c main_v42 : S1x512.Idx → EReal) = shapeCast S1x512 (Ref.scaleOf ![0, 0] Cert.ReferenceIdeal.Gen.slices_S6x512_S1x512_0_0 (A4 m c) (A7 m c)) shapeCasts_S512_S1x512 :=
  (show (B7 m c main_v42 : S1x512.Idx → EReal) = shapeCast S1x512 (Ref.scaleOf ![0, 0] Cert.ReferenceIdeal.Gen.slices_S6x512_S1x512_0_0 (B6 m c main_arg4) (B6 m c main_arg7)) shapeCasts_S512_S1x512 by
    dsimp only [B7, hostOps1]; after_results; rfl).trans
  (congrArg₂ (fun a b => shapeCast S1x512 (Ref.scaleOf ![0, 0] Cert.ReferenceIdeal.Gen.slices_S6x512_S1x512_0_0 a b) shapeCasts_S512_S1x512) (arg4_at6 m c) (arg7_at6 m c))
set_option maxHeartbeats 2000000 in
theorem row5_at7 : (B7 m c main_v43 : S1x512.Idx → EReal) = shapeCast S1x512 (Ref.rowOf ![0, 0] Cert.ReferenceIdeal.Gen.slices_S6x512_S1x512_0_0 (A5 m c)) shapeCasts_S512_S1x512 :=
  (show (B7 m c main_v43 : S1x512.Idx → EReal) = shapeCast S1x512 (Ref.rowOf ![0, 0] Cert.ReferenceIdeal.Gen.slices_S6x512_S1x512_0_0 (B6 m c main_arg5)) shapeCasts_S512_S1x512 by
    dsimp only [B7, hostOps1]; after_results; rfl).trans
  (congrArg (fun a => shapeCast S1x512 (Ref.rowOf ![0, 0] Cert.ReferenceIdeal.Gen.slices_S6x512_S1x512_0_0 a) shapeCasts_S512_S1x512) (arg5_at6 m c))
theorem v14_at7' : (B7 m c main_v14 : Cert.ReferenceIdeal.S10000x1.Idx → EReal) = Ref.normCol (A11 m c) :=
  ((StableHlo.after_of_writes_sub hostOps1 (B6 m c) hostOps1_writes (r := main_v14) (by decide)).trans <|
    (B6_of_ne m c main_v14 (by decide)).trans <| rfl).trans (v14_at5 m c)
/-- and region 1 leaves the layer's output. -/
theorem out1 : (B8 m c main_v44 : Cert.ReferenceIdeal.S10000x512.Idx → EReal) = H1 m c :=
  (B8_out m c).trans <|
    (val1 (T7 m) c (Ref.rowOf ![0, 0] Cert.ReferenceIdeal.Gen.slices_S6x512_S1x512_0_0 (A3 m c)) (Ref.rowOf ![0, 0] Cert.ReferenceIdeal.Gen.slices_S6x512_S1x512_0_0 (A6 m c)) (Ref.scaleOf ![0, 0] Cert.ReferenceIdeal.Gen.slices_S6x512_S1x512_0_0 (A4 m c) (A7 m c)) (Ref.rowOf ![0, 0] Cert.ReferenceIdeal.Gen.slices_S6x512_S1x512_0_0 (A5 m c))
      shapeCasts_S512_S1x512 (row2_at7 m c) (row3_at7 m c) (row4_at7 m c) (row5_at7 m c)).trans <|
    (bnWhole_congr _ _ _ _ (agg_at7 m c) (v14_at7' m c)).trans rfl
theorem arg2_at8 : B8 m c main_arg2 = A2 m c :=
  (B8_of_ne m c main_arg2 (by decide)).trans <|
    (StableHlo.after_of_writes_sub hostOps1 (B6 m c) hostOps1_writes (r := main_arg2) (by decide)).trans <|
    (B6_of_ne m c main_arg2 (by decide)).trans <|
    (StableHlo.after_of_writes_sub hostOps0_4 (B4 m c) hostOps0_4_writes (r := main_arg2) (by decide)).trans <|
    (StableHlo.after_of_writes_sub hostOps0_3 (B3 m c) hostOps0_3_writes (r := main_arg2) (by decide)).trans <|
    (StableHlo.after_of_writes_sub hostOps0_2 (B2 m c) hostOps0_2_writes (r := main_arg2) (by decide)).trans <|
    (StableHlo.after_of_writes_sub hostOps0_1 (B1 m c) hostOps0_1_writes (r := main_arg2) (by decide)).trans <|
    (StableHlo.after_of_writes_sub hostOps0 (B0 m c) hostOps0_writes (r := main_arg2) (by decide)).trans <| rfl

end Cert.KernelIdeal.Frm

end
-- ==== Proof.KI.Val2.lean ====
/-
  Region 2 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg2
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz2 : (![0, 0] : Fin 2 → Nat) = fun _ => 0 := funext fun a => by fin_cases a <;> rfl

/-- The block indices over the grid: at point t the row blocks of the input, of the row factors and of the output
    are block t, and the weight matrix is its one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the region's output array ends holding: the row-scaled product of the arrays the region finds. -/
abbrev G2 (c : Dev nD) : S10000x512.Idx → EReal :=
  scaledProduct (V c (Pipeline.arrRef spec2 0)) (V c (Pipeline.arrRef spec2 1)) (V c (Pipeline.arrRef spec2 2))

/-- The input's block at point t is rows 2000 t .. 2000 t + 1999 of its array. -/
theorem iblk2_0_apply (c : Dev nD) (t : Fin cfg2.N) (p : Fin 2000) (k : Fin 512) (r : Fin 10000)
    (hr : r.val = 2000 * t.val + p.val) :
    (iblk2 V c 0 t : Vec Ideal S2000x512 .f32) (ix2 p k)
      = (V c (Pipeline.arrRef spec2 0) : S10000x512.Idx → EReal) (ix2 r k) := by
  obtain ⟨e0, e1, -⟩ := idx_facts2 t
  unfold iblk2
  rw [View.read_apply]
  show (V c (Pipeline.arrRef spec2 0) : S10000x512.Idx → EReal) _ = _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 512 + 1 * k.val = k.val; rw [e1]; omega

/-- The row factors' block at point t is rows 2000 t .. 2000 t + 1999 of their column. -/
theorem iblk2_1_apply (c : Dev nD) (t : Fin cfg2.N) (p : Fin 2000) (r : Fin 10000)
    (hr : r.val = 2000 * t.val + p.val) :
    (iblk2 V c 1 t : Vec Ideal S2000x1 .f32) (ix2 p (0 : Fin 1))
      = (V c (Pipeline.arrRef spec2 1) : S10000x1.Idx → EReal) (ix2 r (0 : Fin 1)) := by
  obtain ⟨-, -, e0, e1, -⟩ := idx_facts2 t
  unfold iblk2
  rw [View.read_apply]
  show (V c (Pipeline.arrRef spec2 1) : S10000x1.Idx → EReal) _ = _
  refine congrArg _ (funext fun a => Fin.ext ?_)
  match a with
  | ⟨0, _⟩ => show win2_1.index t (0 : Fin 2) * 2000 + 1 * p.val = r.val; rw [e0, hr]; omega
  | ⟨1, _⟩ => show win2_1.index t (1 : Fin 2) * 1 + 1 * 0 = 0; rw [e1]

/-- The weights' block at every point is the whole matrix. -/
theorem iblk2_2_apply (c : Dev nD) (t : Fin cfg2.N) (k : Fin 512) (q : Fin 512) :
    (iblk2 V c 2 t : Vec Ideal S512x512 .f32) (ix2 k q)
      = (V c (Pipeline.arrRef spec2 2) : S512x512.Idx → EReal) (ix2 k q) := by
  obtain ⟨-, -, -, -, e0, e1, -⟩ := idx_facts2 t
  unfold iblk2
  rw [View.read_apply]
  show (V c (Pipeline.arrRef spec2 2) : S512x512.Idx → EReal) _ = _
  refine congrArg _ (funext fun a => Fin.ext ?_)
  match a with
  | ⟨0, _⟩ => show win2_2.index t (0 : Fin 2) * 512 + 1 * k.val = k.val; rw [e0]; omega
  | ⟨1, _⟩ => show win2_2.index t (1 : Fin 2) * 512 + 1 * q.val = q.val; rw [e1]; omega

/-- What point t writes back is block t of the row-scaled product. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S2000x512) hz2, View.ld_unit_zero (S := S2000x1) hz2,
    View.ld_unit_zero (S := S512x512) hz2]
  obtain ⟨-, -, -, -, -, -, e0, e1⟩ := idx_facts2 t
  have ht : t.val < 5 := lt_of_lt_of_eq t.isLt N_2
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg2.win 3).blk t).view.emb (ix2 p q) = (ix2 r q : S10000x512.Idx) := by
    funext a; apply Fin.ext
    match a with
    | ⟨0, _⟩ => show win2_3.index t (0 : Fin 2) * 2000 + 1 * p.val = r.val; rw [e0, hr]; omega
    | ⟨1, _⟩ => show win2_3.index t (1 : Fin 2) * 512 + 1 * q.val = q.val; rw [e1]; omega
  show k2_pay1 (iblk2 V c 0 t) (iblk2 V c 1 t) (iblk2 V c 2 t) (ix2 p q)
      = G2 V c (((cfg2.win 3).blk t).view.emb (ix2 p q))
  rw [hemb]
  refine (k2_pay1_apply _ _ _ p q).trans (Eq.trans ?_ (scaledProduct_apply _ _ _ r q).symm)
  refine Finset.sum_congr rfl fun k _ => ?_
  rw [iblk2_0_apply V c t p k r hr, iblk2_1_apply V c t p r hr, iblk2_2_apply V c t k q]

/-- An index of the output array is in point t's block iff each coordinate is in the block's range on its axis. -/
theorem mem_blk2 (t : Fin cfg2.N) (i : S10000x512.Idx) :
    i ∈ ((cfg2.win 3).blk t).view.set ↔ ∀ a : Fin 2, win2_3.index t a * S2000x512.size a ≤ (i a).val
      ∧ (i a).val < win2_3.index t a * S2000x512.size a + S2000x512.size a := by
  show i ∈ ((View.whole (Pipeline.arrRef spec2 3)).slice (win2_3.rect t)).set ↔ _
  rw [View.set_slice_whole, Rect.mem_set_unit]
  exact Iff.rfl

/-- Row r of the output array is in the block of point r / 2000. -/
theorem cover2 (i : S10000x512.Idx) :
    ∃ t : Fin cfg2.N, (cfg2.win 3).flush t = true ∧ i ∈ ((cfg2.win 3).blk t).view.set := by
  have hi0 : (i 0).val < 10000 := (i 0).isLt
  have hi1 : (i 1).val < 512 := (i 1).isLt
  have hN : cfg2.N = 5 := N_2
  let t : Fin cfg2.N := ⟨(i 0).val / 2000, by rw [hN]; omega⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e0]; show (i 0).val / 2000 * 2000 ≤ (i 0).val ∧ (i 0).val < (i 0).val / 2000 * 2000 + 2000; omega
  | ⟨1, _⟩ =>
    show win2_3.index t (1 : Fin 2) * 512 ≤ (i 1).val ∧ (i 1).val < win2_3.index t (1 : Fin 2) * 512 + 512
    rw [e1]; omega

/-- The region's output array after the run: the row-scaled product of the arrays the region finds. -/
theorem final2 (c : Dev nD) : (dat2 V c).arrAt 3 cfg2.N = G2 V c :=
  (dat2 V c).arrAt_eq_of_cover 3 (G2 V c) (fun t _ => flushed2_eq V c t) (cover2)

end Cert.KernelIdeal.Frm

end
-- ==== Proof.KI.Val3.lean ====
/-
  Region 3 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them. The argument is region 1's with the region's own names; the
  whole-array form and the reading of a recast vector are shared with it.
-/
import proofs.«144268_j91216515432581_2_alg».proof.Proof.KI.Reg3
import proofs.«144268_j91216515432581_2_alg».proof.Proof.KI.Val1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The body's arithmetic at row `p`, column `q` of a block. -/
theorem pay3_apply (x0 : Vec Ideal S2000x512 .f32) (x1 : Vec Ideal S2000x1 .f32) (x2 x3 x4 x5 : Vec Ideal S1x512 .f32)
    (p : Fin 2000) (q : Fin 512) :
    k3_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k3_pay1
  exact BnLaw.block_apply x0 x1 x2 x3 x4 x5 _ _ _ _ _ _ p q

/-- The output buffer after the body, at row `p`, column `q`: the one store is of the whole buffer. -/
theorem out3_6_apply (x0 : Vec Ideal S2000x512 .f32) (x1 : Vec Ideal S2000x1 .f32) (x2 x3 x4 x5 : Vec Ideal S1x512 .f32)
    (p : Fin 2000) (q : Fin 512) :
    out3_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out3_6
  rw [View.canon_unit_zero hz3]
  simp only [View.ld_unit_zero (S := S2000x512) hz3, View.ld_unit_zero (S := S2000x1) hz3, View.ld_unit_zero (S := S1x512) hz3]
  exact pay3_apply x0 x1 x2 x3 x4 x5 p q

/-- The block indices, decided over the five grid points: the row-blocked windows are at block (t, 0), the four
    one-row windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Block `t` of window 0 is rows 2000 t … 2000 t + 1999 of its array. -/
theorem iblk3_0_apply (c : Dev nD) (t : Fin cfg3.N) (p : Fin 2000) (q : Fin 512) (r : Fin 10000)
    (hr : r.val = t.val * 2000 + p.val) :
    (iblk3 V c 0 t : Vec Ideal S2000x512 .f32) (ix2 p q)
      = (V c (Pipeline.arrRef spec3 0) : S10000x512.Idx → Elt Ideal .f32) (ix2 r q) := by
  obtain ⟨e0, e1, -⟩ := idx_facts3 t
  unfold iblk3
  rw [View.read_apply]
  show V c (Pipeline.arrRef spec3 0) (((cfg3.win 0).blk t).view.emb (ix2 p q)) = V c (Pipeline.arrRef spec3 0) (ix2 r q)
  refine congrArg (V c (Pipeline.arrRef spec3 0)) (funext fun a => Fin.ext ?_)
  match a with
  | ⟨0, _⟩ => show win3_0.index t (0 : Fin 2) * 2000 + 1 * p.val = r.val; rw [e0, hr]; omega
  | ⟨1, _⟩ => show win3_0.index t (1 : Fin 2) * 512 + 1 * q.val = q.val; rw [e1]; omega

/-- Block `t` of window 1 is rows 2000 t … 2000 t + 1999 of the column of row factors. -/
theorem iblk3_1_apply (c : Dev nD) (t : Fin cfg3.N) (p : Fin 2000) (r : Fin 10000)
    (hr : r.val = t.val * 2000 + p.val) :
    (iblk3 V c 1 t : Vec Ideal S2000x1 .f32) (ix2 p (0 : Fin 1))
      = (V c (Pipeline.arrRef spec3 1) : S10000x1.Idx → Elt Ideal .f32) (ix2 r (0 : Fin 1)) := by
  obtain ⟨-, -, e0, e1, -⟩ := idx_facts3 t
  unfold iblk3
  rw [View.read_apply]
  show V c (Pipeline.arrRef spec3 1) (((cfg3.win 1).blk t).view.emb (ix2 p (0 : Fin 1))) = V c (Pipeline.arrRef spec3 1) (ix2 r (0 : Fin 1))
  refine congrArg (V c (Pipeline.arrRef spec3 1)) (funext fun a => Fin.ext ?_)
  match a with
  | ⟨0, _⟩ => show win3_1.index t (0 : Fin 2) * 2000 + 1 * p.val = r.val; rw [e0, hr]; omega
  | ⟨1, _⟩ => show win3_1.index t (1 : Fin 2) * 1 + 1 * 0 = 0; rw [e1]

/-- Window 2 is one row, fetched whole at every point. -/
theorem iblk3_2_apply (c : Dev nD) (t : Fin cfg3.N) (q : Fin 512) :
    (iblk3 V c 2 t : Vec Ideal S1x512 .f32) (ix2 (0 : Fin 1) q)
      = (V c (Pipeline.arrRef spec3 2) : S1x512.Idx → Elt Ideal .f32) (ix2 (0 : Fin 1) q) := by
  obtain ⟨-, -, -, -, e20, e21, e30, e31, e40, e41, e50, e51, -⟩ := idx_facts3 t
  unfold iblk3
  rw [View.read_apply]
  show V c (Pipeline.arrRef spec3 2) (((cfg3.win 2).blk t).view.emb (ix2 (0 : Fin 1) q)) = V c (Pipeline.arrRef spec3 2) (ix2 (0 : Fin 1) q)
  refine congrArg (V c (Pipeline.arrRef spec3 2)) (funext fun a => Fin.ext ?_)
  match a with
  | ⟨0, _⟩ => show win3_2.index t (0 : Fin 2) * 1 + 1 * 0 = 0; rw [e20]
  | ⟨1, _⟩ => show win3_2.index t (1 : Fin 2) * 512 + 1 * q.val = q.val; rw [e21]; omega

/-- Window 3 is one row, fetched whole at every point. -/
theorem iblk3_3_apply (c : Dev nD) (t : Fin cfg3.N) (q : Fin 512) :
    (iblk3 V c 3 t : Vec Ideal S1x512 .f32) (ix2 (0 : Fin 1) q)
      = (V c (Pipeline.arrRef spec3 3) : S1x512.Idx → Elt Ideal .f32) (ix2 (0 : Fin 1) q) := by
  obtain ⟨-, -, -, -, e20, e21, e30, e31, e40, e41, e50, e51, -⟩ := idx_facts3 t
  unfold iblk3
  rw [View.read_apply]
  show V c (Pipeline.arrRef spec3 3) (((cfg3.win 3).blk t).view.emb (ix2 (0 : Fin 1) q)) = V c (Pipeline.arrRef spec3 3) (ix2 (0 : Fin 1) q)
  refine congrArg (V c (Pipeline.arrRef spec3 3)) (funext fun a => Fin.ext ?_)
  match a with
  | ⟨0, _⟩ => show win3_3.index t (0 : Fin 2) * 1 + 1 * 0 = 0; rw [e30]
  | ⟨1, _⟩ => show win3_3.index t (1 : Fin 2) * 512 + 1 * q.val = q.val; rw [e31]; omega

/-- Window 4 is one row, fetched whole at every point. -/
theorem iblk3_4_apply (c : Dev nD) (t : Fin cfg3.N) (q : Fin 512) :
    (iblk3 V c 4 t : Vec Ideal S1x512 .f32) (ix2 (0 : Fin 1) q)
      = (V c (Pipeline.arrRef spec3 4) : S1x512.Idx → Elt Ideal .f32) (ix2 (0 : Fin 1) q) := by
  obtain ⟨-, -, -, -, e20, e21, e30, e31, e40, e41, e50, e51, -⟩ := idx_facts3 t
  unfold iblk3
  rw [View.read_apply]
  show V c (Pipeline.arrRef spec3 4) (((cfg3.win 4).blk t).view.emb (ix2 (0 : Fin 1) q)) = V c (Pipeline.arrRef spec3 4) (ix2 (0 : Fin 1) q)
  refine congrArg (V c (Pipeline.arrRef spec3 4)) (funext fun a => Fin.ext ?_)
  match a with
  | ⟨0, _⟩ => show win3_4.index t (0 : Fin 2) * 1 + 1 * 0 = 0; rw [e40]
  | ⟨1, _⟩ => show win3_4.index t (1 : Fin 2) * 512 + 1 * q.val = q.val; rw [e41]; omega

/-- Window 5 is one row, fetched whole at every point. -/
theorem iblk3_5_apply (c : Dev nD) (t : Fin cfg3.N) (q : Fin 512) :
    (iblk3 V c 5 t : Vec Ideal S1x512 .f32) (ix2 (0 : Fin 1) q)
      = (V c (Pipeline.arrRef spec3 5) : S1x512.Idx → Elt Ideal .f32) (ix2 (0 : Fin 1) q) := by
  obtain ⟨-, -, -, -, e20, e21, e30, e31, e40, e41, e50, e51, -⟩ := idx_facts3 t
  unfold iblk3
  rw [View.read_apply]
  show V c (Pipeline.arrRef spec3 5) (((cfg3.win 5).blk t).view.emb (ix2 (0 : Fin 1) q)) = V c (Pipeline.arrRef spec3 5) (ix2 (0 : Fin 1) q)
  refine congrArg (V c (Pipeline.arrRef spec3 5)) (funext fun a => Fin.ext ?_)
  match a with
  | ⟨0, _⟩ => show win3_5.index t (0 : Fin 2) * 1 + 1 * 0 = 0; rw [e50]
  | ⟨1, _⟩ => show win3_5.index t (1 : Fin 2) * 512 + 1 * q.val = q.val; rw [e51]; omega

/-- Element (p, q) of what point `t` leaves in the output buffer is element (2000 t + p, q) of the whole-array form:
    the block's element of the array and of the column of row factors sit in row 2000 t + p, and the four rows'
    entries at column q are entry q of each vector. -/
theorem elem3_eq (c : Dev nD) (t : Fin cfg3.N) (v2 v3 v4 v5 : FVec Ideal S512 .f32) (hsc : S512.ShapeCasts S1x512)
    (h2 : (V c (Pipeline.arrRef spec3 2) : S1x512.Idx → Elt Ideal .f32) = shapeCast S1x512 v2 hsc)
    (h3 : (V c (Pipeline.arrRef spec3 3) : S1x512.Idx → Elt Ideal .f32) = shapeCast S1x512 v3 hsc)
    (h4 : (V c (Pipeline.arrRef spec3 4) : S1x512.Idx → Elt Ideal .f32) = shapeCast S1x512 v4 hsc)
    (h5 : (V c (Pipeline.arrRef spec3 5) : S1x512.Idx → Elt Ideal .f32) = shapeCast S1x512 v5 hsc)
    (p : Fin 2000) (q : Fin 512) (r : Fin 10000) (hr : r.val = t.val * 2000 + p.val) :
    out3_6 (iblk3 V c 0 t) (iblk3 V c 1 t) (iblk3 V c 2 t) (iblk3 V c 3 t) (iblk3 V c 4 t) (iblk3 V c 5 t) (ix2 p q)
      = bnWhole (V c (Pipeline.arrRef spec3 0)) (V c (Pipeline.arrRef spec3 1)) v2 v3 v4 v5 (ix2 r q) := by
  refine (out3_6_apply (iblk3 V c 0 t) (iblk3 V c 1 t) (iblk3 V c 2 t) (iblk3 V c 3 t) (iblk3 V c 4 t) (iblk3 V c 5 t)
    p q).trans ?_
  refine Eq.trans ?_ (BnLaw.whole_apply (m := 10000) (n := 512) (V c (Pipeline.arrRef spec3 0)) (V c (Pipeline.arrRef spec3 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk3_0_apply V c t p q r hr
  have e1 := iblk3_1_apply V c t p r hr
  have e2 := (iblk3_2_apply V c t q).trans (row_of_vec _ v2 hsc h2 q)
  have e3 := (iblk3_3_apply V c t q).trans (row_of_vec _ v3 hsc h3 q)
  have e4 := (iblk3_4_apply V c t q).trans (row_of_vec _ v4 hsc h4 q)
  have e5 := (iblk3_5_apply V c t q).trans (row_of_vec _ v5 hsc h5 q)
  exact congr (congr (congr (congr (congr (congr (congrArg BnLaw.elem e0) e1) e2) e3) e4) e5) rfl

/-- What point `t` writes back is block `t` of the whole-array form. -/
theorem flushed3_eq (c : Dev nD) (t : Fin cfg3.N) (v2 v3 v4 v5 : FVec Ideal S512 .f32) (hsc : S512.ShapeCasts S1x512)
    (h2 : (V c (Pipeline.arrRef spec3 2) : S1x512.Idx → Elt Ideal .f32) = shapeCast S1x512 v2 hsc)
    (h3 : (V c (Pipeline.arrRef spec3 3) : S1x512.Idx → Elt Ideal .f32) = shapeCast S1x512 v3 hsc)
    (h4 : (V c (Pipeline.arrRef spec3 4) : S1x512.Idx → Elt Ideal .f32) = shapeCast S1x512 v4 hsc)
    (h5 : (V c (Pipeline.arrRef spec3 5) : S1x512.Idx → Elt Ideal .f32) = shapeCast S1x512 v5 hsc) :
    (dat3 V c).flushed 6 t = ((cfg3.win 6).blk t).view.read (Elt Ideal)
      (bnWhole (V c (Pipeline.arrRef spec3 0)) (V c (Pipeline.arrRef spec3 1)) v2 v3 v4 v5) := by
  show (cfg3.win 6).cut (grid3.coords t) ((dat3 V c).after 6 t) = _
  rw [after3_6]
  funext j
  have hN : cfg3.N = 5 := N_3
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts3 t
  have hx : (cfg3.win 6).xinj (grid3.coords t) j = ix2 (⟨(j 0).val, h0⟩ : Fin 2000) (⟨(j 1).val, h1⟩ : Fin 512) := by
    funext a
    match a with
    | ⟨0, _⟩ => rfl
    | ⟨1, _⟩ => rfl
  have he : ((cfg3.win 6).blk t).view.emb j
      = ix2 (⟨t.val * 2000 + (j 0).val, by omega⟩ : Fin 10000) (⟨(j 1).val, h1⟩ : Fin 512) := by
    funext a
    apply Fin.ext
    match a with
    | ⟨0, _⟩ => show win3_6.index t (0 : Fin 2) * 2000 + 1 * (j 0).val = t.val * 2000 + (j 0).val; rw [e60]; omega
    | ⟨1, _⟩ => show win3_6.index t (1 : Fin 2) * 512 + 1 * (j 1).val = (j 1).val; rw [e61]; omega
  show out3_6 (iblk3 V c 0 t) (iblk3 V c 1 t) (iblk3 V c 2 t) (iblk3 V c 3 t) (iblk3 V c 4 t) (iblk3 V c 5 t)
      ((cfg3.win 6).xinj (grid3.coords t) j)
    = bnWhole (V c (Pipeline.arrRef spec3 0)) (V c (Pipeline.arrRef spec3 1)) v2 v3 v4 v5 (((cfg3.win 6).blk t).view.emb j)
  rw [hx, he]
  exact elem3_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk3_6 (t : Fin cfg3.N) (i : S10000x512.Idx) :
    i ∈ ((cfg3.win 6).blk t).view.set ↔ ∀ a : Fin 2, win3_6.index t a * S2000x512.size a ≤ (i a).val
      ∧ (i a).val < win3_6.index t a * S2000x512.size a + S2000x512.size a := by
  show i ∈ ((View.whole main_v76).slice (win3_6.rect t)).set ↔ _
  rw [View.set_slice_whole, Rect.mem_set_unit]
  exact Iff.rfl

/-- The five blocks tile the array: row `r` lies in the block of point `r / 2000`. -/
theorem covers3_6 (i : S10000x512.Idx) :
    ∃ t : Fin cfg3.N, (cfg3.win 6).flush t = true ∧ i ∈ ((cfg3.win 6).blk t).view.set := by
  have hi0 : (i 0).val < 10000 := (i 0).isLt
  have hi1 : (i 1).val < 512 := (i 1).isLt
  have hN : cfg3.N = 5 := N_3
  have hlt : (i 0).val / 2000 < cfg3.N := by rw [hN]; omega
  obtain ⟨-, -, -, -, -, -, -, -, -, -, -, -, e60, e61⟩ := idx_facts3 ⟨(i 0).val / 2000, hlt⟩
  refine ⟨⟨(i 0).val / 2000, hlt⟩, flush3_6 _, ?_⟩
  rw [mem_blk3_6]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win3_6.index ⟨(i 0).val / 2000, hlt⟩ (1 : Fin 2) * 512 ≤ (i 1).val
      ∧ (i 1).val < win3_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val3 (c : Dev nD) (v2 v3 v4 v5 : FVec Ideal S512 .f32) (hsc : S512.ShapeCasts S1x512)
    (h2 : (V c (Pipeline.arrRef spec3 2) : S1x512.Idx → Elt Ideal .f32) = shapeCast S1x512 v2 hsc)
    (h3 : (V c (Pipeline.arrRef spec3 3) : S1x512.Idx → Elt Ideal .f32) = shapeCast S1x512 v3 hsc)
    (h4 : (V c (Pipeline.arrRef spec3 4) : S1x512.Idx → Elt Ideal .f32) = shapeCast S1x512 v4 hsc)
    (h5 : (V c (Pipeline.arrRef spec3 5) : S1x512.Idx → Elt Ideal .f32) = shapeCast S1x512 v5 hsc) :
    (dat3 V c).arrAt 6 cfg3.N
      = bnWhole (V c (Pipeline.arrRef spec3 0)) (V c (Pipeline.arrRef spec3 1)) v2 v3 v4 v5 :=
  (dat3 V c).arrAt_eq_of_cover 6 _ (fun t _ => flushed3_eq V c t v2 v3 v4 v5 hsc h2 h3 h4 h5) covers3_6

/-- The same with the whole-array form written out operation by operation. -/
theorem val3_spelt (c : Dev nD) (v2 v3 v4 v5 : FVec Ideal S512 .f32) (hsc : S512.ShapeCasts S1x512)
    (h2 : (V c (Pipeline.arrRef spec3 2) : S1x512.Idx → Elt Ideal .f32) = shapeCast S1x512 v2 hsc)
    (h3 : (V c (Pipeline.arrRef spec3 3) : S1x512.Idx → Elt Ideal .f32) = shapeCast S1x512 v3 hsc)
    (h4 : (V c (Pipeline.arrRef spec3 4) : S1x512.Idx → Elt Ideal .f32) = shapeCast S1x512 v4 hsc)
    (h5 : (V c (Pipeline.arrRef spec3 5) : S1x512.Idx → Elt Ideal .f32) = shapeCast S1x512 v5 hsc) :
    ((dat3 V c).arrAt 6 cfg3.N : S10000x512.Idx → Elt Ideal .f32)
      = maximumf (addf (mulf (subf (addf (mulf (V c (Pipeline.arrRef spec3 0) : S10000x512.Idx → Elt Ideal .f32)
          (broadcastInDim S10000x512 ![0, 1] Cert.ReferenceIdeal.Gen.bcast_S10000x1_S10000x512_0_1 (V c (Pipeline.arrRef spec3 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val3 V c v2 v3 v4 v5 hsc h2 h3 h4 h5

end Cert.KernelIdeal.Frm

end
-- ==== Proof.KI.Chain2.lean ====
/-
  The chain of @main at the exact values, layer 2: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 2 output of the argument arrays. Every buffer a later item reads is carried unchanged across the items that
  do not write it.
-/
import proofs.«144268_j91216515432581_2_alg».proof.Proof.KI.Chain1
import proofs.«144268_j91216515432581_2_alg».proof.Proof.KI.Val2
import proofs.«144268_j91216515432581_2_alg».proof.Proof.KI.Val3
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 2 -/

set_option maxHeartbeats 2000000 in
/-- The layer's weights: matrix 0 of the weight array. -/
theorem w_at9 : (B9 m c main_v46 : Cert.ReferenceIdeal.S512x512.Idx → EReal) = Ref.weightOf ![0, 0, 0] Cert.ReferenceIdeal.Gen.slices_S5x512x512_S1x512x512_0_0_0 (A2 m c) :=
  (show (B9 m c main_v46 : Cert.ReferenceIdeal.S512x512.Idx → EReal) = Ref.weightOf ![0, 0, 0] Cert.ReferenceIdeal.Gen.slices_S5x512x512_S1x512x512_0_0_0 (B8 m c main_arg2) by
    dsimp only [B9, hostOps2]; after_results; rfl).trans
  (congrArg (Ref.weightOf ![0, 0, 0] Cert.ReferenceIdeal.Gen.slices_S5x512x512_S1x512x512_0_0_0) (arg2_at8 m c))
theorem h1_at9 : (B9 m c main_v44 : Cert.ReferenceIdeal.S10000x512.Idx → EReal) = H1 m c :=
  ((StableHlo.after_of_writes_sub hostOps2 (B8 m c) hostOps2_writes (r := main_v44) (by decide)).trans <| rfl).trans (out1 m c)
theorem v13_at9' : (B9 m c main_v13 : Cert.ReferenceIdeal.S10000x1.Idx → EReal) = Ref.normCol (A10 m c) :=
  ((StableHlo.after_of_writes_sub hostOps2 (B8 m c) hostOps2_writes (r := main_v13) (by decide)).trans <|
    (B8_of_ne m c main_v13 (by decide)).trans <|
    (StableHlo.after_of_writes_sub hostOps1 (B6 m c) hostOps1_writes (r := main_v13) (by decide)).trans <|
    (B6_of_ne m c main_v13 (by decide)).trans <| rfl).trans (v13_at5 m c)
/-- Region 2 leaves the layer's scaled product. -/
theorem out2 : (B10 m c main_v47 : Cert.ReferenceIdeal.S10000x512.Idx → EReal) = Ref.scaled (H1 m c) (A10 m c) (Ref.weightOf ![0, 0, 0] Cert.ReferenceIdeal.Gen.slices_S5x512x512_S1x512x512_0_0_0 (A2 m c)) :=
  (B10_out m c).trans <| (final2 (T9 m) c).trans <|
    (scaledProduct_congr (h1_at9 m c) (v13_at9' m c) (w_at9 m c)).trans rfl
theorem arg3_at10 : B10 m c main_arg3 = A3 m c :=
  (B10_of_ne m c main_arg3 (by decide)).trans <|
    (StableHlo.after_of_writes_sub hostOps2 (B8 m c) hostOps2_writes (r := main_arg3) (by decide)).trans <|
    (B8_of_ne m c main_arg3 (by decide)).trans <|
    (StableHlo.after_of_writes_sub hostOps1 (B6 m c) hostOps1_writes (r := main_arg3) (by decide)).trans <|
    (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at10 : B10 m c main_arg4 = A4 m c :=
  (B10_of_ne m c main_arg4 (by decide)).trans <|
    (StableHlo.after_of_writes_sub hostOps2 (B8 m c) hostOps2_writes (r := main_arg4) (by decide)).trans <|
    (B8_of_ne m c main_arg4 (by decide)).trans <|
    (StableHlo.after_of_writes_sub hostOps1 (B6 m c) hostOps1_writes (r := main_arg4) (by decide)).trans <|
    (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at10 : B10 m c main_arg5 = A5 m c :=
  (B10_of_ne m c main_arg5 (by decide)).trans <|
    (StableHlo.after_of_writes_sub hostOps2 (B8 m c) hostOps2_writes (r := main_arg5) (by decide)).trans <|
    (B8_of_ne m c main_arg5 (by decide)).trans <|
    (StableHlo.after_of_writes_sub hostOps1 (B6 m c) hostOps1_writes (r := main_arg5) (by decide)).trans <|
    (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at10 : B10 m c main_arg6 = A6 m c :=
  (B10_of_ne m c main_arg6 (by decide)).trans <|
    (StableHlo.after_of_writes_sub hostOps2 (B8 m c) hostOps2_writes (r := main_arg6) (by decide)).trans <|
    (B8_of_ne m c main_arg6 (by decide)).trans <|
    (StableHlo.after_of_writes_sub hostOps1 (B6 m c) hostOps1_writes (r := main_arg6) (by decide)).trans <|
    (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at10 : B10 m c main_arg7 = A7 m c :=
  (B10_of_ne m c main_arg7 (by decide)).trans <|
    (StableHlo.after_of_writes_sub hostOps2 (B8 m c) hostOps2_writes (r := main_arg7) (by decide)).trans <|
    (B8_of_ne m c main_arg7 (by decide)).trans <|
    (StableHlo.after_of_writes_sub hostOps1 (B6 m c) hostOps1_writes (r := main_arg7) (by decide)).trans <|
    (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at10 : B10 m c main_arg10 = A10 m c :=
  (B10_of_ne m c main_arg10 (by decide)).trans <|
    (StableHlo.after_of_writes_sub hostOps2 (B8 m c) hostOps2_writes (r := main_arg10) (by decide)).trans <|
    (B8_of_ne m c main_arg10 (by decide)).trans <|
    (StableHlo.after_of_writes_sub hostOps1 (B6 m c) hostOps1_writes (r := main_arg10) (by decide)).trans <|
    (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at10 : B10 m c main_arg11 = A11 m c :=
  (B10_of_ne m c main_arg11 (by decide)).trans <|
    (StableHlo.after_of_writes_sub hostOps2 (B8 m c) hostOps2_writes (r := main_arg11) (by decide)).trans <|
    (B8_of_ne m c main_arg11 (by decide)).trans <|
    (StableHlo.after_of_writes_sub hostOps1 (B6 m c) hostOps1_writes (r := main_arg11) (by decide)).trans <|
    (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at11 : (B11 m c main_v57 : Cert.ReferenceIdeal.S10000x512.Idx → EReal) = Ref.aggregate (Ref.scaled (H1 m c) (A10 m c) (Ref.weightOf ![0, 0, 0] Cert.ReferenceIdeal.Gen.slices_S5x512x512_S1x512x512_0_0_0 (A2 m c))) (A10 m c) (A11 m c) :=
  (show (B11 m c main_v57 : Cert.ReferenceIdeal.S10000x512.Idx → EReal) = Ref.aggregate (B10 m c main_v47) (B10 m c main_arg10) (B10 m c main_arg11) by
    dsimp only [B11, hostOps3]; after_results; rfl).trans
  (aggregate_congr (out2 m c) (arg10_at10 m c) (arg11_at10 m c))
set_option maxHeartbeats 2000000 in
theorem row2_at11 : (B11 m c main_v72 : S1x512.Idx → EReal) = shapeCast S1x512 (Ref.rowOf ![1, 0] Cert.ReferenceIdeal.Gen.slices_S6x512_S1x512_1_0 (A3 m c)) shapeCasts_S512_S1x512 :=
  (show (B11 m c main_v72 : S1x512.Idx → EReal) = shapeCast S1x512 (Ref.rowOf ![1, 0] Cert.ReferenceIdeal.Gen.slices_S6x512_S1x512_1_0 (B10 m c main_arg3)) shapeCasts_S512_S1x512 by
    dsimp only [B11, hostOps3]; after_results; rfl).trans
  (congrArg (fun a => shapeCast S1x512 (Ref.rowOf ![1, 0] Cert.ReferenceIdeal.Gen.slices_S6x512_S1x512_1_0 a) shapeCasts_S512_S1x512) (arg3_at10 m c))
set_option maxHeartbeats 2000000 in
theorem row3_at11 : (B11 m c main_v73 : S1x512.Idx → EReal) = shapeCast S1x512 (Ref.rowOf ![1, 0] Cert.ReferenceIdeal.Gen.slices_S6x512_S1x512_1_0 (A6 m c)) shapeCasts_S512_S1x512 :=
  (show (B11 m c main_v73 : S1x512.Idx → EReal) = shapeCast S1x512 (Ref.rowOf ![1, 0] Cert.ReferenceIdeal.Gen.slices_S6x512_S1x512_1_0 (B10 m c main_arg6)) shapeCasts_S512_S1x512 by
    dsimp only [B11, hostOps3]; after_results; rfl).trans
  (congrArg (fun a => shapeCast S1x512 (Ref.rowOf ![1, 0] Cert.ReferenceIdeal.Gen.slices_S6x512_S1x512_1_0 a) shapeCasts_S512_S1x512) (arg6_at10 m c))
set_option maxHeartbeats 2000000 in
theorem row4_at11 : (B11 m c main_v74 : S1x512.Idx → EReal) = shapeCast S1x512 (Ref.scaleOf ![1, 0] Cert.ReferenceIdeal.Gen.slices_S6x512_S1x512_1_0 (A4 m c) (A7 m c)) shapeCasts_S512_S1x512 :=
  (show (B11 m c main_v74 : S1x512.Idx → EReal) = shapeCast S1x512 (Ref.scaleOf ![1, 0] Cert.ReferenceIdeal.Gen.slices_S6x512_S1x512_1_0 (B10 m c main_arg4) (B10 m c main_arg7)) shapeCasts_S512_S1x512 by
    dsimp only [B11, hostOps3]; after_results; rfl).trans
  (congrArg₂ (fun a b => shapeCast S1x512 (Ref.scaleOf ![1, 0] Cert.ReferenceIdeal.Gen.slices_S6x512_S1x512_1_0 a b) shapeCasts_S512_S1x512) (arg4_at10 m c) (arg7_at10 m c))
set_option maxHeartbeats 2000000 in
theorem row5_at11 : (B11 m c main_v75 : S1x512.Idx → EReal) = shapeCast S1x512 (Ref.rowOf ![1, 0] Cert.ReferenceIdeal.Gen.slices_S6x512_S1x512_1_0 (A5 m c)) shapeCasts_S512_S1x512 :=
  (show (B11 m c main_v75 : S1x512.Idx → EReal) = shapeCast S1x512 (Ref.rowOf ![1, 0] Cert.ReferenceIdeal.Gen.slices_S6x512_S1x512_1_0 (B10 m c main_arg5)) shapeCasts_S512_S1x512 by
    dsimp only [B11, hostOps3]; after_results; rfl).trans
  (congrArg (fun a => shapeCast S1x512 (Ref.rowOf ![1, 0] Cert.ReferenceIdeal.Gen.slices_S6x512_S1x512_1_0 a) shapeCasts_S512_S1x512) (arg5_at10 m c))
theorem v14_at11' : (B11 m c main_v14 : Cert.ReferenceIdeal.S10000x1.Idx → EReal) = Ref.normCol (A11 m c) :=
  ((StableHlo.after_of_writes_sub hostOps3 (B10 m c) hostOps3_writes (r := main_v14) (by decide)).trans <|
    (B10_of_ne m c main_v14 (by decide)).trans <|
    (StableHlo.after_of_writes_sub hostOps2 (B8 m c) hostOps2_writes (r := main_v14) (by decide)).trans <|
    (B8_of_ne m c main_v14 (by decide)).trans <|
    (StableHlo.after_of_writes_sub hostOps1 (B6 m c) hostOps1_writes (r := main_v14) (by decide)).trans <|
    (B6_of_ne m c main_v14 (by decide)).trans <| rfl).trans (v14_at5 m c)
/-- and region 3 leaves the layer's output. -/
theorem out3 : (B12 m c main_v76 : Cert.ReferenceIdeal.S10000x512.Idx → EReal) = H2 m c :=
  (B12_out m c).trans <|
    (val3 (T11 m) c (Ref.rowOf ![1, 0] Cert.ReferenceIdeal.Gen.slices_S6x512_S1x512_1_0 (A3 m c)) (Ref.rowOf ![1, 0] Cert.ReferenceIdeal.Gen.slices_S6x512_S1x512_1_0 (A6 m c)) (Ref.scaleOf ![1, 0] Cert.ReferenceIdeal.Gen.slices_S6x512_S1x512_1_0 (A4 m c) (A7 m c)) (Ref.rowOf ![1, 0] Cert.ReferenceIdeal.Gen.slices_S6x512_S1x512_1_0 (A5 m c))
      shapeCasts_S512_S1x512 (row2_at11 m c) (row3_at11 m c) (row4_at11 m c) (row5_at11 m c)).trans <|
    (bnWhole_congr _ _ _ _ (agg_at11 m c) (v14_at11' m c)).trans rfl
theorem arg2_at12 : B12 m c main_arg2 = A2 m c :=
  (B12_of_ne m c main_arg2 (by decide)).trans <|
    (StableHlo.after_of_writes_sub hostOps3 (B10 m c) hostOps3_writes (r := main_arg2) (by decide)).trans <|
    (B10_of_ne m c main_arg2 (by decide)).trans <|
    (StableHlo.after_of_writes_sub hostOps2 (B8 m c) hostOps2_writes (r := main_arg2) (by decide)).trans <|
    (B8_of_ne m c main_arg2 (by decide)).trans <|
    (StableHlo.after_of_writes_sub hostOps1 (B6 m c) hostOps1_writes (r := main_arg2) (by decide)).trans <|
    (B6_of_ne m c main_arg2 (by decide)).trans <|
    (StableHlo.after_of_writes_sub hostOps0_4 (B4 m c) hostOps0_4_writes (r := main_arg2) (by decide)).trans <|
    (StableHlo.after_of_writes_sub hostOps0_3 (B3 m c) hostOps0_3_writes (r := main_arg2) (by decide)).trans <|
    (StableHlo.after_of_writes_sub hostOps0_2 (B2 m c) hostOps0_2_writes (r := main_arg2) (by decide)).trans <|
    (StableHlo.after_of_writes_sub hostOps0_1 (B1 m c) hostOps0_1_writes (r := main_arg2) (by decide)).trans <|
    (StableHlo.after_of_writes_sub hostOps0 (B0 m c) hostOps0_writes (r := main_arg2) (by decide)).trans <| rfl

end Cert.KernelIdeal.Frm

end
-- ==== Proof.KI.Val4.lean ====
/-
  Region 4 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg4
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz4 : (![0, 0] : Fin 2 → Nat) = fun _ => 0 := funext fun a => by fin_cases a <;> rfl

/-- The block indices over the grid: at point t the row blocks of the input, of the row factors and of the output
    are block t, and the weight matrix is its one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What the region's output array ends holding: the row-scaled product of the arrays the region finds. -/
abbrev G4 (c : Dev nD) : S10000x512.Idx → EReal :=
  scaledProduct (V c (Pipeline.arrRef spec4 0)) (V c (Pipeline.arrRef spec4 1)) (V c (Pipeline.arrRef spec4 2))

/-- The input's block at point t is rows 2000 t .. 2000 t + 1999 of its array. -/
theorem iblk4_0_apply (c : Dev nD) (t : Fin cfg4.N) (p : Fin 2000) (k : Fin 512) (r : Fin 10000)
    (hr : r.val = 2000 * t.val + p.val) :
    (iblk4 V c 0 t : Vec Ideal S2000x512 .f32) (ix2 p k)
      = (V c (Pipeline.arrRef spec4 0) : S10000x512.Idx → EReal) (ix2 r k) := by
  obtain ⟨e0, e1, -⟩ := idx_facts4 t
  unfold iblk4
  rw [View.read_apply]
  show (V c (Pipeline.arrRef spec4 0) : S10000x512.Idx → EReal) _ = _
  refine congrArg _ (funext fun a => Fin.ext ?_)
  match a with
  | ⟨0, _⟩ => show win4_0.index t (0 : Fin 2) * 2000 + 1 * p.val = r.val; rw [e0, hr]; omega
  | ⟨1, _⟩ => show win4_0.index t (1 : Fin 2) * 512 + 1 * k.val = k.val; rw [e1]; omega

/-- The row factors' block at point t is rows 2000 t .. 2000 t + 1999 of their column. -/
theorem iblk4_1_apply (c : Dev nD) (t : Fin cfg4.N) (p : Fin 2000) (r : Fin 10000)
    (hr : r.val = 2000 * t.val + p.val) :
    (iblk4 V c 1 t : Vec Ideal S2000x1 .f32) (ix2 p (0 : Fin 1))
      = (V c (Pipeline.arrRef spec4 1) : S10000x1.Idx → EReal) (ix2 r (0 : Fin 1)) := by
  obtain ⟨-, -, e0, e1, -⟩ := idx_facts4 t
  unfold iblk4
  rw [View.read_apply]
  show (V c (Pipeline.arrRef spec4 1) : S10000x1.Idx → EReal) _ = _
  refine congrArg _ (funext fun a => Fin.ext ?_)
  match a with
  | ⟨0, _⟩ => show win4_1.index t (0 : Fin 2) * 2000 + 1 * p.val = r.val; rw [e0, hr]; omega
  | ⟨1, _⟩ => show win4_1.index t (1 : Fin 2) * 1 + 1 * 0 = 0; rw [e1]

/-- The weights' block at every point is the whole matrix. -/
theorem iblk4_2_apply (c : Dev nD) (t : Fin cfg4.N) (k : Fin 512) (q : Fin 512) :
    (iblk4 V c 2 t : Vec Ideal S512x512 .f32) (ix2 k q)
      = (V c (Pipeline.arrRef spec4 2) : S512x512.Idx → EReal) (ix2 k q) := by
  obtain ⟨-, -, -, -, e0, e1, -⟩ := idx_facts4 t
  unfold iblk4
  rw [View.read_apply]
  show (V c (Pipeline.arrRef spec4 2) : S512x512.Idx → EReal) _ = _
  refine congrArg _ (funext fun a => Fin.ext ?_)
  match a with
  | ⟨0, _⟩ => show win4_2.index t (0 : Fin 2) * 512 + 1 * k.val = k.val; rw [e0]; omega
  | ⟨1, _⟩ => show win4_2.index t (1 : Fin 2) * 512 + 1 * q.val = q.val; rw [e1]; omega

/-- What point t writes back is block t of the row-scaled product. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S2000x512) hz4, View.ld_unit_zero (S := S2000x1) hz4,
    View.ld_unit_zero (S := S512x512) hz4]
  obtain ⟨-, -, -, -, -, -, e0, e1⟩ := idx_facts4 t
  have ht : t.val < 5 := lt_of_lt_of_eq t.isLt N_4
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg4.win 3).blk t).view.emb (ix2 p q) = (ix2 r q : S10000x512.Idx) := by
    funext a; apply Fin.ext
    match a with
    | ⟨0, _⟩ => show win4_3.index t (0 : Fin 2) * 2000 + 1 * p.val = r.val; rw [e0, hr]; omega
    | ⟨1, _⟩ => show win4_3.index t (1 : Fin 2) * 512 + 1 * q.val = q.val; rw [e1]; omega
  show k4_pay1 (iblk4 V c 0 t) (iblk4 V c 1 t) (iblk4 V c 2 t) (ix2 p q)
      = G4 V c (((cfg4.win 3).blk t).view.emb (ix2 p q))
  rw [hemb]
  refine (k4_pay1_apply _ _ _ p q).trans (Eq.trans ?_ (scaledProduct_apply _ _ _ r q).symm)
  refine Finset.sum_congr rfl fun k _ => ?_
  rw [iblk4_0_apply V c t p k r hr, iblk4_1_apply V c t p r hr, iblk4_2_apply V c t k q]

/-- An index of the output array is in point t's block iff each coordinate is in the block's range on its axis. -/
theorem mem_blk4 (t : Fin cfg4.N) (i : S10000x512.Idx) :
    i ∈ ((cfg4.win 3).blk t).view.set ↔ ∀ a : Fin 2, win4_3.index t a * S2000x512.size a ≤ (i a).val
      ∧ (i a).val < win4_3.index t a * S2000x512.size a + S2000x512.size a := by
  show i ∈ ((View.whole (Pipeline.arrRef spec4 3)).slice (win4_3.rect t)).set ↔ _
  rw [View.set_slice_whole, Rect.mem_set_unit]
  exact Iff.rfl

/-- Row r of the output array is in the block of point r / 2000. -/
theorem cover4 (i : S10000x512.Idx) :
    ∃ t : Fin cfg4.N, (cfg4.win 3).flush t = true ∧ i ∈ ((cfg4.win 3).blk t).view.set := by
  have hi0 : (i 0).val < 10000 := (i 0).isLt
  have hi1 : (i 1).val < 512 := (i 1).isLt
  have hN : cfg4.N = 5 := N_4
  let t : Fin cfg4.N := ⟨(i 0).val / 2000, by rw [hN]; omega⟩
  obtain ⟨-, -, -, -, -, -, e0, e1⟩ := idx_facts4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    rw [e0]; show (i 0).val / 2000 * 2000 ≤ (i 0).val ∧ (i 0).val < (i 0).val / 2000 * 2000 + 2000; omega
  | ⟨1, _⟩ =>
    show win4_3.index t (1 : Fin 2) * 512 ≤ (i 1).val ∧ (i 1).val < win4_3.index t (1 : Fin 2) * 512 + 512
    rw [e1]; omega

/-- The region's output array after the run: the row-scaled product of the arrays the region finds. -/
theorem final4 (c : Dev nD) : (dat4 V c).arrAt 3 cfg4.N = G4 V c :=
  (dat4 V c).arrAt_eq_of_cover 3 (G4 V c) (fun t _ => flushed4_eq V c t) (cover4)

end Cert.KernelIdeal.Frm

end
-- ==== Proof.KI.Val5.lean ====
/-
  Region 5 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them. The argument is region 1's with the region's own names; the
  whole-array form and the reading of a recast vector are shared with it.
-/
import proofs.«144268_j91216515432581_2_alg».proof.Proof.KI.Reg5
import proofs.«144268_j91216515432581_2_alg».proof.Proof.KI.Val1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The body's arithmetic at row `p`, column `q` of a block. -/
theorem pay5_apply (x0 : Vec Ideal S2000x512 .f32) (x1 : Vec Ideal S2000x1 .f32) (x2 x3 x4 x5 : Vec Ideal S1x512 .f32)
    (p : Fin 2000) (q : Fin 512) :
    k5_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k5_pay1
  exact BnLaw.block_apply x0 x1 x2 x3 x4 x5 _ _ _ _ _ _ p q

/-- The output buffer after the body, at row `p`, column `q`: the one store is of the whole buffer. -/
theorem out5_6_apply (x0 : Vec Ideal S2000x512 .f32) (x1 : Vec Ideal S2000x1 .f32) (x2 x3 x4 x5 : Vec Ideal S1x512 .f32)
    (p : Fin 2000) (q : Fin 512) :
    out5_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out5_6
  rw [View.canon_unit_zero hz5]
  simp only [View.ld_unit_zero (S := S2000x512) hz5, View.ld_unit_zero (S := S2000x1) hz5, View.ld_unit_zero (S := S1x512) hz5]
  exact pay5_apply x0 x1 x2 x3 x4 x5 p q

/-- The block indices, decided over the five grid points: the row-blocked windows are at block (t, 0), the four
    one-row windows at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Block `t` of window 0 is rows 2000 t … 2000 t + 1999 of its array. -/
theorem iblk5_0_apply (c : Dev nD) (t : Fin cfg5.N) (p : Fin 2000) (q : Fin 512) (r : Fin 10000)
    (hr : r.val = t.val * 2000 + p.val) :
    (iblk5 V c 0 t : Vec Ideal S2000x512 .f32) (ix2 p q)
      = (V c (Pipeline.arrRef spec5 0) : S10000x512.Idx → Elt Ideal .f32) (ix2 r q) := by
  obtain ⟨e0, e1, -⟩ := idx_facts5 t
  unfold iblk5
  rw [View.read_apply]
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 2000 + 1 * p.val = r.val; rw [e0, hr]; omega
  | ⟨1, _⟩ => show win5_0.index t (1 : Fin 2) * 512 + 1 * q.val = q.val; rw [e1]; omega

/-- Block `t` of window 1 is rows 2000 t … 2000 t + 1999 of the column of row factors. -/
theorem iblk5_1_apply (c : Dev nD) (t : Fin cfg5.N) (p : Fin 2000) (r : Fin 10000)
    (hr : r.val = t.val * 2000 + p.val) :
    (iblk5 V c 1 t : Vec Ideal S2000x1 .f32) (ix2 p (0 : Fin 1))
      = (V c (Pipeline.arrRef spec5 1) : S10000x1.Idx → Elt Ideal .f32) (ix2 r (0 : Fin 1)) := by
  obtain ⟨-, -, e0, e1, -⟩ := idx_facts5 t
  unfold iblk5
  rw [View.read_apply]
  show V c (Pipeline.arrRef spec5 1) (((cfg5.win 1).blk t).view.emb (ix2 p (0 : Fin 1))) = V c (Pipeline.arrRef spec5 1) (ix2 r (0 : Fin 1))
  refine congrArg (V c (Pipeline.arrRef spec5 1)) (funext fun a => Fin.ext ?_)
  match a with
  | ⟨0, _⟩ => show win5_1.index t (0 : Fin 2) * 2000 + 1 * p.val = r.val; rw [e0, hr]; omega
  | ⟨1, _⟩ => show win5_1.index t (1 : Fin 2) * 1 + 1 * 0 = 0; rw [e1]

/-- Window 2 is one row, fetched whole at every point. -/
theorem iblk5_2_apply (c : Dev nD) (t : Fin cfg5.N) (q : Fin 512) :
    (iblk5 V c 2 t : Vec Ideal S1x512 .f32) (ix2 (0 : Fin 1) q)
      = (V c (Pipeline.arrRef spec5 2) : S1x512.Idx → Elt Ideal .f32) (ix2 (0 : Fin 1) q) := by
  obtain ⟨-, -, -, -, e20, e21, e30, e31, e40, e41, e50, e51, -⟩ := idx_facts5 t
  unfold iblk5
  rw [View.read_apply]
  show V c (Pipeline.arrRef spec5 2) (((cfg5.win 2).blk t).view.emb (ix2 (0 : Fin 1) q)) = V c (Pipeline.arrRef spec5 2) (ix2 (0 : Fin 1) q)
  refine congrArg (V c (Pipeline.arrRef spec5 2)) (funext fun a => Fin.ext ?_)
  match a with
  | ⟨0, _⟩ => show win5_2.index t (0 : Fin 2) * 1 + 1 * 0 = 0; rw [e20]
  | ⟨1, _⟩ => show win5_2.index t (1 : Fin 2) * 512 + 1 * q.val = q.val; rw [e21]; omega

/-- Window 3 is one row, fetched whole at every point. -/
theorem iblk5_3_apply (c : Dev nD) (t : Fin cfg5.N) (q : Fin 512) :
    (iblk5 V c 3 t : Vec Ideal S1x512 .f32) (ix2 (0 : Fin 1) q)
      = (V c (Pipeline.arrRef spec5 3) : S1x512.Idx → Elt Ideal .f32) (ix2 (0 : Fin 1) q) := by
  obtain ⟨-, -, -, -, e20, e21, e30, e31, e40, e41, e50, e51, -⟩ := idx_facts5 t
  unfold iblk5
  rw [View.read_apply]
  show V c (Pipeline.arrRef spec5 3) (((cfg5.win 3).blk t).view.emb (ix2 (0 : Fin 1) q)) = V c (Pipeline.arrRef spec5 3) (ix2 (0 : Fin 1) q)
  refine congrArg (V c (Pipeline.arrRef spec5 3)) (funext fun a => Fin.ext ?_)
  match a with
  | ⟨0, _⟩ => show win5_3.index t (0 : Fin 2) * 1 + 1 * 0 = 0; rw [e30]
  | ⟨1, _⟩ => show win5_3.index t (1 : Fin 2) * 512 + 1 * q.val = q.val; rw [e31]; omega

/-- Window 4 is one row, fetched whole at every point. -/
theorem iblk5_4_apply (c : Dev nD) (t : Fin cfg5.N) (q : Fin 512) :
    (iblk5 V c 4 t : Vec Ideal S1x512 .f32) (ix2 (0 : Fin 1) q)
      = (V c (Pipeline.arrRef spec5 4) : S1x512.Idx → Elt Ideal .f32) (ix2 (0 : Fin 1) q) := by
  obtain ⟨-, -, -, -, e20, e21, e30, e31, e40, e41, e50, e51, -⟩ := idx_facts5 t
  unfold iblk5
  rw [View.read_apply]
  show V c (Pipeline.arrRef spec5 4) (((cfg5.win 4).blk t).view.emb (ix2 (0 : Fin 1) q)) = V c (Pipeline.arrRef spec5 4) (ix2 (0 : Fin 1) q)
  refine congrArg (V c (Pipeline.arrRef spec5 4)) (funext fun a => Fin.ext ?_)
  match a with
  | ⟨0, _⟩ => show win5_4.index t (0 : Fin 2) * 1 + 1 * 0 = 0; rw [e40]
  | ⟨1, _⟩ => show win5_4.index t (1 : Fin 2) * 512 + 1 * q.val = q.val; rw [e41]; omega

/-- Window 5 is one row, fetched whole at every point. -/
theorem iblk5_5_apply (c : Dev nD) (t : Fin cfg5.N) (q : Fin 512) :
    (iblk5 V c 5 t : Vec Ideal S1x512 .f32) (ix2 (0 : Fin 1) q)
      = (V c (Pipeline.arrRef spec5 5) : S1x512.Idx → Elt Ideal .f32) (ix2 (0 : Fin 1) q) := by
  obtain ⟨-, -, -, -, e20, e21, e30, e31, e40, e41, e50, e51, -⟩ := idx_facts5 t
  unfold iblk5
  rw [View.read_apply]
  show V c (Pipeline.arrRef spec5 5) (((cfg5.win 5).blk t).view.emb (ix2 (0 : Fin 1) q)) = V c (Pipeline.arrRef spec5 5) (ix2 (0 : Fin 1) q)
  refine congrArg (V c (Pipeline.arrRef spec5 5)) (funext fun a => Fin.ext ?_)
  match a with
  | ⟨0, _⟩ => show win5_5.index t (0 : Fin 2) * 1 + 1 * 0 = 0; rw [e50]
  | ⟨1, _⟩ => show win5_5.index t (1 : Fin 2) * 512 + 1 * q.val = q.val; rw [e51]; omega

/-- Element (p, q) of what point `t` leaves in the output buffer is element (2000 t + p, q) of the whole-array form:
    the block's element of the array and of the column of row factors sit in row 2000 t + p, and the four rows'
    entries at column q are entry q of each vector. -/
theorem elem5_eq (c : Dev nD) (t : Fin cfg5.N) (v2 v3 v4 v5 : FVec Ideal S512 .f32) (hsc : S512.ShapeCasts S1x512)
    (h2 : (V c (Pipeline.arrRef spec5 2) : S1x512.Idx → Elt Ideal .f32) = shapeCast S1x512 v2 hsc)
    (h3 : (V c (Pipeline.arrRef spec5 3) : S1x512.Idx → Elt Ideal .f32) = shapeCast S1x512 v3 hsc)
    (h4 : (V c (Pipeline.arrRef spec5 4) : S1x512.Idx → Elt Ideal .f32) = shapeCast S1x512 v4 hsc)
    (h5 : (V c (Pipeline.arrRef spec5 5) : S1x512.Idx → Elt Ideal .f32) = shapeCast S1x512 v5 hsc)
    (p : Fin 2000) (q : Fin 512) (r : Fin 10000) (hr : r.val = t.val * 2000 + p.val) :
    out5_6 (iblk5 V c 0 t) (iblk5 V c 1 t) (iblk5 V c 2 t) (iblk5 V c 3 t) (iblk5 V c 4 t) (iblk5 V c 5 t) (ix2 p q)
      = bnWhole (V c (Pipeline.arrRef spec5 0)) (V c (Pipeline.arrRef spec5 1)) v2 v3 v4 v5 (ix2 r q) := by
  refine (out5_6_apply (iblk5 V c 0 t) (iblk5 V c 1 t) (iblk5 V c 2 t) (iblk5 V c 3 t) (iblk5 V c 4 t) (iblk5 V c 5 t)
    p q).trans ?_
  refine Eq.trans ?_ (BnLaw.whole_apply (m := 10000) (n := 512) (V c (Pipeline.arrRef spec5 0)) (V c (Pipeline.arrRef spec5 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk5_0_apply V c t p q r hr
  have e1 := iblk5_1_apply V c t p r hr
  have e2 := (iblk5_2_apply V c t q).trans (row_of_vec _ v2 hsc h2 q)
  have e3 := (iblk5_3_apply V c t q).trans (row_of_vec _ v3 hsc h3 q)
  have e4 := (iblk5_4_apply V c t q).trans (row_of_vec _ v4 hsc h4 q)
  have e5 := (iblk5_5_apply V c t q).trans (row_of_vec _ v5 hsc h5 q)
  exact congr (congr (congr (congr (congr (congr (congrArg BnLaw.elem e0) e1) e2) e3) e4) e5) rfl

/-- What point `t` writes back is block `t` of the whole-array form. -/
theorem flushed5_eq (c : Dev nD) (t : Fin cfg5.N) (v2 v3 v4 v5 : FVec Ideal S512 .f32) (hsc : S512.ShapeCasts S1x512)
    (h2 : (V c (Pipeline.arrRef spec5 2) : S1x512.Idx → Elt Ideal .f32) = shapeCast S1x512 v2 hsc)
    (h3 : (V c (Pipeline.arrRef spec5 3) : S1x512.Idx → Elt Ideal .f32) = shapeCast S1x512 v3 hsc)
    (h4 : (V c (Pipeline.arrRef spec5 4) : S1x512.Idx → Elt Ideal .f32) = shapeCast S1x512 v4 hsc)
    (h5 : (V c (Pipeline.arrRef spec5 5) : S1x512.Idx → Elt Ideal .f32) = shapeCast S1x512 v5 hsc) :
    (dat5 V c).flushed 6 t = ((cfg5.win 6).blk t).view.read (Elt Ideal)
      (bnWhole (V c (Pipeline.arrRef spec5 0)) (V c (Pipeline.arrRef spec5 1)) v2 v3 v4 v5) := by
  show (cfg5.win 6).cut (grid5.coords t) ((dat5 V c).after 6 t) = _
  rw [after5_6]
  funext j
  have hN : cfg5.N = 5 := N_5
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts5 t
  have hx : (cfg5.win 6).xinj (grid5.coords t) j = ix2 (⟨(j 0).val, h0⟩ : Fin 2000) (⟨(j 1).val, h1⟩ : Fin 512) := by
    funext a
    match a with
    | ⟨0, _⟩ => rfl
    | ⟨1, _⟩ => rfl
  have he : ((cfg5.win 6).blk t).view.emb j
      = ix2 (⟨t.val * 2000 + (j 0).val, by omega⟩ : Fin 10000) (⟨(j 1).val, h1⟩ : Fin 512) := by
    funext a
    apply Fin.ext
    match a with
    | ⟨0, _⟩ => show win5_6.index t (0 : Fin 2) * 2000 + 1 * (j 0).val = t.val * 2000 + (j 0).val; rw [e60]; omega
    | ⟨1, _⟩ => show win5_6.index t (1 : Fin 2) * 512 + 1 * (j 1).val = (j 1).val; rw [e61]; omega
  show out5_6 (iblk5 V c 0 t) (iblk5 V c 1 t) (iblk5 V c 2 t) (iblk5 V c 3 t) (iblk5 V c 4 t) (iblk5 V c 5 t)
      ((cfg5.win 6).xinj (grid5.coords t) j)
    = bnWhole (V c (Pipeline.arrRef spec5 0)) (V c (Pipeline.arrRef spec5 1)) v2 v3 v4 v5 (((cfg5.win 6).blk t).view.emb j)
  rw [hx, he]
  exact elem5_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk5_6 (t : Fin cfg5.N) (i : S10000x512.Idx) :
    i ∈ ((cfg5.win 6).blk t).view.set ↔ ∀ a : Fin 2, win5_6.index t a * S2000x512.size a ≤ (i a).val
      ∧ (i a).val < win5_6.index t a * S2000x512.size a + S2000x512.size a := by
  show i ∈ ((View.whole main_v108).slice (win5_6.rect t)).set ↔ _
  rw [View.set_slice_whole, Rect.mem_set_unit]
  exact Iff.rfl

/-- The five blocks tile the array: row `r` lies in the block of point `r / 2000`. -/
theorem covers5_6 (i : S10000x512.Idx) :
    ∃ t : Fin cfg5.N, (cfg5.win 6).flush t = true ∧ i ∈ ((cfg5.win 6).blk t).view.set := by
  have hi0 : (i 0).val < 10000 := (i 0).isLt
  have hi1 : (i 1).val < 512 := (i 1).isLt
  have hN : cfg5.N = 5 := N_5
  have hlt : (i 0).val / 2000 < cfg5.N := by rw [hN]; omega
  obtain ⟨-, -, -, -, -, -, -, -, -, -, -, -, e60, e61⟩ := idx_facts5 ⟨(i 0).val / 2000, hlt⟩
  refine ⟨⟨(i 0).val / 2000, hlt⟩, flush5_6 _, ?_⟩
  rw [mem_blk5_6]
  intro a
  match a with
  | ⟨0, _⟩ =>
    show win5_6.index ⟨(i 0).val / 2000, hlt⟩ (0 : Fin 2) * 2000 ≤ (i 0).val
      ∧ (i 0).val < win5_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win5_6.index ⟨(i 0).val / 2000, hlt⟩ (1 : Fin 2) * 512 ≤ (i 1).val
      ∧ (i 1).val < win5_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val5 (c : Dev nD) (v2 v3 v4 v5 : FVec Ideal S512 .f32) (hsc : S512.ShapeCasts S1x512)
    (h2 : (V c (Pipeline.arrRef spec5 2) : S1x512.Idx → Elt Ideal .f32) = shapeCast S1x512 v2 hsc)
    (h3 : (V c (Pipeline.arrRef spec5 3) : S1x512.Idx → Elt Ideal .f32) = shapeCast S1x512 v3 hsc)
    (h4 : (V c (Pipeline.arrRef spec5 4) : S1x512.Idx → Elt Ideal .f32) = shapeCast S1x512 v4 hsc)
    (h5 : (V c (Pipeline.arrRef spec5 5) : S1x512.Idx → Elt Ideal .f32) = shapeCast S1x512 v5 hsc) :
    (dat5 V c).arrAt 6 cfg5.N
      = bnWhole (V c (Pipeline.arrRef spec5 0)) (V c (Pipeline.arrRef spec5 1)) v2 v3 v4 v5 :=
  (dat5 V c).arrAt_eq_of_cover 6 _ (fun t _ => flushed5_eq V c t v2 v3 v4 v5 hsc h2 h3 h4 h5) covers5_6

/-- The same with the whole-array form written out operation by operation. -/
theorem val5_spelt (c : Dev nD) (v2 v3 v4 v5 : FVec Ideal S512 .f32) (hsc : S512.ShapeCasts S1x512)
    (h2 : (V c (Pipeline.arrRef spec5 2) : S1x512.Idx → Elt Ideal .f32) = shapeCast S1x512 v2 hsc)
    (h3 : (V c (Pipeline.arrRef spec5 3) : S1x512.Idx → Elt Ideal .f32) = shapeCast S1x512 v3 hsc)
    (h4 : (V c (Pipeline.arrRef spec5 4) : S1x512.Idx → Elt Ideal .f32) = shapeCast S1x512 v4 hsc)
    (h5 : (V c (Pipeline.arrRef spec5 5) : S1x512.Idx → Elt Ideal .f32) = shapeCast S1x512 v5 hsc) :
    ((dat5 V c).arrAt 6 cfg5.N : S10000x512.Idx → Elt Ideal .f32)
      = maximumf (addf (mulf (subf (addf (mulf (V c (Pipeline.arrRef spec5 0) : S10000x512.Idx → Elt Ideal .f32)
          (broadcastInDim S10000x512 ![0, 1] Cert.ReferenceIdeal.Gen.bcast_S10000x1_S10000x512_0_1 (V c (Pipeline.arrRef spec5 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val5 V c v2 v3 v4 v5 hsc h2 h3 h4 h5

end Cert.KernelIdeal.Frm

end
-- ==== Proof.KI.Chain3.lean ====
/-
  The chain of @main at the exact values, layer 3: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 3 output of the argument arrays. Every buffer a later item reads is carried unchanged across the items that
  do not write it.
-/
import proofs.«144268_j91216515432581_2_alg».proof.Proof.KI.Chain2
import proofs.«144268_j91216515432581_2_alg».proof.Proof.KI.Val4
import proofs.«144268_j91216515432581_2_alg».proof.Proof.KI.Val5
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 3 -/

set_option maxHeartbeats 2000000 in
/-- The layer's weights: matrix 1 of the weight array. -/
theorem w_at13 : (B13 m c main_v78 : Cert.ReferenceIdeal.S512x512.Idx → EReal) = Ref.weightOf ![1, 0, 0] Cert.ReferenceIdeal.Gen.slices_S5x512x512_S1x512x512_1_0_0 (A2 m c) :=
  (show (B13 m c main_v78 : Cert.ReferenceIdeal.S512x512.Idx → EReal) = Ref.weightOf ![1, 0, 0] Cert.ReferenceIdeal.Gen.slices_S5x512x512_S1x512x512_1_0_0 (B12 m c main_arg2) by
    dsimp only [B13, hostOps4]; after_results; rfl).trans
  (congrArg (Ref.weightOf ![1, 0, 0] Cert.ReferenceIdeal.Gen.slices_S5x512x512_S1x512x512_1_0_0) (arg2_at12 m c))
theorem h2_at13 : (B13 m c main_v76 : Cert.ReferenceIdeal.S10000x512.Idx → EReal) = H2 m c :=
  ((StableHlo.after_of_writes_sub hostOps4 (B12 m c) hostOps4_writes (r := main_v76) (by decide)).trans <| rfl).trans (out3 m c)
theorem v13_at13' : (B13 m c main_v13 : Cert.ReferenceIdeal.S10000x1.Idx → EReal) = Ref.normCol (A10 m c) :=
  ((StableHlo.after_of_writes_sub hostOps4 (B12 m c) hostOps4_writes (r := main_v13) (by decide)).trans <|
    (B12_of_ne m c main_v13 (by decide)).trans <|
    (StableHlo.after_of_writes_sub hostOps3 (B10 m c) hostOps3_writes (r := main_v13) (by decide)).trans <|
    (B10_of_ne m c main_v13 (by decide)).trans <|
    (StableHlo.after_of_writes_sub hostOps2 (B8 m c) hostOps2_writes (r := main_v13) (by decide)).trans <|
    (B8_of_ne m c main_v13 (by decide)).trans <|
    (StableHlo.after_of_writes_sub hostOps1 (B6 m c) hostOps1_writes (r := main_v13) (by decide)).trans <|
    (B6_of_ne m c main_v13 (by decide)).trans <| rfl).trans (v13_at5 m c)
/-- Region 4 leaves the layer's scaled product. -/
theorem out4 : (B14 m c main_v79 : Cert.ReferenceIdeal.S10000x512.Idx → EReal) = Ref.scaled (H2 m c) (A10 m c) (Ref.weightOf ![1, 0, 0] Cert.ReferenceIdeal.Gen.slices_S5x512x512_S1x512x512_1_0_0 (A2 m c)) :=
  (B14_out m c).trans <| (final4 (T13 m) c).trans <|
    (scaledProduct_congr (h2_at13 m c) (v13_at13' m c) (w_at13 m c)).trans rfl
theorem arg3_at14 : B14 m c main_arg3 = A3 m c :=
  (B14_of_ne m c main_arg3 (by decide)).trans <|
    (StableHlo.after_of_writes_sub hostOps4 (B12 m c) hostOps4_writes (r := main_arg3) (by decide)).trans <|
    (B12_of_ne m c main_arg3 (by decide)).trans <|
    (StableHlo.after_of_writes_sub hostOps3 (B10 m c) hostOps3_writes (r := main_arg3) (by decide)).trans <|
    (B10_of_ne m c main_arg3 (by decide)).trans <|
    (StableHlo.after_of_writes_sub hostOps2 (B8 m c) hostOps2_writes (r := main_arg3) (by decide)).trans <|
    (B8_of_ne m c main_arg3 (by decide)).trans <|
    (StableHlo.after_of_writes_sub hostOps1 (B6 m c) hostOps1_writes (r := main_arg3) (by decide)).trans <|
    (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at14 : B14 m c main_arg4 = A4 m c :=
  (B14_of_ne m c main_arg4 (by decide)).trans <|
    (StableHlo.after_of_writes_sub hostOps4 (B12 m c) hostOps4_writes (r := main_arg4) (by decide)).trans <|
    (B12_of_ne m c main_arg4 (by decide)).trans <|
    (StableHlo.after_of_writes_sub hostOps3 (B10 m c) hostOps3_writes (r := main_arg4) (by decide)).trans <|
    (B10_of_ne m c main_arg4 (by decide)).trans <|
    (StableHlo.after_of_writes_sub hostOps2 (B8 m c) hostOps2_writes (r := main_arg4) (by decide)).trans <|
    (B8_of_ne m c main_arg4 (by decide)).trans <|
    (StableHlo.after_of_writes_sub hostOps1 (B6 m c) hostOps1_writes (r := main_arg4) (by decide)).trans <|
    (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at14 : B14 m c main_arg5 = A5 m c :=
  (B14_of_ne m c main_arg5 (by decide)).trans <|
    (StableHlo.after_of_writes_sub hostOps4 (B12 m c) hostOps4_writes (r := main_arg5) (by decide)).trans <|
    (B12_of_ne m c main_arg5 (by decide)).trans <|
    (StableHlo.after_of_writes_sub hostOps3 (B10 m c) hostOps3_writes (r := main_arg5) (by decide)).trans <|
    (B10_of_ne m c main_arg5 (by decide)).trans <|
    (StableHlo.after_of_writes_sub hostOps2 (B8 m c) hostOps2_writes (r := main_arg5) (by decide)).trans <|
    (B8_of_ne m c main_arg5 (by decide)).trans <|
    (StableHlo.after_of_writes_sub hostOps1 (B6 m c) hostOps1_writes (r := main_arg5) (by decide)).trans <|
    (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at14 : B14 m c main_arg6 = A6 m c :=
  (B14_of_ne m c main_arg6 (by decide)).trans <|
    (StableHlo.after_of_writes_sub hostOps4 (B12 m c) hostOps4_writes (r := main_arg6) (by decide)).trans <|
    (B12_of_ne m c main_arg6 (by decide)).trans <|
    (StableHlo.after_of_writes_sub hostOps3 (B10 m c) hostOps3_writes (r := main_arg6) (by decide)).trans <|
    (B10_of_ne m c main_arg6 (by decide)).trans <|
    (StableHlo.after_of_writes_sub hostOps2 (B8 m c) hostOps2_writes (r := main_arg6) (by decide)).trans <|
    (B8_of_ne m c main_arg6 (by decide)).trans <|
    (StableHlo.after_of_writes_sub hostOps1 (B6 m c) hostOps1_writes (r := main_arg6) (by decide)).trans <|
    (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at14 : B14 m c main_arg7 = A7 m c :=
  (B14_of_ne m c main_arg7 (by decide)).trans <|
    (StableHlo.after_of_writes_sub hostOps4 (B12 m c) hostOps4_writes (r := main_arg7) (by decide)).trans <|
    (B12_of_ne m c main_arg7 (by decide)).trans <|
    (StableHlo.after_of_writes_sub hostOps3 (B10 m c) hostOps3_writes (r := main_arg7) (by decide)).trans <|
    (B10_of_ne m c main_arg7 (by decide)).trans <|
    (StableHlo.after_of_writes_sub hostOps2 (B8 m c) hostOps2_writes (r := main_arg7) (by decide)).trans <|
    (B8_of_ne m c main_arg7 (by decide)).trans <|
    (StableHlo.after_of_writes_sub hostOps1 (B6 m c) hostOps1_writes (r := main_arg7) (by decide)).trans <|
    (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at14 : B14 m c main_arg10 = A10 m c :=
  (B14_of_ne m c main_arg10 (by decide)).trans <|
    (StableHlo.after_of_writes_sub hostOps4 (B12 m c) hostOps4_writes (r := main_arg10) (by decide)).trans <|
    (B12_of_ne m c main_arg10 (by decide)).trans <|
    (StableHlo.after_of_writes_sub hostOps3 (B10 m c) hostOps3_writes (r := main_arg10) (by decide)).trans <|
    (B10_of_ne m c main_arg10 (by decide)).trans <|
    (StableHlo.after_of_writes_sub hostOps2 (B8 m c) hostOps2_writes (r := main_arg10) (by decide)).trans <|
    (B8_of_ne m c main_arg10 (by decide)).trans <|
    (StableHlo.after_of_writes_sub hostOps1 (B6 m c) hostOps1_writes (r := main_arg10) (by decide)).trans <|
    (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at14 : B14 m c main_arg11 = A11 m c :=
  (B14_of_ne m c main_arg11 (by decide)).trans <|
    (StableHlo.after_of_writes_sub hostOps4 (B12 m c) hostOps4_writes (r := main_arg11) (by decide)).trans <|
    (B12_of_ne m c main_arg11 (by decide)).trans <|
    (StableHlo.after_of_writes_sub hostOps3 (B10 m c) hostOps3_writes (r := main_arg11) (by decide)).trans <|
    (B10_of_ne m c main_arg11 (by decide)).trans <|
    (StableHlo.after_of_writes_sub hostOps2 (B8 m c) hostOps2_writes (r := main_arg11) (by decide)).trans <|
    (B8_of_ne m c main_arg11 (by decide)).trans <|
    (StableHlo.after_of_writes_sub hostOps1 (B6 m c) hostOps1_writes (r := main_arg11) (by decide)).trans <|
    (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at15 : (B15 m c main_v89 : Cert.ReferenceIdeal.S10000x512.Idx → EReal) = Ref.aggregate (Ref.scaled (H2 m c) (A10 m c) (Ref.weightOf ![1, 0, 0] Cert.ReferenceIdeal.Gen.slices_S5x512x512_S1x512x512_1_0_0 (A2 m c))) (A10 m c) (A11 m c) :=
  (show (B15 m c main_v89 : Cert.ReferenceIdeal.S10000x512.Idx → EReal) = Ref.aggregate (B14 m c main_v79) (B14 m c main_arg10) (B14 m c main_arg11) by
    dsimp only [B15, hostOps5]; after_results; rfl).trans
  (aggregate_congr (out4 m c) (arg10_at14 m c) (arg11_at14 m c))
set_option maxHeartbeats 2000000 in
theorem row2_at15 : (B15 m c main_v104 : S1x512.Idx → EReal) = shapeCast S1x512 (Ref.rowOf ![2, 0] Cert.ReferenceIdeal.Gen.slices_S6x512_S1x512_2_0 (A3 m c)) shapeCasts_S512_S1x512 :=
  (show (B15 m c main_v104 : S1x512.Idx → EReal) = shapeCast S1x512 (Ref.rowOf ![2, 0] Cert.ReferenceIdeal.Gen.slices_S6x512_S1x512_2_0 (B14 m c main_arg3)) shapeCasts_S512_S1x512 by
    dsimp only [B15, hostOps5]; after_results; rfl).trans
  (congrArg (fun a => shapeCast S1x512 (Ref.rowOf ![2, 0] Cert.ReferenceIdeal.Gen.slices_S6x512_S1x512_2_0 a) shapeCasts_S512_S1x512) (arg3_at14 m c))
set_option maxHeartbeats 2000000 in
theorem row3_at15 : (B15 m c main_v105 : S1x512.Idx → EReal) = shapeCast S1x512 (Ref.rowOf ![2, 0] Cert.ReferenceIdeal.Gen.slices_S6x512_S1x512_2_0 (A6 m c)) shapeCasts_S512_S1x512 :=
  (show (B15 m c main_v105 : S1x512.Idx → EReal) = shapeCast S1x512 (Ref.rowOf ![2, 0] Cert.ReferenceIdeal.Gen.slices_S6x512_S1x512_2_0 (B14 m c main_arg6)) shapeCasts_S512_S1x512 by
    dsimp only [B15, hostOps5]; after_results; rfl).trans
  (congrArg (fun a => shapeCast S1x512 (Ref.rowOf ![2, 0] Cert.ReferenceIdeal.Gen.slices_S6x512_S1x512_2_0 a) shapeCasts_S512_S1x512) (arg6_at14 m c))
set_option maxHeartbeats 2000000 in
theorem row4_at15 : (B15 m c main_v106 : S1x512.Idx → EReal) = shapeCast S1x512 (Ref.scaleOf ![2, 0] Cert.ReferenceIdeal.Gen.slices_S6x512_S1x512_2_0 (A4 m c) (A7 m c)) shapeCasts_S512_S1x512 :=
  (show (B15 m c main_v106 : S1x512.Idx → EReal) = shapeCast S1x512 (Ref.scaleOf ![2, 0] Cert.ReferenceIdeal.Gen.slices_S6x512_S1x512_2_0 (B14 m c main_arg4) (B14 m c main_arg7)) shapeCasts_S512_S1x512 by
    dsimp only [B15, hostOps5]; after_results; rfl).trans
  (congrArg₂ (fun a b => shapeCast S1x512 (Ref.scaleOf ![2, 0] Cert.ReferenceIdeal.Gen.slices_S6x512_S1x512_2_0 a b) shapeCasts_S512_S1x512) (arg4_at14 m c) (arg7_at14 m c))
set_option maxHeartbeats 2000000 in
theorem row5_at15 : (B15 m c main_v107 : S1x512.Idx → EReal) = shapeCast S1x512 (Ref.rowOf ![2, 0] Cert.ReferenceIdeal.Gen.slices_S6x512_S1x512_2_0 (A5 m c)) shapeCasts_S512_S1x512 :=
  (show (B15 m c main_v107 : S1x512.Idx → EReal) = shapeCast S1x512 (Ref.rowOf ![2, 0] Cert.ReferenceIdeal.Gen.slices_S6x512_S1x512_2_0 (B14 m c main_arg5)) shapeCasts_S512_S1x512 by
    dsimp only [B15, hostOps5]; after_results; rfl).trans
  (congrArg (fun a => shapeCast S1x512 (Ref.rowOf ![2, 0] Cert.ReferenceIdeal.Gen.slices_S6x512_S1x512_2_0 a) shapeCasts_S512_S1x512) (arg5_at14 m c))
theorem v14_at15' : (B15 m c main_v14 : Cert.ReferenceIdeal.S10000x1.Idx → EReal) = Ref.normCol (A11 m c) :=
  ((StableHlo.after_of_writes_sub hostOps5 (B14 m c) hostOps5_writes (r := main_v14) (by decide)).trans <|
    (B14_of_ne m c main_v14 (by decide)).trans <|
    (StableHlo.after_of_writes_sub hostOps4 (B12 m c) hostOps4_writes (r := main_v14) (by decide)).trans <|
    (B12_of_ne m c main_v14 (by decide)).trans <|
    (StableHlo.after_of_writes_sub hostOps3 (B10 m c) hostOps3_writes (r := main_v14) (by decide)).trans <|
    (B10_of_ne m c main_v14 (by decide)).trans <|
    (StableHlo.after_of_writes_sub hostOps2 (B8 m c) hostOps2_writes (r := main_v14) (by decide)).trans <|
    (B8_of_ne m c main_v14 (by decide)).trans <|
    (StableHlo.after_of_writes_sub hostOps1 (B6 m c) hostOps1_writes (r := main_v14) (by decide)).trans <|
    (B6_of_ne m c main_v14 (by decide)).trans <| rfl).trans (v14_at5 m c)
/-- and region 5 leaves the layer's output. -/
theorem out5 : (B16 m c main_v108 : Cert.ReferenceIdeal.S10000x512.Idx → EReal) = H3 m c :=
  (B16_out m c).trans <|
    (val5 (T15 m) c (Ref.rowOf ![2, 0] Cert.ReferenceIdeal.Gen.slices_S6x512_S1x512_2_0 (A3 m c)) (Ref.rowOf ![2, 0] Cert.ReferenceIdeal.Gen.slices_S6x512_S1x512_2_0 (A6 m c)) (Ref.scaleOf ![2, 0] Cert.ReferenceIdeal.Gen.slices_S6x512_S1x512_2_0 (A4 m c) (A7 m c)) (Ref.rowOf ![2, 0] Cert.ReferenceIdeal.Gen.slices_S6x512_S1x512_2_0 (A5 m c))
      shapeCasts_S512_S1x512 (row2_at15 m c) (row3_at15 m c) (row4_at15 m c) (row5_at15 m c)).trans <|
    (bnWhole_congr _ _ _ _ (agg_at15 m c) (v14_at15' m c)).trans rfl
theorem arg2_at16 : B16 m c main_arg2 = A2 m c :=
  (B16_of_ne m c main_arg2 (by decide)).trans <|
    (StableHlo.after_of_writes_sub hostOps5 (B14 m c) hostOps5_writes (r := main_arg2) (by decide)).trans <|
    (B14_of_ne m c main_arg2 (by decide)).trans <|
    (StableHlo.after_of_writes_sub hostOps4 (B12 m c) hostOps4_writes (r := main_arg2) (by decide)).trans <|
    (B12_of_ne m c main_arg2 (by decide)).trans <|
    (StableHlo.after_of_writes_sub hostOps3 (B10 m c) hostOps3_writes (r := main_arg2) (by decide)).trans <|
    (B10_of_ne m c main_arg2 (by decide)).trans <|
    (StableHlo.after_of_writes_sub hostOps2 (B8 m c) hostOps2_writes (r := main_arg2) (by decide)).trans <|
    (B8_of_ne m c main_arg2 (by decide)).trans <|
    (StableHlo.after_of_writes_sub hostOps1 (B6 m c) hostOps1_writes (r := main_arg2) (by decide)).trans <|
    (B6_of_ne m c main_arg2 (by decide)).trans <|
    (StableHlo.after_of_writes_sub hostOps0_4 (B4 m c) hostOps0_4_writes (r := main_arg2) (by decide)).trans <|
    (StableHlo.after_of_writes_sub hostOps0_3 (B3 m c) hostOps0_3_writes (r := main_arg2) (by decide)).trans <|
    (StableHlo.after_of_writes_sub hostOps0_2 (B2 m c) hostOps0_2_writes (r := main_arg2) (by decide)).trans <|
    (StableHlo.after_of_writes_sub hostOps0_1 (B1 m c) hostOps0_1_writes (r := main_arg2) (by decide)).trans <|
    (StableHlo.after_of_writes_sub hostOps0 (B0 m c) hostOps0_writes (r := main_arg2) (by decide)).trans <| rfl

end Cert.KernelIdeal.Frm

end
-- ==== Proof.KI.Val6.lean ====
/-
  Region 6 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg6
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz6 : (![0, 0] : Fin 2 → Nat) = fun _ => 0 := funext fun a => by fin_cases a <;> rfl

/-- The block indices over the grid: at point t the row blocks of the input, of the row factors and of the output
    are block t, and the weight matrix is its one block. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What the region's output array ends holding: the row-scaled product of the arrays the region finds. -/
abbrev G6 (c : Dev nD) : S10000x512.Idx → EReal :=
  scaledProduct (V c (Pipeline.arrRef spec6 0)) (V c (Pipeline.arrRef spec6 1)) (V c (Pipeline.arrRef spec6 2))

/-- The input's block at point t is rows 2000 t .. 2000 t + 1999 of its array. -/
theorem iblk6_0_apply (c : Dev nD) (t : Fin cfg6.N) (p : Fin 2000) (k : Fin 512) (r : Fin 10000)
    (hr : r.val = 2000 * t.val + p.val) :
    (iblk6 V c 0 t : Vec Ideal S2000x512 .f32) (ix2 p k)
      = (V c (Pipeline.arrRef spec6 0) : S10000x512.Idx → EReal) (ix2 r k) := by
  obtain ⟨e0, e1, -⟩ := idx_facts6 t
  unfold iblk6
  rw [View.read_apply]
  show (V c (Pipeline.arrRef spec6 0) : S10000x512.Idx → EReal) _ = _
  refine congrArg _ (funext fun a => Fin.ext ?_)
  match a with
  | ⟨0, _⟩ => show win6_0.index t (0 : Fin 2) * 2000 + 1 * p.val = r.val; rw [e0, hr]; omega
  | ⟨1, _⟩ => show win6_0.index t (1 : Fin 2) * 512 + 1 * k.val = k.val; rw [e1]; omega

/-- The row factors' block at point t is rows 2000 t .. 2000 t + 1999 of their column. -/
theorem iblk6_1_apply (c : Dev nD) (t : Fin cfg6.N) (p : Fin 2000) (r : Fin 10000)
    (hr : r.val = 2000 * t.val + p.val) :
    (iblk6 V c 1 t : Vec Ideal S2000x1 .f32) (ix2 p (0 : Fin 1))
      = (V c (Pipeline.arrRef spec6 1) : S10000x1.Idx → EReal) (ix2 r (0 : Fin 1)) := by
  obtain ⟨-, -, e0, e1, -⟩ := idx_facts6 t
  unfold iblk6
  rw [View.read_apply]
  show (V c (Pipeline.arrRef spec6 1) : S10000x1.Idx → EReal) _ = _
  refine congrArg _ (funext fun a => Fin.ext ?_)
  match a with
  | ⟨0, _⟩ => show win6_1.index t (0 : Fin 2) * 2000 + 1 * p.val = r.val; rw [e0, hr]; omega
  | ⟨1, _⟩ => show win6_1.index t (1 : Fin 2) * 1 + 1 * 0 = 0; rw [e1]

/-- The weights' block at every point is the whole matrix. -/
theorem iblk6_2_apply (c : Dev nD) (t : Fin cfg6.N) (k : Fin 512) (q : Fin 512) :
    (iblk6 V c 2 t : Vec Ideal S512x512 .f32) (ix2 k q)
      = (V c (Pipeline.arrRef spec6 2) : S512x512.Idx → EReal) (ix2 k q) := by
  obtain ⟨-, -, -, -, e0, e1, -⟩ := idx_facts6 t
  unfold iblk6
  rw [View.read_apply]
  show (V c (Pipeline.arrRef spec6 2) : S512x512.Idx → EReal) _ = _
  refine congrArg _ (funext fun a => Fin.ext ?_)
  match a with
  | ⟨0, _⟩ => show win6_2.index t (0 : Fin 2) * 512 + 1 * k.val = k.val; rw [e0]; omega
  | ⟨1, _⟩ => show win6_2.index t (1 : Fin 2) * 512 + 1 * q.val = q.val; rw [e1]; omega

/-- What point t writes back is block t of the row-scaled product. -/
theorem flushed6_eq (c : Dev nD) (t : Fin cfg6.N) :
    (dat6 V c).flushed 3 t = ((cfg6.win 3).blk t).view.read (Elt Ideal) (G6 V c) := by
  show (cfg6.win 3).cut (grid6.coords t) ((dat6 V c).after 3 t) = _
  rw [after6_3]
  unfold out6_3
  rw [View.canon_unit_zero hz6]
  simp only [View.ld_unit_zero (S := S2000x512) hz6, View.ld_unit_zero (S := S2000x1) hz6,
    View.ld_unit_zero (S := S512x512) hz6]
  obtain ⟨-, -, -, -, -, -, e0, e1⟩ := idx_facts6 t
  have ht : t.val < 5 := lt_of_lt_of_eq t.isLt N_6
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg6.win 3).blk t).view.emb (ix2 p q) = (ix2 r q : S10000x512.Idx) := by
    funext a; apply Fin.ext
    match a with
    | ⟨0, _⟩ => show win6_3.index t (0 : Fin 2) * 2000 + 1 * p.val = r.val; rw [e0, hr]; omega
    | ⟨1, _⟩ => show win6_3.index t (1 : Fin 2) * 512 + 1 * q.val = q.val; rw [e1]; omega
  show k6_pay1 (iblk6 V c 0 t) (iblk6 V c 1 t) (iblk6 V c 2 t) (ix2 p q)
      = G6 V c (((cfg6.win 3).blk t).view.emb (ix2 p q))
  rw [hemb]
  refine (k6_pay1_apply _ _ _ p q).trans (Eq.trans ?_ (scaledProduct_apply _ _ _ r q).symm)
  refine Finset.sum_congr rfl fun k _ => ?_
  rw [iblk6_0_apply V c t p k r hr, iblk6_1_apply V c t p r hr, iblk6_2_apply V c t k q]

/-- An index of the output array is in point t's block iff each coordinate is in the block's range on its axis. -/
theorem mem_blk6 (t : Fin cfg6.N) (i : S10000x512.Idx) :
    i ∈ ((cfg6.win 3).blk t).view.set ↔ ∀ a : Fin 2, win6_3.index t a * S2000x512.size a ≤ (i a).val
      ∧ (i a).val < win6_3.index t a * S2000x512.size a + S2000x512.size a := by
  show i ∈ ((View.whole (Pipeline.arrRef spec6 3)).slice (win6_3.rect t)).set ↔ _
  rw [View.set_slice_whole, Rect.mem_set_unit]
  exact Iff.rfl

/-- Row r of the output array is in the block of point r / 2000. -/
theorem cover6 (i : S10000x512.Idx) :
    ∃ t : Fin cfg6.N, (cfg6.win 3).flush t = true ∧ i ∈ ((cfg6.win 3).blk t).view.set := by
  have hi0 : (i 0).val < 10000 := (i 0).isLt
  have hi1 : (i 1).val < 512 := (i 1).isLt
  have hN : cfg6.N = 5 := N_6
  let t : Fin cfg6.N := ⟨(i 0).val / 2000, by rw [hN]; omega⟩
  obtain ⟨-, -, -, -, -, -, e0, e1⟩ := idx_facts6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e0]; show (i 0).val / 2000 * 2000 ≤ (i 0).val ∧ (i 0).val < (i 0).val / 2000 * 2000 + 2000; omega
  | ⟨1, _⟩ =>
    show win6_3.index t (1 : Fin 2) * 512 ≤ (i 1).val ∧ (i 1).val < win6_3.index t (1 : Fin 2) * 512 + 512
    rw [e1]; omega

/-- The region's output array after the run: the row-scaled product of the arrays the region finds. -/
theorem final6 (c : Dev nD) : (dat6 V c).arrAt 3 cfg6.N = G6 V c :=
  (dat6 V c).arrAt_eq_of_cover 3 (G6 V c) (fun t _ => flushed6_eq V c t) (cover6)

end Cert.KernelIdeal.Frm

end
-- ==== Proof.KI.Val7.lean ====
/-
  Region 7 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them. The argument is region 1's with the region's own names; the
  whole-array form and the reading of a recast vector are shared with it.
-/
import proofs.«144268_j91216515432581_2_alg».proof.Proof.KI.Reg7
import proofs.«144268_j91216515432581_2_alg».proof.Proof.KI.Val1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The body's arithmetic at row `p`, column `q` of a block. -/
theorem pay7_apply (x0 : Vec Ideal S2000x512 .f32) (x1 : Vec Ideal S2000x1 .f32) (x2 x3 x4 x5 : Vec Ideal S1x512 .f32)
    (p : Fin 2000) (q : Fin 512) :
    k7_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k7_pay1
  exact BnLaw.block_apply x0 x1 x2 x3 x4 x5 _ _ _ _ _ _ p q

/-- The output buffer after the body, at row `p`, column `q`: the one store is of the whole buffer. -/
theorem out7_6_apply (x0 : Vec Ideal S2000x512 .f32) (x1 : Vec Ideal S2000x1 .f32) (x2 x3 x4 x5 : Vec Ideal S1x512 .f32)
    (p : Fin 2000) (q : Fin 512) :
    out7_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out7_6
  rw [View.canon_unit_zero hz7]
  simp only [View.ld_unit_zero (S := S2000x512) hz7, View.ld_unit_zero (S := S2000x1) hz7, View.ld_unit_zero (S := S1x512) hz7]
  exact pay7_apply x0 x1 x2 x3 x4 x5 p q

/-- The block indices, decided over the five grid points: the row-blocked windows are at block (t, 0), the four
    one-row windows at block (0, 0). -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Block `t` of window 0 is rows 2000 t … 2000 t + 1999 of its array. -/
theorem iblk7_0_apply (c : Dev nD) (t : Fin cfg7.N) (p : Fin 2000) (q : Fin 512) (r : Fin 10000)
    (hr : r.val = t.val * 2000 + p.val) :
    (iblk7 V c 0 t : Vec Ideal S2000x512 .f32) (ix2 p q)
      = (V c (Pipeline.arrRef spec7 0) : S10000x512.Idx → Elt Ideal .f32) (ix2 r q) := by
  obtain ⟨e0, e1, -⟩ := idx_facts7 t
  unfold iblk7
  rw [View.read_apply]
  show V c (Pipeline.arrRef spec7 0) (((cfg7.win 0).blk t).view.emb (ix2 p q)) = V c (Pipeline.arrRef spec7 0) (ix2 r q)
  refine congrArg (V c (Pipeline.arrRef spec7 0)) (funext fun a => Fin.ext ?_)
  match a with
  | ⟨0, _⟩ => show win7_0.index t (0 : Fin 2) * 2000 + 1 * p.val = r.val; rw [e0, hr]; omega
  | ⟨1, _⟩ => show win7_0.index t (1 : Fin 2) * 512 + 1 * q.val = q.val; rw [e1]; omega

/-- Block `t` of window 1 is rows 2000 t … 2000 t + 1999 of the column of row factors. -/
theorem iblk7_1_apply (c : Dev nD) (t : Fin cfg7.N) (p : Fin 2000) (r : Fin 10000)
    (hr : r.val = t.val * 2000 + p.val) :
    (iblk7 V c 1 t : Vec Ideal S2000x1 .f32) (ix2 p (0 : Fin 1))
      = (V c (Pipeline.arrRef spec7 1) : S10000x1.Idx → Elt Ideal .f32) (ix2 r (0 : Fin 1)) := by
  obtain ⟨-, -, e0, e1, -⟩ := idx_facts7 t
  unfold iblk7
  rw [View.read_apply]
  show V c (Pipeline.arrRef spec7 1) (((cfg7.win 1).blk t).view.emb (ix2 p (0 : Fin 1))) = V c (Pipeline.arrRef spec7 1) (ix2 r (0 : Fin 1))
  refine congrArg (V c (Pipeline.arrRef spec7 1)) (funext fun a => Fin.ext ?_)
  match a with
  | ⟨0, _⟩ => show win7_1.index t (0 : Fin 2) * 2000 + 1 * p.val = r.val; rw [e0, hr]; omega
  | ⟨1, _⟩ => show win7_1.index t (1 : Fin 2) * 1 + 1 * 0 = 0; rw [e1]

/-- Window 2 is one row, fetched whole at every point. -/
theorem iblk7_2_apply (c : Dev nD) (t : Fin cfg7.N) (q : Fin 512) :
    (iblk7 V c 2 t : Vec Ideal S1x512 .f32) (ix2 (0 : Fin 1) q)
      = (V c (Pipeline.arrRef spec7 2) : S1x512.Idx → Elt Ideal .f32) (ix2 (0 : Fin 1) q) := by
  obtain ⟨-, -, -, -, e20, e21, e30, e31, e40, e41, e50, e51, -⟩ := idx_facts7 t
  unfold iblk7
  rw [View.read_apply]
  show V c (Pipeline.arrRef spec7 2) (((cfg7.win 2).blk t).view.emb (ix2 (0 : Fin 1) q)) = V c (Pipeline.arrRef spec7 2) (ix2 (0 : Fin 1) q)
  refine congrArg (V c (Pipeline.arrRef spec7 2)) (funext fun a => Fin.ext ?_)
  match a with
  | ⟨0, _⟩ => show win7_2.index t (0 : Fin 2) * 1 + 1 * 0 = 0; rw [e20]
  | ⟨1, _⟩ => show win7_2.index t (1 : Fin 2) * 512 + 1 * q.val = q.val; rw [e21]; omega

/-- Window 3 is one row, fetched whole at every point. -/
theorem iblk7_3_apply (c : Dev nD) (t : Fin cfg7.N) (q : Fin 512) :
    (iblk7 V c 3 t : Vec Ideal S1x512 .f32) (ix2 (0 : Fin 1) q)
      = (V c (Pipeline.arrRef spec7 3) : S1x512.Idx → Elt Ideal .f32) (ix2 (0 : Fin 1) q) := by
  obtain ⟨-, -, -, -, e20, e21, e30, e31, e40, e41, e50, e51, -⟩ := idx_facts7 t
  unfold iblk7
  rw [View.read_apply]
  show V c (Pipeline.arrRef spec7 3) (((cfg7.win 3).blk t).view.emb (ix2 (0 : Fin 1) q)) = V c (Pipeline.arrRef spec7 3) (ix2 (0 : Fin 1) q)
  refine congrArg (V c (Pipeline.arrRef spec7 3)) (funext fun a => Fin.ext ?_)
  match a with
  | ⟨0, _⟩ => show win7_3.index t (0 : Fin 2) * 1 + 1 * 0 = 0; rw [e30]
  | ⟨1, _⟩ => show win7_3.index t (1 : Fin 2) * 512 + 1 * q.val = q.val; rw [e31]; omega

/-- Window 4 is one row, fetched whole at every point. -/
theorem iblk7_4_apply (c : Dev nD) (t : Fin cfg7.N) (q : Fin 512) :
    (iblk7 V c 4 t : Vec Ideal S1x512 .f32) (ix2 (0 : Fin 1) q)
      = (V c (Pipeline.arrRef spec7 4) : S1x512.Idx → Elt Ideal .f32) (ix2 (0 : Fin 1) q) := by
  obtain ⟨-, -, -, -, e20, e21, e30, e31, e40, e41, e50, e51, -⟩ := idx_facts7 t
  unfold iblk7
  rw [View.read_apply]
  show V c (Pipeline.arrRef spec7 4) (((cfg7.win 4).blk t).view.emb (ix2 (0 : Fin 1) q)) = V c (Pipeline.arrRef spec7 4) (ix2 (0 : Fin 1) q)
  refine congrArg (V c (Pipeline.arrRef spec7 4)) (funext fun a => Fin.ext ?_)
  match a with
  | ⟨0, _⟩ => show win7_4.index t (0 : Fin 2) * 1 + 1 * 0 = 0; rw [e40]
  | ⟨1, _⟩ => show win7_4.index t (1 : Fin 2) * 512 + 1 * q.val = q.val; rw [e41]; omega

/-- Window 5 is one row, fetched whole at every point. -/
theorem iblk7_5_apply (c : Dev nD) (t : Fin cfg7.N) (q : Fin 512) :
    (iblk7 V c 5 t : Vec Ideal S1x512 .f32) (ix2 (0 : Fin 1) q)
      = (V c (Pipeline.arrRef spec7 5) : S1x512.Idx → Elt Ideal .f32) (ix2 (0 : Fin 1) q) := by
  obtain ⟨-, -, -, -, e20, e21, e30, e31, e40, e41, e50, e51, -⟩ := idx_facts7 t
  unfold iblk7
  rw [View.read_apply]
  show V c (Pipeline.arrRef spec7 5) (((cfg7.win 5).blk t).view.emb (ix2 (0 : Fin 1) q)) = V c (Pipeline.arrRef spec7 5) (ix2 (0 : Fin 1) q)
  refine congrArg (V c (Pipeline.arrRef spec7 5)) (funext fun a => Fin.ext ?_)
  match a with
  | ⟨0, _⟩ => show win7_5.index t (0 : Fin 2) * 1 + 1 * 0 = 0; rw [e50]
  | ⟨1, _⟩ => show win7_5.index t (1 : Fin 2) * 512 + 1 * q.val = q.val; rw [e51]; omega

/-- Element (p, q) of what point `t` leaves in the output buffer is element (2000 t + p, q) of the whole-array form:
    the block's element of the array and of the column of row factors sit in row 2000 t + p, and the four rows'
    entries at column q are entry q of each vector. -/
theorem elem7_eq (c : Dev nD) (t : Fin cfg7.N) (v2 v3 v4 v5 : FVec Ideal S512 .f32) (hsc : S512.ShapeCasts S1x512)
    (h2 : (V c (Pipeline.arrRef spec7 2) : S1x512.Idx → Elt Ideal .f32) = shapeCast S1x512 v2 hsc)
    (h3 : (V c (Pipeline.arrRef spec7 3) : S1x512.Idx → Elt Ideal .f32) = shapeCast S1x512 v3 hsc)
    (h4 : (V c (Pipeline.arrRef spec7 4) : S1x512.Idx → Elt Ideal .f32) = shapeCast S1x512 v4 hsc)
    (h5 : (V c (Pipeline.arrRef spec7 5) : S1x512.Idx → Elt Ideal .f32) = shapeCast S1x512 v5 hsc)
    (p : Fin 2000) (q : Fin 512) (r : Fin 10000) (hr : r.val = t.val * 2000 + p.val) :
    out7_6 (iblk7 V c 0 t) (iblk7 V c 1 t) (iblk7 V c 2 t) (iblk7 V c 3 t) (iblk7 V c 4 t) (iblk7 V c 5 t) (ix2 p q)
      = bnWhole (V c (Pipeline.arrRef spec7 0)) (V c (Pipeline.arrRef spec7 1)) v2 v3 v4 v5 (ix2 r q) := by
  refine (out7_6_apply (iblk7 V c 0 t) (iblk7 V c 1 t) (iblk7 V c 2 t) (iblk7 V c 3 t) (iblk7 V c 4 t) (iblk7 V c 5 t)
    p q).trans ?_
  refine Eq.trans ?_ (BnLaw.whole_apply (m := 10000) (n := 512) (V c (Pipeline.arrRef spec7 0)) (V c (Pipeline.arrRef spec7 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk7_0_apply V c t p q r hr
  have e1 := iblk7_1_apply V c t p r hr
  have e2 := (iblk7_2_apply V c t q).trans (row_of_vec _ v2 hsc h2 q)
  have e3 := (iblk7_3_apply V c t q).trans (row_of_vec _ v3 hsc h3 q)
  have e4 := (iblk7_4_apply V c t q).trans (row_of_vec _ v4 hsc h4 q)
  have e5 := (iblk7_5_apply V c t q).trans (row_of_vec _ v5 hsc h5 q)
  exact congr (congr (congr (congr (congr (congr (congrArg BnLaw.elem e0) e1) e2) e3) e4) e5) rfl

/-- What point `t` writes back is block `t` of the whole-array form. -/
theorem flushed7_eq (c : Dev nD) (t : Fin cfg7.N) (v2 v3 v4 v5 : FVec Ideal S512 .f32) (hsc : S512.ShapeCasts S1x512)
    (h2 : (V c (Pipeline.arrRef spec7 2) : S1x512.Idx → Elt Ideal .f32) = shapeCast S1x512 v2 hsc)
    (h3 : (V c (Pipeline.arrRef spec7 3) : S1x512.Idx → Elt Ideal .f32) = shapeCast S1x512 v3 hsc)
    (h4 : (V c (Pipeline.arrRef spec7 4) : S1x512.Idx → Elt Ideal .f32) = shapeCast S1x512 v4 hsc)
    (h5 : (V c (Pipeline.arrRef spec7 5) : S1x512.Idx → Elt Ideal .f32) = shapeCast S1x512 v5 hsc) :
    (dat7 V c).flushed 6 t = ((cfg7.win 6).blk t).view.read (Elt Ideal)
      (bnWhole (V c (Pipeline.arrRef spec7 0)) (V c (Pipeline.arrRef spec7 1)) v2 v3 v4 v5) := by
  show (cfg7.win 6).cut (grid7.coords t) ((dat7 V c).after 6 t) = _
  rw [after7_6]
  funext j
  have hN : cfg7.N = 5 := N_7
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts7 t
  have hx : (cfg7.win 6).xinj (grid7.coords t) j = ix2 (⟨(j 0).val, h0⟩ : Fin 2000) (⟨(j 1).val, h1⟩ : Fin 512) := by
    funext a
    match a with
    | ⟨0, _⟩ => rfl
    | ⟨1, _⟩ => rfl
  have he : ((cfg7.win 6).blk t).view.emb j
      = ix2 (⟨t.val * 2000 + (j 0).val, by omega⟩ : Fin 10000) (⟨(j 1).val, h1⟩ : Fin 512) := by
    funext a
    apply Fin.ext
    match a with
    | ⟨0, _⟩ => show win7_6.index t (0 : Fin 2) * 2000 + 1 * (j 0).val = t.val * 2000 + (j 0).val; rw [e60]; omega
    | ⟨1, _⟩ => show win7_6.index t (1 : Fin 2) * 512 + 1 * (j 1).val = (j 1).val; rw [e61]; omega
  show out7_6 (iblk7 V c 0 t) (iblk7 V c 1 t) (iblk7 V c 2 t) (iblk7 V c 3 t) (iblk7 V c 4 t) (iblk7 V c 5 t)
      ((cfg7.win 6).xinj (grid7.coords t) j)
    = bnWhole (V c (Pipeline.arrRef spec7 0)) (V c (Pipeline.arrRef spec7 1)) v2 v3 v4 v5 (((cfg7.win 6).blk t).view.emb j)
  rw [hx, he]
  exact elem7_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk7_6 (t : Fin cfg7.N) (i : S10000x512.Idx) :
    i ∈ ((cfg7.win 6).blk t).view.set ↔ ∀ a : Fin 2, win7_6.index t a * S2000x512.size a ≤ (i a).val
      ∧ (i a).val < win7_6.index t a * S2000x512.size a + S2000x512.size a := by
  show i ∈ ((View.whole main_v140).slice (win7_6.rect t)).set ↔ _
  rw [View.set_slice_whole, Rect.mem_set_unit]
  exact Iff.rfl

/-- The five blocks tile the array: row `r` lies in the block of point `r / 2000`. -/
theorem covers7_6 (i : S10000x512.Idx) :
    ∃ t : Fin cfg7.N, (cfg7.win 6).flush t = true ∧ i ∈ ((cfg7.win 6).blk t).view.set := by
  have hi0 : (i 0).val < 10000 := (i 0).isLt
  have hi1 : (i 1).val < 512 := (i 1).isLt
  have hN : cfg7.N = 5 := N_7
  have hlt : (i 0).val / 2000 < cfg7.N := by rw [hN]; omega
  obtain ⟨-, -, -, -, -, -, -, -, -, -, -, -, e60, e61⟩ := idx_facts7 ⟨(i 0).val / 2000, hlt⟩
  refine ⟨⟨(i 0).val / 2000, hlt⟩, flush7_6 _, ?_⟩
  rw [mem_blk7_6]
  intro a
  match a with
  | ⟨0, _⟩ =>
    show win7_6.index ⟨(i 0).val / 2000, hlt⟩ (0 : Fin 2) * 2000 ≤ (i 0).val
      ∧ (i 0).val < win7_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win7_6.index ⟨(i 0).val / 2000, hlt⟩ (1 : Fin 2) * 512 ≤ (i 1).val
      ∧ (i 1).val < win7_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val7 (c : Dev nD) (v2 v3 v4 v5 : FVec Ideal S512 .f32) (hsc : S512.ShapeCasts S1x512)
    (h2 : (V c (Pipeline.arrRef spec7 2) : S1x512.Idx → Elt Ideal .f32) = shapeCast S1x512 v2 hsc)
    (h3 : (V c (Pipeline.arrRef spec7 3) : S1x512.Idx → Elt Ideal .f32) = shapeCast S1x512 v3 hsc)
    (h4 : (V c (Pipeline.arrRef spec7 4) : S1x512.Idx → Elt Ideal .f32) = shapeCast S1x512 v4 hsc)
    (h5 : (V c (Pipeline.arrRef spec7 5) : S1x512.Idx → Elt Ideal .f32) = shapeCast S1x512 v5 hsc) :
    (dat7 V c).arrAt 6 cfg7.N
      = bnWhole (V c (Pipeline.arrRef spec7 0)) (V c (Pipeline.arrRef spec7 1)) v2 v3 v4 v5 :=
  (dat7 V c).arrAt_eq_of_cover 6 _ (fun t _ => flushed7_eq V c t v2 v3 v4 v5 hsc h2 h3 h4 h5) covers7_6

/-- The same with the whole-array form written out operation by operation. -/
theorem val7_spelt (c : Dev nD) (v2 v3 v4 v5 : FVec Ideal S512 .f32) (hsc : S512.ShapeCasts S1x512)
    (h2 : (V c (Pipeline.arrRef spec7 2) : S1x512.Idx → Elt Ideal .f32) = shapeCast S1x512 v2 hsc)
    (h3 : (V c (Pipeline.arrRef spec7 3) : S1x512.Idx → Elt Ideal .f32) = shapeCast S1x512 v3 hsc)
    (h4 : (V c (Pipeline.arrRef spec7 4) : S1x512.Idx → Elt Ideal .f32) = shapeCast S1x512 v4 hsc)
    (h5 : (V c (Pipeline.arrRef spec7 5) : S1x512.Idx → Elt Ideal .f32) = shapeCast S1x512 v5 hsc) :
    ((dat7 V c).arrAt 6 cfg7.N : S10000x512.Idx → Elt Ideal .f32)
      = maximumf (addf (mulf (subf (addf (mulf (V c (Pipeline.arrRef spec7 0) : S10000x512.Idx → Elt Ideal .f32)
          (broadcastInDim S10000x512 ![0, 1] Cert.ReferenceIdeal.Gen.bcast_S10000x1_S10000x512_0_1 (V c (Pipeline.arrRef spec7 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val7 V c v2 v3 v4 v5 hsc h2 h3 h4 h5

end Cert.KernelIdeal.Frm

end
-- ==== Proof.KI.Chain4.lean ====
/-
  The chain of @main at the exact values, layer 4: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 4 output of the argument arrays. Every buffer a later item reads is carried unchanged across the items that
  do not write it.
-/
import proofs.«144268_j91216515432581_2_alg».proof.Proof.KI.Chain3
import proofs.«144268_j91216515432581_2_alg».proof.Proof.KI.Val6
import proofs.«144268_j91216515432581_2_alg».proof.Proof.KI.Val7
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 4 -/

set_option maxHeartbeats 2000000 in
/-- The layer's weights: matrix 2 of the weight array. -/
theorem w_at17 : (B17 m c main_v110 : Cert.ReferenceIdeal.S512x512.Idx → EReal) = Ref.weightOf ![2, 0, 0] Cert.ReferenceIdeal.Gen.slices_S5x512x512_S1x512x512_2_0_0 (A2 m c) :=
  (show (B17 m c main_v110 : Cert.ReferenceIdeal.S512x512.Idx → EReal) = Ref.weightOf ![2, 0, 0] Cert.ReferenceIdeal.Gen.slices_S5x512x512_S1x512x512_2_0_0 (B16 m c main_arg2) by
    dsimp only [B17, hostOps6]; after_results; rfl).trans
  (congrArg (Ref.weightOf ![2, 0, 0] Cert.ReferenceIdeal.Gen.slices_S5x512x512_S1x512x512_2_0_0) (arg2_at16 m c))
theorem h3_at17 : (B17 m c main_v108 : Cert.ReferenceIdeal.S10000x512.Idx → EReal) = H3 m c :=
  ((StableHlo.after_of_writes_sub hostOps6 (B16 m c) hostOps6_writes (r := main_v108) (by decide)).trans <| rfl).trans (out5 m c)
theorem v13_at17' : (B17 m c main_v13 : Cert.ReferenceIdeal.S10000x1.Idx → EReal) = Ref.normCol (A10 m c) :=
  ((StableHlo.after_of_writes_sub hostOps6 (B16 m c) hostOps6_writes (r := main_v13) (by decide)).trans <|
    (B16_of_ne m c main_v13 (by decide)).trans <|
    (StableHlo.after_of_writes_sub hostOps5 (B14 m c) hostOps5_writes (r := main_v13) (by decide)).trans <|
    (B14_of_ne m c main_v13 (by decide)).trans <|
    (StableHlo.after_of_writes_sub hostOps4 (B12 m c) hostOps4_writes (r := main_v13) (by decide)).trans <|
    (B12_of_ne m c main_v13 (by decide)).trans <|
    (StableHlo.after_of_writes_sub hostOps3 (B10 m c) hostOps3_writes (r := main_v13) (by decide)).trans <|
    (B10_of_ne m c main_v13 (by decide)).trans <|
    (StableHlo.after_of_writes_sub hostOps2 (B8 m c) hostOps2_writes (r := main_v13) (by decide)).trans <|
    (B8_of_ne m c main_v13 (by decide)).trans <|
    (StableHlo.after_of_writes_sub hostOps1 (B6 m c) hostOps1_writes (r := main_v13) (by decide)).trans <|
    (B6_of_ne m c main_v13 (by decide)).trans <| rfl).trans (v13_at5 m c)
/-- Region 6 leaves the layer's scaled product. -/
theorem out6 : (B18 m c main_v111 : Cert.ReferenceIdeal.S10000x512.Idx → EReal) = Ref.scaled (H3 m c) (A10 m c) (Ref.weightOf ![2, 0, 0] Cert.ReferenceIdeal.Gen.slices_S5x512x512_S1x512x512_2_0_0 (A2 m c)) :=
  (B18_out m c).trans <| (final6 (T17 m) c).trans <|
    (scaledProduct_congr (h3_at17 m c) (v13_at17' m c) (w_at17 m c)).trans rfl
theorem arg3_at18 : B18 m c main_arg3 = A3 m c :=
  (B18_of_ne m c main_arg3 (by decide)).trans <|
    (StableHlo.after_of_writes_sub hostOps6 (B16 m c) hostOps6_writes (r := main_arg3) (by decide)).trans <|
    (B16_of_ne m c main_arg3 (by decide)).trans <|
    (StableHlo.after_of_writes_sub hostOps5 (B14 m c) hostOps5_writes (r := main_arg3) (by decide)).trans <|
    (B14_of_ne m c main_arg3 (by decide)).trans <|
    (StableHlo.after_of_writes_sub hostOps4 (B12 m c) hostOps4_writes (r := main_arg3) (by decide)).trans <|
    (B12_of_ne m c main_arg3 (by decide)).trans <|
    (StableHlo.after_of_writes_sub hostOps3 (B10 m c) hostOps3_writes (r := main_arg3) (by decide)).trans <|
    (B10_of_ne m c main_arg3 (by decide)).trans <|
    (StableHlo.after_of_writes_sub hostOps2 (B8 m c) hostOps2_writes (r := main_arg3) (by decide)).trans <|
    (B8_of_ne m c main_arg3 (by decide)).trans <|
    (StableHlo.after_of_writes_sub hostOps1 (B6 m c) hostOps1_writes (r := main_arg3) (by decide)).trans <|
    (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at18 : B18 m c main_arg4 = A4 m c :=
  (B18_of_ne m c main_arg4 (by decide)).trans <|
    (StableHlo.after_of_writes_sub hostOps6 (B16 m c) hostOps6_writes (r := main_arg4) (by decide)).trans <|
    (B16_of_ne m c main_arg4 (by decide)).trans <|
    (StableHlo.after_of_writes_sub hostOps5 (B14 m c) hostOps5_writes (r := main_arg4) (by decide)).trans <|
    (B14_of_ne m c main_arg4 (by decide)).trans <|
    (StableHlo.after_of_writes_sub hostOps4 (B12 m c) hostOps4_writes (r := main_arg4) (by decide)).trans <|
    (B12_of_ne m c main_arg4 (by decide)).trans <|
    (StableHlo.after_of_writes_sub hostOps3 (B10 m c) hostOps3_writes (r := main_arg4) (by decide)).trans <|
    (B10_of_ne m c main_arg4 (by decide)).trans <|
    (StableHlo.after_of_writes_sub hostOps2 (B8 m c) hostOps2_writes (r := main_arg4) (by decide)).trans <|
    (B8_of_ne m c main_arg4 (by decide)).trans <|
    (StableHlo.after_of_writes_sub hostOps1 (B6 m c) hostOps1_writes (r := main_arg4) (by decide)).trans <|
    (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at18 : B18 m c main_arg5 = A5 m c :=
  (B18_of_ne m c main_arg5 (by decide)).trans <|
    (StableHlo.after_of_writes_sub hostOps6 (B16 m c) hostOps6_writes (r := main_arg5) (by decide)).trans <|
    (B16_of_ne m c main_arg5 (by decide)).trans <|
    (StableHlo.after_of_writes_sub hostOps5 (B14 m c) hostOps5_writes (r := main_arg5) (by decide)).trans <|
    (B14_of_ne m c main_arg5 (by decide)).trans <|
    (StableHlo.after_of_writes_sub hostOps4 (B12 m c) hostOps4_writes (r := main_arg5) (by decide)).trans <|
    (B12_of_ne m c main_arg5 (by decide)).trans <|
    (StableHlo.after_of_writes_sub hostOps3 (B10 m c) hostOps3_writes (r := main_arg5) (by decide)).trans <|
    (B10_of_ne m c main_arg5 (by decide)).trans <|
    (StableHlo.after_of_writes_sub hostOps2 (B8 m c) hostOps2_writes (r := main_arg5) (by decide)).trans <|
    (B8_of_ne m c main_arg5 (by decide)).trans <|
    (StableHlo.after_of_writes_sub hostOps1 (B6 m c) hostOps1_writes (r := main_arg5) (by decide)).trans <|
    (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at18 : B18 m c main_arg6 = A6 m c :=
  (B18_of_ne m c main_arg6 (by decide)).trans <|
    (StableHlo.after_of_writes_sub hostOps6 (B16 m c) hostOps6_writes (r := main_arg6) (by decide)).trans <|
    (B16_of_ne m c main_arg6 (by decide)).trans <|
    (StableHlo.after_of_writes_sub hostOps5 (B14 m c) hostOps5_writes (r := main_arg6) (by decide)).trans <|
    (B14_of_ne m c main_arg6 (by decide)).trans <|
    (StableHlo.after_of_writes_sub hostOps4 (B12 m c) hostOps4_writes (r := main_arg6) (by decide)).trans <|
    (B12_of_ne m c main_arg6 (by decide)).trans <|
    (StableHlo.after_of_writes_sub hostOps3 (B10 m c) hostOps3_writes (r := main_arg6) (by decide)).trans <|
    (B10_of_ne m c main_arg6 (by decide)).trans <|
    (StableHlo.after_of_writes_sub hostOps2 (B8 m c) hostOps2_writes (r := main_arg6) (by decide)).trans <|
    (B8_of_ne m c main_arg6 (by decide)).trans <|
    (StableHlo.after_of_writes_sub hostOps1 (B6 m c) hostOps1_writes (r := main_arg6) (by decide)).trans <|
    (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at18 : B18 m c main_arg7 = A7 m c :=
  (B18_of_ne m c main_arg7 (by decide)).trans <|
    (StableHlo.after_of_writes_sub hostOps6 (B16 m c) hostOps6_writes (r := main_arg7) (by decide)).trans <|
    (B16_of_ne m c main_arg7 (by decide)).trans <|
    (StableHlo.after_of_writes_sub hostOps5 (B14 m c) hostOps5_writes (r := main_arg7) (by decide)).trans <|
    (B14_of_ne m c main_arg7 (by decide)).trans <|
    (StableHlo.after_of_writes_sub hostOps4 (B12 m c) hostOps4_writes (r := main_arg7) (by decide)).trans <|
    (B12_of_ne m c main_arg7 (by decide)).trans <|
    (StableHlo.after_of_writes_sub hostOps3 (B10 m c) hostOps3_writes (r := main_arg7) (by decide)).trans <|
    (B10_of_ne m c main_arg7 (by decide)).trans <|
    (StableHlo.after_of_writes_sub hostOps2 (B8 m c) hostOps2_writes (r := main_arg7) (by decide)).trans <|
    (B8_of_ne m c main_arg7 (by decide)).trans <|
    (StableHlo.after_of_writes_sub hostOps1 (B6 m c) hostOps1_writes (r := main_arg7) (by decide)).trans <|
    (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at18 : B18 m c main_arg10 = A10 m c :=
  (B18_of_ne m c main_arg10 (by decide)).trans <|
    (StableHlo.after_of_writes_sub hostOps6 (B16 m c) hostOps6_writes (r := main_arg10) (by decide)).trans <|
    (B16_of_ne m c main_arg10 (by decide)).trans <|
    (StableHlo.after_of_writes_sub hostOps5 (B14 m c) hostOps5_writes (r := main_arg10) (by decide)).trans <|
    (B14_of_ne m c main_arg10 (by decide)).trans <|
    (StableHlo.after_of_writes_sub hostOps4 (B12 m c) hostOps4_writes (r := main_arg10) (by decide)).trans <|
    (B12_of_ne m c main_arg10 (by decide)).trans <|
    (StableHlo.after_of_writes_sub hostOps3 (B10 m c) hostOps3_writes (r := main_arg10) (by decide)).trans <|
    (B10_of_ne m c main_arg10 (by decide)).trans <|
    (StableHlo.after_of_writes_sub hostOps2 (B8 m c) hostOps2_writes (r := main_arg10) (by decide)).trans <|
    (B8_of_ne m c main_arg10 (by decide)).trans <|
    (StableHlo.after_of_writes_sub hostOps1 (B6 m c) hostOps1_writes (r := main_arg10) (by decide)).trans <|
    (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at18 : B18 m c main_arg11 = A11 m c :=
  (B18_of_ne m c main_arg11 (by decide)).trans <|
    (StableHlo.after_of_writes_sub hostOps6 (B16 m c) hostOps6_writes (r := main_arg11) (by decide)).trans <|
    (B16_of_ne m c main_arg11 (by decide)).trans <|
    (StableHlo.after_of_writes_sub hostOps5 (B14 m c) hostOps5_writes (r := main_arg11) (by decide)).trans <|
    (B14_of_ne m c main_arg11 (by decide)).trans <|
    (StableHlo.after_of_writes_sub hostOps4 (B12 m c) hostOps4_writes (r := main_arg11) (by decide)).trans <|
    (B12_of_ne m c main_arg11 (by decide)).trans <|
    (StableHlo.after_of_writes_sub hostOps3 (B10 m c) hostOps3_writes (r := main_arg11) (by decide)).trans <|
    (B10_of_ne m c main_arg11 (by decide)).trans <|
    (StableHlo.after_of_writes_sub hostOps2 (B8 m c) hostOps2_writes (r := main_arg11) (by decide)).trans <|
    (B8_of_ne m c main_arg11 (by decide)).trans <|
    (StableHlo.after_of_writes_sub hostOps1 (B6 m c) hostOps1_writes (r := main_arg11) (by decide)).trans <|
    (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at19 : (B19 m c main_v121 : Cert.ReferenceIdeal.S10000x512.Idx → EReal) = Ref.aggregate (Ref.scaled (H3 m c) (A10 m c) (Ref.weightOf ![2, 0, 0] Cert.ReferenceIdeal.Gen.slices_S5x512x512_S1x512x512_2_0_0 (A2 m c))) (A10 m c) (A11 m c) :=
  (show (B19 m c main_v121 : Cert.ReferenceIdeal.S10000x512.Idx → EReal) = Ref.aggregate (B18 m c main_v111) (B18 m c main_arg10) (B18 m c main_arg11) by
    dsimp only [B19, hostOps7]; after_results; rfl).trans
  (aggregate_congr (out6 m c) (arg10_at18 m c) (arg11_at18 m c))
set_option maxHeartbeats 2000000 in
theorem row2_at19 : (B19 m c main_v136 : S1x512.Idx → EReal) = shapeCast S1x512 (Ref.rowOf ![3, 0] Cert.ReferenceIdeal.Gen.slices_S6x512_S1x512_3_0 (A3 m c)) shapeCasts_S512_S1x512 :=
  (show (B19 m c main_v136 : S1x512.Idx → EReal) = shapeCast S1x512 (Ref.rowOf ![3, 0] Cert.ReferenceIdeal.Gen.slices_S6x512_S1x512_3_0 (B18 m c main_arg3)) shapeCasts_S512_S1x512 by
    dsimp only [B19, hostOps7]; after_results; rfl).trans
  (congrArg (fun a => shapeCast S1x512 (Ref.rowOf ![3, 0] Cert.ReferenceIdeal.Gen.slices_S6x512_S1x512_3_0 a) shapeCasts_S512_S1x512) (arg3_at18 m c))
set_option maxHeartbeats 2000000 in
theorem row3_at19 : (B19 m c main_v137 : S1x512.Idx → EReal) = shapeCast S1x512 (Ref.rowOf ![3, 0] Cert.ReferenceIdeal.Gen.slices_S6x512_S1x512_3_0 (A6 m c)) shapeCasts_S512_S1x512 :=
  (show (B19 m c main_v137 : S1x512.Idx → EReal) = shapeCast S1x512 (Ref.rowOf ![3, 0] Cert.ReferenceIdeal.Gen.slices_S6x512_S1x512_3_0 (B18 m c main_arg6)) shapeCasts_S512_S1x512 by
    dsimp only [B19, hostOps7]; after_results; rfl).trans
  (congrArg (fun a => shapeCast S1x512 (Ref.rowOf ![3, 0] Cert.ReferenceIdeal.Gen.slices_S6x512_S1x512_3_0 a) shapeCasts_S512_S1x512) (arg6_at18 m c))
set_option maxHeartbeats 2000000 in
theorem row4_at19 : (B19 m c main_v138 : S1x512.Idx → EReal) = shapeCast S1x512 (Ref.scaleOf ![3, 0] Cert.ReferenceIdeal.Gen.slices_S6x512_S1x512_3_0 (A4 m c) (A7 m c)) shapeCasts_S512_S1x512 :=
  (show (B19 m c main_v138 : S1x512.Idx → EReal) = shapeCast S1x512 (Ref.scaleOf ![3, 0] Cert.ReferenceIdeal.Gen.slices_S6x512_S1x512_3_0 (B18 m c main_arg4) (B18 m c main_arg7)) shapeCasts_S512_S1x512 by
    dsimp only [B19, hostOps7]; after_results; rfl).trans
  (congrArg₂ (fun a b => shapeCast S1x512 (Ref.scaleOf ![3, 0] Cert.ReferenceIdeal.Gen.slices_S6x512_S1x512_3_0 a b) shapeCasts_S512_S1x512) (arg4_at18 m c) (arg7_at18 m c))
set_option maxHeartbeats 2000000 in
theorem row5_at19 : (B19 m c main_v139 : S1x512.Idx → EReal) = shapeCast S1x512 (Ref.rowOf ![3, 0] Cert.ReferenceIdeal.Gen.slices_S6x512_S1x512_3_0 (A5 m c)) shapeCasts_S512_S1x512 :=
  (show (B19 m c main_v139 : S1x512.Idx → EReal) = shapeCast S1x512 (Ref.rowOf ![3, 0] Cert.ReferenceIdeal.Gen.slices_S6x512_S1x512_3_0 (B18 m c main_arg5)) shapeCasts_S512_S1x512 by
    dsimp only [B19, hostOps7]; after_results; rfl).trans
  (congrArg (fun a => shapeCast S1x512 (Ref.rowOf ![3, 0] Cert.ReferenceIdeal.Gen.slices_S6x512_S1x512_3_0 a) shapeCasts_S512_S1x512) (arg5_at18 m c))
theorem v14_at19' : (B19 m c main_v14 : Cert.ReferenceIdeal.S10000x1.Idx → EReal) = Ref.normCol (A11 m c) :=
  ((StableHlo.after_of_writes_sub hostOps7 (B18 m c) hostOps7_writes (r := main_v14) (by decide)).trans <|
    (B18_of_ne m c main_v14 (by decide)).trans <|
    (StableHlo.after_of_writes_sub hostOps6 (B16 m c) hostOps6_writes (r := main_v14) (by decide)).trans <|
    (B16_of_ne m c main_v14 (by decide)).trans <|
    (StableHlo.after_of_writes_sub hostOps5 (B14 m c) hostOps5_writes (r := main_v14) (by decide)).trans <|
    (B14_of_ne m c main_v14 (by decide)).trans <|
    (StableHlo.after_of_writes_sub hostOps4 (B12 m c) hostOps4_writes (r := main_v14) (by decide)).trans <|
    (B12_of_ne m c main_v14 (by decide)).trans <|
    (StableHlo.after_of_writes_sub hostOps3 (B10 m c) hostOps3_writes (r := main_v14) (by decide)).trans <|
    (B10_of_ne m c main_v14 (by decide)).trans <|
    (StableHlo.after_of_writes_sub hostOps2 (B8 m c) hostOps2_writes (r := main_v14) (by decide)).trans <|
    (B8_of_ne m c main_v14 (by decide)).trans <|
    (StableHlo.after_of_writes_sub hostOps1 (B6 m c) hostOps1_writes (r := main_v14) (by decide)).trans <|
    (B6_of_ne m c main_v14 (by decide)).trans <| rfl).trans (v14_at5 m c)
/-- and region 7 leaves the layer's output. -/
theorem out7 : (B20 m c main_v140 : Cert.ReferenceIdeal.S10000x512.Idx → EReal) = H4 m c :=
  (B20_out m c).trans <|
    (val7 (T19 m) c (Ref.rowOf ![3, 0] Cert.ReferenceIdeal.Gen.slices_S6x512_S1x512_3_0 (A3 m c)) (Ref.rowOf ![3, 0] Cert.ReferenceIdeal.Gen.slices_S6x512_S1x512_3_0 (A6 m c)) (Ref.scaleOf ![3, 0] Cert.ReferenceIdeal.Gen.slices_S6x512_S1x512_3_0 (A4 m c) (A7 m c)) (Ref.rowOf ![3, 0] Cert.ReferenceIdeal.Gen.slices_S6x512_S1x512_3_0 (A5 m c))
      shapeCasts_S512_S1x512 (row2_at19 m c) (row3_at19 m c) (row4_at19 m c) (row5_at19 m c)).trans <|
    (bnWhole_congr _ _ _ _ (agg_at19 m c) (v14_at19' m c)).trans rfl
theorem arg2_at20 : B20 m c main_arg2 = A2 m c :=
  (B20_of_ne m c main_arg2 (by decide)).trans <|
    (StableHlo.after_of_writes_sub hostOps7 (B18 m c) hostOps7_writes (r := main_arg2) (by decide)).trans <|
    (B18_of_ne m c main_arg2 (by decide)).trans <|
    (StableHlo.after_of_writes_sub hostOps6 (B16 m c) hostOps6_writes (r := main_arg2) (by decide)).trans <|
    (B16_of_ne m c main_arg2 (by decide)).trans <|
    (StableHlo.after_of_writes_sub hostOps5 (B14 m c) hostOps5_writes (r := main_arg2) (by decide)).trans <|
    (B14_of_ne m c main_arg2 (by decide)).trans <|
    (StableHlo.after_of_writes_sub hostOps4 (B12 m c) hostOps4_writes (r := main_arg2) (by decide)).trans <|
    (B12_of_ne m c main_arg2 (by decide)).trans <|
    (StableHlo.after_of_writes_sub hostOps3 (B10 m c) hostOps3_writes (r := main_arg2) (by decide)).trans <|
    (B10_of_ne m c main_arg2 (by decide)).trans <|
    (StableHlo.after_of_writes_sub hostOps2 (B8 m c) hostOps2_writes (r := main_arg2) (by decide)).trans <|
    (B8_of_ne m c main_arg2 (by decide)).trans <|
    (StableHlo.after_of_writes_sub hostOps1 (B6 m c) hostOps1_writes (r := main_arg2) (by decide)).trans <|
    (B6_of_ne m c main_arg2 (by decide)).trans <|
    (StableHlo.after_of_writes_sub hostOps0_4 (B4 m c) hostOps0_4_writes (r := main_arg2) (by decide)).trans <|
    (StableHlo.after_of_writes_sub hostOps0_3 (B3 m c) hostOps0_3_writes (r := main_arg2) (by decide)).trans <|
    (StableHlo.after_of_writes_sub hostOps0_2 (B2 m c) hostOps0_2_writes (r := main_arg2) (by decide)).trans <|
    (StableHlo.after_of_writes_sub hostOps0_1 (B1 m c) hostOps0_1_writes (r := main_arg2) (by decide)).trans <|
    (StableHlo.after_of_writes_sub hostOps0 (B0 m c) hostOps0_writes (r := main_arg2) (by decide)).trans <| rfl

end Cert.KernelIdeal.Frm

end
-- ==== Proof.KI.Val8.lean ====
/-
  Region 8 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg8
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz8 : (![0, 0] : Fin 2 → Nat) = fun _ => 0 := funext fun a => by fin_cases a <;> rfl

/-- The block indices over the grid: at point t the row blocks of the input, of the row factors and of the output
    are block t, and the weight matrix is its one block. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What the region's output array ends holding: the row-scaled product of the arrays the region finds. -/
abbrev G8 (c : Dev nD) : S10000x512.Idx → EReal :=
  scaledProduct (V c (Pipeline.arrRef spec8 0)) (V c (Pipeline.arrRef spec8 1)) (V c (Pipeline.arrRef spec8 2))

/-- The input's block at point t is rows 2000 t .. 2000 t + 1999 of its array. -/
theorem iblk8_0_apply (c : Dev nD) (t : Fin cfg8.N) (p : Fin 2000) (k : Fin 512) (r : Fin 10000)
    (hr : r.val = 2000 * t.val + p.val) :
    (iblk8 V c 0 t : Vec Ideal S2000x512 .f32) (ix2 p k)
      = (V c (Pipeline.arrRef spec8 0) : S10000x512.Idx → EReal) (ix2 r k) := by
  obtain ⟨e0, e1, -⟩ := idx_facts8 t
  unfold iblk8
  rw [View.read_apply]
  show (V c (Pipeline.arrRef spec8 0) : S10000x512.Idx → EReal) _ = _
  refine congrArg _ (funext fun a => Fin.ext ?_)
  match a with
  | ⟨0, _⟩ => show win8_0.index t (0 : Fin 2) * 2000 + 1 * p.val = r.val; rw [e0, hr]; omega
  | ⟨1, _⟩ => show win8_0.index t (1 : Fin 2) * 512 + 1 * k.val = k.val; rw [e1]; omega

/-- The row factors' block at point t is rows 2000 t .. 2000 t + 1999 of their column. -/
theorem iblk8_1_apply (c : Dev nD) (t : Fin cfg8.N) (p : Fin 2000) (r : Fin 10000)
    (hr : r.val = 2000 * t.val + p.val) :
    (iblk8 V c 1 t : Vec Ideal S2000x1 .f32) (ix2 p (0 : Fin 1))
      = (V c (Pipeline.arrRef spec8 1) : S10000x1.Idx → EReal) (ix2 r (0 : Fin 1)) := by
  obtain ⟨-, -, e0, e1, -⟩ := idx_facts8 t
  unfold iblk8
  rw [View.read_apply]
  show (V c (Pipeline.arrRef spec8 1) : S10000x1.Idx → EReal) _ = _
  refine congrArg _ (funext fun a => Fin.ext ?_)
  match a with
  | ⟨0, _⟩ => show win8_1.index t (0 : Fin 2) * 2000 + 1 * p.val = r.val; rw [e0, hr]; omega
  | ⟨1, _⟩ => show win8_1.index t (1 : Fin 2) * 1 + 1 * 0 = 0; rw [e1]

/-- The weights' block at every point is the whole matrix. -/
theorem iblk8_2_apply (c : Dev nD) (t : Fin cfg8.N) (k : Fin 512) (q : Fin 512) :
    (iblk8 V c 2 t : Vec Ideal S512x512 .f32) (ix2 k q)
      = (V c (Pipeline.arrRef spec8 2) : S512x512.Idx → EReal) (ix2 k q) := by
  obtain ⟨-, -, -, -, e0, e1, -⟩ := idx_facts8 t
  unfold iblk8
  rw [View.read_apply]
  show (V c (Pipeline.arrRef spec8 2) : S512x512.Idx → EReal) _ = _
  refine congrArg _ (funext fun a => Fin.ext ?_)
  match a with
  | ⟨0, _⟩ => show win8_2.index t (0 : Fin 2) * 512 + 1 * k.val = k.val; rw [e0]; omega
  | ⟨1, _⟩ => show win8_2.index t (1 : Fin 2) * 512 + 1 * q.val = q.val; rw [e1]; omega

/-- What point t writes back is block t of the row-scaled product. -/
theorem flushed8_eq (c : Dev nD) (t : Fin cfg8.N) :
    (dat8 V c).flushed 3 t = ((cfg8.win 3).blk t).view.read (Elt Ideal) (G8 V c) := by
  show (cfg8.win 3).cut (grid8.coords t) ((dat8 V c).after 3 t) = _
  rw [after8_3]
  unfold out8_3
  rw [View.canon_unit_zero hz8]
  simp only [View.ld_unit_zero (S := S2000x512) hz8, View.ld_unit_zero (S := S2000x1) hz8,
    View.ld_unit_zero (S := S512x512) hz8]
  obtain ⟨-, -, -, -, -, -, e0, e1⟩ := idx_facts8 t
  have ht : t.val < 5 := lt_of_lt_of_eq t.isLt N_8
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg8.win 3).blk t).view.emb (ix2 p q) = (ix2 r q : S10000x512.Idx) := by
    funext a; apply Fin.ext
    match a with
    | ⟨0, _⟩ => show win8_3.index t (0 : Fin 2) * 2000 + 1 * p.val = r.val; rw [e0, hr]; omega
    | ⟨1, _⟩ => show win8_3.index t (1 : Fin 2) * 512 + 1 * q.val = q.val; rw [e1]; omega
  show k8_pay1 (iblk8 V c 0 t) (iblk8 V c 1 t) (iblk8 V c 2 t) (ix2 p q)
      = G8 V c (((cfg8.win 3).blk t).view.emb (ix2 p q))
  rw [hemb]
  refine (k8_pay1_apply _ _ _ p q).trans (Eq.trans ?_ (scaledProduct_apply _ _ _ r q).symm)
  refine Finset.sum_congr rfl fun k _ => ?_
  rw [iblk8_0_apply V c t p k r hr, iblk8_1_apply V c t p r hr, iblk8_2_apply V c t k q]

/-- An index of the output array is in point t's block iff each coordinate is in the block's range on its axis. -/
theorem mem_blk8 (t : Fin cfg8.N) (i : S10000x512.Idx) :
    i ∈ ((cfg8.win 3).blk t).view.set ↔ ∀ a : Fin 2, win8_3.index t a * S2000x512.size a ≤ (i a).val
      ∧ (i a).val < win8_3.index t a * S2000x512.size a + S2000x512.size a := by
  show i ∈ ((View.whole (Pipeline.arrRef spec8 3)).slice (win8_3.rect t)).set ↔ _
  rw [View.set_slice_whole, Rect.mem_set_unit]
  exact Iff.rfl

/-- Row r of the output array is in the block of point r / 2000. -/
theorem cover8 (i : S10000x512.Idx) :
    ∃ t : Fin cfg8.N, (cfg8.win 3).flush t = true ∧ i ∈ ((cfg8.win 3).blk t).view.set := by
  have hi0 : (i 0).val < 10000 := (i 0).isLt
  have hi1 : (i 1).val < 512 := (i 1).isLt
  have hN : cfg8.N = 5 := N_8
  let t : Fin cfg8.N := ⟨(i 0).val / 2000, by rw [hN]; omega⟩
  obtain ⟨-, -, -, -, -, -, e0, e1⟩ := idx_facts8 t
  refine ⟨t, flush8_3 t, ?_⟩
  rw [mem_blk8]
  intro a
  match a with
  | ⟨0, _⟩ =>
    show win8_3.index t (0 : Fin 2) * 2000 ≤ (i 0).val ∧ (i 0).val < win8_3.index t (0 : Fin 2) * 2000 + 2000
    rw [e0]; show (i 0).val / 2000 * 2000 ≤ (i 0).val ∧ (i 0).val < (i 0).val / 2000 * 2000 + 2000; omega
  | ⟨1, _⟩ =>
    show win8_3.index t (1 : Fin 2) * 512 ≤ (i 1).val ∧ (i 1).val < win8_3.index t (1 : Fin 2) * 512 + 512
    rw [e1]; omega

/-- The region's output array after the run: the row-scaled product of the arrays the region finds. -/
theorem final8 (c : Dev nD) : (dat8 V c).arrAt 3 cfg8.N = G8 V c :=
  (dat8 V c).arrAt_eq_of_cover 3 (G8 V c) (fun t _ => flushed8_eq V c t) (cover8)

end Cert.KernelIdeal.Frm

end
-- ==== Proof.KI.Val9.lean ====
/-
  Region 9 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them. The argument is region 1's with the region's own names; the
  whole-array form and the reading of a recast vector are shared with it.
-/
import proofs.«144268_j91216515432581_2_alg».proof.Proof.KI.Reg9
import proofs.«144268_j91216515432581_2_alg».proof.Proof.KI.Val1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

/-- The body's arithmetic at row `p`, column `q` of a block. -/
theorem pay9_apply (x0 : Vec Ideal S2000x512 .f32) (x1 : Vec Ideal S2000x1 .f32) (x2 x3 x4 x5 : Vec Ideal S1x512 .f32)
    (p : Fin 2000) (q : Fin 512) :
    k9_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k9_pay1
  exact BnLaw.block_apply x0 x1 x2 x3 x4 x5 _ _ _ _ _ _ p q

/-- The output buffer after the body, at row `p`, column `q`: the one store is of the whole buffer. -/
theorem out9_6_apply (x0 : Vec Ideal S2000x512 .f32) (x1 : Vec Ideal S2000x1 .f32) (x2 x3 x4 x5 : Vec Ideal S1x512 .f32)
    (p : Fin 2000) (q : Fin 512) :
    out9_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out9_6
  rw [View.canon_unit_zero hz9]
  simp only [View.ld_unit_zero (S := S2000x512) hz9, View.ld_unit_zero (S := S2000x1) hz9, View.ld_unit_zero (S := S1x512) hz9]
  exact pay9_apply x0 x1 x2 x3 x4 x5 p q

/-- The block indices, decided over the five grid points: the row-blocked windows are at block (t, 0), the four
    one-row windows at block (0, 0). -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- Block `t` of window 0 is rows 2000 t … 2000 t + 1999 of its array. -/
theorem iblk9_0_apply (c : Dev nD) (t : Fin cfg9.N) (p : Fin 2000) (q : Fin 512) (r : Fin 10000)
    (hr : r.val = t.val * 2000 + p.val) :
    (iblk9 V c 0 t : Vec Ideal S2000x512 .f32) (ix2 p q)
      = (V c (Pipeline.arrRef spec9 0) : S10000x512.Idx → Elt Ideal .f32) (ix2 r q) := by
  obtain ⟨e0, e1, -⟩ := idx_facts9 t
  unfold iblk9
  rw [View.read_apply]
  show V c (Pipeline.arrRef spec9 0) (((cfg9.win 0).blk t).view.emb (ix2 p q)) = V c (Pipeline.arrRef spec9 0) (ix2 r q)
  refine congrArg (V c (Pipeline.arrRef spec9 0)) (funext fun a => Fin.ext ?_)
  match a with
  | ⟨0, _⟩ => show win9_0.index t (0 : Fin 2) * 2000 + 1 * p.val = r.val; rw [e0, hr]; omega
  | ⟨1, _⟩ => show win9_0.index t (1 : Fin 2) * 512 + 1 * q.val = q.val; rw [e1]; omega

/-- Block `t` of window 1 is rows 2000 t … 2000 t + 1999 of the column of row factors. -/
theorem iblk9_1_apply (c : Dev nD) (t : Fin cfg9.N) (p : Fin 2000) (r : Fin 10000)
    (hr : r.val = t.val * 2000 + p.val) :
    (iblk9 V c 1 t : Vec Ideal S2000x1 .f32) (ix2 p (0 : Fin 1))
      = (V c (Pipeline.arrRef spec9 1) : S10000x1.Idx → Elt Ideal .f32) (ix2 r (0 : Fin 1)) := by
  obtain ⟨-, -, e0, e1, -⟩ := idx_facts9 t
  unfold iblk9
  rw [View.read_apply]
  show V c (Pipeline.arrRef spec9 1) (((cfg9.win 1).blk t).view.emb (ix2 p (0 : Fin 1))) = V c (Pipeline.arrRef spec9 1) (ix2 r (0 : Fin 1))
  refine congrArg (V c (Pipeline.arrRef spec9 1)) (funext fun a => Fin.ext ?_)
  match a with
  | ⟨0, _⟩ => show win9_1.index t (0 : Fin 2) * 2000 + 1 * p.val = r.val; rw [e0, hr]; omega
  | ⟨1, _⟩ => show win9_1.index t (1 : Fin 2) * 1 + 1 * 0 = 0; rw [e1]

/-- Window 2 is one row, fetched whole at every point. -/
theorem iblk9_2_apply (c : Dev nD) (t : Fin cfg9.N) (q : Fin 512) :
    (iblk9 V c 2 t : Vec Ideal S1x512 .f32) (ix2 (0 : Fin 1) q)
      = (V c (Pipeline.arrRef spec9 2) : S1x512.Idx → Elt Ideal .f32) (ix2 (0 : Fin 1) q) := by
  obtain ⟨-, -, -, -, e20, e21, e30, e31, e40, e41, e50, e51, -⟩ := idx_facts9 t
  unfold iblk9
  rw [View.read_apply]
  show V c (Pipeline.arrRef spec9 2) (((cfg9.win 2).blk t).view.emb (ix2 (0 : Fin 1) q)) = V c (Pipeline.arrRef spec9 2) (ix2 (0 : Fin 1) q)
  refine congrArg (V c (Pipeline.arrRef spec9 2)) (funext fun a => Fin.ext ?_)
  match a with
  | ⟨0, _⟩ => show win9_2.index t (0 : Fin 2) * 1 + 1 * 0 = 0; rw [e20]
  | ⟨1, _⟩ => show win9_2.index t (1 : Fin 2) * 512 + 1 * q.val = q.val; rw [e21]; omega

/-- Window 3 is one row, fetched whole at every point. -/
theorem iblk9_3_apply (c : Dev nD) (t : Fin cfg9.N) (q : Fin 512) :
    (iblk9 V c 3 t : Vec Ideal S1x512 .f32) (ix2 (0 : Fin 1) q)
      = (V c (Pipeline.arrRef spec9 3) : S1x512.Idx → Elt Ideal .f32) (ix2 (0 : Fin 1) q) := by
  obtain ⟨-, -, -, -, e20, e21, e30, e31, e40, e41, e50, e51, -⟩ := idx_facts9 t
  unfold iblk9
  rw [View.read_apply]
  show V c (Pipeline.arrRef spec9 3) (((cfg9.win 3).blk t).view.emb (ix2 (0 : Fin 1) q)) = V c (Pipeline.arrRef spec9 3) (ix2 (0 : Fin 1) q)
  refine congrArg (V c (Pipeline.arrRef spec9 3)) (funext fun a => Fin.ext ?_)
  match a with
  | ⟨0, _⟩ => show win9_3.index t (0 : Fin 2) * 1 + 1 * 0 = 0; rw [e30]
  | ⟨1, _⟩ => show win9_3.index t (1 : Fin 2) * 512 + 1 * q.val = q.val; rw [e31]; omega

/-- Window 4 is one row, fetched whole at every point. -/
theorem iblk9_4_apply (c : Dev nD) (t : Fin cfg9.N) (q : Fin 512) :
    (iblk9 V c 4 t : Vec Ideal S1x512 .f32) (ix2 (0 : Fin 1) q)
      = (V c (Pipeline.arrRef spec9 4) : S1x512.Idx → Elt Ideal .f32) (ix2 (0 : Fin 1) q) := by
  obtain ⟨-, -, -, -, e20, e21, e30, e31, e40, e41, e50, e51, -⟩ := idx_facts9 t
  unfold iblk9
  rw [View.read_apply]
  show V c (Pipeline.arrRef spec9 4) (((cfg9.win 4).blk t).view.emb (ix2 (0 : Fin 1) q)) = V c (Pipeline.arrRef spec9 4) (ix2 (0 : Fin 1) q)
  refine congrArg (V c (Pipeline.arrRef spec9 4)) (funext fun a => Fin.ext ?_)
  match a with
  | ⟨0, _⟩ => show win9_4.index t (0 : Fin 2) * 1 + 1 * 0 = 0; rw [e40]
  | ⟨1, _⟩ => show win9_4.index t (1 : Fin 2) * 512 + 1 * q.val = q.val; rw [e41]; omega

/-- Window 5 is one row, fetched whole at every point. -/
theorem iblk9_5_apply (c : Dev nD) (t : Fin cfg9.N) (q : Fin 512) :
    (iblk9 V c 5 t : Vec Ideal S1x512 .f32) (ix2 (0 : Fin 1) q)
      = (V c (Pipeline.arrRef spec9 5) : S1x512.Idx → Elt Ideal .f32) (ix2 (0 : Fin 1) q) := by
  obtain ⟨-, -, -, -, e20, e21, e30, e31, e40, e41, e50, e51, -⟩ := idx_facts9 t
  unfold iblk9
  rw [View.read_apply]
  show V c (Pipeline.arrRef spec9 5) (((cfg9.win 5).blk t).view.emb (ix2 (0 : Fin 1) q)) = V c (Pipeline.arrRef spec9 5) (ix2 (0 : Fin 1) q)
  refine congrArg (V c (Pipeline.arrRef spec9 5)) (funext fun a => Fin.ext ?_)
  match a with
  | ⟨0, _⟩ => show win9_5.index t (0 : Fin 2) * 1 + 1 * 0 = 0; rw [e50]
  | ⟨1, _⟩ => show win9_5.index t (1 : Fin 2) * 512 + 1 * q.val = q.val; rw [e51]; omega

/-- Element (p, q) of what point `t` leaves in the output buffer is element (2000 t + p, q) of the whole-array form:
    the block's element of the array and of the column of row factors sit in row 2000 t + p, and the four rows'
    entries at column q are entry q of each vector. -/
theorem elem9_eq (c : Dev nD) (t : Fin cfg9.N) (v2 v3 v4 v5 : FVec Ideal S512 .f32) (hsc : S512.ShapeCasts S1x512)
    (h2 : (V c (Pipeline.arrRef spec9 2) : S1x512.Idx → Elt Ideal .f32) = shapeCast S1x512 v2 hsc)
    (h3 : (V c (Pipeline.arrRef spec9 3) : S1x512.Idx → Elt Ideal .f32) = shapeCast S1x512 v3 hsc)
    (h4 : (V c (Pipeline.arrRef spec9 4) : S1x512.Idx → Elt Ideal .f32) = shapeCast S1x512 v4 hsc)
    (h5 : (V c (Pipeline.arrRef spec9 5) : S1x512.Idx → Elt Ideal .f32) = shapeCast S1x512 v5 hsc)
    (p : Fin 2000) (q : Fin 512) (r : Fin 10000) (hr : r.val = t.val * 2000 + p.val) :
    out9_6 (iblk9 V c 0 t) (iblk9 V c 1 t) (iblk9 V c 2 t) (iblk9 V c 3 t) (iblk9 V c 4 t) (iblk9 V c 5 t) (ix2 p q)
      = bnWhole (V c (Pipeline.arrRef spec9 0)) (V c (Pipeline.arrRef spec9 1)) v2 v3 v4 v5 (ix2 r q) := by
  refine (out9_6_apply (iblk9 V c 0 t) (iblk9 V c 1 t) (iblk9 V c 2 t) (iblk9 V c 3 t) (iblk9 V c 4 t) (iblk9 V c 5 t)
    p q).trans ?_
  refine Eq.trans ?_ (BnLaw.whole_apply (m := 10000) (n := 512) (V c (Pipeline.arrRef spec9 0)) (V c (Pipeline.arrRef spec9 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk9_0_apply V c t p q r hr
  have e1 := iblk9_1_apply V c t p r hr
  have e2 := (iblk9_2_apply V c t q).trans (row_of_vec _ v2 hsc h2 q)
  have e3 := (iblk9_3_apply V c t q).trans (row_of_vec _ v3 hsc h3 q)
  have e4 := (iblk9_4_apply V c t q).trans (row_of_vec _ v4 hsc h4 q)
  have e5 := (iblk9_5_apply V c t q).trans (row_of_vec _ v5 hsc h5 q)
  exact congr (congr (congr (congr (congr (congr (congrArg BnLaw.elem e0) e1) e2) e3) e4) e5) rfl

/-- What point `t` writes back is block `t` of the whole-array form. -/
theorem flushed9_eq (c : Dev nD) (t : Fin cfg9.N) (v2 v3 v4 v5 : FVec Ideal S512 .f32) (hsc : S512.ShapeCasts S1x512)
    (h2 : (V c (Pipeline.arrRef spec9 2) : S1x512.Idx → Elt Ideal .f32) = shapeCast S1x512 v2 hsc)
    (h3 : (V c (Pipeline.arrRef spec9 3) : S1x512.Idx → Elt Ideal .f32) = shapeCast S1x512 v3 hsc)
    (h4 : (V c (Pipeline.arrRef spec9 4) : S1x512.Idx → Elt Ideal .f32) = shapeCast S1x512 v4 hsc)
    (h5 : (V c (Pipeline.arrRef spec9 5) : S1x512.Idx → Elt Ideal .f32) = shapeCast S1x512 v5 hsc) :
    (dat9 V c).flushed 6 t = ((cfg9.win 6).blk t).view.read (Elt Ideal)
      (bnWhole (V c (Pipeline.arrRef spec9 0)) (V c (Pipeline.arrRef spec9 1)) v2 v3 v4 v5) := by
  show (cfg9.win 6).cut (grid9.coords t) ((dat9 V c).after 6 t) = _
  rw [after9_6]
  funext j
  have hN : cfg9.N = 5 := N_9
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts9 t
  have hx : (cfg9.win 6).xinj (grid9.coords t) j = ix2 (⟨(j 0).val, h0⟩ : Fin 2000) (⟨(j 1).val, h1⟩ : Fin 512) := by
    funext a
    match a with
    | ⟨0, _⟩ => rfl
    | ⟨1, _⟩ => rfl
  have he : ((cfg9.win 6).blk t).view.emb j
      = ix2 (⟨t.val * 2000 + (j 0).val, by omega⟩ : Fin 10000) (⟨(j 1).val, h1⟩ : Fin 512) := by
    funext a
    apply Fin.ext
    match a with
    | ⟨0, _⟩ => show win9_6.index t (0 : Fin 2) * 2000 + 1 * (j 0).val = t.val * 2000 + (j 0).val; rw [e60]; omega
    | ⟨1, _⟩ => show win9_6.index t (1 : Fin 2) * 512 + 1 * (j 1).val = (j 1).val; rw [e61]; omega
  show out9_6 (iblk9 V c 0 t) (iblk9 V c 1 t) (iblk9 V c 2 t) (iblk9 V c 3 t) (iblk9 V c 4 t) (iblk9 V c 5 t)
      ((cfg9.win 6).xinj (grid9.coords t) j)
    = bnWhole (V c (Pipeline.arrRef spec9 0)) (V c (Pipeline.arrRef spec9 1)) v2 v3 v4 v5 (((cfg9.win 6).blk t).view.emb j)
  rw [hx, he]
  exact elem9_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk9_6 (t : Fin cfg9.N) (i : S10000x512.Idx) :
    i ∈ ((cfg9.win 6).blk t).view.set ↔ ∀ a : Fin 2, win9_6.index t a * S2000x512.size a ≤ (i a).val
      ∧ (i a).val < win9_6.index t a * S2000x512.size a + S2000x512.size a := by
  show i ∈ ((View.whole main_v172).slice (win9_6.rect t)).set ↔ _
  rw [View.set_slice_whole, Rect.mem_set_unit]
  exact Iff.rfl

/-- The five blocks tile the array: row `r` lies in the block of point `r / 2000`. -/
theorem covers9_6 (i : S10000x512.Idx) :
    ∃ t : Fin cfg9.N, (cfg9.win 6).flush t = true ∧ i ∈ ((cfg9.win 6).blk t).view.set := by
  have hi0 : (i 0).val < 10000 := (i 0).isLt
  have hi1 : (i 1).val < 512 := (i 1).isLt
  have hN : cfg9.N = 5 := N_9
  have hlt : (i 0).val / 2000 < cfg9.N := by rw [hN]; omega
  obtain ⟨-, -, -, -, -, -, -, -, -, -, -, -, e60, e61⟩ := idx_facts9 ⟨(i 0).val / 2000, hlt⟩
  refine ⟨⟨(i 0).val / 2000, hlt⟩, flush9_6 _, ?_⟩
  rw [mem_blk9_6]
  intro a
  match a with
  | ⟨0, _⟩ =>
    show win9_6.index ⟨(i 0).val / 2000, hlt⟩ (0 : Fin 2) * 2000 ≤ (i 0).val
      ∧ (i 0).val < win9_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win9_6.index ⟨(i 0).val / 2000, hlt⟩ (1 : Fin 2) * 512 ≤ (i 1).val
      ∧ (i 1).val < win9_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val9 (c : Dev nD) (v2 v3 v4 v5 : FVec Ideal S512 .f32) (hsc : S512.ShapeCasts S1x512)
    (h2 : (V c (Pipeline.arrRef spec9 2) : S1x512.Idx → Elt Ideal .f32) = shapeCast S1x512 v2 hsc)
    (h3 : (V c (Pipeline.arrRef spec9 3) : S1x512.Idx → Elt Ideal .f32) = shapeCast S1x512 v3 hsc)
    (h4 : (V c (Pipeline.arrRef spec9 4) : S1x512.Idx → Elt Ideal .f32) = shapeCast S1x512 v4 hsc)
    (h5 : (V c (Pipeline.arrRef spec9 5) : S1x512.Idx → Elt Ideal .f32) = shapeCast S1x512 v5 hsc) :
    (dat9 V c).arrAt 6 cfg9.N
      = bnWhole (V c (Pipeline.arrRef spec9 0)) (V c (Pipeline.arrRef spec9 1)) v2 v3 v4 v5 :=
  (dat9 V c).arrAt_eq_of_cover 6 _ (fun t _ => flushed9_eq V c t v2 v3 v4 v5 hsc h2 h3 h4 h5) covers9_6

/-- The same with the whole-array form written out operation by operation. -/
theorem val9_spelt (c : Dev nD) (v2 v3 v4 v5 : FVec Ideal S512 .f32) (hsc : S512.ShapeCasts S1x512)
    (h2 : (V c (Pipeline.arrRef spec9 2) : S1x512.Idx → Elt Ideal .f32) = shapeCast S1x512 v2 hsc)
    (h3 : (V c (Pipeline.arrRef spec9 3) : S1x512.Idx → Elt Ideal .f32) = shapeCast S1x512 v3 hsc)
    (h4 : (V c (Pipeline.arrRef spec9 4) : S1x512.Idx → Elt Ideal .f32) = shapeCast S1x512 v4 hsc)
    (h5 : (V c (Pipeline.arrRef spec9 5) : S1x512.Idx → Elt Ideal .f32) = shapeCast S1x512 v5 hsc) :
    ((dat9 V c).arrAt 6 cfg9.N : S10000x512.Idx → Elt Ideal .f32)
      = maximumf (addf (mulf (subf (addf (mulf (V c (Pipeline.arrRef spec9 0) : S10000x512.Idx → Elt Ideal .f32)
          (broadcastInDim S10000x512 ![0, 1] Cert.ReferenceIdeal.Gen.bcast_S10000x1_S10000x512_0_1 (V c (Pipeline.arrRef spec9 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val9 V c v2 v3 v4 v5 hsc h2 h3 h4 h5

end Cert.KernelIdeal.Frm

end
-- ==== Proof.KI.Chain5.lean ====
/-
  The chain of @main at the exact values, layer 5: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 5 output of the argument arrays. Every buffer a later item reads is carried unchanged across the items that
  do not write it.
-/
import proofs.«144268_j91216515432581_2_alg».proof.Proof.KI.Chain4
import proofs.«144268_j91216515432581_2_alg».proof.Proof.KI.Val8
import proofs.«144268_j91216515432581_2_alg».proof.Proof.KI.Val9
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 5 -/

set_option maxHeartbeats 2000000 in
/-- The layer's weights: matrix 3 of the weight array. -/
theorem w_at21 : (B21 m c main_v142 : Cert.ReferenceIdeal.S512x512.Idx → EReal) = Ref.weightOf ![3, 0, 0] Cert.ReferenceIdeal.Gen.slices_S5x512x512_S1x512x512_3_0_0 (A2 m c) :=
  (show (B21 m c main_v142 : Cert.ReferenceIdeal.S512x512.Idx → EReal) = Ref.weightOf ![3, 0, 0] Cert.ReferenceIdeal.Gen.slices_S5x512x512_S1x512x512_3_0_0 (B20 m c main_arg2) by
    dsimp only [B21, hostOps8]; after_results; rfl).trans
  (congrArg (Ref.weightOf ![3, 0, 0] Cert.ReferenceIdeal.Gen.slices_S5x512x512_S1x512x512_3_0_0) (arg2_at20 m c))
theorem h4_at21 : (B21 m c main_v140 : Cert.ReferenceIdeal.S10000x512.Idx → EReal) = H4 m c :=
  ((StableHlo.after_of_writes_sub hostOps8 (B20 m c) hostOps8_writes (r := main_v140) (by decide)).trans <| rfl).trans (out7 m c)
theorem v13_at21' : (B21 m c main_v13 : Cert.ReferenceIdeal.S10000x1.Idx → EReal) = Ref.normCol (A10 m c) :=
  ((StableHlo.after_of_writes_sub hostOps8 (B20 m c) hostOps8_writes (r := main_v13) (by decide)).trans <|
    (B20_of_ne m c main_v13 (by decide)).trans <|
    (StableHlo.after_of_writes_sub hostOps7 (B18 m c) hostOps7_writes (r := main_v13) (by decide)).trans <|
    (B18_of_ne m c main_v13 (by decide)).trans <|
    (StableHlo.after_of_writes_sub hostOps6 (B16 m c) hostOps6_writes (r := main_v13) (by decide)).trans <|
    (B16_of_ne m c main_v13 (by decide)).trans <|
    (StableHlo.after_of_writes_sub hostOps5 (B14 m c) hostOps5_writes (r := main_v13) (by decide)).trans <|
    (B14_of_ne m c main_v13 (by decide)).trans <|
    (StableHlo.after_of_writes_sub hostOps4 (B12 m c) hostOps4_writes (r := main_v13) (by decide)).trans <|
    (B12_of_ne m c main_v13 (by decide)).trans <|
    (StableHlo.after_of_writes_sub hostOps3 (B10 m c) hostOps3_writes (r := main_v13) (by decide)).trans <|
    (B10_of_ne m c main_v13 (by decide)).trans <|
    (StableHlo.after_of_writes_sub hostOps2 (B8 m c) hostOps2_writes (r := main_v13) (by decide)).trans <|
    (B8_of_ne m c main_v13 (by decide)).trans <|
    (StableHlo.after_of_writes_sub hostOps1 (B6 m c) hostOps1_writes (r := main_v13) (by decide)).trans <|
    (B6_of_ne m c main_v13 (by decide)).trans <| rfl).trans (v13_at5 m c)
/-- Region 8 leaves the layer's scaled product. -/
theorem out8 : (B22 m c main_v143 : Cert.ReferenceIdeal.S10000x512.Idx → EReal) = Ref.scaled (H4 m c) (A10 m c) (Ref.weightOf ![3, 0, 0] Cert.ReferenceIdeal.Gen.slices_S5x512x512_S1x512x512_3_0_0 (A2 m c)) :=
  (B22_out m c).trans <| (final8 (T21 m) c).trans <|
    (scaledProduct_congr (h4_at21 m c) (v13_at21' m c) (w_at21 m c)).trans rfl
theorem arg3_at22 : B22 m c main_arg3 = A3 m c :=
  (B22_of_ne m c main_arg3 (by decide)).trans <|
    (StableHlo.after_of_writes_sub hostOps8 (B20 m c) hostOps8_writes (r := main_arg3) (by decide)).trans <|
    (B20_of_ne m c main_arg3 (by decide)).trans <|
    (StableHlo.after_of_writes_sub hostOps7 (B18 m c) hostOps7_writes (r := main_arg3) (by decide)).trans <|
    (B18_of_ne m c main_arg3 (by decide)).trans <|
    (StableHlo.after_of_writes_sub hostOps6 (B16 m c) hostOps6_writes (r := main_arg3) (by decide)).trans <|
    (B16_of_ne m c main_arg3 (by decide)).trans <|
    (StableHlo.after_of_writes_sub hostOps5 (B14 m c) hostOps5_writes (r := main_arg3) (by decide)).trans <|
    (B14_of_ne m c main_arg3 (by decide)).trans <|
    (StableHlo.after_of_writes_sub hostOps4 (B12 m c) hostOps4_writes (r := main_arg3) (by decide)).trans <|
    (B12_of_ne m c main_arg3 (by decide)).trans <|
    (StableHlo.after_of_writes_sub hostOps3 (B10 m c) hostOps3_writes (r := main_arg3) (by decide)).trans <|
    (B10_of_ne m c main_arg3 (by decide)).trans <|
    (StableHlo.after_of_writes_sub hostOps2 (B8 m c) hostOps2_writes (r := main_arg3) (by decide)).trans <|
    (B8_of_ne m c main_arg3 (by decide)).trans <|
    (StableHlo.after_of_writes_sub hostOps1 (B6 m c) hostOps1_writes (r := main_arg3) (by decide)).trans <|
    (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at22 : B22 m c main_arg4 = A4 m c :=
  (B22_of_ne m c main_arg4 (by decide)).trans <|
    (StableHlo.after_of_writes_sub hostOps8 (B20 m c) hostOps8_writes (r := main_arg4) (by decide)).trans <|
    (B20_of_ne m c main_arg4 (by decide)).trans <|
    (StableHlo.after_of_writes_sub hostOps7 (B18 m c) hostOps7_writes (r := main_arg4) (by decide)).trans <|
    (B18_of_ne m c main_arg4 (by decide)).trans <|
    (StableHlo.after_of_writes_sub hostOps6 (B16 m c) hostOps6_writes (r := main_arg4) (by decide)).trans <|
    (B16_of_ne m c main_arg4 (by decide)).trans <|
    (StableHlo.after_of_writes_sub hostOps5 (B14 m c) hostOps5_writes (r := main_arg4) (by decide)).trans <|
    (B14_of_ne m c main_arg4 (by decide)).trans <|
    (StableHlo.after_of_writes_sub hostOps4 (B12 m c) hostOps4_writes (r := main_arg4) (by decide)).trans <|
    (B12_of_ne m c main_arg4 (by decide)).trans <|
    (StableHlo.after_of_writes_sub hostOps3 (B10 m c) hostOps3_writes (r := main_arg4) (by decide)).trans <|
    (B10_of_ne m c main_arg4 (by decide)).trans <|
    (StableHlo.after_of_writes_sub hostOps2 (B8 m c) hostOps2_writes (r := main_arg4) (by decide)).trans <|
    (B8_of_ne m c main_arg4 (by decide)).trans <|
    (StableHlo.after_of_writes_sub hostOps1 (B6 m c) hostOps1_writes (r := main_arg4) (by decide)).trans <|
    (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at22 : B22 m c main_arg5 = A5 m c :=
  (B22_of_ne m c main_arg5 (by decide)).trans <|
    (StableHlo.after_of_writes_sub hostOps8 (B20 m c) hostOps8_writes (r := main_arg5) (by decide)).trans <|
    (B20_of_ne m c main_arg5 (by decide)).trans <|
    (StableHlo.after_of_writes_sub hostOps7 (B18 m c) hostOps7_writes (r := main_arg5) (by decide)).trans <|
    (B18_of_ne m c main_arg5 (by decide)).trans <|
    (StableHlo.after_of_writes_sub hostOps6 (B16 m c) hostOps6_writes (r := main_arg5) (by decide)).trans <|
    (B16_of_ne m c main_arg5 (by decide)).trans <|
    (StableHlo.after_of_writes_sub hostOps5 (B14 m c) hostOps5_writes (r := main_arg5) (by decide)).trans <|
    (B14_of_ne m c main_arg5 (by decide)).trans <|
    (StableHlo.after_of_writes_sub hostOps4 (B12 m c) hostOps4_writes (r := main_arg5) (by decide)).trans <|
    (B12_of_ne m c main_arg5 (by decide)).trans <|
    (StableHlo.after_of_writes_sub hostOps3 (B10 m c) hostOps3_writes (r := main_arg5) (by decide)).trans <|
    (B10_of_ne m c main_arg5 (by decide)).trans <|
    (StableHlo.after_of_writes_sub hostOps2 (B8 m c) hostOps2_writes (r := main_arg5) (by decide)).trans <|
    (B8_of_ne m c main_arg5 (by decide)).trans <|
    (StableHlo.after_of_writes_sub hostOps1 (B6 m c) hostOps1_writes (r := main_arg5) (by decide)).trans <|
    (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at22 : B22 m c main_arg6 = A6 m c :=
  (B22_of_ne m c main_arg6 (by decide)).trans <|
    (StableHlo.after_of_writes_sub hostOps8 (B20 m c) hostOps8_writes (r := main_arg6) (by decide)).trans <|
    (B20_of_ne m c main_arg6 (by decide)).trans <|
    (StableHlo.after_of_writes_sub hostOps7 (B18 m c) hostOps7_writes (r := main_arg6) (by decide)).trans <|
    (B18_of_ne m c main_arg6 (by decide)).trans <|
    (StableHlo.after_of_writes_sub hostOps6 (B16 m c) hostOps6_writes (r := main_arg6) (by decide)).trans <|
    (B16_of_ne m c main_arg6 (by decide)).trans <|
    (StableHlo.after_of_writes_sub hostOps5 (B14 m c) hostOps5_writes (r := main_arg6) (by decide)).trans <|
    (B14_of_ne m c main_arg6 (by decide)).trans <|
    (StableHlo.after_of_writes_sub hostOps4 (B12 m c) hostOps4_writes (r := main_arg6) (by decide)).trans <|
    (B12_of_ne m c main_arg6 (by decide)).trans <|
    (StableHlo.after_of_writes_sub hostOps3 (B10 m c) hostOps3_writes (r := main_arg6) (by decide)).trans <|
    (B10_of_ne m c main_arg6 (by decide)).trans <|
    (StableHlo.after_of_writes_sub hostOps2 (B8 m c) hostOps2_writes (r := main_arg6) (by decide)).trans <|
    (B8_of_ne m c main_arg6 (by decide)).trans <|
    (StableHlo.after_of_writes_sub hostOps1 (B6 m c) hostOps1_writes (r := main_arg6) (by decide)).trans <|
    (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at22 : B22 m c main_arg7 = A7 m c :=
  (B22_of_ne m c main_arg7 (by decide)).trans <|
    (StableHlo.after_of_writes_sub hostOps8 (B20 m c) hostOps8_writes (r := main_arg7) (by decide)).trans <|
    (B20_of_ne m c main_arg7 (by decide)).trans <|
    (StableHlo.after_of_writes_sub hostOps7 (B18 m c) hostOps7_writes (r := main_arg7) (by decide)).trans <|
    (B18_of_ne m c main_arg7 (by decide)).trans <|
    (StableHlo.after_of_writes_sub hostOps6 (B16 m c) hostOps6_writes (r := main_arg7) (by decide)).trans <|
    (B16_of_ne m c main_arg7 (by decide)).trans <|
    (StableHlo.after_of_writes_sub hostOps5 (B14 m c) hostOps5_writes (r := main_arg7) (by decide)).trans <|
    (B14_of_ne m c main_arg7 (by decide)).trans <|
    (StableHlo.after_of_writes_sub hostOps4 (B12 m c) hostOps4_writes (r := main_arg7) (by decide)).trans <|
    (B12_of_ne m c main_arg7 (by decide)).trans <|
    (StableHlo.after_of_writes_sub hostOps3 (B10 m c) hostOps3_writes (r := main_arg7) (by decide)).trans <|
    (B10_of_ne m c main_arg7 (by decide)).trans <|
    (StableHlo.after_of_writes_sub hostOps2 (B8 m c) hostOps2_writes (r := main_arg7) (by decide)).trans <|
    (B8_of_ne m c main_arg7 (by decide)).trans <|
    (StableHlo.after_of_writes_sub hostOps1 (B6 m c) hostOps1_writes (r := main_arg7) (by decide)).trans <|
    (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at22 : B22 m c main_arg10 = A10 m c :=
  (B22_of_ne m c main_arg10 (by decide)).trans <|
    (StableHlo.after_of_writes_sub hostOps8 (B20 m c) hostOps8_writes (r := main_arg10) (by decide)).trans <|
    (B20_of_ne m c main_arg10 (by decide)).trans <|
    (StableHlo.after_of_writes_sub hostOps7 (B18 m c) hostOps7_writes (r := main_arg10) (by decide)).trans <|
    (B18_of_ne m c main_arg10 (by decide)).trans <|
    (StableHlo.after_of_writes_sub hostOps6 (B16 m c) hostOps6_writes (r := main_arg10) (by decide)).trans <|
    (B16_of_ne m c main_arg10 (by decide)).trans <|
    (StableHlo.after_of_writes_sub hostOps5 (B14 m c) hostOps5_writes (r := main_arg10) (by decide)).trans <|
    (B14_of_ne m c main_arg10 (by decide)).trans <|
    (StableHlo.after_of_writes_sub hostOps4 (B12 m c) hostOps4_writes (r := main_arg10) (by decide)).trans <|
    (B12_of_ne m c main_arg10 (by decide)).trans <|
    (StableHlo.after_of_writes_sub hostOps3 (B10 m c) hostOps3_writes (r := main_arg10) (by decide)).trans <|
    (B10_of_ne m c main_arg10 (by decide)).trans <|
    (StableHlo.after_of_writes_sub hostOps2 (B8 m c) hostOps2_writes (r := main_arg10) (by decide)).trans <|
    (B8_of_ne m c main_arg10 (by decide)).trans <|
    (StableHlo.after_of_writes_sub hostOps1 (B6 m c) hostOps1_writes (r := main_arg10) (by decide)).trans <|
    (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at22 : B22 m c main_arg11 = A11 m c :=
  (B22_of_ne m c main_arg11 (by decide)).trans <|
    (StableHlo.after_of_writes_sub hostOps8 (B20 m c) hostOps8_writes (r := main_arg11) (by decide)).trans <|
    (B20_of_ne m c main_arg11 (by decide)).trans <|
    (StableHlo.after_of_writes_sub hostOps7 (B18 m c) hostOps7_writes (r := main_arg11) (by decide)).trans <|
    (B18_of_ne m c main_arg11 (by decide)).trans <|
    (StableHlo.after_of_writes_sub hostOps6 (B16 m c) hostOps6_writes (r := main_arg11) (by decide)).trans <|
    (B16_of_ne m c main_arg11 (by decide)).trans <|
    (StableHlo.after_of_writes_sub hostOps5 (B14 m c) hostOps5_writes (r := main_arg11) (by decide)).trans <|
    (B14_of_ne m c main_arg11 (by decide)).trans <|
    (StableHlo.after_of_writes_sub hostOps4 (B12 m c) hostOps4_writes (r := main_arg11) (by decide)).trans <|
    (B12_of_ne m c main_arg11 (by decide)).trans <|
    (StableHlo.after_of_writes_sub hostOps3 (B10 m c) hostOps3_writes (r := main_arg11) (by decide)).trans <|
    (B10_of_ne m c main_arg11 (by decide)).trans <|
    (StableHlo.after_of_writes_sub hostOps2 (B8 m c) hostOps2_writes (r := main_arg11) (by decide)).trans <|
    (B8_of_ne m c main_arg11 (by decide)).trans <|
    (StableHlo.after_of_writes_sub hostOps1 (B6 m c) hostOps1_writes (r := main_arg11) (by decide)).trans <|
    (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at23 : (B23 m c main_v153 : Cert.ReferenceIdeal.S10000x512.Idx → EReal) = Ref.aggregate (Ref.scaled (H4 m c) (A10 m c) (Ref.weightOf ![3, 0, 0] Cert.ReferenceIdeal.Gen.slices_S5x512x512_S1x512x512_3_0_0 (A2 m c))) (A10 m c) (A11 m c) :=
  (show (B23 m c main_v153 : Cert.ReferenceIdeal.S10000x512.Idx → EReal) = Ref.aggregate (B22 m c main_v143) (B22 m c main_arg10) (B22 m c main_arg11) by
    dsimp only [B23, hostOps9]; after_results; rfl).trans
  (aggregate_congr (out8 m c) (arg10_at22 m c) (arg11_at22 m c))
set_option maxHeartbeats 2000000 in
theorem row2_at23 : (B23 m c main_v168 : S1x512.Idx → EReal) = shapeCast S1x512 (Ref.rowOf ![4, 0] Cert.ReferenceIdeal.Gen.slices_S6x512_S1x512_4_0 (A3 m c)) shapeCasts_S512_S1x512 :=
  (show (B23 m c main_v168 : S1x512.Idx → EReal) = shapeCast S1x512 (Ref.rowOf ![4, 0] Cert.ReferenceIdeal.Gen.slices_S6x512_S1x512_4_0 (B22 m c main_arg3)) shapeCasts_S512_S1x512 by
    dsimp only [B23, hostOps9]; after_results; rfl).trans
  (congrArg (fun a => shapeCast S1x512 (Ref.rowOf ![4, 0] Cert.ReferenceIdeal.Gen.slices_S6x512_S1x512_4_0 a) shapeCasts_S512_S1x512) (arg3_at22 m c))
set_option maxHeartbeats 2000000 in
theorem row3_at23 : (B23 m c main_v169 : S1x512.Idx → EReal) = shapeCast S1x512 (Ref.rowOf ![4, 0] Cert.ReferenceIdeal.Gen.slices_S6x512_S1x512_4_0 (A6 m c)) shapeCasts_S512_S1x512 :=
  (show (B23 m c main_v169 : S1x512.Idx → EReal) = shapeCast S1x512 (Ref.rowOf ![4, 0] Cert.ReferenceIdeal.Gen.slices_S6x512_S1x512_4_0 (B22 m c main_arg6)) shapeCasts_S512_S1x512 by
    dsimp only [B23, hostOps9]; after_results; rfl).trans
  (congrArg (fun a => shapeCast S1x512 (Ref.rowOf ![4, 0] Cert.ReferenceIdeal.Gen.slices_S6x512_S1x512_4_0 a) shapeCasts_S512_S1x512) (arg6_at22 m c))
set_option maxHeartbeats 2000000 in
theorem row4_at23 : (B23 m c main_v170 : S1x512.Idx → EReal) = shapeCast S1x512 (Ref.scaleOf ![4, 0] Cert.ReferenceIdeal.Gen.slices_S6x512_S1x512_4_0 (A4 m c) (A7 m c)) shapeCasts_S512_S1x512 :=
  (show (B23 m c main_v170 : S1x512.Idx → EReal) = shapeCast S1x512 (Ref.scaleOf ![4, 0] Cert.ReferenceIdeal.Gen.slices_S6x512_S1x512_4_0 (B22 m c main_arg4) (B22 m c main_arg7)) shapeCasts_S512_S1x512 by
    dsimp only [B23, hostOps9]; after_results; rfl).trans
  (congrArg₂ (fun a b => shapeCast S1x512 (Ref.scaleOf ![4, 0] Cert.ReferenceIdeal.Gen.slices_S6x512_S1x512_4_0 a b) shapeCasts_S512_S1x512) (arg4_at22 m c) (arg7_at22 m c))
set_option maxHeartbeats 2000000 in
theorem row5_at23 : (B23 m c main_v171 : S1x512.Idx → EReal) = shapeCast S1x512 (Ref.rowOf ![4, 0] Cert.ReferenceIdeal.Gen.slices_S6x512_S1x512_4_0 (A5 m c)) shapeCasts_S512_S1x512 :=
  (show (B23 m c main_v171 : S1x512.Idx → EReal) = shapeCast S1x512 (Ref.rowOf ![4, 0] Cert.ReferenceIdeal.Gen.slices_S6x512_S1x512_4_0 (B22 m c main_arg5)) shapeCasts_S512_S1x512 by
    dsimp only [B23, hostOps9]; after_results; rfl).trans
  (congrArg (fun a => shapeCast S1x512 (Ref.rowOf ![4, 0] Cert.ReferenceIdeal.Gen.slices_S6x512_S1x512_4_0 a) shapeCasts_S512_S1x512) (arg5_at22 m c))
theorem v14_at23' : (B23 m c main_v14 : Cert.ReferenceIdeal.S10000x1.Idx → EReal) = Ref.normCol (A11 m c) :=
  ((StableHlo.after_of_writes_sub hostOps9 (B22 m c) hostOps9_writes (r := main_v14) (by decide)).trans <|
    (B22_of_ne m c main_v14 (by decide)).trans <|
    (StableHlo.after_of_writes_sub hostOps8 (B20 m c) hostOps8_writes (r := main_v14) (by decide)).trans <|
    (B20_of_ne m c main_v14 (by decide)).trans <|
    (StableHlo.after_of_writes_sub hostOps7 (B18 m c) hostOps7_writes (r := main_v14) (by decide)).trans <|
    (B18_of_ne m c main_v14 (by decide)).trans <|
    (StableHlo.after_of_writes_sub hostOps6 (B16 m c) hostOps6_writes (r := main_v14) (by decide)).trans <|
    (B16_of_ne m c main_v14 (by decide)).trans <|
    (StableHlo.after_of_writes_sub hostOps5 (B14 m c) hostOps5_writes (r := main_v14) (by decide)).trans <|
    (B14_of_ne m c main_v14 (by decide)).trans <|
    (StableHlo.after_of_writes_sub hostOps4 (B12 m c) hostOps4_writes (r := main_v14) (by decide)).trans <|
    (B12_of_ne m c main_v14 (by decide)).trans <|
    (StableHlo.after_of_writes_sub hostOps3 (B10 m c) hostOps3_writes (r := main_v14) (by decide)).trans <|
    (B10_of_ne m c main_v14 (by decide)).trans <|
    (StableHlo.after_of_writes_sub hostOps2 (B8 m c) hostOps2_writes (r := main_v14) (by decide)).trans <|
    (B8_of_ne m c main_v14 (by decide)).trans <|
    (StableHlo.after_of_writes_sub hostOps1 (B6 m c) hostOps1_writes (r := main_v14) (by decide)).trans <|
    (B6_of_ne m c main_v14 (by decide)).trans <| rfl).trans (v14_at5 m c)
/-- and region 9 leaves the layer's output. -/
theorem out9 : (B24 m c main_v172 : Cert.ReferenceIdeal.S10000x512.Idx → EReal) = H5 m c :=
  (B24_out m c).trans <|
    (val9 (T23 m) c (Ref.rowOf ![4, 0] Cert.ReferenceIdeal.Gen.slices_S6x512_S1x512_4_0 (A3 m c)) (Ref.rowOf ![4, 0] Cert.ReferenceIdeal.Gen.slices_S6x512_S1x512_4_0 (A6 m c)) (Ref.scaleOf ![4, 0] Cert.ReferenceIdeal.Gen.slices_S6x512_S1x512_4_0 (A4 m c) (A7 m c)) (Ref.rowOf ![4, 0] Cert.ReferenceIdeal.Gen.slices_S6x512_S1x512_4_0 (A5 m c))
      shapeCasts_S512_S1x512 (row2_at23 m c) (row3_at23 m c) (row4_at23 m c) (row5_at23 m c)).trans <|
    (bnWhole_congr _ _ _ _ (agg_at23 m c) (v14_at23' m c)).trans rfl
theorem arg2_at24 : B24 m c main_arg2 = A2 m c :=
  (B24_of_ne m c main_arg2 (by decide)).trans <|
    (StableHlo.after_of_writes_sub hostOps9 (B22 m c) hostOps9_writes (r := main_arg2) (by decide)).trans <|
    (B22_of_ne m c main_arg2 (by decide)).trans <|
    (StableHlo.after_of_writes_sub hostOps8 (B20 m c) hostOps8_writes (r := main_arg2) (by decide)).trans <|
    (B20_of_ne m c main_arg2 (by decide)).trans <|
    (StableHlo.after_of_writes_sub hostOps7 (B18 m c) hostOps7_writes (r := main_arg2) (by decide)).trans <|
    (B18_of_ne m c main_arg2 (by decide)).trans <|
    (StableHlo.after_of_writes_sub hostOps6 (B16 m c) hostOps6_writes (r := main_arg2) (by decide)).trans <|
    (B16_of_ne m c main_arg2 (by decide)).trans <|
    (StableHlo.after_of_writes_sub hostOps5 (B14 m c) hostOps5_writes (r := main_arg2) (by decide)).trans <|
    (B14_of_ne m c main_arg2 (by decide)).trans <|
    (StableHlo.after_of_writes_sub hostOps4 (B12 m c) hostOps4_writes (r := main_arg2) (by decide)).trans <|
    (B12_of_ne m c main_arg2 (by decide)).trans <|
    (StableHlo.after_of_writes_sub hostOps3 (B10 m c) hostOps3_writes (r := main_arg2) (by decide)).trans <|
    (B10_of_ne m c main_arg2 (by decide)).trans <|
    (StableHlo.after_of_writes_sub hostOps2 (B8 m c) hostOps2_writes (r := main_arg2) (by decide)).trans <|
    (B8_of_ne m c main_arg2 (by decide)).trans <|
    (StableHlo.after_of_writes_sub hostOps1 (B6 m c) hostOps1_writes (r := main_arg2) (by decide)).trans <|
    (B6_of_ne m c main_arg2 (by decide)).trans <|
    (StableHlo.after_of_writes_sub hostOps0_4 (B4 m c) hostOps0_4_writes (r := main_arg2) (by decide)).trans <|
    (StableHlo.after_of_writes_sub hostOps0_3 (B3 m c) hostOps0_3_writes (r := main_arg2) (by decide)).trans <|
    (StableHlo.after_of_writes_sub hostOps0_2 (B2 m c) hostOps0_2_writes (r := main_arg2) (by decide)).trans <|
    (StableHlo.after_of_writes_sub hostOps0_1 (B1 m c) hostOps0_1_writes (r := main_arg2) (by decide)).trans <|
    (StableHlo.after_of_writes_sub hostOps0 (B0 m c) hostOps0_writes (r := main_arg2) (by decide)).trans <| rfl

end Cert.KernelIdeal.Frm

end
-- ==== Proof.KI.Val10.lean ====
/-
  Region 10 of @main, at the exact (extended real) values: the region's output array after the run is the
  row-scaled product of the three arrays the region finds. Every row of the 10000 by 512 input is multiplied by
  its row factor and the result is multiplied by the 512 by 512 weight matrix.

  The pipeline works on blocks of 2000 rows. At grid point t the body reads rows 2000 t .. 2000 t + 1999 of the
  input and of the column of row factors, and the whole weight matrix, and writes back rows 2000 t .. 2000 t + 1999
  of the output: entry (p, q) of what it writes is the sum over k of (x(2000 t + p, k) * s(2000 t + p, 0)) * w(k, q),
  which is entry (2000 t + p, q) of the whole-array product. Row r of the output lies in the block of point
  r / 2000, so the five blocks cover the array and the array ends holding the product.
-/
import proofs.«144268_j91216515432581_2_alg».proof.Proof.KI.Reg10
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz10 : (![0, 0] : Fin 2 → Nat) = fun _ => 0 := funext fun a => by fin_cases a <;> rfl

/-- The block indices over the grid: at point t the row blocks of the input, of the row factors and of the output
    are block t, and the weight matrix is its one block. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What the region's output array ends holding: the row-scaled product of the arrays the region finds. -/
abbrev G10 (c : Dev nD) : S10000x512.Idx → EReal :=
  scaledProduct (V c (Pipeline.arrRef spec10 0)) (V c (Pipeline.arrRef spec10 1)) (V c (Pipeline.arrRef spec10 2))

/-- The input's block at point t is rows 2000 t .. 2000 t + 1999 of its array. -/
theorem iblk10_0_apply (c : Dev nD) (t : Fin cfg10.N) (p : Fin 2000) (k : Fin 512) (r : Fin 10000)
    (hr : r.val = 2000 * t.val + p.val) :
    (iblk10 V c 0 t : Vec Ideal S2000x512 .f32) (ix2 p k)
      = (V c (Pipeline.arrRef spec10 0) : S10000x512.Idx → EReal) (ix2 r k) := by
  obtain ⟨e0, e1, -⟩ := idx_facts10 t
  unfold iblk10
  rw [View.read_apply]
  show (V c (Pipeline.arrRef spec10 0) : S10000x512.Idx → EReal) _ = _
  refine congrArg _ (funext fun a => Fin.ext ?_)
  match a with
  | ⟨0, _⟩ => show win10_0.index t (0 : Fin 2) * 2000 + 1 * p.val = r.val; rw [e0, hr]; omega
  | ⟨1, _⟩ => show win10_0.index t (1 : Fin 2) * 512 + 1 * k.val = k.val; rw [e1]; omega

/-- The row factors' block at point t is rows 2000 t .. 2000 t + 1999 of their column. -/
theorem iblk10_1_apply (c : Dev nD) (t : Fin cfg10.N) (p : Fin 2000) (r : Fin 10000)
    (hr : r.val = 2000 * t.val + p.val) :
    (iblk10 V c 1 t : Vec Ideal S2000x1 .f32) (ix2 p (0 : Fin 1))
      = (V c (Pipeline.arrRef spec10 1) : S10000x1.Idx → EReal) (ix2 r (0 : Fin 1)) := by
  obtain ⟨-, -, e0, e1, -⟩ := idx_facts10 t
  unfold iblk10
  rw [View.read_apply]
  show (V c (Pipeline.arrRef spec10 1) : S10000x1.Idx → EReal) _ = _
  refine congrArg _ (funext fun a => Fin.ext ?_)
  match a with
  | ⟨0, _⟩ => show win10_1.index t (0 : Fin 2) * 2000 + 1 * p.val = r.val; rw [e0, hr]; omega
  | ⟨1, _⟩ => show win10_1.index t (1 : Fin 2) * 1 + 1 * 0 = 0; rw [e1]

/-- The weights' block at every point is the whole matrix. -/
theorem iblk10_2_apply (c : Dev nD) (t : Fin cfg10.N) (k : Fin 512) (q : Fin 512) :
    (iblk10 V c 2 t : Vec Ideal S512x512 .f32) (ix2 k q)
      = (V c (Pipeline.arrRef spec10 2) : S512x512.Idx → EReal) (ix2 k q) := by
  obtain ⟨-, -, -, -, e0, e1, -⟩ := idx_facts10 t
  unfold iblk10
  rw [View.read_apply]
  show (V c (Pipeline.arrRef spec10 2) : S512x512.Idx → EReal) _ = _
  refine congrArg _ (funext fun a => Fin.ext ?_)
  match a with
  | ⟨0, _⟩ => show win10_2.index t (0 : Fin 2) * 512 + 1 * k.val = k.val; rw [e0]; omega
  | ⟨1, _⟩ => show win10_2.index t (1 : Fin 2) * 512 + 1 * q.val = q.val; rw [e1]; omega

/-- What point t writes back is block t of the row-scaled product. -/
theorem flushed10_eq (c : Dev nD) (t : Fin cfg10.N) :
    (dat10 V c).flushed 3 t = ((cfg10.win 3).blk t).view.read (Elt Ideal) (G10 V c) := by
  show (cfg10.win 3).cut (grid10.coords t) ((dat10 V c).after 3 t) = _
  rw [after10_3]
  unfold out10_3
  rw [View.canon_unit_zero hz10]
  simp only [View.ld_unit_zero (S := S2000x512) hz10, View.ld_unit_zero (S := S2000x1) hz10,
    View.ld_unit_zero (S := S512x512) hz10]
  obtain ⟨-, -, -, -, -, -, e0, e1⟩ := idx_facts10 t
  have ht : t.val < 5 := lt_of_lt_of_eq t.isLt N_10
  funext y
  obtain ⟨p, q, rfl⟩ : ∃ (p : Fin 2000) (q : Fin 512), y = ix2 p q := ⟨y 0, y 1, eq_ix2 y⟩
  have hp := p.isLt
  obtain ⟨r, hr⟩ : ∃ r : Fin 10000, r.val = 2000 * t.val + p.val := ⟨⟨2000 * t.val + p.val, by omega⟩, rfl⟩
  have hemb : ((cfg10.win 3).blk t).view.emb (ix2 p q) = (ix2 r q : S10000x512.Idx) := by
    funext a; apply Fin.ext
    match a with
    | ⟨0, _⟩ => show win10_3.index t (0 : Fin 2) * 2000 + 1 * p.val = r.val; rw [e0, hr]; omega
    | ⟨1, _⟩ => show win10_3.index t (1 : Fin 2) * 512 + 1 * q.val = q.val; rw [e1]; omega
  show k10_pay1 (iblk10 V c 0 t) (iblk10 V c 1 t) (iblk10 V c 2 t) (ix2 p q)
      = G10 V c (((cfg10.win 3).blk t).view.emb (ix2 p q))
  rw [hemb]
  refine (k10_pay1_apply _ _ _ p q).trans (Eq.trans ?_ (scaledProduct_apply _ _ _ r q).symm)
  refine Finset.sum_congr rfl fun k _ => ?_
  rw [iblk10_0_apply V c t p k r hr, iblk10_1_apply V c t p r hr, iblk10_2_apply V c t k q]

/-- An index of the output array is in point t's block iff each coordinate is in the block's range on its axis. -/
theorem mem_blk10 (t : Fin cfg10.N) (i : S10000x512.Idx) :
    i ∈ ((cfg10.win 3).blk t).view.set ↔ ∀ a : Fin 2, win10_3.index t a * S2000x512.size a ≤ (i a).val
      ∧ (i a).val < win10_3.index t a * S2000x512.size a + S2000x512.size a := by
  show i ∈ ((View.whole (Pipeline.arrRef spec10 3)).slice (win10_3.rect t)).set ↔ _
  rw [View.set_slice_whole, Rect.mem_set_unit]
  exact Iff.rfl

/-- Row r of the output array is in the block of point r / 2000. -/
theorem cover10 (i : S10000x512.Idx) :
    ∃ t : Fin cfg10.N, (cfg10.win 3).flush t = true ∧ i ∈ ((cfg10.win 3).blk t).view.set := by
  have hi0 : (i 0).val < 10000 := (i 0).isLt
  have hi1 : (i 1).val < 512 := (i 1).isLt
  have hN : cfg10.N = 5 := N_10
  let t : Fin cfg10.N := ⟨(i 0).val / 2000, by rw [hN]; omega⟩
  obtain ⟨-, -, -, -, -, -, e0, e1⟩ := idx_facts10 t
  refine ⟨t, flush10_3 t, ?_⟩
  rw [mem_blk10]
  intro a
  match a with
  | ⟨0, _⟩ =>
    show win10_3.index t (0 : Fin 2) * 2000 ≤ (i 0).val ∧ (i 0).val < win10_3.index t (0 : Fin 2) * 2000 + 2000
    rw [e0]; show (i 0).val / 2000 * 2000 ≤ (i 0).val ∧ (i 0).val < (i 0).val / 2000 * 2000 + 2000; omega
  | ⟨1, _⟩ =>
    show win10_3.index t (1 : Fin 2) * 512 ≤ (i 1).val ∧ (i 1).val < win10_3.index t (1 : Fin 2) * 512 + 512
    rw [e1]; omega

/-- The region's output array after the run: the row-scaled product of the arrays the region finds. -/
theorem final10 (c : Dev nD) : (dat10 V c).arrAt 3 cfg10.N = G10 V c :=
  (dat10 V c).arrAt_eq_of_cover 3 (G10 V c) (fun t _ => flushed10_eq V c t) (cover10)

end Cert.KernelIdeal.Frm

end
-- ==== Proof.KI.Val11.lean ====
/-
  Region 11 of @main (normalisation and rectifier), its output array as one function of its input arrays.

  The region's grid has five points; point t reads rows 2000 t … 2000 t + 1999 of the 10000 × 512 array and of the
  10000 × 1 column of row factors, reads the four 1 × 512 rows whole, and writes back rows 2000 t … 2000 t + 1999 of
  the output. Element (p, q) of what it writes is
      max (((x (2000 t + p, q) * f (2000 t + p, 0) + b q) - m q) * s q + e q) 0,
  and element (r, q) of the whole-array form, in which the column is laid across the columns and each vector is made
  a row and laid down the rows, is the same expression at r = 2000 t + p. The five blocks tile the array (row r is in
  block r / 2000), so the array after the region is the whole-array form. The two sides apply the same operations to
  the same elements in the same order: no law of arithmetic is used, and nothing is assumed finite.

  The four one-row inputs are assumed to be vectors of 512 entries recast as rows (the hypotheses h2 … h5): that is
  how the program before the region produces them. The argument is region 1's with the region's own names; the
  whole-array form and the reading of a recast vector are shared with it.
-/
import proofs.«144268_j91216515432581_2_alg».proof.Proof.KI.Reg11
import proofs.«144268_j91216515432581_2_alg».proof.Proof.KI.Val1
import proofs.«144268_j91216515432581_2_alg».proof.Proof.KI.BnLaw
import proofs.«144268_j91216515432581_2_alg».proof.Proof.Gen.ReferenceIdeal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz11 : (![0, 0] : Fin 2 → Nat) = fun _ => 0 := funext fun a => by fin_cases a <;> rfl

/-- The body's arithmetic at row `p`, column `q` of a block. -/
theorem pay11_apply (x0 : Vec Ideal S2000x512 .f32) (x1 : Vec Ideal S2000x1 .f32) (x2 x3 x4 x5 : Vec Ideal S1x512 .f32)
    (p : Fin 2000) (q : Fin 512) :
    k11_pay1 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold k11_pay1
  exact BnLaw.block_apply x0 x1 x2 x3 x4 x5 _ _ _ _ _ _ p q

/-- The output buffer after the body, at row `p`, column `q`: the one store is of the whole buffer. -/
theorem out11_6_apply (x0 : Vec Ideal S2000x512 .f32) (x1 : Vec Ideal S2000x1 .f32) (x2 x3 x4 x5 : Vec Ideal S1x512 .f32)
    (p : Fin 2000) (q : Fin 512) :
    out11_6 x0 x1 x2 x3 x4 x5 (ix2 p q)
      = BnLaw.elem (x0 (ix2 p q)) (x1 (ix2 p (0 : Fin 1))) (x2 (ix2 (0 : Fin 1) q)) (x3 (ix2 (0 : Fin 1) q))
          (x4 (ix2 (0 : Fin 1) q)) (x5 (ix2 (0 : Fin 1) q)) (Scalar.ofBits (F := Ideal) .f32 0x00000000#32) := by
  unfold out11_6
  rw [View.canon_unit_zero hz11]
  simp only [View.ld_unit_zero (S := S2000x512) hz11, View.ld_unit_zero (S := S2000x1) hz11, View.ld_unit_zero (S := S1x512) hz11]
  exact pay11_apply x0 x1 x2 x3 x4 x5 p q

/-- The block indices, decided over the five grid points: the row-blocked windows are at block (t, 0), the four
    one-row windows at block (0, 0). -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-- Block `t` of window 0 is rows 2000 t … 2000 t + 1999 of its array. -/
theorem iblk11_0_apply (c : Dev nD) (t : Fin cfg11.N) (p : Fin 2000) (q : Fin 512) (r : Fin 10000)
    (hr : r.val = t.val * 2000 + p.val) :
    (iblk11 V c 0 t : Vec Ideal S2000x512 .f32) (ix2 p q)
      = (V c (Pipeline.arrRef spec11 0) : S10000x512.Idx → Elt Ideal .f32) (ix2 r q) := by
  obtain ⟨e0, e1, -⟩ := idx_facts11 t
  unfold iblk11
  rw [View.read_apply]
  show V c (Pipeline.arrRef spec11 0) (((cfg11.win 0).blk t).view.emb (ix2 p q)) = V c (Pipeline.arrRef spec11 0) (ix2 r q)
  refine congrArg (V c (Pipeline.arrRef spec11 0)) (funext fun a => Fin.ext ?_)
  match a with
  | ⟨0, _⟩ => show win11_0.index t (0 : Fin 2) * 2000 + 1 * p.val = r.val; rw [e0, hr]; omega
  | ⟨1, _⟩ => show win11_0.index t (1 : Fin 2) * 512 + 1 * q.val = q.val; rw [e1]; omega

/-- Block `t` of window 1 is rows 2000 t … 2000 t + 1999 of the column of row factors. -/
theorem iblk11_1_apply (c : Dev nD) (t : Fin cfg11.N) (p : Fin 2000) (r : Fin 10000)
    (hr : r.val = t.val * 2000 + p.val) :
    (iblk11 V c 1 t : Vec Ideal S2000x1 .f32) (ix2 p (0 : Fin 1))
      = (V c (Pipeline.arrRef spec11 1) : S10000x1.Idx → Elt Ideal .f32) (ix2 r (0 : Fin 1)) := by
  obtain ⟨-, -, e0, e1, -⟩ := idx_facts11 t
  unfold iblk11
  rw [View.read_apply]
  show V c (Pipeline.arrRef spec11 1) (((cfg11.win 1).blk t).view.emb (ix2 p (0 : Fin 1))) = V c (Pipeline.arrRef spec11 1) (ix2 r (0 : Fin 1))
  refine congrArg (V c (Pipeline.arrRef spec11 1)) (funext fun a => Fin.ext ?_)
  match a with
  | ⟨0, _⟩ => show win11_1.index t (0 : Fin 2) * 2000 + 1 * p.val = r.val; rw [e0, hr]; omega
  | ⟨1, _⟩ => show win11_1.index t (1 : Fin 2) * 1 + 1 * 0 = 0; rw [e1]

/-- Window 2 is one row, fetched whole at every point. -/
theorem iblk11_2_apply (c : Dev nD) (t : Fin cfg11.N) (q : Fin 512) :
    (iblk11 V c 2 t : Vec Ideal S1x512 .f32) (ix2 (0 : Fin 1) q)
      = (V c (Pipeline.arrRef spec11 2) : S1x512.Idx → Elt Ideal .f32) (ix2 (0 : Fin 1) q) := by
  obtain ⟨-, -, -, -, e20, e21, e30, e31, e40, e41, e50, e51, -⟩ := idx_facts11 t
  unfold iblk11
  rw [View.read_apply]
  show V c (Pipeline.arrRef spec11 2) (((cfg11.win 2).blk t).view.emb (ix2 (0 : Fin 1) q)) = V c (Pipeline.arrRef spec11 2) (ix2 (0 : Fin 1) q)
  refine congrArg (V c (Pipeline.arrRef spec11 2)) (funext fun a => Fin.ext ?_)
  match a with
  | ⟨0, _⟩ => show win11_2.index t (0 : Fin 2) * 1 + 1 * 0 = 0; rw [e20]
  | ⟨1, _⟩ => show win11_2.index t (1 : Fin 2) * 512 + 1 * q.val = q.val; rw [e21]; omega

/-- Window 3 is one row, fetched whole at every point. -/
theorem iblk11_3_apply (c : Dev nD) (t : Fin cfg11.N) (q : Fin 512) :
    (iblk11 V c 3 t : Vec Ideal S1x512 .f32) (ix2 (0 : Fin 1) q)
      = (V c (Pipeline.arrRef spec11 3) : S1x512.Idx → Elt Ideal .f32) (ix2 (0 : Fin 1) q) := by
  obtain ⟨-, -, -, -, e20, e21, e30, e31, e40, e41, e50, e51, -⟩ := idx_facts11 t
  unfold iblk11
  rw [View.read_apply]
  show V c (Pipeline.arrRef spec11 3) (((cfg11.win 3).blk t).view.emb (ix2 (0 : Fin 1) q)) = V c (Pipeline.arrRef spec11 3) (ix2 (0 : Fin 1) q)
  refine congrArg (V c (Pipeline.arrRef spec11 3)) (funext fun a => Fin.ext ?_)
  match a with
  | ⟨0, _⟩ => show win11_3.index t (0 : Fin 2) * 1 + 1 * 0 = 0; rw [e30]
  | ⟨1, _⟩ => show win11_3.index t (1 : Fin 2) * 512 + 1 * q.val = q.val; rw [e31]; omega

/-- Window 4 is one row, fetched whole at every point. -/
theorem iblk11_4_apply (c : Dev nD) (t : Fin cfg11.N) (q : Fin 512) :
    (iblk11 V c 4 t : Vec Ideal S1x512 .f32) (ix2 (0 : Fin 1) q)
      = (V c (Pipeline.arrRef spec11 4) : S1x512.Idx → Elt Ideal .f32) (ix2 (0 : Fin 1) q) := by
  obtain ⟨-, -, -, -, e20, e21, e30, e31, e40, e41, e50, e51, -⟩ := idx_facts11 t
  unfold iblk11
  rw [View.read_apply]
  show V c (Pipeline.arrRef spec11 4) (((cfg11.win 4).blk t).view.emb (ix2 (0 : Fin 1) q)) = V c (Pipeline.arrRef spec11 4) (ix2 (0 : Fin 1) q)
  refine congrArg (V c (Pipeline.arrRef spec11 4)) (funext fun a => Fin.ext ?_)
  match a with
  | ⟨0, _⟩ => show win11_4.index t (0 : Fin 2) * 1 + 1 * 0 = 0; rw [e40]
  | ⟨1, _⟩ => show win11_4.index t (1 : Fin 2) * 512 + 1 * q.val = q.val; rw [e41]; omega

/-- Window 5 is one row, fetched whole at every point. -/
theorem iblk11_5_apply (c : Dev nD) (t : Fin cfg11.N) (q : Fin 512) :
    (iblk11 V c 5 t : Vec Ideal S1x512 .f32) (ix2 (0 : Fin 1) q)
      = (V c (Pipeline.arrRef spec11 5) : S1x512.Idx → Elt Ideal .f32) (ix2 (0 : Fin 1) q) := by
  obtain ⟨-, -, -, -, e20, e21, e30, e31, e40, e41, e50, e51, -⟩ := idx_facts11 t
  unfold iblk11
  rw [View.read_apply]
  show V c (Pipeline.arrRef spec11 5) (((cfg11.win 5).blk t).view.emb (ix2 (0 : Fin 1) q)) = V c (Pipeline.arrRef spec11 5) (ix2 (0 : Fin 1) q)
  refine congrArg (V c (Pipeline.arrRef spec11 5)) (funext fun a => Fin.ext ?_)
  match a with
  | ⟨0, _⟩ => show win11_5.index t (0 : Fin 2) * 1 + 1 * 0 = 0; rw [e50]
  | ⟨1, _⟩ => show win11_5.index t (1 : Fin 2) * 512 + 1 * q.val = q.val; rw [e51]; omega

/-- Element (p, q) of what point `t` leaves in the output buffer is element (2000 t + p, q) of the whole-array form:
    the block's element of the array and of the column of row factors sit in row 2000 t + p, and the four rows'
    entries at column q are entry q of each vector. -/
theorem elem11_eq (c : Dev nD) (t : Fin cfg11.N) (v2 v3 v4 v5 : FVec Ideal S512 .f32) (hsc : S512.ShapeCasts S1x512)
    (h2 : (V c (Pipeline.arrRef spec11 2) : S1x512.Idx → Elt Ideal .f32) = shapeCast S1x512 v2 hsc)
    (h3 : (V c (Pipeline.arrRef spec11 3) : S1x512.Idx → Elt Ideal .f32) = shapeCast S1x512 v3 hsc)
    (h4 : (V c (Pipeline.arrRef spec11 4) : S1x512.Idx → Elt Ideal .f32) = shapeCast S1x512 v4 hsc)
    (h5 : (V c (Pipeline.arrRef spec11 5) : S1x512.Idx → Elt Ideal .f32) = shapeCast S1x512 v5 hsc)
    (p : Fin 2000) (q : Fin 512) (r : Fin 10000) (hr : r.val = t.val * 2000 + p.val) :
    out11_6 (iblk11 V c 0 t) (iblk11 V c 1 t) (iblk11 V c 2 t) (iblk11 V c 3 t) (iblk11 V c 4 t) (iblk11 V c 5 t) (ix2 p q)
      = bnWhole (V c (Pipeline.arrRef spec11 0)) (V c (Pipeline.arrRef spec11 1)) v2 v3 v4 v5 (ix2 r q) := by
  refine (out11_6_apply (iblk11 V c 0 t) (iblk11 V c 1 t) (iblk11 V c 2 t) (iblk11 V c 3 t) (iblk11 V c 4 t) (iblk11 V c 5 t)
    p q).trans ?_
  refine Eq.trans ?_ (BnLaw.whole_apply (m := 10000) (n := 512) (V c (Pipeline.arrRef spec11 0)) (V c (Pipeline.arrRef spec11 1)) v2 v3 v4 v5
    Cert.ReferenceIdeal.Gen.bcast_S10000x1_S10000x512_0_1 Cert.ReferenceIdeal.Gen.bcast_S512_S1x512_1
    Cert.ReferenceIdeal.Gen.bcast_S1x512_S10000x512_0_1
    (broadcastInDim S10000x512 ![] Cert.ReferenceIdeal.Gen.bcast_S_S10000x512 (constant (F := Ideal) S_ .f32 0x00000000#32))
    r q).symm
  have e0 := iblk11_0_apply V c t p q r hr
  have e1 := iblk11_1_apply V c t p r hr
  have e2 := (iblk11_2_apply V c t q).trans (row_of_vec _ v2 hsc h2 q)
  have e3 := (iblk11_3_apply V c t q).trans (row_of_vec _ v3 hsc h3 q)
  have e4 := (iblk11_4_apply V c t q).trans (row_of_vec _ v4 hsc h4 q)
  have e5 := (iblk11_5_apply V c t q).trans (row_of_vec _ v5 hsc h5 q)
  exact congr (congr (congr (congr (congr (congr (congrArg BnLaw.elem e0) e1) e2) e3) e4) e5) rfl

/-- What point `t` writes back is block `t` of the whole-array form. -/
theorem flushed11_eq (c : Dev nD) (t : Fin cfg11.N) (v2 v3 v4 v5 : FVec Ideal S512 .f32) (hsc : S512.ShapeCasts S1x512)
    (h2 : (V c (Pipeline.arrRef spec11 2) : S1x512.Idx → Elt Ideal .f32) = shapeCast S1x512 v2 hsc)
    (h3 : (V c (Pipeline.arrRef spec11 3) : S1x512.Idx → Elt Ideal .f32) = shapeCast S1x512 v3 hsc)
    (h4 : (V c (Pipeline.arrRef spec11 4) : S1x512.Idx → Elt Ideal .f32) = shapeCast S1x512 v4 hsc)
    (h5 : (V c (Pipeline.arrRef spec11 5) : S1x512.Idx → Elt Ideal .f32) = shapeCast S1x512 v5 hsc) :
    (dat11 V c).flushed 6 t = ((cfg11.win 6).blk t).view.read (Elt Ideal)
      (bnWhole (V c (Pipeline.arrRef spec11 0)) (V c (Pipeline.arrRef spec11 1)) v2 v3 v4 v5) := by
  show (cfg11.win 6).cut (grid11.coords t) ((dat11 V c).after 6 t) = _
  rw [after11_6]
  funext j
  have hN : cfg11.N = 5 := N_11
  have ht : t.val < 5 := hN ▸ t.isLt
  have h0 : (j 0).val < 2000 := (j 0).isLt
  have h1 : (j 1).val < 512 := (j 1).isLt
  obtain ⟨-, -, -, -, -, -, -, -, -, -, -, -, e60, e61⟩ := idx_facts11 t
  have hx : (cfg11.win 6).xinj (grid11.coords t) j = ix2 (⟨(j 0).val, h0⟩ : Fin 2000) (⟨(j 1).val, h1⟩ : Fin 512) := by
    funext a
    match a with
    | ⟨0, _⟩ => rfl
    | ⟨1, _⟩ => rfl
  have he : ((cfg11.win 6).blk t).view.emb j
      = ix2 (⟨t.val * 2000 + (j 0).val, by omega⟩ : Fin 10000) (⟨(j 1).val, h1⟩ : Fin 512) := by
    funext a
    apply Fin.ext
    match a with
    | ⟨0, _⟩ => show win11_6.index t (0 : Fin 2) * 2000 + 1 * (j 0).val = t.val * 2000 + (j 0).val; rw [e60]; omega
    | ⟨1, _⟩ => show win11_6.index t (1 : Fin 2) * 512 + 1 * (j 1).val = (j 1).val; rw [e61]; omega
  show out11_6 (iblk11 V c 0 t) (iblk11 V c 1 t) (iblk11 V c 2 t) (iblk11 V c 3 t) (iblk11 V c 4 t) (iblk11 V c 5 t)
      ((cfg11.win 6).xinj (grid11.coords t) j)
    = bnWhole (V c (Pipeline.arrRef spec11 0)) (V c (Pipeline.arrRef spec11 1)) v2 v3 v4 v5 (((cfg11.win 6).blk t).view.emb j)
  rw [hx, he]
  exact elem11_eq V c t v2 v3 v4 v5 hsc h2 h3 h4 h5 ⟨(j 0).val, h0⟩ ⟨(j 1).val, h1⟩ ⟨t.val * 2000 + (j 0).val, by omega⟩ rfl

/-- An index of the array lies in point `t`'s block iff each coordinate lies in the block's range on its axis. -/
theorem mem_blk11_6 (t : Fin cfg11.N) (i : S10000x512.Idx) :
    i ∈ ((cfg11.win 6).blk t).view.set ↔ ∀ a : Fin 2, win11_6.index t a * S2000x512.size a ≤ (i a).val
      ∧ (i a).val < win11_6.index t a * S2000x512.size a + S2000x512.size a := by
  show i ∈ ((View.whole main_v204).slice (win11_6.rect t)).set ↔ _
  rw [View.set_slice_whole, Rect.mem_set_unit]
  exact Iff.rfl

/-- The five blocks tile the array: row `r` lies in the block of point `r / 2000`. -/
theorem covers11_6 (i : S10000x512.Idx) :
    ∃ t : Fin cfg11.N, (cfg11.win 6).flush t = true ∧ i ∈ ((cfg11.win 6).blk t).view.set := by
  have hi0 : (i 0).val < 10000 := (i 0).isLt
  have hi1 : (i 1).val < 512 := (i 1).isLt
  have hN : cfg11.N = 5 := N_11
  have hlt : (i 0).val / 2000 < cfg11.N := by rw [hN]; omega
  obtain ⟨-, -, -, -, -, -, -, -, -, -, -, -, e60, e61⟩ := idx_facts11 ⟨(i 0).val / 2000, hlt⟩
  refine ⟨⟨(i 0).val / 2000, hlt⟩, flush11_6 _, ?_⟩
  rw [mem_blk11_6]
  intro a
  match a with
  | ⟨0, _⟩ =>
    show win11_6.index ⟨(i 0).val / 2000, hlt⟩ (0 : Fin 2) * 2000 ≤ (i 0).val
      ∧ (i 0).val < win11_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win11_6.index ⟨(i 0).val / 2000, hlt⟩ (1 : Fin 2) * 512 ≤ (i 1).val
      ∧ (i 1).val < win11_6.index ⟨(i 0).val / 2000, hlt⟩ (1 : Fin 2) * 512 + 512
    rw [e61]
    omega

/-- THE OUTPUT ARRAY OF THE REGION: the whole-array form of the region's input arrays, whatever they hold, given
    that each one-row input is a vector recast as a row. -/
theorem val11 (c : Dev nD) (v2 v3 v4 v5 : FVec Ideal S512 .f32) (hsc : S512.ShapeCasts S1x512)
    (h2 : (V c (Pipeline.arrRef spec11 2) : S1x512.Idx → Elt Ideal .f32) = shapeCast S1x512 v2 hsc)
    (h3 : (V c (Pipeline.arrRef spec11 3) : S1x512.Idx → Elt Ideal .f32) = shapeCast S1x512 v3 hsc)
    (h4 : (V c (Pipeline.arrRef spec11 4) : S1x512.Idx → Elt Ideal .f32) = shapeCast S1x512 v4 hsc)
    (h5 : (V c (Pipeline.arrRef spec11 5) : S1x512.Idx → Elt Ideal .f32) = shapeCast S1x512 v5 hsc) :
    (dat11 V c).arrAt 6 cfg11.N
      = bnWhole (V c (Pipeline.arrRef spec11 0)) (V c (Pipeline.arrRef spec11 1)) v2 v3 v4 v5 :=
  (dat11 V c).arrAt_eq_of_cover 6 _ (fun t _ => flushed11_eq V c t v2 v3 v4 v5 hsc h2 h3 h4 h5) covers11_6

/-- The same with the whole-array form written out operation by operation. -/
theorem val11_spelt (c : Dev nD) (v2 v3 v4 v5 : FVec Ideal S512 .f32) (hsc : S512.ShapeCasts S1x512)
    (h2 : (V c (Pipeline.arrRef spec11 2) : S1x512.Idx → Elt Ideal .f32) = shapeCast S1x512 v2 hsc)
    (h3 : (V c (Pipeline.arrRef spec11 3) : S1x512.Idx → Elt Ideal .f32) = shapeCast S1x512 v3 hsc)
    (h4 : (V c (Pipeline.arrRef spec11 4) : S1x512.Idx → Elt Ideal .f32) = shapeCast S1x512 v4 hsc)
    (h5 : (V c (Pipeline.arrRef spec11 5) : S1x512.Idx → Elt Ideal .f32) = shapeCast S1x512 v5 hsc) :
    ((dat11 V c).arrAt 6 cfg11.N : S10000x512.Idx → Elt Ideal .f32)
      = maximumf (addf (mulf (subf (addf (mulf (V c (Pipeline.arrRef spec11 0) : S10000x512.Idx → Elt Ideal .f32)
          (broadcastInDim S10000x512 ![0, 1] Cert.ReferenceIdeal.Gen.bcast_S10000x1_S10000x512_0_1 (V c (Pipeline.arrRef spec11 1) : S10000x1.Idx → Elt Ideal .f32)))
          (broadcastInDim S10000x512 ![0, 1] Cert.ReferenceIdeal.Gen.bcast_S1x512_S10000x512_0_1 (broadcastInDim S1x512 ![1] Cert.ReferenceIdeal.Gen.bcast_S512_S1x512_1 v2)))
          (broadcastInDim S10000x512 ![0, 1] Cert.ReferenceIdeal.Gen.bcast_S1x512_S10000x512_0_1 (broadcastInDim S1x512 ![1] Cert.ReferenceIdeal.Gen.bcast_S512_S1x512_1 v3)))
          (broadcastInDim S10000x512 ![0, 1] Cert.ReferenceIdeal.Gen.bcast_S1x512_S10000x512_0_1 (broadcastInDim S1x512 ![1] Cert.ReferenceIdeal.Gen.bcast_S512_S1x512_1 v4)))
          (broadcastInDim S10000x512 ![0, 1] Cert.ReferenceIdeal.Gen.bcast_S1x512_S10000x512_0_1 (broadcastInDim S1x512 ![1] Cert.ReferenceIdeal.Gen.bcast_S512_S1x512_1 v5)))
          (broadcastInDim S10000x512 ![] Cert.ReferenceIdeal.Gen.bcast_S_S10000x512 (constant (F := Ideal) S_ .f32 0x00000000#32)) :=
  val11 V c v2 v3 v4 v5 hsc h2 h3 h4 h5

end Cert.KernelIdeal.Frm

end
-- ==== Proof.KI.Chain6.lean ====
/-
  The chain of @main at the exact values, layer 6: the matrix-product region leaves the previous output's rows
  scaled by the source normalisation times the layer's weights; the host operations after it gather those rows along
  the edges' sources and add them up at the edges' destinations, and cut the layer's bias, mean, scale and shift rows
  out of the parameter arrays; the normalisation region leaves the layer's output, which is the reference's
  layer 6 output of the argument arrays. Every buffer a later item reads is carried unchanged across the items that
  do not write it.
-/
import proofs.«144268_j91216515432581_2_alg».proof.Proof.KI.Chain5
import proofs.«144268_j91216515432581_2_alg».proof.Proof.KI.Val10
import proofs.«144268_j91216515432581_2_alg».proof.Proof.KI.Val11
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## Layer 6 -/

set_option maxHeartbeats 2000000 in
/-- The layer's weights: matrix 4 of the weight array. -/
theorem w_at25 : (B25 m c main_v174 : Cert.ReferenceIdeal.S512x512.Idx → EReal) = Ref.weightOf ![4, 0, 0] Cert.ReferenceIdeal.Gen.slices_S5x512x512_S1x512x512_4_0_0 (A2 m c) :=
  (show (B25 m c main_v174 : Cert.ReferenceIdeal.S512x512.Idx → EReal) = Ref.weightOf ![4, 0, 0] Cert.ReferenceIdeal.Gen.slices_S5x512x512_S1x512x512_4_0_0 (B24 m c main_arg2) by
    dsimp only [B25, hostOps10]; after_results; rfl).trans
  (congrArg (Ref.weightOf ![4, 0, 0] Cert.ReferenceIdeal.Gen.slices_S5x512x512_S1x512x512_4_0_0) (arg2_at24 m c))
theorem h5_at25 : (B25 m c main_v172 : Cert.ReferenceIdeal.S10000x512.Idx → EReal) = H5 m c :=
  ((StableHlo.after_of_writes_sub hostOps10 (B24 m c) hostOps10_writes (r := main_v172) (by decide)).trans <| rfl).trans (out9 m c)
theorem v13_at25' : (B25 m c main_v13 : Cert.ReferenceIdeal.S10000x1.Idx → EReal) = Ref.normCol (A10 m c) :=
  ((StableHlo.after_of_writes_sub hostOps10 (B24 m c) hostOps10_writes (r := main_v13) (by decide)).trans <|
    (B24_of_ne m c main_v13 (by decide)).trans <|
    (StableHlo.after_of_writes_sub hostOps9 (B22 m c) hostOps9_writes (r := main_v13) (by decide)).trans <|
    (B22_of_ne m c main_v13 (by decide)).trans <|
    (StableHlo.after_of_writes_sub hostOps8 (B20 m c) hostOps8_writes (r := main_v13) (by decide)).trans <|
    (B20_of_ne m c main_v13 (by decide)).trans <|
    (StableHlo.after_of_writes_sub hostOps7 (B18 m c) hostOps7_writes (r := main_v13) (by decide)).trans <|
    (B18_of_ne m c main_v13 (by decide)).trans <|
    (StableHlo.after_of_writes_sub hostOps6 (B16 m c) hostOps6_writes (r := main_v13) (by decide)).trans <|
    (B16_of_ne m c main_v13 (by decide)).trans <|
    (StableHlo.after_of_writes_sub hostOps5 (B14 m c) hostOps5_writes (r := main_v13) (by decide)).trans <|
    (B14_of_ne m c main_v13 (by decide)).trans <|
    (StableHlo.after_of_writes_sub hostOps4 (B12 m c) hostOps4_writes (r := main_v13) (by decide)).trans <|
    (B12_of_ne m c main_v13 (by decide)).trans <|
    (StableHlo.after_of_writes_sub hostOps3 (B10 m c) hostOps3_writes (r := main_v13) (by decide)).trans <|
    (B10_of_ne m c main_v13 (by decide)).trans <|
    (StableHlo.after_of_writes_sub hostOps2 (B8 m c) hostOps2_writes (r := main_v13) (by decide)).trans <|
    (B8_of_ne m c main_v13 (by decide)).trans <|
    (StableHlo.after_of_writes_sub hostOps1 (B6 m c) hostOps1_writes (r := main_v13) (by decide)).trans <|
    (B6_of_ne m c main_v13 (by decide)).trans <| rfl).trans (v13_at5 m c)
/-- Region 10 leaves the layer's scaled product. -/
theorem out10 : (B26 m c main_v175 : Cert.ReferenceIdeal.S10000x512.Idx → EReal) = Ref.scaled (H5 m c) (A10 m c) (Ref.weightOf ![4, 0, 0] Cert.ReferenceIdeal.Gen.slices_S5x512x512_S1x512x512_4_0_0 (A2 m c)) :=
  (B26_out m c).trans <| (final10 (T25 m) c).trans <|
    (scaledProduct_congr (h5_at25 m c) (v13_at25' m c) (w_at25 m c)).trans rfl
theorem arg3_at26 : B26 m c main_arg3 = A3 m c :=
  (B26_of_ne m c main_arg3 (by decide)).trans <|
    (StableHlo.after_of_writes_sub hostOps10 (B24 m c) hostOps10_writes (r := main_arg3) (by decide)).trans <|
    (B24_of_ne m c main_arg3 (by decide)).trans <|
    (StableHlo.after_of_writes_sub hostOps9 (B22 m c) hostOps9_writes (r := main_arg3) (by decide)).trans <|
    (B22_of_ne m c main_arg3 (by decide)).trans <|
    (StableHlo.after_of_writes_sub hostOps8 (B20 m c) hostOps8_writes (r := main_arg3) (by decide)).trans <|
    (B20_of_ne m c main_arg3 (by decide)).trans <|
    (StableHlo.after_of_writes_sub hostOps7 (B18 m c) hostOps7_writes (r := main_arg3) (by decide)).trans <|
    (B18_of_ne m c main_arg3 (by decide)).trans <|
    (StableHlo.after_of_writes_sub hostOps6 (B16 m c) hostOps6_writes (r := main_arg3) (by decide)).trans <|
    (B16_of_ne m c main_arg3 (by decide)).trans <|
    (StableHlo.after_of_writes_sub hostOps5 (B14 m c) hostOps5_writes (r := main_arg3) (by decide)).trans <|
    (B14_of_ne m c main_arg3 (by decide)).trans <|
    (StableHlo.after_of_writes_sub hostOps4 (B12 m c) hostOps4_writes (r := main_arg3) (by decide)).trans <|
    (B12_of_ne m c main_arg3 (by decide)).trans <|
    (StableHlo.after_of_writes_sub hostOps3 (B10 m c) hostOps3_writes (r := main_arg3) (by decide)).trans <|
    (B10_of_ne m c main_arg3 (by decide)).trans <|
    (StableHlo.after_of_writes_sub hostOps2 (B8 m c) hostOps2_writes (r := main_arg3) (by decide)).trans <|
    (B8_of_ne m c main_arg3 (by decide)).trans <|
    (StableHlo.after_of_writes_sub hostOps1 (B6 m c) hostOps1_writes (r := main_arg3) (by decide)).trans <|
    (B6_of_ne m c main_arg3 (by decide)).trans <|
    (StableHlo.after_of_writes_sub hostOps0_4 (B4 m c) hostOps0_4_writes (r := main_arg3) (by decide)).trans <|
    (StableHlo.after_of_writes_sub hostOps0_3 (B3 m c) hostOps0_3_writes (r := main_arg3) (by decide)).trans <|
    (StableHlo.after_of_writes_sub hostOps0_2 (B2 m c) hostOps0_2_writes (r := main_arg3) (by decide)).trans <|
    (StableHlo.after_of_writes_sub hostOps0_1 (B1 m c) hostOps0_1_writes (r := main_arg3) (by decide)).trans <|
    (StableHlo.after_of_writes_sub hostOps0 (B0 m c) hostOps0_writes (r := main_arg3) (by decide)).trans <| rfl
theorem arg4_at26 : B26 m c main_arg4 = A4 m c :=
  (B26_of_ne m c main_arg4 (by decide)).trans <|
    (StableHlo.after_of_writes_sub hostOps10 (B24 m c) hostOps10_writes (r := main_arg4) (by decide)).trans <|
    (B24_of_ne m c main_arg4 (by decide)).trans <|
    (StableHlo.after_of_writes_sub hostOps9 (B22 m c) hostOps9_writes (r := main_arg4) (by decide)).trans <|
    (B22_of_ne m c main_arg4 (by decide)).trans <|
    (StableHlo.after_of_writes_sub hostOps8 (B20 m c) hostOps8_writes (r := main_arg4) (by decide)).trans <|
    (B20_of_ne m c main_arg4 (by decide)).trans <|
    (StableHlo.after_of_writes_sub hostOps7 (B18 m c) hostOps7_writes (r := main_arg4) (by decide)).trans <|
    (B18_of_ne m c main_arg4 (by decide)).trans <|
    (StableHlo.after_of_writes_sub hostOps6 (B16 m c) hostOps6_writes (r := main_arg4) (by decide)).trans <|
    (B16_of_ne m c main_arg4 (by decide)).trans <|
    (StableHlo.after_of_writes_sub hostOps5 (B14 m c) hostOps5_writes (r := main_arg4) (by decide)).trans <|
    (B14_of_ne m c main_arg4 (by decide)).trans <|
    (StableHlo.after_of_writes_sub hostOps4 (B12 m c) hostOps4_writes (r := main_arg4) (by decide)).trans <|
    (B12_of_ne m c main_arg4 (by decide)).trans <|
    (StableHlo.after_of_writes_sub hostOps3 (B10 m c) hostOps3_writes (r := main_arg4) (by decide)).trans <|
    (B10_of_ne m c main_arg4 (by decide)).trans <|
    (StableHlo.after_of_writes_sub hostOps2 (B8 m c) hostOps2_writes (r := main_arg4) (by decide)).trans <|
    (B8_of_ne m c main_arg4 (by decide)).trans <|
    (StableHlo.after_of_writes_sub hostOps1 (B6 m c) hostOps1_writes (r := main_arg4) (by decide)).trans <|
    (B6_of_ne m c main_arg4 (by decide)).trans <|
    (StableHlo.after_of_writes_sub hostOps0_4 (B4 m c) hostOps0_4_writes (r := main_arg4) (by decide)).trans <|
    (StableHlo.after_of_writes_sub hostOps0_3 (B3 m c) hostOps0_3_writes (r := main_arg4) (by decide)).trans <|
    (StableHlo.after_of_writes_sub hostOps0_2 (B2 m c) hostOps0_2_writes (r := main_arg4) (by decide)).trans <|
    (StableHlo.after_of_writes_sub hostOps0_1 (B1 m c) hostOps0_1_writes (r := main_arg4) (by decide)).trans <|
    (StableHlo.after_of_writes_sub hostOps0 (B0 m c) hostOps0_writes (r := main_arg4) (by decide)).trans <| rfl
theorem arg5_at26 : B26 m c main_arg5 = A5 m c :=
  (B26_of_ne m c main_arg5 (by decide)).trans <|
    (StableHlo.after_of_writes_sub hostOps10 (B24 m c) hostOps10_writes (r := main_arg5) (by decide)).trans <|
    (B24_of_ne m c main_arg5 (by decide)).trans <|
    (StableHlo.after_of_writes_sub hostOps9 (B22 m c) hostOps9_writes (r := main_arg5) (by decide)).trans <|
    (B22_of_ne m c main_arg5 (by decide)).trans <|
    (StableHlo.after_of_writes_sub hostOps8 (B20 m c) hostOps8_writes (r := main_arg5) (by decide)).trans <|
    (B20_of_ne m c main_arg5 (by decide)).trans <|
    (StableHlo.after_of_writes_sub hostOps7 (B18 m c) hostOps7_writes (r := main_arg5) (by decide)).trans <|
    (B18_of_ne m c main_arg5 (by decide)).trans <|
    (StableHlo.after_of_writes_sub hostOps6 (B16 m c) hostOps6_writes (r := main_arg5) (by decide)).trans <|
    (B16_of_ne m c main_arg5 (by decide)).trans <|
    (StableHlo.after_of_writes_sub hostOps5 (B14 m c) hostOps5_writes (r := main_arg5) (by decide)).trans <|
    (B14_of_ne m c main_arg5 (by decide)).trans <|
    (StableHlo.after_of_writes_sub hostOps4 (B12 m c) hostOps4_writes (r := main_arg5) (by decide)).trans <|
    (B12_of_ne m c main_arg5 (by decide)).trans <|
    (StableHlo.after_of_writes_sub hostOps3 (B10 m c) hostOps3_writes (r := main_arg5) (by decide)).trans <|
    (B10_of_ne m c main_arg5 (by decide)).trans <|
    (StableHlo.after_of_writes_sub hostOps2 (B8 m c) hostOps2_writes (r := main_arg5) (by decide)).trans <|
    (B8_of_ne m c main_arg5 (by decide)).trans <|
    (StableHlo.after_of_writes_sub hostOps1 (B6 m c) hostOps1_writes (r := main_arg5) (by decide)).trans <|
    (B6_of_ne m c main_arg5 (by decide)).trans <|
    (StableHlo.after_of_writes_sub hostOps0_4 (B4 m c) hostOps0_4_writes (r := main_arg5) (by decide)).trans <|
    (StableHlo.after_of_writes_sub hostOps0_3 (B3 m c) hostOps0_3_writes (r := main_arg5) (by decide)).trans <|
    (StableHlo.after_of_writes_sub hostOps0_2 (B2 m c) hostOps0_2_writes (r := main_arg5) (by decide)).trans <|
    (StableHlo.after_of_writes_sub hostOps0_1 (B1 m c) hostOps0_1_writes (r := main_arg5) (by decide)).trans <|
    (StableHlo.after_of_writes_sub hostOps0 (B0 m c) hostOps0_writes (r := main_arg5) (by decide)).trans <| rfl
theorem arg6_at26 : B26 m c main_arg6 = A6 m c :=
  (B26_of_ne m c main_arg6 (by decide)).trans <|
    (StableHlo.after_of_writes_sub hostOps10 (B24 m c) hostOps10_writes (r := main_arg6) (by decide)).trans <|
    (B24_of_ne m c main_arg6 (by decide)).trans <|
    (StableHlo.after_of_writes_sub hostOps9 (B22 m c) hostOps9_writes (r := main_arg6) (by decide)).trans <|
    (B22_of_ne m c main_arg6 (by decide)).trans <|
    (StableHlo.after_of_writes_sub hostOps8 (B20 m c) hostOps8_writes (r := main_arg6) (by decide)).trans <|
    (B20_of_ne m c main_arg6 (by decide)).trans <|
    (StableHlo.after_of_writes_sub hostOps7 (B18 m c) hostOps7_writes (r := main_arg6) (by decide)).trans <|
    (B18_of_ne m c main_arg6 (by decide)).trans <|
    (StableHlo.after_of_writes_sub hostOps6 (B16 m c) hostOps6_writes (r := main_arg6) (by decide)).trans <|
    (B16_of_ne m c main_arg6 (by decide)).trans <|
    (StableHlo.after_of_writes_sub hostOps5 (B14 m c) hostOps5_writes (r := main_arg6) (by decide)).trans <|
    (B14_of_ne m c main_arg6 (by decide)).trans <|
    (StableHlo.after_of_writes_sub hostOps4 (B12 m c) hostOps4_writes (r := main_arg6) (by decide)).trans <|
    (B12_of_ne m c main_arg6 (by decide)).trans <|
    (StableHlo.after_of_writes_sub hostOps3 (B10 m c) hostOps3_writes (r := main_arg6) (by decide)).trans <|
    (B10_of_ne m c main_arg6 (by decide)).trans <|
    (StableHlo.after_of_writes_sub hostOps2 (B8 m c) hostOps2_writes (r := main_arg6) (by decide)).trans <|
    (B8_of_ne m c main_arg6 (by decide)).trans <|
    (StableHlo.after_of_writes_sub hostOps1 (B6 m c) hostOps1_writes (r := main_arg6) (by decide)).trans <|
    (B6_of_ne m c main_arg6 (by decide)).trans <|
    (StableHlo.after_of_writes_sub hostOps0_4 (B4 m c) hostOps0_4_writes (r := main_arg6) (by decide)).trans <|
    (StableHlo.after_of_writes_sub hostOps0_3 (B3 m c) hostOps0_3_writes (r := main_arg6) (by decide)).trans <|
    (StableHlo.after_of_writes_sub hostOps0_2 (B2 m c) hostOps0_2_writes (r := main_arg6) (by decide)).trans <|
    (StableHlo.after_of_writes_sub hostOps0_1 (B1 m c) hostOps0_1_writes (r := main_arg6) (by decide)).trans <|
    (StableHlo.after_of_writes_sub hostOps0 (B0 m c) hostOps0_writes (r := main_arg6) (by decide)).trans <| rfl
theorem arg7_at26 : B26 m c main_arg7 = A7 m c :=
  (B26_of_ne m c main_arg7 (by decide)).trans <|
    (StableHlo.after_of_writes_sub hostOps10 (B24 m c) hostOps10_writes (r := main_arg7) (by decide)).trans <|
    (B24_of_ne m c main_arg7 (by decide)).trans <|
    (StableHlo.after_of_writes_sub hostOps9 (B22 m c) hostOps9_writes (r := main_arg7) (by decide)).trans <|
    (B22_of_ne m c main_arg7 (by decide)).trans <|
    (StableHlo.after_of_writes_sub hostOps8 (B20 m c) hostOps8_writes (r := main_arg7) (by decide)).trans <|
    (B20_of_ne m c main_arg7 (by decide)).trans <|
    (StableHlo.after_of_writes_sub hostOps7 (B18 m c) hostOps7_writes (r := main_arg7) (by decide)).trans <|
    (B18_of_ne m c main_arg7 (by decide)).trans <|
    (StableHlo.after_of_writes_sub hostOps6 (B16 m c) hostOps6_writes (r := main_arg7) (by decide)).trans <|
    (B16_of_ne m c main_arg7 (by decide)).trans <|
    (StableHlo.after_of_writes_sub hostOps5 (B14 m c) hostOps5_writes (r := main_arg7) (by decide)).trans <|
    (B14_of_ne m c main_arg7 (by decide)).trans <|
    (StableHlo.after_of_writes_sub hostOps4 (B12 m c) hostOps4_writes (r := main_arg7) (by decide)).trans <|
    (B12_of_ne m c main_arg7 (by decide)).trans <|
    (StableHlo.after_of_writes_sub hostOps3 (B10 m c) hostOps3_writes (r := main_arg7) (by decide)).trans <|
    (B10_of_ne m c main_arg7 (by decide)).trans <|
    (StableHlo.after_of_writes_sub hostOps2 (B8 m c) hostOps2_writes (r := main_arg7) (by decide)).trans <|
    (B8_of_ne m c main_arg7 (by decide)).trans <|
    (StableHlo.after_of_writes_sub hostOps1 (B6 m c) hostOps1_writes (r := main_arg7) (by decide)).trans <|
    (B6_of_ne m c main_arg7 (by decide)).trans <|
    (StableHlo.after_of_writes_sub hostOps0_4 (B4 m c) hostOps0_4_writes (r := main_arg7) (by decide)).trans <|
    (StableHlo.after_of_writes_sub hostOps0_3 (B3 m c) hostOps0_3_writes (r := main_arg7) (by decide)).trans <|
    (StableHlo.after_of_writes_sub hostOps0_2 (B2 m c) hostOps0_2_writes (r := main_arg7) (by decide)).trans <|
    (StableHlo.after_of_writes_sub hostOps0_1 (B1 m c) hostOps0_1_writes (r := main_arg7) (by decide)).trans <|
    (StableHlo.after_of_writes_sub hostOps0 (B0 m c) hostOps0_writes (r := main_arg7) (by decide)).trans <| rfl
theorem arg10_at26 : B26 m c main_arg10 = A10 m c :=
  (B26_of_ne m c main_arg10 (by decide)).trans <|
    (StableHlo.after_of_writes_sub hostOps10 (B24 m c) hostOps10_writes (r := main_arg10) (by decide)).trans <|
    (B24_of_ne m c main_arg10 (by decide)).trans <|
    (StableHlo.after_of_writes_sub hostOps9 (B22 m c) hostOps9_writes (r := main_arg10) (by decide)).trans <|
    (B22_of_ne m c main_arg10 (by decide)).trans <|
    (StableHlo.after_of_writes_sub hostOps8 (B20 m c) hostOps8_writes (r := main_arg10) (by decide)).trans <|
    (B20_of_ne m c main_arg10 (by decide)).trans <|
    (StableHlo.after_of_writes_sub hostOps7 (B18 m c) hostOps7_writes (r := main_arg10) (by decide)).trans <|
    (B18_of_ne m c main_arg10 (by decide)).trans <|
    (StableHlo.after_of_writes_sub hostOps6 (B16 m c) hostOps6_writes (r := main_arg10) (by decide)).trans <|
    (B16_of_ne m c main_arg10 (by decide)).trans <|
    (StableHlo.after_of_writes_sub hostOps5 (B14 m c) hostOps5_writes (r := main_arg10) (by decide)).trans <|
    (B14_of_ne m c main_arg10 (by decide)).trans <|
    (StableHlo.after_of_writes_sub hostOps4 (B12 m c) hostOps4_writes (r := main_arg10) (by decide)).trans <|
    (B12_of_ne m c main_arg10 (by decide)).trans <|
    (StableHlo.after_of_writes_sub hostOps3 (B10 m c) hostOps3_writes (r := main_arg10) (by decide)).trans <|
    (B10_of_ne m c main_arg10 (by decide)).trans <|
    (StableHlo.after_of_writes_sub hostOps2 (B8 m c) hostOps2_writes (r := main_arg10) (by decide)).trans <|
    (B8_of_ne m c main_arg10 (by decide)).trans <|
    (StableHlo.after_of_writes_sub hostOps1 (B6 m c) hostOps1_writes (r := main_arg10) (by decide)).trans <|
    (B6_of_ne m c main_arg10 (by decide)).trans <|
    (StableHlo.after_of_writes_sub hostOps0_4 (B4 m c) hostOps0_4_writes (r := main_arg10) (by decide)).trans <|
    (StableHlo.after_of_writes_sub hostOps0_3 (B3 m c) hostOps0_3_writes (r := main_arg10) (by decide)).trans <|
    (StableHlo.after_of_writes_sub hostOps0_2 (B2 m c) hostOps0_2_writes (r := main_arg10) (by decide)).trans <|
    (StableHlo.after_of_writes_sub hostOps0_1 (B1 m c) hostOps0_1_writes (r := main_arg10) (by decide)).trans <|
    (StableHlo.after_of_writes_sub hostOps0 (B0 m c) hostOps0_writes (r := main_arg10) (by decide)).trans <| rfl
theorem arg11_at26 : B26 m c main_arg11 = A11 m c :=
  (B26_of_ne m c main_arg11 (by decide)).trans <|
    (StableHlo.after_of_writes_sub hostOps10 (B24 m c) hostOps10_writes (r := main_arg11) (by decide)).trans <|
    (B24_of_ne m c main_arg11 (by decide)).trans <|
    (StableHlo.after_of_writes_sub hostOps9 (B22 m c) hostOps9_writes (r := main_arg11) (by decide)).trans <|
    (B22_of_ne m c main_arg11 (by decide)).trans <|
    (StableHlo.after_of_writes_sub hostOps8 (B20 m c) hostOps8_writes (r := main_arg11) (by decide)).trans <|
    (B20_of_ne m c main_arg11 (by decide)).trans <|
    (StableHlo.after_of_writes_sub hostOps7 (B18 m c) hostOps7_writes (r := main_arg11) (by decide)).trans <|
    (B18_of_ne m c main_arg11 (by decide)).trans <|
    (StableHlo.after_of_writes_sub hostOps6 (B16 m c) hostOps6_writes (r := main_arg11) (by decide)).trans <|
    (B16_of_ne m c main_arg11 (by decide)).trans <|
    (StableHlo.after_of_writes_sub hostOps5 (B14 m c) hostOps5_writes (r := main_arg11) (by decide)).trans <|
    (B14_of_ne m c main_arg11 (by decide)).trans <|
    (StableHlo.after_of_writes_sub hostOps4 (B12 m c) hostOps4_writes (r := main_arg11) (by decide)).trans <|
    (B12_of_ne m c main_arg11 (by decide)).trans <|
    (StableHlo.after_of_writes_sub hostOps3 (B10 m c) hostOps3_writes (r := main_arg11) (by decide)).trans <|
    (B10_of_ne m c main_arg11 (by decide)).trans <|
    (StableHlo.after_of_writes_sub hostOps2 (B8 m c) hostOps2_writes (r := main_arg11) (by decide)).trans <|
    (B8_of_ne m c main_arg11 (by decide)).trans <|
    (StableHlo.after_of_writes_sub hostOps1 (B6 m c) hostOps1_writes (r := main_arg11) (by decide)).trans <|
    (B6_of_ne m c main_arg11 (by decide)).trans <|
    (StableHlo.after_of_writes_sub hostOps0_4 (B4 m c) hostOps0_4_writes (r := main_arg11) (by decide)).trans <|
    (StableHlo.after_of_writes_sub hostOps0_3 (B3 m c) hostOps0_3_writes (r := main_arg11) (by decide)).trans <|
    (StableHlo.after_of_writes_sub hostOps0_2 (B2 m c) hostOps0_2_writes (r := main_arg11) (by decide)).trans <|
    (StableHlo.after_of_writes_sub hostOps0_1 (B1 m c) hostOps0_1_writes (r := main_arg11) (by decide)).trans <|
    (StableHlo.after_of_writes_sub hostOps0 (B0 m c) hostOps0_writes (r := main_arg11) (by decide)).trans <| rfl
set_option maxHeartbeats 2000000 in
/-- The host operations after it gather the product's rows along the edges and add them up at the destinations, -/
theorem agg_at27 : (B27 m c main_v185 : Cert.ReferenceIdeal.S10000x512.Idx → EReal) = Ref.aggregate (Ref.scaled (H5 m c) (A10 m c) (Ref.weightOf ![4, 0, 0] Cert.ReferenceIdeal.Gen.slices_S5x512x512_S1x512x512_4_0_0 (A2 m c))) (A10 m c) (A11 m c) :=
  (show (B27 m c main_v185 : Cert.ReferenceIdeal.S10000x512.Idx → EReal) = Ref.aggregate (B26 m c main_v175) (B26 m c main_arg10) (B26 m c main_arg11) by
    dsimp only [B27, hostOps11]; after_results; rfl).trans
  (aggregate_congr (out10 m c) (arg10_at26 m c) (arg11_at26 m c))
set_option maxHeartbeats 2000000 in
theorem row2_at27 : (B27 m c main_v200 : S1x512.Idx → EReal) = shapeCast S1x512 (Ref.rowOf ![5, 0] Cert.ReferenceIdeal.Gen.slices_S6x512_S1x512_5_0 (A3 m c)) shapeCasts_S512_S1x512 :=
  (show (B27 m c main_v200 : S1x512.Idx → EReal) = shapeCast S1x512 (Ref.rowOf ![5, 0] Cert.ReferenceIdeal.Gen.slices_S6x512_S1x512_5_0 (B26 m c main_arg3)) shapeCasts_S512_S1x512 by
    dsimp only [B27, hostOps11]; after_results; rfl).trans
  (congrArg (fun a => shapeCast S1x512 (Ref.rowOf ![5, 0] Cert.ReferenceIdeal.Gen.slices_S6x512_S1x512_5_0 a) shapeCasts_S512_S1x512) (arg3_at26 m c))
set_option maxHeartbeats 2000000 in
theorem row3_at27 : (B27 m c main_v201 : S1x512.Idx → EReal) = shapeCast S1x512 (Ref.rowOf ![5, 0] Cert.ReferenceIdeal.Gen.slices_S6x512_S1x512_5_0 (A6 m c)) shapeCasts_S512_S1x512 :=
  (show (B27 m c main_v201 : S1x512.Idx → EReal) = shapeCast S1x512 (Ref.rowOf ![5, 0] Cert.ReferenceIdeal.Gen.slices_S6x512_S1x512_5_0 (B26 m c main_arg6)) shapeCasts_S512_S1x512 by
    dsimp only [B27, hostOps11]; after_results; rfl).trans
  (congrArg (fun a => shapeCast S1x512 (Ref.rowOf ![5, 0] Cert.ReferenceIdeal.Gen.slices_S6x512_S1x512_5_0 a) shapeCasts_S512_S1x512) (arg6_at26 m c))
set_option maxHeartbeats 2000000 in
theorem row4_at27 : (B27 m c main_v202 : S1x512.Idx → EReal) = shapeCast S1x512 (Ref.scaleOf ![5, 0] Cert.ReferenceIdeal.Gen.slices_S6x512_S1x512_5_0 (A4 m c) (A7 m c)) shapeCasts_S512_S1x512 :=
  (show (B27 m c main_v202 : S1x512.Idx → EReal) = shapeCast S1x512 (Ref.scaleOf ![5, 0] Cert.ReferenceIdeal.Gen.slices_S6x512_S1x512_5_0 (B26 m c main_arg4) (B26 m c main_arg7)) shapeCasts_S512_S1x512 by
    dsimp only [B27, hostOps11]; after_results; rfl).trans
  (congrArg₂ (fun a b => shapeCast S1x512 (Ref.scaleOf ![5, 0] Cert.ReferenceIdeal.Gen.slices_S6x512_S1x512_5_0 a b) shapeCasts_S512_S1x512) (arg4_at26 m c) (arg7_at26 m c))
set_option maxHeartbeats 2000000 in
theorem row5_at27 : (B27 m c main_v203 : S1x512.Idx → EReal) = shapeCast S1x512 (Ref.rowOf ![5, 0] Cert.ReferenceIdeal.Gen.slices_S6x512_S1x512_5_0 (A5 m c)) shapeCasts_S512_S1x512 :=
  (show (B27 m c main_v203 : S1x512.Idx → EReal) = shapeCast S1x512 (Ref.rowOf ![5, 0] Cert.ReferenceIdeal.Gen.slices_S6x512_S1x512_5_0 (B26 m c main_arg5)) shapeCasts_S512_S1x512 by
    dsimp only [B27, hostOps11]; after_results; rfl).trans
  (congrArg (fun a => shapeCast S1x512 (Ref.rowOf ![5, 0] Cert.ReferenceIdeal.Gen.slices_S6x512_S1x512_5_0 a) shapeCasts_S512_S1x512) (arg5_at26 m c))
theorem v14_at27' : (B27 m c main_v14 : Cert.ReferenceIdeal.S10000x1.Idx → EReal) = Ref.normCol (A11 m c) :=
  ((StableHlo.after_of_writes_sub hostOps11 (B26 m c) hostOps11_writes (r := main_v14) (by decide)).trans <|
    (B26_of_ne m c main_v14 (by decide)).trans <|
    (StableHlo.after_of_writes_sub hostOps10 (B24 m c) hostOps10_writes (r := main_v14) (by decide)).trans <|
    (B24_of_ne m c main_v14 (by decide)).trans <|
    (StableHlo.after_of_writes_sub hostOps9 (B22 m c) hostOps9_writes (r := main_v14) (by decide)).trans <|
    (B22_of_ne m c main_v14 (by decide)).trans <|
    (StableHlo.after_of_writes_sub hostOps8 (B20 m c) hostOps8_writes (r := main_v14) (by decide)).trans <|
    (B20_of_ne m c main_v14 (by decide)).trans <|
    (StableHlo.after_of_writes_sub hostOps7 (B18 m c) hostOps7_writes (r := main_v14) (by decide)).trans <|
    (B18_of_ne m c main_v14 (by decide)).trans <|
    (StableHlo.after_of_writes_sub hostOps6 (B16 m c) hostOps6_writes (r := main_v14) (by decide)).trans <|
    (B16_of_ne m c main_v14 (by decide)).trans <|
    (StableHlo.after_of_writes_sub hostOps5 (B14 m c) hostOps5_writes (r := main_v14) (by decide)).trans <|
    (B14_of_ne m c main_v14 (by decide)).trans <|
    (StableHlo.after_of_writes_sub hostOps4 (B12 m c) hostOps4_writes (r := main_v14) (by decide)).trans <|
    (B12_of_ne m c main_v14 (by decide)).trans <|
    (StableHlo.after_of_writes_sub hostOps3 (B10 m c) hostOps3_writes (r := main_v14) (by decide)).trans <|
    (B10_of_ne m c main_v14 (by decide)).trans <|
    (StableHlo.after_of_writes_sub hostOps2 (B8 m c) hostOps2_writes (r := main_v14) (by decide)).trans <|
    (B8_of_ne m c main_v14 (by decide)).trans <|
    (StableHlo.after_of_writes_sub hostOps1 (B6 m c) hostOps1_writes (r := main_v14) (by decide)).trans <|
    (B6_of_ne m c main_v14 (by decide)).trans <| rfl).trans (v14_at5 m c)
/-- and region 11 leaves the layer's output. -/
theorem out11 : (B28 m c main_v204 : Cert.ReferenceIdeal.S10000x512.Idx → EReal) = H6 m c :=
  (B28_out m c).trans <|
    (val11 (T27 m) c (Ref.rowOf ![5, 0] Cert.ReferenceIdeal.Gen.slices_S6x512_S1x512_5_0 (A3 m c)) (Ref.rowOf ![5, 0] Cert.ReferenceIdeal.Gen.slices_S6x512_S1x512_5_0 (A6 m c)) (Ref.scaleOf ![5, 0] Cert.ReferenceIdeal.Gen.slices_S6x512_S1x512_5_0 (A4 m c) (A7 m c)) (Ref.rowOf ![5, 0] Cert.ReferenceIdeal.Gen.slices_S6x512_S1x512_5_0 (A5 m c))
      shapeCasts_S512_S1x512 (row2_at27 m c) (row3_at27 m c) (row4_at27 m c) (row5_at27 m c)).trans <|
    (bnWhole_congr _ _ _ _ (agg_at27 m c) (v14_at27' m c)).trans rfl

end Cert.KernelIdeal.Frm

end
-- ==== Proof.KI.Val12.lean ====
/-
  Region 12 of @main, at the exact (extended real) values: the region's output array after the run is the final
  linear layer of the three arrays the region finds: the product of the 10000 by 3072 input with the 3072 by 64
  weight matrix, plus the one-row bias laid along the rows.

  The pipeline works on blocks of 200 rows. At grid point t the body reads rows 200 t .. 200 t + 199 of the input,
  the whole weight matrix and the whole bias row, and writes back rows 200 t .. 200 t + 199 of the output: entry
  (p, q) of what it writes is the sum over k of x(200 t + p, k) * w(k, q), plus b(0, q), which is entry
  (200 t + p, q) of the whole-array layer. Row r of the output lies in the block of point r / 200, so the fifty
  blocks cover the array and the array ends holding the layer.
-/
import proofs.«144268_j91216515432581_2_alg».proof.Proof.KI.Reg12
import proofs.«144268_j91216515432581_2_alg».proof.Proof.KI.MatmulLaw

set_option maxRecDepth 16384

noncomputable section

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.KI.Matmul

-- the buffer contents of every core when the region is entered, at the exact values
variable (V : (c : Dev nD) → (b : Ref sig .tc) → Buf (Elt Ideal) ((c : Thread nD τ).loc b))

theorem hz12 : (![0, 0] : Fin 2 → Nat) = fun _ => 0 := funext fun a => by fin_cases a <;> rfl

/-- The block indices over the grid: at point t the row blocks of the input and of the output are block t, and
    the weight matrix and the bias row are each their one block. -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- What the region's output array ends holding: the product of the arrays the region finds, plus the bias row
    laid along the rows. -/
abbrev G12 (c : Dev nD) : S10000x64.Idx → EReal :=
  finalLinear (V c (Pipeline.arrRef spec12 0)) (V c (Pipeline.arrRef spec12 1)) (V c (Pipeline.arrRef spec12 2))

/-- The input's block at point t is rows 200 t .. 200 t + 199 of its array. -/
theorem iblk12_0_apply (c : Dev nD) (t : Fin cfg12.N) (p : Fin 200) (k : Fin 3072) (r : Fin 10000)
    (hr : r.val = 200 * t.val + p.val) :
    (iblk12 V c 0 t : Vec Ideal S200x3072 .f32) (ix2 p k)
      = (V c (Pipeline.arrRef spec12 0) : S10000x3072.Idx → EReal) (ix2 r k) := by
  obtain ⟨e0, e1, -⟩ := idx_facts12 t
  unfold iblk12
  rw [View.read_apply]
  show (V c (Pipeline.arrRef spec12 0) : S10000x3072.Idx → EReal) _ = _
  refine congrArg _ (funext fun a => Fin.ext ?_)
  match a with
  | ⟨0, _⟩ => show win12_0.index t (0 : Fin 2) * 200 + 1 * p.val = r.val; rw [e0, hr]; omega
  | ⟨1, _⟩ => show win12_0.index t (1 : Fin 2) * 3072 + 1 * k.val = k.val; rw [e1]; omega

/-- The weights' block at every point is the whole matrix. -/
theorem iblk12_1_apply (c : Dev nD) (t : Fin cfg12.N) (k : Fin 3072) (q : Fin 64) :
    (iblk12 V c 1 t : Vec Ideal S3072x64 .f32) (ix2 k q)
      = (V c (Pipeline.arrRef spec12 1) : S3072x64.Idx → EReal) (ix2 k q) := by
  obtain ⟨-, -, e0, e1, -⟩ := idx_facts12 t
  unfold iblk12
  rw [View.read_apply]
  show (V c (Pipeline.arrRef spec12 1) : S3072x64.Idx → EReal) _ = _
  refine congrArg _ (funext fun a => Fin.ext ?_)
  match a with
  | ⟨0, _⟩ => show win12_1.index t (0 : Fin 2) * 3072 + 1 * k.val = k.val; rw [e0]; omega
  | ⟨1, _⟩ => show win12_1.index t (1 : Fin 2) * 64 + 1 * q.val = q.val; rw [e1]; omega

/-- The bias row's block at every point is the whole row. -/
theorem iblk12_2_apply (c : Dev nD) (t : Fin cfg12.N) (q : Fin 64) :
    (iblk12 V c 2 t : Vec Ideal S1x64 .f32) (ix2 (0 : Fin 1) q)
      = (V c (Pipeline.arrRef spec12 2) : S1x64.Idx → EReal) (ix2 (0 : Fin 1) q) := by
  obtain ⟨-, -, -, -, e0, e1, -⟩ := idx_facts12 t
  unfold iblk12
  rw [View.read_apply]
  show (V c (Pipeline.arrRef spec12 2) : S1x64.Idx → EReal) _ = _
  refine congrArg _ (funext fun a => Fin.ext ?_)
  match a with
  | ⟨0, _⟩ => show win12_2.index t (0 : Fin 2) * 1 + 1 * 0 = 0; rw [e0]
  | ⟨1, _⟩ => show win12_2.index t (1 : Fin 2) * 64 + 1 * q.val = q.val; rw [e1]; omega

/-- What point t writes back is block t of the final linear layer. -/
theorem flushed12_eq (c : Dev nD) (t : Fin cfg12.N) :
    (dat12 V c).flushed 3 t = ((cfg12.win 3).blk t).view.read (Elt Ideal) (G12 V c) := by
  show (cfg12.win 3).cut (grid12.coords t) ((dat12 V c).after 3 t) = _
  rw [after12_3]
  unfold out12_3
  rw [View.canon_unit_zero hz12]
  simp only [View.ld_unit_zero (S := S200x3072) hz12, View.ld_unit_zero (S := S3072x64) hz12,
    View.ld_unit_zero (S := S1x64) hz12]
  obtain ⟨-, -, -, -, -, -, e0, e1⟩ := idx_facts12 t
  have ht : t.val < 50 := lt_of_lt_of_eq t.isLt N_12
  funext y
  obtain ⟨p, q, rfl⟩ : ∃ (p : Fin 200) (q : Fin 64), y = ix2 p q := ⟨y 0, y 1, eq_ix2 y⟩
  have hp := p.isLt
  obtain ⟨r, hr⟩ : ∃ r : Fin 10000, r.val = 200 * t.val + p.val := ⟨⟨200 * t.val + p.val, by omega⟩, rfl⟩
  have hemb : ((cfg12.win 3).blk t).view.emb (ix2 p q) = (ix2 r q : S10000x64.Idx) := by
    funext a; apply Fin.ext
    match a with
    | ⟨0, _⟩ => show win12_3.index t (0 : Fin 2) * 200 + 1 * p.val = r.val; rw [e0, hr]; omega
    | ⟨1, _⟩ => show win12_3.index t (1 : Fin 2) * 64 + 1 * q.val = q.val; rw [e1]; omega
  show k12_pay1 (iblk12 V c 0 t) (iblk12 V c 1 t) (iblk12 V c 2 t) (ix2 p q)
      = G12 V c (((cfg12.win 3).blk t).view.emb (ix2 p q))
  rw [hemb]
  refine (k12_pay1_apply _ _ _ p q).trans (Eq.trans ?_ (finalLinear_apply _ _ _ r q).symm)
  rw [iblk12_2_apply V c t q]
  refine congrArg (· + _) (Finset.sum_congr rfl fun k _ => ?_)
  rw [iblk12_0_apply V c t p k r hr, iblk12_1_apply V c t k q]

/-- An index of the output array is in point t's block iff each coordinate is in the block's range on its axis. -/
theorem mem_blk12 (t : Fin cfg12.N) (i : S10000x64.Idx) :
    i ∈ ((cfg12.win 3).blk t).view.set ↔ ∀ a : Fin 2, win12_3.index t a * S200x64.size a ≤ (i a).val
      ∧ (i a).val < win12_3.index t a * S200x64.size a + S200x64.size a := by
  show i ∈ ((View.whole (Pipeline.arrRef spec12 3)).slice (win12_3.rect t)).set ↔ _
  rw [View.set_slice_whole, Rect.mem_set_unit]
  exact Iff.rfl

/-- Row r of the output array is in the block of point r / 200. -/
theorem cover12 (i : S10000x64.Idx) :
    ∃ t : Fin cfg12.N, (cfg12.win 3).flush t = true ∧ i ∈ ((cfg12.win 3).blk t).view.set := by
  have hi0 : (i 0).val < 10000 := (i 0).isLt
  have hi1 : (i 1).val < 64 := (i 1).isLt
  have hN : cfg12.N = 50 := N_12
  let t : Fin cfg12.N := ⟨(i 0).val / 200, by rw [hN]; omega⟩
  obtain ⟨-, -, -, -, -, -, e0, e1⟩ := idx_facts12 t
  refine ⟨t, flush12_3 t, ?_⟩
  rw [mem_blk12]
  intro a
  match a with
  | ⟨0, _⟩ =>
    show win12_3.index t (0 : Fin 2) * 200 ≤ (i 0).val ∧ (i 0).val < win12_3.index t (0 : Fin 2) * 200 + 200
    rw [e0]; show (i 0).val / 200 * 200 ≤ (i 0).val ∧ (i 0).val < (i 0).val / 200 * 200 + 200; omega
  | ⟨1, _⟩ =>
    show win12_3.index t (1 : Fin 2) * 64 ≤ (i 1).val ∧ (i 1).val < win12_3.index t (1 : Fin 2) * 64 + 64
    rw [e1]; omega

/-- The region's output array after the run: the final linear layer of the arrays the region finds. -/
theorem final12 (c : Dev nD) : (dat12 V c).arrAt 3 cfg12.N = G12 V c :=
  (dat12 V c).arrAt_eq_of_cover 3 (G12 V c) (fun t _ => flushed12_eq V c t) (cover12)

end Cert.KernelIdeal.Frm

end
-- ==== Proof.KI.Chain7.lean ====
/-
  The chain of @main at the exact values, end: the last host operations lay the six layer outputs side by side and
  reshape the bias vector to one row (which is the vector broadcast to one row), and the final region leaves the
  product with the output weights plus the bias row laid along the rows: the reference's composed result term of
  the launch memory's argument arrays.
-/
import proofs.«144268_j91216515432581_2_alg».proof.Proof.KI.Chain6
import proofs.«144268_j91216515432581_2_alg».proof.Proof.KI.Val12
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Cert.KI.Matmul Cert.KI

variable (m : (ℓ : Loc nD τ sig) → Buf (Elt Ideal) ℓ) (c : Dev nD)

/-! ## The final linear layer -/

theorem h1_at28 : (B28 m c main_v44 : Cert.ReferenceIdeal.S10000x512.Idx → EReal) = H1 m c :=
  ((B28_of_ne m c main_v44 (by decide)).trans <|
    (StableHlo.after_of_writes_sub hostOps11 (B26 m c) hostOps11_writes (r := main_v44) (by decide)).trans <|
    (B26_of_ne m c main_v44 (by decide)).trans <|
    (StableHlo.after_of_writes_sub hostOps10 (B24 m c) hostOps10_writes (r := main_v44) (by decide)).trans <|
    (B24_of_ne m c main_v44 (by decide)).trans <|
    (StableHlo.after_of_writes_sub hostOps9 (B22 m c) hostOps9_writes (r := main_v44) (by decide)).trans <|
    (B22_of_ne m c main_v44 (by decide)).trans <|
    (StableHlo.after_of_writes_sub hostOps8 (B20 m c) hostOps8_writes (r := main_v44) (by decide)).trans <|
    (B20_of_ne m c main_v44 (by decide)).trans <|
    (StableHlo.after_of_writes_sub hostOps7 (B18 m c) hostOps7_writes (r := main_v44) (by decide)).trans <|
    (B18_of_ne m c main_v44 (by decide)).trans <|
    (StableHlo.after_of_writes_sub hostOps6 (B16 m c) hostOps6_writes (r := main_v44) (by decide)).trans <|
    (B16_of_ne m c main_v44 (by decide)).trans <|
    (StableHlo.after_of_writes_sub hostOps5 (B14 m c) hostOps5_writes (r := main_v44) (by decide)).trans <|
    (B14_of_ne m c main_v44 (by decide)).trans <|
    (StableHlo.after_of_writes_sub hostOps4 (B12 m c) hostOps4_writes (r := main_v44) (by decide)).trans <|
    (B12_of_ne m c main_v44 (by decide)).trans <|
    (StableHlo.after_of_writes_sub hostOps3 (B10 m c) hostOps3_writes (r := main_v44) (by decide)).trans <|
    (B10_of_ne m c main_v44 (by decide)).trans <|
    (StableHlo.after_of_writes_sub hostOps2 (B8 m c) hostOps2_writes (r := main_v44) (by decide)).trans <| rfl).trans (out1 m c)
theorem h2_at28 : (B28 m c main_v76 : Cert.ReferenceIdeal.S10000x512.Idx → EReal) = H2 m c :=
  ((B28_of_ne m c main_v76 (by decide)).trans <|
    (StableHlo.after_of_writes_sub hostOps11 (B26 m c) hostOps11_writes (r := main_v76) (by decide)).trans <|
    (B26_of_ne m c main_v76 (by decide)).trans <|
    (StableHlo.after_of_writes_sub hostOps10 (B24 m c) hostOps10_writes (r := main_v76) (by decide)).trans <|
    (B24_of_ne m c main_v76 (by decide)).trans <|
    (StableHlo.after_of_writes_sub hostOps9 (B22 m c) hostOps9_writes (r := main_v76) (by decide)).trans <|
    (B22_of_ne m c main_v76 (by decide)).trans <|
    (StableHlo.after_of_writes_sub hostOps8 (B20 m c) hostOps8_writes (r := main_v76) (by decide)).trans <|
    (B20_of_ne m c main_v76 (by decide)).trans <|
    (StableHlo.after_of_writes_sub hostOps7 (B18 m c) hostOps7_writes (r := main_v76) (by decide)).trans <|
    (B18_of_ne m c main_v76 (by decide)).trans <|
    (StableHlo.after_of_writes_sub hostOps6 (B16 m c) hostOps6_writes (r := main_v76) (by decide)).trans <|
    (B16_of_ne m c main_v76 (by decide)).trans <|
    (StableHlo.after_of_writes_sub hostOps5 (B14 m c) hostOps5_writes (r := main_v76) (by decide)).trans <|
    (B14_of_ne m c main_v76 (by decide)).trans <|
    (StableHlo.after_of_writes_sub hostOps4 (B12 m c) hostOps4_writes (r := main_v76) (by decide)).trans <| rfl).trans (out3 m c)
theorem h3_at28 : (B28 m c main_v108 : Cert.ReferenceIdeal.S10000x512.Idx → EReal) = H3 m c :=
  ((B28_of_ne m c main_v108 (by decide)).trans <|
    (StableHlo.after_of_writes_sub hostOps11 (B26 m c) hostOps11_writes (r := main_v108) (by decide)).trans <|
    (B26_of_ne m c main_v108 (by decide)).trans <|
    (StableHlo.after_of_writes_sub hostOps10 (B24 m c) hostOps10_writes (r := main_v108) (by decide)).trans <|
    (B24_of_ne m c main_v108 (by decide)).trans <|
    (StableHlo.after_of_writes_sub hostOps9 (B22 m c) hostOps9_writes (r := main_v108) (by decide)).trans <|
    (B22_of_ne m c main_v108 (by decide)).trans <|
    (StableHlo.after_of_writes_sub hostOps8 (B20 m c) hostOps8_writes (r := main_v108) (by decide)).trans <|
    (B20_of_ne m c main_v108 (by decide)).trans <|
    (StableHlo.after_of_writes_sub hostOps7 (B18 m c) hostOps7_writes (r := main_v108) (by decide)).trans <|
    (B18_of_ne m c main_v108 (by decide)).trans <|
    (StableHlo.after_of_writes_sub hostOps6 (B16 m c) hostOps6_writes (r := main_v108) (by decide)).trans <| rfl).trans (out5 m c)
theorem h4_at28 : (B28 m c main_v140 : Cert.ReferenceIdeal.S10000x512.Idx → EReal) = H4 m c :=
  ((B28_of_ne m c main_v140 (by decide)).trans <|
    (StableHlo.after_of_writes_sub hostOps11 (B26 m c) hostOps11_writes (r := main_v140) (by decide)).trans <|
    (B26_of_ne m c main_v140 (by decide)).trans <|
    (StableHlo.after_of_writes_sub hostOps10 (B24 m c) hostOps10_writes (r := main_v140) (by decide)).trans <|
    (B24_of_ne m c main_v140 (by decide)).trans <|
    (StableHlo.after_of_writes_sub hostOps9 (B22 m c) hostOps9_writes (r := main_v140) (by decide)).trans <|
    (B22_of_ne m c main_v140 (by decide)).trans <|
    (StableHlo.after_of_writes_sub hostOps8 (B20 m c) hostOps8_writes (r := main_v140) (by decide)).trans <| rfl).trans (out7 m c)
theorem h5_at28 : (B28 m c main_v172 : Cert.ReferenceIdeal.S10000x512.Idx → EReal) = H5 m c :=
  ((B28_of_ne m c main_v172 (by decide)).trans <|
    (StableHlo.after_of_writes_sub hostOps11 (B26 m c) hostOps11_writes (r := main_v172) (by decide)).trans <|
    (B26_of_ne m c main_v172 (by decide)).trans <|
    (StableHlo.after_of_writes_sub hostOps10 (B24 m c) hostOps10_writes (r := main_v172) (by decide)).trans <| rfl).trans (out9 m c)
theorem h6_at28 : (B28 m c main_v204 : Cert.ReferenceIdeal.S10000x512.Idx → EReal) = H6 m c :=
  (rfl).trans (out11 m c)
theorem arg9_at28 : B28 m c main_arg9 = A9 m c :=
  (B28_of_ne m c main_arg9 (by decide)).trans <|
    (StableHlo.after_of_writes_sub hostOps11 (B26 m c) hostOps11_writes (r := main_arg9) (by decide)).trans <|
    (B26_of_ne m c main_arg9 (by decide)).trans <|
    (StableHlo.after_of_writes_sub hostOps10 (B24 m c) hostOps10_writes (r := main_arg9) (by decide)).trans <|
    (B24_of_ne m c main_arg9 (by decide)).trans <|
    (StableHlo.after_of_writes_sub hostOps9 (B22 m c) hostOps9_writes (r := main_arg9) (by decide)).trans <|
    (B22_of_ne m c main_arg9 (by decide)).trans <|
    (StableHlo.after_of_writes_sub hostOps8 (B20 m c) hostOps8_writes (r := main_arg9) (by decide)).trans <|
    (B20_of_ne m c main_arg9 (by decide)).trans <|
    (StableHlo.after_of_writes_sub hostOps7 (B18 m c) hostOps7_writes (r := main_arg9) (by decide)).trans <|
    (B18_of_ne m c main_arg9 (by decide)).trans <|
    (StableHlo.after_of_writes_sub hostOps6 (B16 m c) hostOps6_writes (r := main_arg9) (by decide)).trans <|
    (B16_of_ne m c main_arg9 (by decide)).trans <|
    (StableHlo.after_of_writes_sub hostOps5 (B14 m c) hostOps5_writes (r := main_arg9) (by decide)).trans <|
    (B14_of_ne m c main_arg9 (by decide)).trans <|
    (StableHlo.after_of_writes_sub hostOps4 (B12 m c) hostOps4_writes (r := main_arg9) (by decide)).trans <|
    (B12_of_ne m c main_arg9 (by decide)).trans <|
    (StableHlo.after_of_writes_sub hostOps3 (B10 m c) hostOps3_writes (r := main_arg9) (by decide)).trans <|
    (B10_of_ne m c main_arg9 (by decide)).trans <|
    (StableHlo.after_of_writes_sub hostOps2 (B8 m c) hostOps2_writes (r := main_arg9) (by decide)).trans <|
    (B8_of_ne m c main_arg9 (by decide)).trans <|
    (StableHlo.after_of_writes_sub hostOps1 (B6 m c) hostOps1_writes (r := main_arg9) (by decide)).trans <|
    (B6_of_ne m c main_arg9 (by decide)).trans <|
    (StableHlo.after_of_writes_sub hostOps0_4 (B4 m c) hostOps0_4_writes (r := main_arg9) (by decide)).trans <|
    (StableHlo.after_of_writes_sub hostOps0_3 (B3 m c) hostOps0_3_writes (r := main_arg9) (by decide)).trans <|
    (StableHlo.after_of_writes_sub hostOps0_2 (B2 m c) hostOps0_2_writes (r := main_arg9) (by decide)).trans <|
    (StableHlo.after_of_writes_sub hostOps0_1 (B1 m c) hostOps0_1_writes (r := main_arg9) (by decide)).trans <|
    (StableHlo.after_of_writes_sub hostOps0 (B0 m c) hostOps0_writes (r := main_arg9) (by decide)).trans <| rfl
theorem arg8_at29 : B29 m c main_arg8 = A8 m c :=
  (StableHlo.after_of_writes_sub hostOps12 (B28 m c) hostOps12_writes (r := main_arg8) (by decide)).trans <|
    (B28_of_ne m c main_arg8 (by decide)).trans <|
    (StableHlo.after_of_writes_sub hostOps11 (B26 m c) hostOps11_writes (r := main_arg8) (by decide)).trans <|
    (B26_of_ne m c main_arg8 (by decide)).trans <|
    (StableHlo.after_of_writes_sub hostOps10 (B24 m c) hostOps10_writes (r := main_arg8) (by decide)).trans <|
    (B24_of_ne m c main_arg8 (by decide)).trans <|
    (StableHlo.after_of_writes_sub hostOps9 (B22 m c) hostOps9_writes (r := main_arg8) (by decide)).trans <|
    (B22_of_ne m c main_arg8 (by decide)).trans <|
    (StableHlo.after_of_writes_sub hostOps8 (B20 m c) hostOps8_writes (r := main_arg8) (by decide)).trans <|
    (B20_of_ne m c main_arg8 (by decide)).trans <|
    (StableHlo.after_of_writes_sub hostOps7 (B18 m c) hostOps7_writes (r := main_arg8) (by decide)).trans <|
    (B18_of_ne m c main_arg8 (by decide)).trans <|
    (StableHlo.after_of_writes_sub hostOps6 (B16 m c) hostOps6_writes (r := main_arg8) (by decide)).trans <|
    (B16_of_ne m c main_arg8 (by decide)).trans <|
    (StableHlo.after_of_writes_sub hostOps5 (B14 m c) hostOps5_writes (r := main_arg8) (by decide)).trans <|
    (B14_of_ne m c main_arg8 (by decide)).trans <|
    (StableHlo.after_of_writes_sub hostOps4 (B12 m c) hostOps4_writes (r := main_arg8) (by decide)).trans <|
    (B12_of_ne m c main_arg8 (by decide)).trans <|
    (StableHlo.after_of_writes_sub hostOps3 (B10 m c) hostOps3_writes (r := main_arg8) (by decide)).trans <|
    (B10_of_ne m c main_arg8 (by decide)).trans <|
    (StableHlo.after_of_writes_sub hostOps2 (B8 m c) hostOps2_writes (r := main_arg8) (by decide)).trans <|
    (B8_of_ne m c main_arg8 (by decide)).trans <|
    (StableHlo.after_of_writes_sub hostOps1 (B6 m c) hostOps1_writes (r := main_arg8) (by decide)).trans <|
    (B6_of_ne m c main_arg8 (by decide)).trans <|
    (StableHlo.after_of_writes_sub hostOps0_4 (B4 m c) hostOps0_4_writes (r := main_arg8) (by decide)).trans <|
    (StableHlo.after_of_writes_sub hostOps0_3 (B3 m c) hostOps0_3_writes (r := main_arg8) (by decide)).trans <|
    (StableHlo.after_of_writes_sub hostOps0_2 (B2 m c) hostOps0_2_writes (r := main_arg8) (by decide)).trans <|
    (StableHlo.after_of_writes_sub hostOps0_1 (B1 m c) hostOps0_1_writes (r := main_arg8) (by decide)).trans <|
    (StableHlo.after_of_writes_sub hostOps0 (B0 m c) hostOps0_writes (r := main_arg8) (by decide)).trans <| rfl
set_option maxHeartbeats 2000000 in
/-- The last host operations lay the six outputs side by side -/
theorem cat_at29 : (B29 m c main_v205 : Cert.ReferenceIdeal.S10000x3072.Idx → EReal) = Ref.hcat (A0 m c) (A1 m c) (A2 m c) (A3 m c) (A4 m c) (A5 m c) (A6 m c) (A7 m c) (A10 m c) (A11 m c) :=
  (show (B29 m c main_v205 : Cert.ReferenceIdeal.S10000x3072.Idx → EReal) = concatenate Cert.ReferenceIdeal.S10000x3072 1 [⟨Cert.ReferenceIdeal.S10000x512, B28 m c main_v44⟩, ⟨Cert.ReferenceIdeal.S10000x512, B28 m c main_v76⟩, ⟨Cert.ReferenceIdeal.S10000x512, B28 m c main_v108⟩, ⟨Cert.ReferenceIdeal.S10000x512, B28 m c main_v140⟩, ⟨Cert.ReferenceIdeal.S10000x512, B28 m c main_v172⟩, ⟨Cert.ReferenceIdeal.S10000x512, B28 m c main_v204⟩] Cert.ReferenceIdeal.Gen.concatenates_S10000x512_S10000x512_S10000x512_S10000x512_S10000x512_S10000x512_S10000x3072_d1 by
    dsimp only [B29, hostOps12]; after_results; rfl).trans <| by
  rw [h1_at28 m c, h2_at28 m c, h3_at28 m c, h4_at28 m c, h5_at28 m c, h6_at28 m c]; rfl
set_option maxHeartbeats 2000000 in
/-- and reshape the bias vector to one row. -/
theorem bias_at29 : (B29 m c main_v206 : Cert.ReferenceIdeal.S1x64.Idx → EReal) = broadcastInDim Cert.ReferenceIdeal.S1x64 ![1] Cert.ReferenceIdeal.Gen.bcast_S64_S1x64_1 (A9 m c) :=
  (show (B29 m c main_v206 : Cert.ReferenceIdeal.S1x64.Idx → EReal) = shapeCast Cert.ReferenceIdeal.S1x64 (B28 m c main_arg9) shapeCasts_S64_S1x64 by
    dsimp only [B29, hostOps12]; after_results; rfl).trans <|
  (congrArg (fun a => shapeCast Cert.ReferenceIdeal.S1x64 a shapeCasts_S64_S1x64) (arg9_at28 m c)).trans
    (reshape_row_eq_bcast (A9 m c) shapeCasts_S64_S1x64 Cert.ReferenceIdeal.Gen.bcast_S64_S1x64_1)

/-- THE RESULT: region 12 leaves the reference's composed result term of the launch memory's argument arrays. -/
theorem result_eq : ((dat12 (T29 m) c).arrAt 3 cfg12.N : Cert.ReferenceIdeal.S10000x64.Idx → EReal)
    = Ref.refTerm (A0 m c) (A1 m c) (A2 m c) (A3 m c) (A4 m c) (A5 m c) (A6 m c) (A7 m c) (A8 m c) (A9 m c) (A10 m c) (A11 m c) :=
  (final12 (T29 m) c).trans <| (finalLinear_congr (cat_at29 m c) (arg8_at29 m c) (bias_at29 m c)).trans rfl

end Cert.KernelIdeal.Frm

end
-- ==== Proof.lean ====
/-
  A six-layer graph network against its plain reference, as extended reals.

  Both programs first count, for every node, the edges leaving it and the edges entering it, clamp each count below
  by one and raise it to the power -1/2: two columns of row factors. A layer then takes the node features `h`,
  scales row `r` by the source factor of `r`, multiplies by the layer's weight matrix, sums the product's rows over
  the edges (row `src e` is added into row `dst e`), scales row `r` by the destination factor of `r`, adds the bias
  row, subtracts the running mean, multiplies by `gamma * rsqrt (variance + eps)`, adds `beta` and takes the maximum
  with zero. The six layers' outputs are laid side by side and multiplied by the last weight matrix, and the last
  bias is added.

  The kernel computes the row-scaled product, the normalisation with its rectifier, and the last product with its bias
  in blocks of rows (2000, 2000 and 200 rows at a time); everything else is the same host operations as the
  reference's. A block of rows of a matrix product is the product of that block of rows, so each kernel region's
  output array is the reference's whole-array operation of the same operands (Proof/KI/Val*.lean), and the two
  programs' results are one term of the argument arrays (Proof/KI/Chain*.lean). No law of the extended reals beyond
  reading a sum index by index is used: the two sides apply the same operations to the same numbers in the same
  order, so the precondition is never opened.

  The three frames: each kernel region runs at every grid point without a fault and leaves every array but its output as
  it was (Proof/KI/Reg*.lean, Proof/KB/Reg*.lean), and no host operation writes an argument (Proof/KI/Run.lean,
  Proof/KB/Run.lean); the reference is host operations only (Proof/RefRun.lean).
-/
import proofs.«144268_j91216515432581_2_alg».proof.Defs
import proofs.«144268_j91216515432581_2_alg».proof.Proof.Gen.Kernel
import proofs.«144268_j91216515432581_2_alg».proof.Proof.Gen.KernelIdeal
import proofs.«144268_j91216515432581_2_alg».proof.Proof.Gen.ReferenceIdeal
import proofs.«144268_j91216515432581_2_alg».proof.Proof.Gen.Pre_finite_inputs
import proofs.«144268_j91216515432581_2_alg».proof.Proof.KB.Run
import proofs.«144268_j91216515432581_2_alg».proof.Proof.KI.Run
import proofs.«144268_j91216515432581_2_alg».proof.Proof.KI.Chain7
import proofs.«144268_j91216515432581_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end, faults nowhere, and leaves its arguments as launched. -/
theorem frame_kernel : Cert.frame_Kernel (hKernel := Cert.Kernel.Gen.facts) (hPre_finite_inputs := Cert.Pre_finite_inputs.Gen.facts) :=
  fun m ρ _ => Cert.Kernel.Frm.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Frm.frame (F := Ideal) m ρ

/-- So does the idealized reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The reference's result is the one term `refTerm` of its argument arrays: the named pieces unfold to the run's term. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v291 (F := Ideal) m' c
      = Cert.KI.Ref.refTerm (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) := by
  unfold Cert.ReferenceIdeal.ValueP.res_main_v291 Cert.KI.Ref.refTerm Cert.KI.Ref.hcat Cert.KI.Ref.h6 Cert.KI.Ref.h5 Cert.KI.Ref.h4 Cert.KI.Ref.h3 Cert.KI.Ref.h2 Cert.KI.Ref.h1 Cert.KI.Ref.layer Cert.KI.Ref.normRelu Cert.KI.Ref.rows Cert.KI.Ref.aggregate Cert.KI.Ref.scaled Cert.KI.Ref.weightOf Cert.KI.Ref.scaleOf Cert.KI.Ref.rowOf Cert.KI.Ref.gatherIdx Cert.KI.Ref.normCol Cert.KI.Ref.degNorm Cert.KI.Ref.zeros
  rfl

/-- From memories agreeing on the arguments both idealized programs run to the end with one result: the kernel's last
    region leaves the term `refTerm` of the arguments in the result array, and the reference's run ends at the same term. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (Cert.KernelIdeal.Frm.dat12 (Cert.KernelIdeal.Frm.T29 m) c).arrAt 3 Cert.KernelIdeal.cfg12.N, Cert.KernelIdeal.Frm.run_result (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨e0, e1, e2, e3, e4, e5, e6, e7, e8, e9, e10, e11⟩ := hagree c
  rw [reference_result m' c, e0, e1, e2, e3, e4, e5, e6, e7, e8, e9, e10, e11]
  exact (Cert.KernelIdeal.Frm.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
